-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v84)) (v1 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_v101) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v242) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part6 {F : FTy → Type} [FloatOps F] (main_arg22 : FVec F S64 .f32) (main_arg23 : FVec F S64x64 .f32) (main_arg24 : FVec F S64 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x64 .f32 := Host.absf main_arg23
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  main_v118

def fn_part5 {F : FTy → Type} [FloatOps F] (main_arg19 : FVec F S64x64 .f32) (main_arg20 : FVec F S64 .f32) (main_arg21 : FVec F S64x64 .f32) (main_arg22 : FVec F S64 .f32) (main_arg23 : FVec F S64x64 .f32) (main_arg24 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x64 .f32 := Host.absf main_arg19
  let main_cst_34 : FVec F S_ .f32 := constant S_ .f32 0x7F800000#32
  let main_v90 : FVec F S64x64 .f32 := broadcastInDim S64x64 ![] bcast_S_S64x64 main_cst_34
  let main_v91 : IVec S64x64 1 := cmpf .olt main_v89 main_v90
  let main_c_35 : IVec S_ 1 := constantI S_ 1 1#1
  let main_v92 : IVec S_ 1 := (fun x v => Host.reduce IntOp.andi x v reducesTo_S64x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg21
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg22 main_arg23 main_arg24 main_v98 main_v101 main_c_39

def fn_part4 {F : FTy → Type} [FloatOps F] (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_v63 : IVec S_ 1) (main_v67 : IVec S_ 1) : IVec S_ 1 :=
  let main_v68 : IVec S_ 1 := andi main_v63 main_v67
  let main_v69 : FVec F S64x64 .f32 := Host.absf main_arg15
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg17
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_arg23 main_arg24 main_v83 main_v84 main_cst_32

def fn_part3 {F : FTy → Type} [FloatOps F] (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_arg23 main_arg24 main_v63 main_v67

def fn_part2 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_arg20 main_arg21 main_arg22 main_arg23 main_arg24 main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : FVec F S50000x64 .f32) (main_arg2 : IVec S2x1600000 32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_arg17 : FVec F S64x64 .f32) (main_arg18 : FVec F S64 .f32) (main_arg19 : FVec F S64x64 .f32) (main_arg20 : FVec F S64 .f32) (main_arg21 : FVec F S64x64 .f32) (main_arg22 : FVec F S64 .f32) (main_arg23 : FVec F S64x64 .f32) (main_arg24 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S5000x64 : Shape := ⟨2, ![5000, 64]⟩
abbrev S1x64 : Shape := ⟨2, ![1, 64]⟩
abbrev S100000x64 : Shape := ⟨2, ![100000, 64]⟩
abbrev S5000 : Shape := ⟨1, ![5000]⟩
abbrev S5000x1 : Shape := ⟨2, ![5000, 1]⟩
abbrev S1700000x64 : Shape := ⟨2, ![1700000, 64]⟩

abbrev nBuf : Space → Nat
  | .hbm => 148
  | .vmem => 90
  | .smem => 0
  | _ => 0

abbrev hbmTy0_0 (i : Nat) : BufTy := match i % 128 with
  | 0 => ⟨S50000x128, .f32⟩
  | 1 => ⟨S50000x64, .f32⟩
  | 2 => ⟨S2x1600000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64, .f32⟩
  | 25 => ⟨S1x1600000, .i32⟩
  | 26 => ⟨S1600000, .i32⟩
  | 27 => ⟨S1x1600000, .i32⟩
  | 28 => ⟨S1600000, .i32⟩
  | 29 => ⟨S100000, .i32⟩
  | 30 => ⟨S1700000, .i32⟩
  | 31 => ⟨S1700000, .i32⟩
  | 32 => ⟨S_, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S_, .f32⟩
  | 43 => ⟨S1700000, .f32⟩
  | 44 => ⟨S100000, .f32⟩
  | 45 => ⟨S_, .f32⟩
  | 46 => ⟨S100000, .f32⟩
  | 47 => ⟨S100000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000, .f32⟩
  | 66 => ⟨S1700000, .f32⟩
  | 67 => ⟨S50000x64, .f32⟩
  | 68 => ⟨S100000x64, .f32⟩
  | 69 => ⟨S100000x64, .f32⟩
  | 70 => ⟨S100000x64, .f32⟩
  | 71 => ⟨S1700000x1, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x64, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S100000x64, .f32⟩
  | 88 => ⟨S100000x64, .f32⟩
  | 89 => ⟨S100000x64, .f32⟩
  | 90 => ⟨S1700000x1, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x64, .f32⟩
  | 101 => ⟨S1700000x64, .f32⟩
  | 102 => ⟨S_, .f32⟩
  | 103 => ⟨S100000x64, .f32⟩
  | 104 => ⟨S1700000x1, .i32⟩
  | 105 => ⟨S100000x64, .f32⟩
  | 106 => ⟨S100000x64, .f32⟩
  | 107 => ⟨S100000x64, .f32⟩
  | 108 => ⟨S100000x64, .f32⟩
  | 109 => ⟨S1700000x1, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x64, .f32⟩
  | 119 => ⟨S1700000x64, .f32⟩
  | 120 => ⟨S1700000x64, .f32⟩
  | 121 => ⟨S_, .f32⟩
  | 122 => ⟨S100000x64, .f32⟩
  | 123 => ⟨S1700000x1, .i32⟩
  | 124 => ⟨S100000x64, .f32⟩
  | 125 => ⟨S100000x64, .f32⟩
  | 126 => ⟨S100000x64, .f32⟩
  | 127 => ⟨S100000x64, .f32⟩
  | _ => ⟨S50000x128, .f32⟩

abbrev hbmTy0_1 (i : Nat) : BufTy := match i % 128 with
  | 0 => ⟨S100000x64, .f32⟩
  | 1 => ⟨S1700000x1, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x64, .f32⟩
  | 11 => ⟨S1700000x64, .f32⟩
  | 12 => ⟨S1700000x64, .f32⟩
  | 13 => ⟨S_, .f32⟩
  | 14 => ⟨S100000x64, .f32⟩
  | 15 => ⟨S1700000x1, .i32⟩
  | 16 => ⟨S100000x64, .f32⟩
  | 17 => ⟨S100000x64, .f32⟩
  | 18 => ⟨S100000x64, .f32⟩
  | 19 => ⟨S100000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x64, .f32⟩
  | .local _ .vmem, ⟨39, _⟩ => ⟨S64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S64x64, .f32⟩
  | .local _ .vmem, ⟨55, _⟩ => ⟨S64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S64x64, .f32⟩
  | .local _ .vmem, ⟨61, _⟩ => ⟨S64, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S64x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S64, .f32⟩
  | .local _ .vmem, ⟨74, _⟩ => ⟨S5000x64, .f32⟩
  | .local _ .vmem, ⟨75, _⟩ => ⟨S5000x64, .f32⟩
  | .local _ .vmem, ⟨76, _⟩ => ⟨S5000x64, .f32⟩
  | .local _ .vmem, ⟨77, _⟩ => ⟨S5000x64, .f32⟩
  | .local _ .vmem, ⟨78, _⟩ => ⟨S64x64, .f32⟩
  | .local _ .vmem, ⟨79, _⟩ => ⟨S64, .f32⟩
  | .local _ .vmem, ⟨80, _⟩ => ⟨S5000x64, .f32⟩
  | .local _ .vmem, ⟨81, _⟩ => ⟨S5000x64, .f32⟩
  | .local _ .vmem, ⟨82, _⟩ => ⟨S5000x64, .f32⟩
  | .local _ .vmem, ⟨83, _⟩ => ⟨S5000x64, .f32⟩
  | .local _ .vmem, ⟨84, _⟩ => ⟨S64x64, .f32⟩
  | .local _ .vmem, ⟨85, _⟩ => ⟨S64, .f32⟩
  | .local _ .vmem, ⟨86, _⟩ => ⟨S5000x64, .f32⟩
  | .local _ .vmem, ⟨87, _⟩ => ⟨S5000x64, .f32⟩
  | .local _ .vmem, ⟨88, _⟩ => ⟨S5000x64, .f32⟩
  | .local _ .vmem, ⟨89, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_c : Ref sig .tc := ⟨.hbm, 34, rfl⟩
abbrev main_v8 : Ref sig .tc := ⟨.hbm, 35, rfl⟩
abbrev main_v9 : Ref sig .tc := ⟨.hbm, 36, rfl⟩
abbrev main_c_0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_c_3 : Ref sig .tc := ⟨.hbm, 48, rfl⟩
abbrev main_v18 : Ref sig .tc := ⟨.hbm, 49, rfl⟩
abbrev main_v19 : Ref sig .tc := ⟨.hbm, 50, rfl⟩
abbrev main_c_4 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_c_5 : Ref sig .tc := ⟨.hbm, 57, rfl⟩
abbrev main_v25 : Ref sig .tc := ⟨.hbm, 58, rfl⟩
abbrev main_v26 : Ref sig .tc := ⟨.hbm, 59, rfl⟩
abbrev main_c_6 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_7 : Ref sig .tc := ⟨.hbm, 72, rfl⟩
abbrev main_v38 : Ref sig .tc := ⟨.hbm, 73, rfl⟩
abbrev main_v39 : Ref sig .tc := ⟨.hbm, 74, rfl⟩
abbrev main_c_8 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_9 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_10 : Ref sig .tc := ⟨.hbm, 91, rfl⟩
abbrev main_v54 : Ref sig .tc := ⟨.hbm, 92, rfl⟩
abbrev main_v55 : Ref sig .tc := ⟨.hbm, 93, rfl⟩
abbrev main_c_11 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c_13 : Ref sig .tc := ⟨.hbm, 110, rfl⟩
abbrev main_v70 : Ref sig .tc := ⟨.hbm, 111, rfl⟩
abbrev main_v71 : Ref sig .tc := ⟨.hbm, 112, rfl⟩
abbrev main_c_14 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_cst_15 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_c_16 : Ref sig .tc := ⟨.hbm, 130, rfl⟩
abbrev main_v87 : Ref sig .tc := ⟨.hbm, 131, rfl⟩
abbrev main_v88 : Ref sig .tc := ⟨.hbm, 132, rfl⟩
abbrev main_c_17 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_18 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg2_0 : Ref sig .tc := ⟨.vmem, 34, rfl⟩
abbrev cc6_stg2_1 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg3_0 : Ref sig .tc := ⟨.vmem, 40, rfl⟩
abbrev cc7_stg3_1 : Ref sig .tc := ⟨.vmem, 41, rfl⟩
abbrev cc8_stg0_0 : Ref sig .tc := ⟨.vmem, 42, rfl⟩
abbrev cc8_stg0_1 : Ref sig .tc := ⟨.vmem, 43, rfl⟩
abbrev cc8_stg1_0 : Ref sig .tc := ⟨.vmem, 44, rfl⟩
abbrev cc8_stg2_0 : Ref sig .tc := ⟨.vmem, 45, rfl⟩
abbrev cc8_stg2_1 : Ref sig .tc := ⟨.vmem, 46, rfl⟩
abbrev cc9_stg0_0 : Ref sig .tc := ⟨.vmem, 47, rfl⟩
abbrev cc9_stg0_1 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg2_1 : Ref sig .tc := ⟨.vmem, 51, rfl⟩
abbrev cc10_stg0_0 : Ref sig .tc := ⟨.vmem, 52, rfl⟩
abbrev cc10_stg0_1 : Ref sig .tc := ⟨.vmem, 53, rfl⟩
abbrev cc10_stg1_0 : Ref sig .tc := ⟨.vmem, 54, rfl⟩
abbrev cc10_stg2_0 : Ref sig .tc := ⟨.vmem, 55, rfl⟩
abbrev cc10_stg3_0 : Ref sig .tc := ⟨.vmem, 56, rfl⟩
abbrev cc10_stg3_1 : Ref sig .tc := ⟨.vmem, 57, rfl⟩
abbrev cc11_stg0_0 : Ref sig .tc := ⟨.vmem, 58, rfl⟩
abbrev cc11_stg0_1 : Ref sig .tc := ⟨.vmem, 59, rfl⟩
abbrev cc11_stg1_0 : Ref sig .tc := ⟨.vmem, 60, rfl⟩
abbrev cc11_stg2_0 : Ref sig .tc := ⟨.vmem, 61, rfl⟩
abbrev cc11_stg3_0 : Ref sig .tc := ⟨.vmem, 62, rfl⟩
abbrev cc11_stg3_1 : Ref sig .tc := ⟨.vmem, 63, rfl⟩
abbrev cc11_stg4_0 : Ref sig .tc := ⟨.vmem, 64, rfl⟩
abbrev cc11_stg4_1 : Ref sig .tc := ⟨.vmem, 65, rfl⟩
abbrev cc12_stg0_0 : Ref sig .tc := ⟨.vmem, 66, rfl⟩
abbrev cc12_stg0_1 : Ref sig .tc := ⟨.vmem, 67, rfl⟩
abbrev cc12_stg1_0 : Ref sig .tc := ⟨.vmem, 68, rfl⟩
abbrev cc12_stg2_0 : Ref sig .tc := ⟨.vmem, 69, rfl⟩
abbrev cc12_stg2_1 : Ref sig .tc := ⟨.vmem, 70, rfl⟩
abbrev cc13_stg0_0 : Ref sig .tc := ⟨.vmem, 71, rfl⟩
abbrev cc13_stg0_1 : Ref sig .tc := ⟨.vmem, 72, rfl⟩
abbrev cc13_stg1_0 : Ref sig .tc := ⟨.vmem, 73, rfl⟩
abbrev cc13_stg2_0 : Ref sig .tc := ⟨.vmem, 74, rfl⟩
abbrev cc13_stg2_1 : Ref sig .tc := ⟨.vmem, 75, rfl⟩
abbrev cc14_stg0_0 : Ref sig .tc := ⟨.vmem, 76, rfl⟩
abbrev cc14_stg0_1 : Ref sig .tc := ⟨.vmem, 77, rfl⟩
abbrev cc14_stg1_0 : Ref sig .tc := ⟨.vmem, 78, rfl⟩
abbrev cc14_stg2_0 : Ref sig .tc := ⟨.vmem, 79, rfl⟩
abbrev cc14_stg3_0 : Ref sig .tc := ⟨.vmem, 80, rfl⟩
abbrev cc14_stg3_1 : Ref sig .tc := ⟨.vmem, 81, rfl⟩
abbrev cc15_stg0_0 : Ref sig .tc := ⟨.vmem, 82, rfl⟩
abbrev cc15_stg0_1 : Ref sig .tc := ⟨.vmem, 83, rfl⟩
abbrev cc15_stg1_0 : Ref sig .tc := ⟨.vmem, 84, rfl⟩
abbrev cc15_stg2_0 : Ref sig .tc := ⟨.vmem, 85, rfl⟩
abbrev cc15_stg3_0 : Ref sig .tc := ⟨.vmem, 86, rfl⟩
abbrev cc15_stg3_1 : Ref sig .tc := ⟨.vmem, 87, rfl⟩
abbrev cc15_stg4_0 : Ref sig .tc := ⟨.vmem, 88, rfl⟩
abbrev cc15_stg4_1 : Ref sig .tc := ⟨.vmem, 89, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem2_0 : DmaSem sig := 34
abbrev cc6_sem2_1 : DmaSem sig := 35
abbrev cc7_sem0_0 : DmaSem sig := 36
abbrev cc7_sem0_1 : DmaSem sig := 37
abbrev cc7_sem1_0 : DmaSem sig := 38
abbrev cc7_sem2_0 : DmaSem sig := 39
abbrev cc7_sem3_0 : DmaSem sig := 40
abbrev cc7_sem3_1 : DmaSem sig := 41
abbrev cc8_sem0_0 : DmaSem sig := 42
abbrev cc8_sem0_1 : DmaSem sig := 43
abbrev cc8_sem1_0 : DmaSem sig := 44
abbrev cc8_sem2_0 : DmaSem sig := 45
abbrev cc8_sem2_1 : DmaSem sig := 46
abbrev cc9_sem0_0 : DmaSem sig := 47
abbrev cc9_sem0_1 : DmaSem sig := 48
abbrev cc9_sem1_0 : DmaSem sig := 49
abbrev cc9_sem2_0 : DmaSem sig := 50
abbrev cc9_sem2_1 : DmaSem sig := 51
abbrev cc10_sem0_0 : DmaSem sig := 52
abbrev cc10_sem0_1 : DmaSem sig := 53
abbrev cc10_sem1_0 : DmaSem sig := 54
abbrev cc10_sem2_0 : DmaSem sig := 55
abbrev cc10_sem3_0 : DmaSem sig := 56
abbrev cc10_sem3_1 : DmaSem sig := 57
abbrev cc11_sem0_0 : DmaSem sig := 58
abbrev cc11_sem0_1 : DmaSem sig := 59
abbrev cc11_sem1_0 : DmaSem sig := 60
abbrev cc11_sem2_0 : DmaSem sig := 61
abbrev cc11_sem3_0 : DmaSem sig := 62
abbrev cc11_sem3_1 : DmaSem sig := 63
abbrev cc11_sem4_0 : DmaSem sig := 64
abbrev cc11_sem4_1 : DmaSem sig := 65
abbrev cc12_sem0_0 : DmaSem sig := 66
abbrev cc12_sem0_1 : DmaSem sig := 67
abbrev cc12_sem1_0 : DmaSem sig := 68
abbrev cc12_sem2_0 : DmaSem sig := 69
abbrev cc12_sem2_1 : DmaSem sig := 70
abbrev cc13_sem0_0 : DmaSem sig := 71
abbrev cc13_sem0_1 : DmaSem sig := 72
abbrev cc13_sem1_0 : DmaSem sig := 73
abbrev cc13_sem2_0 : DmaSem sig := 74
abbrev cc13_sem2_1 : DmaSem sig := 75
abbrev cc14_sem0_0 : DmaSem sig := 76
abbrev cc14_sem0_1 : DmaSem sig := 77
abbrev cc14_sem1_0 : DmaSem sig := 78
abbrev cc14_sem2_0 : DmaSem sig := 79
abbrev cc14_sem3_0 : DmaSem sig := 80
abbrev cc14_sem3_1 : DmaSem sig := 81
abbrev cc15_sem0_0 : DmaSem sig := 82
abbrev cc15_sem0_1 : DmaSem sig := 83
abbrev cc15_sem1_0 : DmaSem sig := 84
abbrev cc15_sem2_0 : DmaSem sig := 85
abbrev cc15_sem3_0 : DmaSem sig := 86
abbrev cc15_sem3_1 : DmaSem sig := 87
abbrev cc15_sem4_0 : DmaSem sig := 88
abbrev cc15_sem4_1 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 1 → Nat :=
  let arg0 : BitVec 32 := BitVec.ofNat 32 (i 0).val
  let c0_i32 : BitVec 32 := 0#32
  let c0_i32_0 : BitVec 32 := 0#32
  ![c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 1 → Nat :=
  let arg0 : BitVec 32 := BitVec.ofNat 32 (i 0).val
  let c0_i32 : BitVec 32 := 0#32
  let c0_i32_0 : BitVec 32 := 0#32
  ![c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S5000x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S64x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S5000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 1 → Nat :=
  let arg0 : BitVec 32 := BitVec.ofNat 32 (i 0).val
  let c0_i32 : BitVec 32 := 0#32
  let c0_i32_0 : BitVec 32 := 0#32
  ![c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 2 → Memref sig .tc .vmem S5000x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 1 → Nat :=
  let arg0 : BitVec 32 := BitVec.ofNat 32 (i 0).val
  let c0_i32 : BitVec 32 := 0#32
  let c0_i32_0 : BitVec 32 := 0#32
  ![c0_i32.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S64x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S5000x64 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 1 → Nat :=
  let arg0 : BitVec 32 := BitVec.ofNat 32 (i 0).val
  let c0_i32 : BitVec 32 := 0#32
  let c0_i32_0 : BitVec 32 := 0#32
  ![c0_i32.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_4 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S64x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S5000x64 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev stage15_4 : Fin 2 → Memref sig .tc .vmem S5000x64 .f32 := fun | 0 => Memref.whole cc15_stg4_0 | 1 => Memref.whole cc15_stg4_1 | ⟨_ + 2, h⟩ => absurd h (Nat.not_lt.2 (Nat.le_add_left _ _))
abbrev sem15_4 : Fin 2 → DmaSem sig := fun | 0 => cc15_sem4_0 | 1 => cc15_sem4_1 | ⟨_ + 2, h⟩ => absurd h (Nat.not_lt.2 (Nat.le_add_left _ _))
abbrev reads15_4 : Fin grid15.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  concatenates_S50000x64_S50000x64_S100000x64_d0 : Shape.Concatenates [S50000x64, S50000x64] S100000x64 0
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64.size a ≤ S64.size a
  hwx6_1 : ∀ i : grid6.Coords, EltTy.bits .f32 = 32 ∨ (Rect.block (s := S64) S64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S100000x64.size a
  hwx8_2 : ∀ i : grid8.Coords, EltTy.bits .f32 = 32 ∨ (Rect.block (s := S100000x64) S5000x64.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64.size a ≤ S64.size a
  hwx9_1 : ∀ i : grid9.Coords, EltTy.bits .f32 = 32 ∨ (Rect.block (s := S64) S64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x64.size a ≤ S100000x64.size a
  hwx9_2 : ∀ i : grid9.Coords, EltTy.bits .f32 = 32 ∨ (Rect.block (s := S100000x64) S5000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64.size a ≤ S64.size a
  hwx10_2 : ∀ i : grid10.Coords, EltTy.bits .f32 = 32 ∨ (Rect.block (s := S64) S64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x64.size a ≤ S100000x64.size a
  hwx10_3 : ∀ i : grid10.Coords, EltTy.bits .f32 = 32 ∨ (Rect.block (s := S100000x64) S5000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64.size a ≤ S64.size a
  hwx11_2 : ∀ i : grid11.Coords, EltTy.bits .f32 = 32 ∨ (Rect.block (s := S64) S64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S100000x64.size a
  hwx11_3 : ∀ i : grid11.Coords, EltTy.bits .f32 = 32 ∨ (Rect.block (s := S100000x64) S5000x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x64.size a ≤ S100000x64.size a
  hwx11_4 : ∀ i : grid11.Coords, EltTy.bits .f32 = 32 ∨ (Rect.block (s := S100000x64) S5000x64.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x64.size a ≤ S100000x64.size a
  hwx12_0 : ∀ i : grid12.Coords, EltTy.bits .f32 = 32 ∨ (Rect.block (s := S100000x64) S5000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S64x64.size a ≤ S64x64.size a
  hwx12_1 : ∀ i : grid12.Coords, EltTy.bits .f32 = 32 ∨ (Rect.block (s := S64x64) S64x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S5000x64.size a ≤ S100000x64.size a
  hwx12_2 : ∀ i : grid12.Coords, EltTy.bits .f32 = 32 ∨ (Rect.block (s := S100000x64) S5000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S100000x64.size a
  hwx13_0 : ∀ i : grid13.Coords, EltTy.bits .f32 = 32 ∨ (Rect.block (s := S100000x64) S5000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64.size a ≤ S64.size a
  hwx13_1 : ∀ i : grid13.Coords, EltTy.bits .f32 = 32 ∨ (Rect.block (s := S64) S64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S5000x64.size a ≤ S100000x64.size a
  hwx13_2 : ∀ i : grid13.Coords, EltTy.bits .f32 = 32 ∨ (Rect.block (s := S100000x64) S5000x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S100000x64.size a
  hwx14_0 : ∀ i : grid14.Coords, EltTy.bits .f32 = 32 ∨ (Rect.block (s := S100000x64) S5000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S64x64.size a ≤ S64x64.size a
  hwx14_1 : ∀ i : grid14.Coords, EltTy.bits .f32 = 32 ∨ (Rect.block (s := S64x64) S64x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S64.size a ≤ S64.size a
  hwx14_2 : ∀ i : grid14.Coords, EltTy.bits .f32 = 32 ∨ (Rect.block (s := S64) S64.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x64.size a ≤ S100000x64.size a
  hwx14_3 : ∀ i : grid14.Coords, EltTy.bits .f32 = 32 ∨ (Rect.block (s := S100000x64) S5000x64.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x64.size a ≤ S100000x64.size a
  hwx15_0 : ∀ i : grid15.Coords, EltTy.bits .f32 = 32 ∨ (Rect.block (s := S100000x64) S5000x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S64x64.size a ≤ S64x64.size a
  hwx15_1 : ∀ i : grid15.Coords, EltTy.bits .f32 = 32 ∨ (Rect.block (s := S64x64) S64x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S64.size a ≤ S64.size a
  hwx15_2 : ∀ i : grid15.Coords, EltTy.bits .f32 = 32 ∨ (Rect.block (s := S64) S64.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S5000x64.size a ≤ S100000x64.size a
  hwx15_3 : ∀ i : grid15.Coords, EltTy.bits .f32 = 32 ∨ (Rect.block (s := S100000x64) S5000x64.size (cc15_transform_3 i) (hinb15_3 i)).WholeWords (EltTy.packing .f32)
  hstage15_4 : ∀ j, (stage15_4 j).IsWhole
  nbuf15_4 : grid15.bufCount reads15_4 false = 2
  hreads15_4 : ∀ i i' : grid15.Coords, (∀ a, reads15_4 a = true → i a = i' a) → cc15_transform_4 i = cc15_transform_4 i'
  hinb15_4 : ∀ (i : grid15.Coords) a, (cc15_transform_4 i a + 1) * S5000x64.size a ≤ S100000x64.size a
  hwx15_4 : ∀ i : grid15.Coords, EltTy.bits .f32 = 32 ∨ (Rect.block (s := S100000x64) S5000x64.size (cc15_transform_4 i) (hinb15_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v51) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v51) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v52) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v65) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v66) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v66) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg12) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v67) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v67) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg13) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v68) S5000x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v81) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v82) S5000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v67) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg15) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg16) S64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v83) S5000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v82) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg17) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg18) S64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v83) S5000x64.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v84) S5000x64.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v67) S5000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg19) S64x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v85) S5000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v98) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg20) S64.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v99) S5000x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v67) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg21) S64x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_arg22) S64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v100) S5000x64.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v99) S5000x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_arg23) S64x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_arg24) S64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v100) S5000x64.size cc15_transform_3 reads15_3 false false 2 stage15_3 sem15_3
    hrank15 hreads15_3 hinb15_3 nbuf15_3 (Memref.isWhole_whole _) hwx15_3 hstage15_3

abbrev win15_4 : Pipeline.Window sig grid15 :=
  Pipeline.Window.ofSpec (Memref.whole main_v101) S5000x64.size cc15_transform_4 reads15_4 true false 2 stage15_4 sem15_4
    hrank15 hreads15_4 hinb15_4 nbuf15_4 (Memref.isWhole_whole _) hwx15_4 hstage15_4

abbrev win15 : Fin 5 → Pipeline.Window sig grid15 := fun | 0 => win15_0 | 1 => win15_1 | 2 => win15_2 | 3 => win15_3 | 4 => win15_4 | ⟨_ + 5, h⟩ => absurd h (Nat.not_lt.2 (Nat.le_add_left _ _))
abbrev spec15 : Fin 5 → Pipeline.WinSpec sig grid15.rank := fun w => (win15 w).toWinSpec

class Facts : Prop extends Facts₀ where

variable [Facts]
-- ==== ReferenceIdeal.lean ====
abbrev S50000x128 : Shape := ⟨2, ![50000, 128]⟩
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1x64 : Shape := ⟨2, ![1, 64]⟩
abbrev S100000x64 : Shape := ⟨2, ![100000, 64]⟩
abbrev S_ : Shape := ⟨0, ![]⟩
abbrev S100000x1 : Shape := ⟨2, ![100000, 1]⟩
abbrev S1700000x1 : Shape := ⟨2, ![1700000, 1]⟩
abbrev S1700000x64 : Shape := ⟨2, ![1700000, 64]⟩

abbrev nBuf : Space → Nat
  | .hbm => 397
  | .vmem => 0
  | .smem => 0
  | _ => 0

abbrev hbmTy0_0 (i : Nat) : BufTy := match i % 128 with
  | 0 => ⟨S50000x128, .f32⟩
  | 1 => ⟨S50000x64, .f32⟩
  | 2 => ⟨S2x1600000, .i32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64x64, .f32⟩
  | 20 => ⟨S64, .f32⟩
  | 21 => ⟨S64x64, .f32⟩
  | 22 => ⟨S64, .f32⟩
  | 23 => ⟨S64x64, .f32⟩
  | 24 => ⟨S64, .f32⟩
  | 25 => ⟨S100000, .i32⟩
  | 26 => ⟨S1x1600000, .i32⟩
  | 27 => ⟨S1600000, .i32⟩
  | 28 => ⟨S1700000, .i32⟩
  | 29 => ⟨S1x1600000, .i32⟩
  | 30 => ⟨S1600000, .i32⟩
  | 31 => ⟨S1700000, .i32⟩
  | 32 => ⟨S50000x64, .f32⟩
  | 33 => ⟨S1x64, .f32⟩
  | 34 => ⟨S50000x64, .f32⟩
  | 35 => ⟨S50000x64, .f32⟩
  | 36 => ⟨S100000x64, .f32⟩
  | 37 => ⟨S100000x64, .f32⟩
  | 38 => ⟨S_, .f32⟩
  | 39 => ⟨S100000, .f32⟩
  | 40 => ⟨S100000x1, .f32⟩
  | 41 => ⟨S100000x1, .f32⟩
  | 42 => ⟨S_, .f32⟩
  | 43 => ⟨S100000x1, .f32⟩
  | 44 => ⟨S100000x1, .f32⟩
  | 45 => ⟨S100000x64, .f32⟩
  | 46 => ⟨S100000x64, .f32⟩
  | 47 => ⟨S100000x64, .f32⟩
  | 48 => ⟨S_, .f32⟩
  | 49 => ⟨S100000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S_, .f32⟩
  | 59 => ⟨S1700000, .f32⟩
  | 60 => ⟨S100000, .f32⟩
  | 61 => ⟨S_, .f32⟩
  | 62 => ⟨S100000, .f32⟩
  | 63 => ⟨S100000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000, .f32⟩
  | 82 => ⟨S1700000, .f32⟩
  | 83 => ⟨S1700000x1, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000x64, .f32⟩
  | 93 => ⟨S1700000x64, .f32⟩
  | 94 => ⟨S1700000x64, .f32⟩
  | 95 => ⟨S_, .f32⟩
  | 96 => ⟨S100000x64, .f32⟩
  | 97 => ⟨S1700000x1, .i32⟩
  | 98 => ⟨S100000x64, .f32⟩
  | 99 => ⟨S1x64, .f32⟩
  | 100 => ⟨S100000x64, .f32⟩
  | 101 => ⟨S100000x64, .f32⟩
  | 102 => ⟨S100000x64, .f32⟩
  | 103 => ⟨S_, .f32⟩
  | 104 => ⟨S100000, .f32⟩
  | 105 => ⟨S100000x1, .f32⟩
  | 106 => ⟨S100000x1, .f32⟩
  | 107 => ⟨S_, .f32⟩
  | 108 => ⟨S100000x1, .f32⟩
  | 109 => ⟨S100000x1, .f32⟩
  | 110 => ⟨S100000x64, .f32⟩
  | 111 => ⟨S100000x64, .f32⟩
  | 112 => ⟨S_, .f32⟩
  | 113 => ⟨S_, .f32⟩
  | 114 => ⟨S100000x64, .f32⟩
  | 115 => ⟨S100000x64, .i1⟩
  | 116 => ⟨S_, .f32⟩
  | 117 => ⟨S100000x64, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S_, .f32⟩
  | 126 => ⟨S100000x64, .f32⟩
  | 127 => ⟨S100000x64, .i1⟩
  | _ => ⟨S50000x128, .f32⟩

abbrev hbmTy0_1 (i : Nat) : BufTy := match i % 128 with
  | 0 => ⟨S_, .f32⟩
  | 1 => ⟨S100000x64, .f32⟩
  | 2 => ⟨S100000x64, .f32⟩
  | 3 => ⟨S100000x64, .f32⟩
  | 4 => ⟨S100000x64, .f32⟩
  | 5 => ⟨S_, .f32⟩
  | 6 => ⟨S100000, .f32⟩
  | 7 => ⟨S_, .i32⟩
  | 8 => ⟨S1700000, .i32⟩
  | 9 => ⟨S1700000, .i1⟩
  | 10 => ⟨S_, .i32⟩
  | 11 => ⟨S1700000, .i32⟩
  | 12 => ⟨S1700000, .i32⟩
  | 13 => ⟨S1700000, .i32⟩
  | 14 => ⟨S1700000x1, .i32⟩
  | 15 => ⟨S_, .f32⟩
  | 16 => ⟨S1700000, .f32⟩
  | 17 => ⟨S100000, .f32⟩
  | 18 => ⟨S_, .f32⟩
  | 19 => ⟨S100000, .f32⟩
  | 20 => ⟨S100000, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S1700000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S1700000x1, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000x64, .f32⟩
  | 50 => ⟨S1700000x64, .f32⟩
  | 51 => ⟨S1700000x64, .f32⟩
  | 52 => ⟨S_, .f32⟩
  | 53 => ⟨S100000x64, .f32⟩
  | 54 => ⟨S1700000x1, .i32⟩
  | 55 => ⟨S100000x64, .f32⟩
  | 56 => ⟨S1x64, .f32⟩
  | 57 => ⟨S100000x64, .f32⟩
  | 58 => ⟨S100000x64, .f32⟩
  | 59 => ⟨S100000x64, .f32⟩
  | 60 => ⟨S_, .f32⟩
  | 61 => ⟨S100000, .f32⟩
  | 62 => ⟨S100000x1, .f32⟩
  | 63 => ⟨S100000x1, .f32⟩
  | 64 => ⟨S_, .f32⟩
  | 65 => ⟨S100000x1, .f32⟩
  | 66 => ⟨S100000x1, .f32⟩
  | 67 => ⟨S100000x64, .f32⟩
  | 68 => ⟨S100000x64, .f32⟩
  | 69 => ⟨S_, .f32⟩
  | 70 => ⟨S_, .f32⟩
  | 71 => ⟨S100000x64, .f32⟩
  | 72 => ⟨S100000x64, .i1⟩
  | 73 => ⟨S_, .f32⟩
  | 74 => ⟨S100000x64, .f32⟩
  | 75 => ⟨S100000x64, .f32⟩
  | 76 => ⟨S100000x64, .f32⟩
  | 77 => ⟨S100000x64, .f32⟩
  | 78 => ⟨S1x64, .f32⟩
  | 79 => ⟨S100000x64, .f32⟩
  | 80 => ⟨S100000x64, .f32⟩
  | 81 => ⟨S_, .f32⟩
  | 82 => ⟨S_, .f32⟩
  | 83 => ⟨S100000x64, .f32⟩
  | 84 => ⟨S100000x64, .i1⟩
  | 85 => ⟨S_, .f32⟩
  | 86 => ⟨S100000x64, .f32⟩
  | 87 => ⟨S100000x64, .f32⟩
  | 88 => ⟨S100000x64, .f32⟩
  | 89 => ⟨S100000x64, .f32⟩
  | 90 => ⟨S_, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S_, .f32⟩
  | 101 => ⟨S1700000, .f32⟩
  | 102 => ⟨S100000, .f32⟩
  | 103 => ⟨S_, .f32⟩
  | 104 => ⟨S100000, .f32⟩
  | 105 => ⟨S100000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000, .f32⟩
  | 115 => ⟨S_, .i32⟩
  | 116 => ⟨S1700000, .i32⟩
  | 117 => ⟨S1700000, .i1⟩
  | 118 => ⟨S_, .i32⟩
  | 119 => ⟨S1700000, .i32⟩
  | 120 => ⟨S1700000, .i32⟩
  | 121 => ⟨S1700000, .i32⟩
  | 122 => ⟨S1700000x1, .i32⟩
  | 123 => ⟨S1700000, .f32⟩
  | 124 => ⟨S1700000, .f32⟩
  | 125 => ⟨S1700000x1, .f32⟩
  | 126 => ⟨S_, .i32⟩
  | 127 => ⟨S1700000, .i32⟩
  | _ => ⟨S50000x128, .f32⟩

abbrev hbmTy0_2 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x64, .f32⟩
  | 7 => ⟨S1700000x64, .f32⟩
  | 8 => ⟨S1700000x64, .f32⟩
  | 9 => ⟨S_, .f32⟩
  | 10 => ⟨S100000x64, .f32⟩
  | 11 => ⟨S1700000x1, .i32⟩
  | 12 => ⟨S100000x64, .f32⟩
  | 13 => ⟨S1x64, .f32⟩
  | 14 => ⟨S100000x64, .f32⟩
  | 15 => ⟨S100000x64, .f32⟩
  | 16 => ⟨S100000x64, .f32⟩
  | 17 => ⟨S_, .f32⟩
  | 18 => ⟨S100000, .f32⟩
  | 19 => ⟨S100000x1, .f32⟩
  | 20 => ⟨S100000x1, .f32⟩
  | 21 => ⟨S_, .f32⟩
  | 22 => ⟨S100000x1, .f32⟩
  | 23 => ⟨S100000x1, .f32⟩
  | 24 => ⟨S100000x64, .f32⟩
  | 25 => ⟨S100000x64, .f32⟩
  | 26 => ⟨S_, .f32⟩
  | 27 => ⟨S_, .f32⟩
  | 28 => ⟨S100000x64, .f32⟩
  | 29 => ⟨S100000x64, .i1⟩
  | 30 => ⟨S_, .f32⟩
  | 31 => ⟨S100000x64, .f32⟩
  | 32 => ⟨S100000x64, .f32⟩
  | 33 => ⟨S100000x64, .f32⟩
  | 34 => ⟨S100000x64, .f32⟩
  | 35 => ⟨S1x64, .f32⟩
  | 36 => ⟨S100000x64, .f32⟩
  | 37 => ⟨S100000x64, .f32⟩
  | 38 => ⟨S_, .f32⟩
  | 39 => ⟨S_, .f32⟩
  | 40 => ⟨S100000x64, .f32⟩
  | 41 => ⟨S100000x64, .i1⟩
  | 42 => ⟨S_, .f32⟩
  | 43 => ⟨S100000x64, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S100000x64, .f32⟩
  | 51 => ⟨S100000x64, .f32⟩
  | 52 => ⟨S_, .f32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S_, .f32⟩
  | 63 => ⟨S1700000, .f32⟩
  | 64 => ⟨S100000, .f32⟩
  | 65 => ⟨S_, .f32⟩
  | 66 => ⟨S100000, .f32⟩
  | 67 => ⟨S100000, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000, .f32⟩
  | 77 => ⟨S_, .i32⟩
  | 78 => ⟨S1700000, .i32⟩
  | 79 => ⟨S1700000, .i1⟩
  | 80 => ⟨S_, .i32⟩
  | 81 => ⟨S1700000, .i32⟩
  | 82 => ⟨S1700000, .i32⟩
  | 83 => ⟨S1700000, .i32⟩
  | 84 => ⟨S1700000x1, .i32⟩
  | 85 => ⟨S1700000, .f32⟩
  | 86 => ⟨S1700000, .f32⟩
  | 87 => ⟨S1700000x1, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x64, .f32⟩
  | 97 => ⟨S1700000x64, .f32⟩
  | 98 => ⟨S1700000x64, .f32⟩
  | 99 => ⟨S_, .f32⟩
  | 100 => ⟨S100000x64, .f32⟩
  | 101 => ⟨S1700000x1, .i32⟩
  | 102 => ⟨S100000x64, .f32⟩
  | 103 => ⟨S1x64, .f32⟩
  | 104 => ⟨S100000x64, .f32⟩
  | 105 => ⟨S100000x64, .f32⟩
  | 106 => ⟨S100000x64, .f32⟩
  | 107 => ⟨S_, .f32⟩
  | 108 => ⟨S100000, .f32⟩
  | 109 => ⟨S100000x1, .f32⟩
  | 110 => ⟨S100000x1, .f32⟩
  | 111 => ⟨S_, .f32⟩
  | 112 => ⟨S100000x1, .f32⟩
  | 113 => ⟨S100000x1, .f32⟩
  | 114 => ⟨S100000x64, .f32⟩
  | 115 => ⟨S100000x64, .f32⟩
  | 116 => ⟨S_, .f32⟩
  | 117 => ⟨S_, .f32⟩
  | 118 => ⟨S100000x64, .f32⟩
  | 119 => ⟨S100000x64, .i1⟩
  | 120 => ⟨S_, .f32⟩
  | 121 => ⟨S100000x64, .f32⟩
  | 122 => ⟨S100000x64, .f32⟩
  | 123 => ⟨S100000x64, .f32⟩
  | 124 => ⟨S100000x64, .f32⟩
  | 125 => ⟨S1x64, .f32⟩
  | 126 => ⟨S100000x64, .f32⟩
  | 127 => ⟨S100000x64, .f32⟩
  | _ => ⟨S50000x128, .f32⟩

abbrev hbmTy0_3 (i : Nat) : BufTy := match i % 128 with
  | 0 => ⟨S_, .f32⟩
  | 1 => ⟨S_, .f32⟩
  | 2 => ⟨S100000x64, .f32⟩
  | 3 => ⟨S100000x64, .i1⟩
  | 4 => ⟨S_, .f32⟩
  | 5 => ⟨S100000x64, .f32⟩
  | 6 => ⟨S100000x64, .f32⟩
  | 7 => ⟨S100000x64, .f32⟩
  | 8 => ⟨S100000x64, .f32⟩
  | 9 => ⟨S1x64, .f32⟩
  | 10 => ⟨S100000x64, .f32⟩
  | 11 => ⟨S100000x64, .f32⟩
  | 12 => ⟨S100000x64, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v12 : Ref sig .tc := ⟨.hbm, 41, rfl⟩
abbrev main_cst : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_0 : Ref sig .tc := ⟨.hbm, 48, rfl⟩
abbrev main_v18 : Ref sig .tc := ⟨.hbm, 49, rfl⟩
abbrev main_c : Ref sig .tc := ⟨.hbm, 50, rfl⟩
abbrev main_v19 : Ref sig .tc := ⟨.hbm, 51, rfl⟩
abbrev main_v20 : Ref sig .tc := ⟨.hbm, 52, rfl⟩
abbrev main_c_1 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_2 : Ref sig .tc := ⟨.hbm, 58, rfl⟩
abbrev main_v25 : Ref sig .tc := ⟨.hbm, 59, rfl⟩
abbrev main_v26 : Ref sig .tc := ⟨.hbm, 60, rfl⟩
abbrev main_cst_3 : Ref sig .tc := ⟨.hbm, 61, rfl⟩
abbrev main_v27 : Ref sig .tc := ⟨.hbm, 62, rfl⟩
abbrev main_v28 : Ref sig .tc := ⟨.hbm, 63, rfl⟩
abbrev main_c_4 : Ref sig .tc := ⟨.hbm, 64, rfl⟩
abbrev main_v29 : Ref sig .tc := ⟨.hbm, 65, rfl⟩
abbrev main_v30 : Ref sig .tc := ⟨.hbm, 66, rfl⟩
abbrev main_c_5 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_c_6 : Ref sig .tc := ⟨.hbm, 73, rfl⟩
abbrev main_v36 : Ref sig .tc := ⟨.hbm, 74, rfl⟩
abbrev main_v37 : Ref sig .tc := ⟨.hbm, 75, rfl⟩
abbrev main_c_7 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_c_8 : Ref sig .tc := ⟨.hbm, 84, rfl⟩
abbrev main_v45 : Ref sig .tc := ⟨.hbm, 85, rfl⟩
abbrev main_v46 : Ref sig .tc := ⟨.hbm, 86, rfl⟩
abbrev main_c_9 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_cst_10 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_call1_v0 : Ref sig .tc := ⟨.hbm, 102, rfl⟩
abbrev main_call1_cst : Ref sig .tc := ⟨.hbm, 103, rfl⟩
abbrev main_call1_v1 : Ref sig .tc := ⟨.hbm, 104, rfl⟩
abbrev main_call1_v2 : Ref sig .tc := ⟨.hbm, 105, rfl⟩
abbrev main_v60 : Ref sig .tc := ⟨.hbm, 106, rfl⟩
abbrev main_cst_11 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_12 : Ref sig .tc := ⟨.hbm, 112, rfl⟩
abbrev main_call2_cst : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_13 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v70 : Ref sig .tc := ⟨.hbm, 131, rfl⟩
abbrev main_v71 : Ref sig .tc := ⟨.hbm, 132, rfl⟩
abbrev main_cst_14 : Ref sig .tc := ⟨.hbm, 133, rfl⟩
abbrev main_v72 : Ref sig .tc := ⟨.hbm, 134, rfl⟩
abbrev main_c_15 : Ref sig .tc := ⟨.hbm, 135, rfl⟩
abbrev main_v73 : Ref sig .tc := ⟨.hbm, 136, rfl⟩
abbrev main_v74 : Ref sig .tc := ⟨.hbm, 137, rfl⟩
abbrev main_c_16 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_17 : Ref sig .tc := ⟨.hbm, 143, rfl⟩
abbrev main_v79 : Ref sig .tc := ⟨.hbm, 144, rfl⟩
abbrev main_v80 : Ref sig .tc := ⟨.hbm, 145, rfl⟩
abbrev main_cst_18 : Ref sig .tc := ⟨.hbm, 146, rfl⟩
abbrev main_v81 : Ref sig .tc := ⟨.hbm, 147, rfl⟩
abbrev main_v82 : Ref sig .tc := ⟨.hbm, 148, rfl⟩
abbrev main_c_19 : Ref sig .tc := ⟨.hbm, 149, rfl⟩
abbrev main_v83 : Ref sig .tc := ⟨.hbm, 150, rfl⟩
abbrev main_v84 : Ref sig .tc := ⟨.hbm, 151, rfl⟩
abbrev main_c_20 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_c_21 : Ref sig .tc := ⟨.hbm, 158, rfl⟩
abbrev main_v90 : Ref sig .tc := ⟨.hbm, 159, rfl⟩
abbrev main_v91 : Ref sig .tc := ⟨.hbm, 160, rfl⟩
abbrev main_c_22 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_v97 : Ref sig .tc := ⟨.hbm, 167, rfl⟩
abbrev main_v98 : Ref sig .tc := ⟨.hbm, 168, rfl⟩
abbrev main_c_23 : Ref sig .tc := ⟨.hbm, 169, rfl⟩
abbrev main_v99 : Ref sig .tc := ⟨.hbm, 170, rfl⟩
abbrev main_v100 : Ref sig .tc := ⟨.hbm, 171, rfl⟩
abbrev main_c_24 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_cst_25 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_call4_v0 : Ref sig .tc := ⟨.hbm, 187, rfl⟩
abbrev main_call4_cst : Ref sig .tc := ⟨.hbm, 188, rfl⟩
abbrev main_call4_v1 : Ref sig .tc := ⟨.hbm, 189, rfl⟩
abbrev main_call4_v2 : Ref sig .tc := ⟨.hbm, 190, rfl⟩
abbrev main_v114 : Ref sig .tc := ⟨.hbm, 191, rfl⟩
abbrev main_cst_26 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_v118 : Ref sig .tc := ⟨.hbm, 196, rfl⟩
abbrev main_cst_27 : Ref sig .tc := ⟨.hbm, 197, rfl⟩
abbrev main_call5_cst : Ref sig .tc := ⟨.hbm, 198, rfl⟩
abbrev main_call5_v0 : Ref sig .tc := ⟨.hbm, 199, rfl⟩
abbrev main_call5_v1 : Ref sig .tc := ⟨.hbm, 200, rfl⟩
abbrev main_call5_v2 : Ref sig .tc := ⟨.hbm, 201, rfl⟩
abbrev main_call5_v3 : Ref sig .tc := ⟨.hbm, 202, rfl⟩
abbrev main_call5_v4 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_cst_28 : Ref sig .tc := ⟨.hbm, 209, rfl⟩
abbrev main_call6_cst : Ref sig .tc := ⟨.hbm, 210, rfl⟩
abbrev main_call6_v0 : Ref sig .tc := ⟨.hbm, 211, rfl⟩
abbrev main_call6_v1 : Ref sig .tc := ⟨.hbm, 212, rfl⟩
abbrev main_call6_v2 : Ref sig .tc := ⟨.hbm, 213, rfl⟩
abbrev main_call6_v3 : Ref sig .tc := ⟨.hbm, 214, rfl⟩
abbrev main_call6_v4 : Ref sig .tc := ⟨.hbm, 215, rfl⟩
abbrev main_v124 : Ref sig .tc := ⟨.hbm, 216, rfl⟩
abbrev main_v125 : Ref sig .tc := ⟨.hbm, 217, rfl⟩
abbrev main_cst_29 : Ref sig .tc := ⟨.hbm, 218, rfl⟩
abbrev main_v126 : Ref sig .tc := ⟨.hbm, 219, rfl⟩
abbrev main_c_30 : Ref sig .tc := ⟨.hbm, 220, rfl⟩
abbrev main_v127 : Ref sig .tc := ⟨.hbm, 221, rfl⟩
abbrev main_v128 : Ref sig .tc := ⟨.hbm, 222, rfl⟩
abbrev main_c_31 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_cst_32 : Ref sig .tc := ⟨.hbm, 228, rfl⟩
abbrev main_v133 : Ref sig .tc := ⟨.hbm, 229, rfl⟩
abbrev main_v134 : Ref sig .tc := ⟨.hbm, 230, rfl⟩
abbrev main_cst_33 : Ref sig .tc := ⟨.hbm, 231, rfl⟩
abbrev main_v135 : Ref sig .tc := ⟨.hbm, 232, rfl⟩
abbrev main_v136 : Ref sig .tc := ⟨.hbm, 233, rfl⟩
abbrev main_c_34 : Ref sig .tc := ⟨.hbm, 234, rfl⟩
abbrev main_v137 : Ref sig .tc := ⟨.hbm, 235, rfl⟩
abbrev main_v138 : Ref sig .tc := ⟨.hbm, 236, rfl⟩
abbrev main_c_35 : Ref sig .tc := ⟨.hbm, 237, rfl⟩
abbrev main_v139 : Ref sig .tc := ⟨.hbm, 238, rfl⟩
abbrev main_v140 : Ref sig .tc := ⟨.hbm, 239, rfl⟩
abbrev main_v141 : Ref sig .tc := ⟨.hbm, 240, rfl⟩
abbrev main_v142 : Ref sig .tc := ⟨.hbm, 241, rfl⟩
abbrev main_v143 : Ref sig .tc := ⟨.hbm, 242, rfl⟩
abbrev main_c_36 : Ref sig .tc := ⟨.hbm, 243, rfl⟩
abbrev main_v144 : Ref sig .tc := ⟨.hbm, 244, rfl⟩
abbrev main_v145 : Ref sig .tc := ⟨.hbm, 245, rfl⟩
abbrev main_c_37 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_c_38 : Ref sig .tc := ⟨.hbm, 254, rfl⟩
abbrev main_v153 : Ref sig .tc := ⟨.hbm, 255, rfl⟩
abbrev main_v154 : Ref sig .tc := ⟨.hbm, 256, rfl⟩
abbrev main_c_39 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_cst_40 : Ref sig .tc := ⟨.hbm, 265, rfl⟩
abbrev main_v162 : Ref sig .tc := ⟨.hbm, 266, rfl⟩
abbrev main_v163 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_v167 : Ref sig .tc := ⟨.hbm, 271, rfl⟩
abbrev main_call7_v0 : Ref sig .tc := ⟨.hbm, 272, rfl⟩
abbrev main_call7_cst : Ref sig .tc := ⟨.hbm, 273, rfl⟩
abbrev main_call7_v1 : Ref sig .tc := ⟨.hbm, 274, rfl⟩
abbrev main_call7_v2 : Ref sig .tc := ⟨.hbm, 275, rfl⟩
abbrev main_v168 : Ref sig .tc := ⟨.hbm, 276, rfl⟩
abbrev main_cst_41 : Ref sig .tc := ⟨.hbm, 277, rfl⟩
abbrev main_v169 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_42 : Ref sig .tc := ⟨.hbm, 282, rfl⟩
abbrev main_call8_cst : Ref sig .tc := ⟨.hbm, 283, rfl⟩
abbrev main_call8_v0 : Ref sig .tc := ⟨.hbm, 284, rfl⟩
abbrev main_call8_v1 : Ref sig .tc := ⟨.hbm, 285, rfl⟩
abbrev main_call8_v2 : Ref sig .tc := ⟨.hbm, 286, rfl⟩
abbrev main_call8_v3 : Ref sig .tc := ⟨.hbm, 287, rfl⟩
abbrev main_call8_v4 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_cst_43 : Ref sig .tc := ⟨.hbm, 294, rfl⟩
abbrev main_call9_cst : Ref sig .tc := ⟨.hbm, 295, rfl⟩
abbrev main_call9_v0 : Ref sig .tc := ⟨.hbm, 296, rfl⟩
abbrev main_call9_v1 : Ref sig .tc := ⟨.hbm, 297, rfl⟩
abbrev main_call9_v2 : Ref sig .tc := ⟨.hbm, 298, rfl⟩
abbrev main_call9_v3 : Ref sig .tc := ⟨.hbm, 299, rfl⟩
abbrev main_call9_v4 : Ref sig .tc := ⟨.hbm, 300, rfl⟩
abbrev main_v178 : Ref sig .tc := ⟨.hbm, 301, rfl⟩
abbrev main_v179 : Ref sig .tc := ⟨.hbm, 302, rfl⟩
abbrev main_v180 : Ref sig .tc := ⟨.hbm, 303, rfl⟩
abbrev main_v181 : Ref sig .tc := ⟨.hbm, 304, rfl⟩
abbrev main_v182 : Ref sig .tc := ⟨.hbm, 305, rfl⟩
abbrev main_v183 : Ref sig .tc := ⟨.hbm, 306, rfl⟩
abbrev main_v184 : Ref sig .tc := ⟨.hbm, 307, rfl⟩
abbrev main_cst_44 : Ref sig .tc := ⟨.hbm, 308, rfl⟩
abbrev main_v185 : Ref sig .tc := ⟨.hbm, 309, rfl⟩
abbrev main_c_45 : Ref sig .tc := ⟨.hbm, 310, rfl⟩
abbrev main_v186 : Ref sig .tc := ⟨.hbm, 311, rfl⟩
abbrev main_v187 : Ref sig .tc := ⟨.hbm, 312, rfl⟩
abbrev main_c_46 : Ref sig .tc := ⟨.hbm, 313, rfl⟩
abbrev main_v188 : Ref sig .tc := ⟨.hbm, 314, rfl⟩
abbrev main_v189 : Ref sig .tc := ⟨.hbm, 315, rfl⟩
abbrev main_v190 : Ref sig .tc := ⟨.hbm, 316, rfl⟩
abbrev main_v191 : Ref sig .tc := ⟨.hbm, 317, rfl⟩
abbrev main_cst_47 : Ref sig .tc := ⟨.hbm, 318, rfl⟩
abbrev main_v192 : Ref sig .tc := ⟨.hbm, 319, rfl⟩
abbrev main_v193 : Ref sig .tc := ⟨.hbm, 320, rfl⟩
abbrev main_cst_48 : Ref sig .tc := ⟨.hbm, 321, rfl⟩
abbrev main_v194 : Ref sig .tc := ⟨.hbm, 322, rfl⟩
abbrev main_v195 : Ref sig .tc := ⟨.hbm, 323, rfl⟩
abbrev main_c_49 : Ref sig .tc := ⟨.hbm, 324, rfl⟩
abbrev main_v196 : Ref sig .tc := ⟨.hbm, 325, rfl⟩
abbrev main_v197 : Ref sig .tc := ⟨.hbm, 326, rfl⟩
abbrev main_c_50 : Ref sig .tc := ⟨.hbm, 327, rfl⟩
abbrev main_v198 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_v202 : Ref sig .tc := ⟨.hbm, 332, rfl⟩
abbrev main_c_51 : Ref sig .tc := ⟨.hbm, 333, rfl⟩
abbrev main_v203 : Ref sig .tc := ⟨.hbm, 334, rfl⟩
abbrev main_v204 : Ref sig .tc := ⟨.hbm, 335, rfl⟩
abbrev main_c_52 : Ref sig .tc := ⟨.hbm, 336, rfl⟩
abbrev main_v205 : Ref sig .tc := ⟨.hbm, 337, rfl⟩
abbrev main_v206 : Ref sig .tc := ⟨.hbm, 338, rfl⟩
abbrev main_v207 : Ref sig .tc := ⟨.hbm, 339, rfl⟩
abbrev main_v208 : Ref sig .tc := ⟨.hbm, 340, rfl⟩
abbrev main_v209 : Ref sig .tc := ⟨.hbm, 341, rfl⟩
abbrev main_v210 : Ref sig .tc := ⟨.hbm, 342, rfl⟩
abbrev main_v211 : Ref sig .tc := ⟨.hbm, 343, rfl⟩
abbrev main_c_53 : Ref sig .tc := ⟨.hbm, 344, rfl⟩
abbrev main_v212 : Ref sig .tc := ⟨.hbm, 345, rfl⟩
abbrev main_v213 : Ref sig .tc := ⟨.hbm, 346, rfl⟩
abbrev main_c_54 : Ref sig .tc := ⟨.hbm, 347, rfl⟩
abbrev main_v214 : Ref sig .tc := ⟨.hbm, 348, rfl⟩
abbrev main_v215 : Ref sig .tc := ⟨.hbm, 349, rfl⟩
abbrev main_v216 : Ref sig .tc := ⟨.hbm, 350, rfl⟩
abbrev main_v217 : Ref sig .tc := ⟨.hbm, 351, rfl⟩
abbrev main_v218 : Ref sig .tc := ⟨.hbm, 352, rfl⟩
abbrev main_v219 : Ref sig .tc := ⟨.hbm, 353, rfl⟩
abbrev main_v220 : Ref sig .tc := ⟨.hbm, 354, rfl⟩
abbrev main_cst_55 : Ref sig .tc := ⟨.hbm, 355, rfl⟩
abbrev main_v221 : Ref sig .tc := ⟨.hbm, 356, rfl⟩
abbrev main_v222 : Ref sig .tc := ⟨.hbm, 357, rfl⟩
abbrev main_v223 : Ref sig .tc := ⟨.hbm, 358, rfl⟩
abbrev main_v224 : Ref sig .tc := ⟨.hbm, 359, rfl⟩
abbrev main_v225 : Ref sig .tc := ⟨.hbm, 360, rfl⟩
abbrev main_v226 : Ref sig .tc := ⟨.hbm, 361, rfl⟩
abbrev main_call10_v0 : Ref sig .tc := ⟨.hbm, 362, rfl⟩
abbrev main_call10_cst : Ref sig .tc := ⟨.hbm, 363, rfl⟩
abbrev main_call10_v1 : Ref sig .tc := ⟨.hbm, 364, rfl⟩
abbrev main_call10_v2 : Ref sig .tc := ⟨.hbm, 365, rfl⟩
abbrev main_v227 : Ref sig .tc := ⟨.hbm, 366, rfl⟩
abbrev main_cst_56 : Ref sig .tc := ⟨.hbm, 367, rfl⟩
abbrev main_v228 : Ref sig .tc := ⟨.hbm, 368, rfl⟩
abbrev main_v229 : Ref sig .tc := ⟨.hbm, 369, rfl⟩
abbrev main_v230 : Ref sig .tc := ⟨.hbm, 370, rfl⟩
abbrev main_v231 : Ref sig .tc := ⟨.hbm, 371, rfl⟩
abbrev main_cst_57 : Ref sig .tc := ⟨.hbm, 372, rfl⟩
abbrev main_call11_cst : Ref sig .tc := ⟨.hbm, 373, rfl⟩
abbrev main_call11_v0 : Ref sig .tc := ⟨.hbm, 374, rfl⟩
abbrev main_call11_v1 : Ref sig .tc := ⟨.hbm, 375, rfl⟩
abbrev main_call11_v2 : Ref sig .tc := ⟨.hbm, 376, rfl⟩
abbrev main_call11_v3 : Ref sig .tc := ⟨.hbm, 377, rfl⟩
abbrev main_call11_v4 : Ref sig .tc := ⟨.hbm, 378, rfl⟩
abbrev main_v232 : Ref sig .tc := ⟨.hbm, 379, rfl⟩
abbrev main_v233 : Ref sig .tc := ⟨.hbm, 380, rfl⟩
abbrev main_v234 : Ref sig .tc := ⟨.hbm, 381, rfl⟩
abbrev main_v235 : Ref sig .tc := ⟨.hbm, 382, rfl⟩
abbrev main_v236 : Ref sig .tc := ⟨.hbm, 383, rfl⟩
abbrev main_cst_58 : Ref sig .tc := ⟨.hbm, 384, rfl⟩
abbrev main_call12_cst : Ref sig .tc := ⟨.hbm, 385, rfl⟩
abbrev main_call12_v0 : Ref sig .tc := ⟨.hbm, 386, rfl⟩
abbrev main_call12_v1 : Ref sig .tc := ⟨.hbm, 387, rfl⟩
abbrev main_call12_v2 : Ref sig .tc := ⟨.hbm, 388, rfl⟩
abbrev main_call12_v3 : Ref sig .tc := ⟨.hbm, 389, rfl⟩
abbrev main_call12_v4 : Ref sig .tc := ⟨.hbm, 390, rfl⟩
abbrev main_v237 : Ref sig .tc := ⟨.hbm, 391, rfl⟩
abbrev main_v238 : Ref sig .tc := ⟨.hbm, 392, rfl⟩
abbrev main_v239 : Ref sig .tc := ⟨.hbm, 393, rfl⟩
abbrev main_v240 : Ref sig .tc := ⟨.hbm, 394, rfl⟩
abbrev main_v241 : Ref sig .tc := ⟨.hbm, 395, rfl⟩
abbrev main_v242 : Ref sig .tc := ⟨.hbm, 396, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  concatenates_S50000x64_S50000x64_S100000x64_d0 : Shape.Concatenates [S50000x64, S50000x64] S100000x64 0
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S50000x128_S128x64_S50000x64_1_0_0_1_n_n_wf : DotDims.WF S50000x128 S128x64 S50000x64 [1] [0] [0] [1] [] []
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibDot.lean ====
/-
  A matrix product into a zero accumulator, read at one entry over the extended reals, for the two ways a
  rank-2 product contracts: the left operand's columns against the right operand's rows (entry (p, q) is
  Σ_k L[p, k] · R[k, q]), and the left operand's rows against the right operand's rows (entry (p, q) is
  Σ_k L[k, p] · R[k, q]). The contraction's index set has one axis; the sum is re-indexed by its one coordinate.
-/
import Idealize.ShloMosaic.PureOps.Ideal.Laws
import Idealize.ShloMosaic.Lib.ValueIdx

noncomputable section

open scoped BigOperators

namespace Cert.LibDot

open Idealize.ShloMosaic Idealize.ShloMosaic.ValueIdx

/-- Columns of the left operand against rows of the right: entry (p, q) is Σ_k L[p, k] · R[k, q]. -/
theorem matmul_cols_rows {M K N : Nat} {φ₁ φ₂ : FTy} (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂) (p : Fin M) (q : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p q)
      = ∑ k : Fin K, lhs (ix2 p k) * rhs (ix2 k q) := by
  rw [Ideal.matmul_constant_zero_apply, ← Equiv.sum_comp (contrEquiv1 _ K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 _ K rfl rfl).symm k) = ix2 p k := funext fun a => Fin.ext (by
    match a with
    | ⟨0, _⟩ =>
      unfold DotDims.lhsIdx
      rw [dif_neg (by exact List.not_mem_nil), dif_pos (by exact List.mem_singleton.mpr rfl)]
      rfl
    | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

/-- Rows of the left operand against rows of the right: entry (p, q) is Σ_k L[k, p] · R[k, q]. -/
theorem matmul_rows_rows {M K N : Nat} {φ₁ φ₂ : FTy} (wf : DotDims.WF ⟨2, ![K, M]⟩ ⟨2, ![K, N]⟩ ⟨2, ![M, N]⟩ [0] [0] [1] [1] [] [])
    (prec : Option ContractPrecision) (lhs : FVec Ideal ⟨2, ![K, M]⟩ φ₁) (rhs : FVec Ideal ⟨2, ![K, N]⟩ φ₂) (p : Fin M) (q : Fin N) :
    FloatOps.matmul (⟨[0], [0], [1], [1], [], [], wf⟩ : DotDims ⟨2, ![K, M]⟩ ⟨2, ![K, N]⟩ ⟨2, ![M, N]⟩) prec lhs rhs
        (constant ⟨2, ![M, N]⟩ .f32 0x00000000#32) (ix2 p q)
      = ∑ k : Fin K, lhs (ix2 k p) * rhs (ix2 k q) := by
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, M]⟩ ⟨2, ![K, N]⟩ ⟨2, ![M, N]⟩) K rfl rfl k
  have el : (⟨[0], [0], [1], [1], [], [], wf⟩ : DotDims ⟨2, ![K, M]⟩ ⟨2, ![K, N]⟩ ⟨2, ![M, N]⟩).lhsIdx (ix2 p q)
      ((contrEquiv1 _ K rfl rfl).symm k) = ix2 k p := funext fun a => Fin.ext (by
    match a with
    | ⟨0, _⟩ => exact (DotDims.lhsIdx_val_of_single _ rfl _ _).trans hk
    | ⟨1, _⟩ =>
      unfold DotDims.lhsIdx
      rw [dif_neg (by exact List.not_mem_nil), dif_pos (by exact List.mem_singleton.mpr rfl)]
      rfl)
  have er : (⟨[0], [0], [1], [1], [], [], wf⟩ : DotDims ⟨2, ![K, M]⟩ ⟨2, ![K, N]⟩ ⟨2, ![M, N]⟩).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

end Cert.LibDot

end
-- ==== Proof.LibReadAt.lean ====
/-
  ARRAY OPERATIONS READ AT ONE ENTRY, over literal rank-2 and rank-1 shapes of arbitrary extents.

  A product of a matrix's columns against a matrix's rows is, entry by entry, the sum over the contracted
  coordinate; two arrays joined along their columns read the first piece at its columns and the second piece past
  them; a transposed matrix reads the matrix at the swapped pair; a block of consecutive rows reads the array at the
  shifted row; a row vector spread over the rows of a matrix (in two steps: to a one-row matrix, then over the rows)
  reads the vector at the column, and a column vector spread over the columns reads it at the row; a vector reshaped
  to a one-column or a one-row matrix reads the vector at the row, respectively the column.  Each statement names
  the entry by its coordinates and holds for every operand array.
-/
import Idealize.ShloMosaic.PureOps.Ideal.Laws
import Idealize.ShloMosaic.Lib.Pipeline.Value
import Idealize.ShloMosaic.Lib.ValueIdx

noncomputable section

open scoped BigOperators

namespace Cert.Sage.ReadAt

open Idealize.ShloMosaic Idealize.ShloMosaic.ValueIdx

/-! ## A product of a matrix's columns against a matrix's rows -/

/-- The host's `dot_general` contracting the left operand's columns against the right operand's rows, read at an
    entry over the extended reals: entry `(p, q)` is `Σ_k L[p, k] · R[k, q]`. The contraction's index set has one
    axis; the sum is re-indexed by its one coordinate. -/
theorem dotGeneral_cols_rows {M K N : Nat} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (q : Fin N) :
    Host.dotGeneral (⟨[1], [0], [0], [1], [], [], wf⟩ : DotDims ⟨2, ![M, K]⟩ ⟨2, ![K, N]⟩ ⟨2, ![M, N]⟩) prec lhs rhs
        (ix2 p q)
      = ∑ k : Fin K, lhs (ix2 p k) * rhs (ix2 k q) := by
  simp only [Host.dotGeneral]
  rw [Ideal.dotGeneral_apply, ← Equiv.sum_comp (contrEquiv1 _ K rfl rfl).symm]
  refine Finset.sum_congr rfl fun k _ => ?_
  have hk := contrEquiv1_symm_val
    (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 p q)
      ((contrEquiv1 _ K rfl rfl).symm k) = ix2 p k := funext fun a => Fin.ext (by
    match a with
    | ⟨0, _⟩ =>
      unfold DotDims.lhsIdx
      rw [dif_neg (by exact List.not_mem_nil), dif_pos (by exact List.mem_singleton.mpr rfl)]
      rfl
    | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

/-! ## Two arrays joined along their columns -/

/-- Two arrays with the same rows joined along the column axis, read at a column of the FIRST piece: the first
    piece's entry. The joined width `C` is the sum of the two widths (that is part of `h`). -/
theorem concat_cols_left {M A B C : Nat} {α : Type} (x₁ : (⟨2, ![M, A]⟩ : Shape).Idx → α)
    (x₂ : (⟨2, ![M, B]⟩ : Shape).Idx → α)
    (h : Shape.Concatenates [⟨2, ![M, A]⟩, ⟨2, ![M, B]⟩] ⟨2, ![M, C]⟩ 1) (r : Fin M) (k : Fin A) (hk : k.val < C) :
    concatenate ⟨2, ![M, C]⟩ 1 [⟨⟨2, ![M, A]⟩, x₁⟩, ⟨⟨2, ![M, B]⟩, x₂⟩] h (ix2 r ⟨k.val, hk⟩) = x₁ (ix2 r k) :=
  concatenate_pair_apply_left (1 : Fin 2) x₁ x₂ h (ix2 r ⟨k.val, hk⟩) rfl (ix2 r k)
    (fun b => match b with | ⟨0, _⟩ => rfl | ⟨1, _⟩ => rfl)

/-- The same joined array read at a column of the SECOND piece, the first piece's width further along: the second
    piece's entry. -/
theorem concat_cols_right {M A B C : Nat} {α : Type} (x₁ : (⟨2, ![M, A]⟩ : Shape).Idx → α)
    (x₂ : (⟨2, ![M, B]⟩ : Shape).Idx → α)
    (h : Shape.Concatenates [⟨2, ![M, A]⟩, ⟨2, ![M, B]⟩] ⟨2, ![M, C]⟩ 1) (r : Fin M) (k : Fin B)
    (hk : A + k.val < C) :
    concatenate ⟨2, ![M, C]⟩ 1 [⟨⟨2, ![M, A]⟩, x₁⟩, ⟨⟨2, ![M, B]⟩, x₂⟩] h (ix2 r ⟨A + k.val, hk⟩) = x₂ (ix2 r k) :=
  concatenate_pair_apply_right (1 : Fin 2) x₁ x₂ h (ix2 r ⟨A + k.val, hk⟩) rfl rfl (ix2 r k)
    (fun b => match b with
      | ⟨0, _⟩ => fun _ => rfl
      | ⟨1, _⟩ => fun hne => absurd rfl hne)
    (by show k.val + A = A + k.val; omega)

/-! ## A transposed matrix -/

/-- A transposed matrix read at `(k, j)` is the matrix at `(j, k)`. -/
theorem transpose10_apply {A B : Nat} {α : Type} (x : (⟨2, ![A, B]⟩ : Shape).Idx → α)
    (h : (⟨2, ![A, B]⟩ : Shape).Transposes [1, 0] ⟨2, ![B, A]⟩) (k : Fin B) (j : Fin A) :
    transpose ⟨2, ![B, A]⟩ [1, 0] x h (ix2 k j) = x (ix2 j k) :=
  transpose_apply [1, 0] x h (ix2 k j) (ix2 j k) (fun b => match b with | ⟨0, _⟩ => rfl | ⟨1, _⟩ => rfl)

/-! ## A block of consecutive rows -/

/-- The block of `K` consecutive rows starting at row `off`, read at `(k, j)`: the array at `(off + k, j)`. -/
theorem slice_rows_apply {R C K off : Nat} {α : Type} (x : (⟨2, ![R, C]⟩ : Shape).Idx → α)
    (h : (⟨2, ![R, C]⟩ : Shape).Slices ![off, 0] ⟨2, ![K, C]⟩) (k : Fin K) (j : Fin C) (hk : off + k.val < R) :
    extractStridedSlice ⟨2, ![K, C]⟩ ![off, 0] x h (ix2 k j) = x (ix2 ⟨off + k.val, hk⟩ j) :=
  extractStridedSlice_apply ![off, 0] x h (ix2 k j) (ix2 ⟨off + k.val, hk⟩ j) (fun a => match a with
    | ⟨0, _⟩ => rfl
    | ⟨1, _⟩ => by show j.val = 0 + j.val; omega)

/-! ## A vector spread over a matrix -/

/-- A vector of length `N` made a one-row matrix and then spread over `M` rows, read at `(r, j)`: the vector at
    `j` (a bias added to every row). -/
theorem bias_apply {M N : Nat} {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    broadcastInDim ⟨2, ![M, N]⟩ ![0, 1] h2 (broadcastInDim ⟨2, ![1, N]⟩ ![1] h1 b) (ix2 r j) = b (ix1 j) := by
  have hj : j.val = if N = 1 then 0 else j.val := by
    split_ifs with hN
    · have := j.isLt; omega
    · rfl
  refine (broadcastInDim_apply (s := ⟨2, ![1, N]⟩) (t := ⟨2, ![M, N]⟩) ![0, 1] h2 _ (ix2 r j) (ix2 (0 : Fin 1) j) (fun a => match a with
    | ⟨0, _⟩ => by show (0 : ℕ) = if (1 : ℕ) = 1 then 0 else r.val; rw [if_pos rfl]
    | ⟨1, _⟩ => by exact hj)).trans ?_
  exact broadcastInDim_apply (s := ⟨1, ![N]⟩) (t := ⟨2, ![1, N]⟩) ![1] h1 b (ix2 (0 : Fin 1) j) (ix1 j) (fun a => match a with
    | ⟨0, _⟩ => by exact hj)

/-- A vector of length `M` made a one-column matrix and then spread over `N` columns, read at `(r, k)`: the
    vector at `r` (a per-row quantity repeated along the row). -/
theorem col_apply {M N : Nat} {α : Type} (d : (⟨1, ![M]⟩ : Shape).Idx → α)
    (h1 : (⟨1, ![M]⟩ : Shape).BroadcastsInDim ⟨2, ![M, 1]⟩ ![0])
    (h2 : (⟨2, ![M, 1]⟩ : Shape).BroadcastsInDim ⟨2, ![M, N]⟩ ![0, 1]) (r : Fin M) (k : Fin N) :
    broadcastInDim ⟨2, ![M, N]⟩ ![0, 1] h2 (broadcastInDim ⟨2, ![M, 1]⟩ ![0] h1 d) (ix2 r k) = d (ix1 r) := by
  have hr : r.val = if M = 1 then 0 else r.val := by
    split_ifs with hM
    · have := r.isLt; omega
    · rfl
  refine (broadcastInDim_apply (s := ⟨2, ![M, 1]⟩) (t := ⟨2, ![M, N]⟩) ![0, 1] h2 _ (ix2 r k) (ix2 r (0 : Fin 1)) (fun a => match a with
    | ⟨0, _⟩ => by exact hr
    | ⟨1, _⟩ => by show (0 : ℕ) = if (1 : ℕ) = 1 then 0 else k.val; rw [if_pos rfl])).trans ?_
  exact broadcastInDim_apply (s := ⟨1, ![M]⟩) (t := ⟨2, ![M, 1]⟩) ![0] h1 d (ix2 r (0 : Fin 1)) (ix1 r) (fun a => match a with
    | ⟨0, _⟩ => by exact hr)

/-! ## A vector reshaped to a matrix with one column or one row -/

/-- A vector of length `M` reshaped to a one-column matrix, read at `(r, 0)`: the vector at `r`. -/
theorem col_reshape_apply {M : Nat} {α : Type} (x : (⟨1, ![M]⟩ : Shape).Idx → α)
    (h : (⟨1, ![M]⟩ : Shape).ShapeCasts ⟨2, ![M, 1]⟩) (r : Fin M) :
    shapeCast ⟨2, ![M, 1]⟩ x h (ix2 r 0) = x (ix1 r) :=
  shapeCast_apply x h (ix2 r 0) (ix1 r) (by
    rw [Shape.rowMajor_val_one, Shape.rowMajor_val_two]
    show r.val = r.val * 1 + 0
    omega)

/-- A vector of length `N` reshaped to a one-row matrix, read at `(0, j)`: the vector at `j`. -/
theorem row_reshape_apply {N : Nat} {α : Type} (x : (⟨1, ![N]⟩ : Shape).Idx → α)
    (h : (⟨1, ![N]⟩ : Shape).ShapeCasts ⟨2, ![1, N]⟩) (j : Fin N) :
    shapeCast ⟨2, ![1, N]⟩ x h (ix2 0 j) = x (ix1 j) :=
  shapeCast_apply x h (ix2 0 j) (ix1 j) (by
    rw [Shape.rowMajor_val_one, Shape.rowMajor_val_two]
    show j.val = 0 * N + j.val
    omega)

end Cert.Sage.ReadAt

end
-- ==== Proof.LibDenseSpec.lean ====
/-
  The dense part of one graph-isomorphism layer and the read-out head, entry by entry over the extended reals.

  A layer takes the node features h and the summed neighbour features g (both N rows of K numbers), adds them,
  multiplies by a K x H matrix, adds a bias to every row, clamps below at zero, multiplies by an H x H matrix, adds a
  second bias and clamps again:
      out[r, c] = max( Σ_j max( Σ_k (h[r,k] + g[r,k]) · w1[k,j] + b1[j], 0 ) · w2[j,c] + b2[c], 0 ).
  The head is the same two products and biases without the clamps:
      out[r, c] = Σ_j ( Σ_k p[r,k] · w1[k,j] + b1[j] ) · w2[j,c] + b2[c].
  The biases enter as functions of the column, so that a bias stored as a vector and one stored as a one-row matrix
  are the same argument.  The zero of the clamp is kept as the float word both programs write.
-/
import Idealize.ShloMosaic.PureOps.Ideal.Laws
import Idealize.ShloMosaic.Lib.ValueIdx

noncomputable section

open scoped BigOperators

namespace Cert.Gin

open Idealize.ShloMosaic Idealize.ShloMosaic.ValueIdx

/-- The clamp's lower bound: the float word of +0.0, read as an extended real. -/
abbrev zeroWord : EReal := Ideal.ofBits .f32 0x00000000#32

/-- One layer's dense part at row `r`, column `c`. -/
def mlpAt {N K H : Nat} (h g : (⟨2, ![N, K]⟩ : Shape).Idx → EReal) (w1 : (⟨2, ![K, H]⟩ : Shape).Idx → EReal)
    (b1 : Fin H → EReal) (w2 : (⟨2, ![H, H]⟩ : Shape).Idx → EReal) (b2 : Fin H → EReal) (r : Fin N) (c : Fin H) : EReal :=
  max ((∑ j : Fin H, max ((∑ k : Fin K, (h (ix2 r k) + g (ix2 r k)) * w1 (ix2 k j)) + b1 j) zeroWord * w2 (ix2 j c)) + b2 c)
    zeroWord

/-- One layer's dense part as an array of N rows and H columns. -/
def mlpCore {N K H : Nat} (h g : (⟨2, ![N, K]⟩ : Shape).Idx → EReal) (w1 : (⟨2, ![K, H]⟩ : Shape).Idx → EReal)
    (b1 : Fin H → EReal) (w2 : (⟨2, ![H, H]⟩ : Shape).Idx → EReal) (b2 : Fin H → EReal) :
    (⟨2, ![N, H]⟩ : Shape).Idx → EReal :=
  fun i => mlpAt h g w1 b1 w2 b2 (i 0) (i 1)

theorem mlpCore_apply {N K H : Nat} (h g : (⟨2, ![N, K]⟩ : Shape).Idx → EReal) (w1 : (⟨2, ![K, H]⟩ : Shape).Idx → EReal)
    (b1 : Fin H → EReal) (w2 : (⟨2, ![H, H]⟩ : Shape).Idx → EReal) (b2 : Fin H → EReal) (r : Fin N) (c : Fin H) :
    mlpCore h g w1 b1 w2 b2 (ix2 r c) = mlpAt h g w1 b1 w2 b2 r c := rfl

/-- The head at row `r`, column `c`. -/
def headAt {G H O : Nat} (p : (⟨2, ![G, H]⟩ : Shape).Idx → EReal) (w1 : (⟨2, ![H, H]⟩ : Shape).Idx → EReal)
    (b1 : Fin H → EReal) (w2 : (⟨2, ![H, O]⟩ : Shape).Idx → EReal) (b2 : Fin O → EReal) (r : Fin G) (c : Fin O) : EReal :=
  (∑ j : Fin H, ((∑ k : Fin H, p (ix2 r k) * w1 (ix2 k j)) + b1 j) * w2 (ix2 j c)) + b2 c

/-- The head as an array of G rows and O columns. -/
def headCore {G H O : Nat} (p : (⟨2, ![G, H]⟩ : Shape).Idx → EReal) (w1 : (⟨2, ![H, H]⟩ : Shape).Idx → EReal)
    (b1 : Fin H → EReal) (w2 : (⟨2, ![H, O]⟩ : Shape).Idx → EReal) (b2 : Fin O → EReal) :
    (⟨2, ![G, O]⟩ : Shape).Idx → EReal :=
  fun i => headAt p w1 b1 w2 b2 (i 0) (i 1)

theorem headCore_apply {G H O : Nat} (p : (⟨2, ![G, H]⟩ : Shape).Idx → EReal) (w1 : (⟨2, ![H, H]⟩ : Shape).Idx → EReal)
    (b1 : Fin H → EReal) (w2 : (⟨2, ![H, O]⟩ : Shape).Idx → EReal) (b2 : Fin O → EReal) (r : Fin G) (c : Fin O) :
    headCore p w1 b1 w2 b2 (ix2 r c) = headAt p w1 b1 w2 b2 r c := rfl

end Cert.Gin

end
-- ==== Proof.LibDense.lean ====
/-
  The two spellings of a dense block, read at one entry.

  Inside the kernel a dense block is spelled with matrix products into a zero accumulator, format changes (the
  identity on extended reals), a one-row bias matrix spread over the rows, and a clamp against a splat of the zero
  word.  On the host it is spelled with `dot_general`, a bias vector made a one-row matrix and then spread over the rows,
  and a clamp against the broadcast scalar zero word.  Read at row p, column q, both are the same nested sum: the
  product contracts the left operand's columns against the right operand's rows, a spread row contributes its entry at
  the column, and the format changes disappear.  The same for the head, which has no clamps.
-/
import Idealize.ShloMosaic.PureOps.Ideal.Laws
import Idealize.ShloMosaic.Lib.ValueIdx
import Idealize.ShloMosaic.Lib.Pipeline.Value
import proofs.«149707_j50672024159115_1_alg».proof.Proof.LibDenseSpec
import proofs.«149707_j50672024159115_1_alg».proof.Proof.LibDot
import proofs.«149707_j50672024159115_1_alg».proof.Proof.LibReadAt

noncomputable section

open scoped BigOperators

namespace Cert.Gin

open Idealize.ShloMosaic Idealize.ShloMosaic.ValueIdx

/-- A one-row matrix spread over M rows, read at (p, j): the row's entry at column j. -/
theorem rowSpread_apply {M H : Nat} {α : Type} (b : (⟨2, ![1, H]⟩ : Shape).Idx → α)
    (h : (⟨2, ![1, H]⟩ : Shape).Broadcasts ⟨2, ![M, H]⟩) (p : Fin M) (j : Fin H) :
    broadcastTo ⟨2, ![M, H]⟩ b h (ix2 p j) = b (ix2 (0 : Fin 1) j) :=
  broadcastTo_apply b h (ix2 p j) (ix2 (0 : Fin 1) j) (fun a => match a with
    | ⟨0, _⟩ => by show (0 : ℕ) = if (1 : ℕ) = 1 then 0 else p.val; rw [if_pos rfl]
    | ⟨1, _⟩ => by
        show j.val = if H = 1 then 0 else j.val
        split_ifs with hH
        · have := j.isLt; omega
        · rfl)

/-- The scalar zero word broadcast over a whole array, at any entry: the zero word. -/
theorem zeroSpread_apply {s : Shape} (h : (⟨0, ![]⟩ : Shape).BroadcastsInDim s ![]) (i : s.Idx) :
    broadcastInDim s ![] h (constant (F := Ideal) ⟨0, ![]⟩ .f32 0x00000000#32) i = zeroWord :=
  broadcastInDim_apply ![] h _ i ix0 (fun a => a.elim0)

/-- The kernel body's dense block at (p, q). -/
theorem dense_payload {M K H : Nat}
    (wf1 : DotDims.WF ⟨2, ![M, K]⟩ ⟨2, ![K, H]⟩ ⟨2, ![M, H]⟩ [1] [0] [0] [1] [] [])
    (wf2 : DotDims.WF ⟨2, ![M, H]⟩ ⟨2, ![H, H]⟩ ⟨2, ![M, H]⟩ [1] [0] [0] [1] [] [])
    (hb : (⟨2, ![1, H]⟩ : Shape).Broadcasts ⟨2, ![M, H]⟩) (hlt : FTy.bits .bf16 < FTy.bits .f32)
    (x g : FVec Ideal ⟨2, ![M, K]⟩ .f32) (w1 : FVec Ideal ⟨2, ![K, H]⟩ .f32) (b1 : FVec Ideal ⟨2, ![1, H]⟩ .f32)
    (w2 : FVec Ideal ⟨2, ![H, H]⟩ .f32) (b2 : FVec Ideal ⟨2, ![1, H]⟩ .f32) (p : Fin M) (q : Fin H) :
    maximumf (addf (matmul (⟨[1], [0], [0], [1], [], [], wf2⟩ : DotDims ⟨2, ![M, H]⟩ ⟨2, ![H, H]⟩ ⟨2, ![M, H]⟩) none
        (truncf .bf16 (maximumf (addf (matmul (⟨[1], [0], [0], [1], [], [], wf1⟩ : DotDims ⟨2, ![M, K]⟩ ⟨2, ![K, H]⟩ ⟨2, ![M, H]⟩) none
              (truncf .bf16 (addf x g) hlt) (truncf .bf16 w1 hlt) (constant ⟨2, ![M, H]⟩ .f32 0x00000000#32))
            (broadcastTo ⟨2, ![M, H]⟩ b1 hb)) (broadcast ⟨2, ![M, H]⟩ (Scalar.ofBits .f32 0x00000000#32))) hlt)
        (truncf .bf16 w2 hlt) (constant ⟨2, ![M, H]⟩ .f32 0x00000000#32)) (broadcastTo ⟨2, ![M, H]⟩ b2 hb))
      (broadcast ⟨2, ![M, H]⟩ (Scalar.ofBits .f32 0x00000000#32)) (ix2 p q)
    = mlpAt x g w1 (fun j => b1 (ix2 (0 : Fin 1) j)) w2 (fun j => b2 (ix2 (0 : Fin 1) j)) p q := by
  unfold mlpAt
  have inner : ∀ j : Fin H,
      (truncf .bf16 (maximumf (addf (matmul (⟨[1], [0], [0], [1], [], [], wf1⟩ : DotDims ⟨2, ![M, K]⟩ ⟨2, ![K, H]⟩ ⟨2, ![M, H]⟩) none
              (truncf .bf16 (addf x g) hlt) (truncf .bf16 w1 hlt) (constant ⟨2, ![M, H]⟩ .f32 0x00000000#32))
            (broadcastTo ⟨2, ![M, H]⟩ b1 hb)) (broadcast ⟨2, ![M, H]⟩ (Scalar.ofBits .f32 0x00000000#32))) hlt) (ix2 p j)
        = max ((∑ k : Fin K, (x (ix2 p k) + g (ix2 p k)) * w1 (ix2 k j)) + b1 (ix2 (0 : Fin 1) j)) zeroWord := fun j => by
    show max (FloatOps.matmul _ none _ _ _ (ix2 p j) + broadcastTo _ b1 hb (ix2 p j)) _ = _
    rw [LibDot.matmul_cols_rows, rowSpread_apply]
    rfl
  show max (FloatOps.matmul _ none _ _ _ (ix2 p q) + broadcastTo _ b2 hb (ix2 p q)) _ = _
  rw [LibDot.matmul_cols_rows, rowSpread_apply]
  simp only [inner]
  rfl

/-- The host's dense block at (p, q). -/
theorem dense_host {N K H : Nat}
    (wf1 : DotDims.WF ⟨2, ![N, K]⟩ ⟨2, ![K, H]⟩ ⟨2, ![N, H]⟩ [1] [0] [0] [1] [] [])
    (wf2 : DotDims.WF ⟨2, ![N, H]⟩ ⟨2, ![H, H]⟩ ⟨2, ![N, H]⟩ [1] [0] [0] [1] [] [])
    (hr : (⟨1, ![H]⟩ : Shape).BroadcastsInDim ⟨2, ![1, H]⟩ ![1])
    (hs : (⟨2, ![1, H]⟩ : Shape).BroadcastsInDim ⟨2, ![N, H]⟩ ![0, 1])
    (hz : (⟨0, ![]⟩ : Shape).BroadcastsInDim ⟨2, ![N, H]⟩ ![])
    (x g : FVec Ideal ⟨2, ![N, K]⟩ .f32) (w1 : FVec Ideal ⟨2, ![K, H]⟩ .f32) (b1 : FVec Ideal ⟨1, ![H]⟩ .f32)
    (w2 : FVec Ideal ⟨2, ![H, H]⟩ .f32) (b2 : FVec Ideal ⟨1, ![H]⟩ .f32) (p : Fin N) (q : Fin H) :
    maximumf (addf (Host.dotGeneral (⟨[1], [0], [0], [1], [], [], wf2⟩ : DotDims ⟨2, ![N, H]⟩ ⟨2, ![H, H]⟩ ⟨2, ![N, H]⟩) none
        (maximumf (addf (Host.dotGeneral (⟨[1], [0], [0], [1], [], [], wf1⟩ : DotDims ⟨2, ![N, K]⟩ ⟨2, ![K, H]⟩ ⟨2, ![N, H]⟩) none
              (addf x g) w1)
            (broadcastInDim ⟨2, ![N, H]⟩ ![0, 1] hs (broadcastInDim ⟨2, ![1, H]⟩ ![1] hr b1)))
          (broadcastInDim ⟨2, ![N, H]⟩ ![] hz (constant ⟨0, ![]⟩ .f32 0x00000000#32))) w2)
        (broadcastInDim ⟨2, ![N, H]⟩ ![0, 1] hs (broadcastInDim ⟨2, ![1, H]⟩ ![1] hr b2)))
      (broadcastInDim ⟨2, ![N, H]⟩ ![] hz (constant ⟨0, ![]⟩ .f32 0x00000000#32)) (ix2 p q)
    = mlpAt x g w1 (fun j => b1 (ix1 j)) w2 (fun j => b2 (ix1 j)) p q := by
  unfold mlpAt
  have inner : ∀ j : Fin H,
      (maximumf (addf (Host.dotGeneral (⟨[1], [0], [0], [1], [], [], wf1⟩ : DotDims ⟨2, ![N, K]⟩ ⟨2, ![K, H]⟩ ⟨2, ![N, H]⟩) none
              (addf x g) w1)
            (broadcastInDim ⟨2, ![N, H]⟩ ![0, 1] hs (broadcastInDim ⟨2, ![1, H]⟩ ![1] hr b1)))
          (broadcastInDim ⟨2, ![N, H]⟩ ![] hz (constant ⟨0, ![]⟩ .f32 0x00000000#32))) (ix2 p j)
        = max ((∑ k : Fin K, (x (ix2 p k) + g (ix2 p k)) * w1 (ix2 k j)) + b1 (ix1 j)) zeroWord := fun j => by
    show max (Host.dotGeneral _ none _ _ (ix2 p j) + broadcastInDim _ _ hs _ (ix2 p j)) (broadcastInDim _ _ hz _ (ix2 p j)) = _
    rw [Cert.Sage.ReadAt.dotGeneral_cols_rows, Cert.Sage.ReadAt.bias_apply, zeroSpread_apply]
    rfl
  show max (Host.dotGeneral _ none _ _ (ix2 p q) + broadcastInDim _ _ hs _ (ix2 p q)) (broadcastInDim _ _ hz _ (ix2 p q)) = _
  rw [Cert.Sage.ReadAt.dotGeneral_cols_rows, Cert.Sage.ReadAt.bias_apply, zeroSpread_apply]
  simp only [inner]

/-- The kernel body's head at (p, q). -/
theorem head_payload {M H O : Nat}
    (wf1 : DotDims.WF ⟨2, ![M, H]⟩ ⟨2, ![H, H]⟩ ⟨2, ![M, H]⟩ [1] [0] [0] [1] [] [])
    (wf2 : DotDims.WF ⟨2, ![M, H]⟩ ⟨2, ![H, O]⟩ ⟨2, ![M, O]⟩ [1] [0] [0] [1] [] [])
    (hb1 : (⟨2, ![1, H]⟩ : Shape).Broadcasts ⟨2, ![M, H]⟩) (hb2 : (⟨2, ![1, O]⟩ : Shape).Broadcasts ⟨2, ![M, O]⟩)
    (hlt : FTy.bits .bf16 < FTy.bits .f32)
    (x : FVec Ideal ⟨2, ![M, H]⟩ .f32) (w1 : FVec Ideal ⟨2, ![H, H]⟩ .f32) (b1 : FVec Ideal ⟨2, ![1, H]⟩ .f32)
    (w2 : FVec Ideal ⟨2, ![H, O]⟩ .f32) (b2 : FVec Ideal ⟨2, ![1, O]⟩ .f32) (p : Fin M) (q : Fin O) :
    addf (matmul (⟨[1], [0], [0], [1], [], [], wf2⟩ : DotDims ⟨2, ![M, H]⟩ ⟨2, ![H, O]⟩ ⟨2, ![M, O]⟩) none
        (truncf .bf16 (addf (matmul (⟨[1], [0], [0], [1], [], [], wf1⟩ : DotDims ⟨2, ![M, H]⟩ ⟨2, ![H, H]⟩ ⟨2, ![M, H]⟩) none
              (truncf .bf16 x hlt) (truncf .bf16 w1 hlt) (constant ⟨2, ![M, H]⟩ .f32 0x00000000#32))
            (broadcastTo ⟨2, ![M, H]⟩ b1 hb1)) hlt)
        (truncf .bf16 w2 hlt) (constant ⟨2, ![M, O]⟩ .f32 0x00000000#32)) (broadcastTo ⟨2, ![M, O]⟩ b2 hb2) (ix2 p q)
    = headAt x w1 (fun j => b1 (ix2 (0 : Fin 1) j)) w2 (fun j => b2 (ix2 (0 : Fin 1) j)) p q := by
  unfold headAt
  have inner : ∀ j : Fin H,
      (truncf .bf16 (addf (matmul (⟨[1], [0], [0], [1], [], [], wf1⟩ : DotDims ⟨2, ![M, H]⟩ ⟨2, ![H, H]⟩ ⟨2, ![M, H]⟩) none
              (truncf .bf16 x hlt) (truncf .bf16 w1 hlt) (constant ⟨2, ![M, H]⟩ .f32 0x00000000#32))
            (broadcastTo ⟨2, ![M, H]⟩ b1 hb1)) hlt) (ix2 p j)
        = (∑ k : Fin H, x (ix2 p k) * w1 (ix2 k j)) + b1 (ix2 (0 : Fin 1) j) := fun j => by
    show FloatOps.matmul _ none _ _ _ (ix2 p j) + broadcastTo _ b1 hb1 (ix2 p j) = _
    rw [LibDot.matmul_cols_rows, rowSpread_apply]
    rfl
  show FloatOps.matmul _ none _ _ _ (ix2 p q) + broadcastTo _ b2 hb2 (ix2 p q) = _
  rw [LibDot.matmul_cols_rows, rowSpread_apply]
  simp only [inner]
  rfl

/-- The host's head at (p, q). -/
theorem head_host {N H O : Nat}
    (wf1 : DotDims.WF ⟨2, ![N, H]⟩ ⟨2, ![H, H]⟩ ⟨2, ![N, H]⟩ [1] [0] [0] [1] [] [])
    (wf2 : DotDims.WF ⟨2, ![N, H]⟩ ⟨2, ![H, O]⟩ ⟨2, ![N, O]⟩ [1] [0] [0] [1] [] [])
    (hr1 : (⟨1, ![H]⟩ : Shape).BroadcastsInDim ⟨2, ![1, H]⟩ ![1])
    (hs1 : (⟨2, ![1, H]⟩ : Shape).BroadcastsInDim ⟨2, ![N, H]⟩ ![0, 1])
    (hr2 : (⟨1, ![O]⟩ : Shape).BroadcastsInDim ⟨2, ![1, O]⟩ ![1])
    (hs2 : (⟨2, ![1, O]⟩ : Shape).BroadcastsInDim ⟨2, ![N, O]⟩ ![0, 1])
    (x : FVec Ideal ⟨2, ![N, H]⟩ .f32) (w1 : FVec Ideal ⟨2, ![H, H]⟩ .f32) (b1 : FVec Ideal ⟨1, ![H]⟩ .f32)
    (w2 : FVec Ideal ⟨2, ![H, O]⟩ .f32) (b2 : FVec Ideal ⟨1, ![O]⟩ .f32) (p : Fin N) (q : Fin O) :
    addf (Host.dotGeneral (⟨[1], [0], [0], [1], [], [], wf2⟩ : DotDims ⟨2, ![N, H]⟩ ⟨2, ![H, O]⟩ ⟨2, ![N, O]⟩) none
        (addf (Host.dotGeneral (⟨[1], [0], [0], [1], [], [], wf1⟩ : DotDims ⟨2, ![N, H]⟩ ⟨2, ![H, H]⟩ ⟨2, ![N, H]⟩) none x w1)
          (broadcastInDim ⟨2, ![N, H]⟩ ![0, 1] hs1 (broadcastInDim ⟨2, ![1, H]⟩ ![1] hr1 b1))) w2)
      (broadcastInDim ⟨2, ![N, O]⟩ ![0, 1] hs2 (broadcastInDim ⟨2, ![1, O]⟩ ![1] hr2 b2)) (ix2 p q)
    = headAt x w1 (fun j => b1 (ix1 j)) w2 (fun j => b2 (ix1 j)) p q := by
  unfold headAt
  have inner : ∀ j : Fin H,
      (addf (Host.dotGeneral (⟨[1], [0], [0], [1], [], [], wf1⟩ : DotDims ⟨2, ![N, H]⟩ ⟨2, ![H, H]⟩ ⟨2, ![N, H]⟩) none x w1)
          (broadcastInDim ⟨2, ![N, H]⟩ ![0, 1] hs1 (broadcastInDim ⟨2, ![1, H]⟩ ![1] hr1 b1))) (ix2 p j)
        = (∑ k : Fin H, x (ix2 p k) * w1 (ix2 k j)) + b1 (ix1 j) := fun j => by
    show Host.dotGeneral _ none _ _ (ix2 p j) + broadcastInDim _ _ hs1 _ (ix2 p j) = _
    rw [Cert.Sage.ReadAt.dotGeneral_cols_rows, Cert.Sage.ReadAt.bias_apply]
  show Host.dotGeneral _ none _ _ (ix2 p q) + broadcastInDim _ _ hs2 _ (ix2 p q) = _
  rw [Cert.Sage.ReadAt.dotGeneral_cols_rows, Cert.Sage.ReadAt.bias_apply]
  simp only [inner]

end Cert.Gin

end
-- ==== Proof.RowMath.lean ====
/-
  The arithmetic of one output row, read entry by entry over the extended reals.

  Every kernel of this network works on a block of 5000 consecutive node rows and, within the block, row by row:
  a product with a weight matrix is entry (p, q) ↦ Σ_k x[p, k] · w[k, q]; a bias adds b[q]; the row normalisation divides
  x[p, q] by max(√(Σ_k x[p, k]²), ε); the leaky rectifier keeps v ≥ 0 and scales v < 0 by the slope. The host's
  whole-array operations say the same of row r of the whole array. The two readings differ in three harmless ways, all
  settled here: the host's sum starts from the zero word (0 + s = s); the host spreads a bias, a norm column and a
  scalar with broadcast_in_dim where the kernel reshapes and broadcasts; and the kernel's rectifier tests v > 0 where
  the host's tests v ≥ 0 — at v = 0 both give 0, because slope · 0 = 0.
-/
import Idealize.ShloMosaic.PureOps.Ideal.Laws
import Idealize.ShloMosaic.Lib.ValueIdx
import Idealize.ShloMosaic.Lib.Pipeline.Value
import proofs.«149707_j50672024159115_1_alg».proof.Proof.LibDot
import proofs.«149707_j50672024159115_1_alg».proof.Proof.LibReadAt
import proofs.«149707_j50672024159115_1_alg».proof.Proof.LibDense

noncomputable section

open scoped BigOperators

namespace Cert.RowMath

open Idealize.ShloMosaic Idealize.ShloMosaic.ValueIdx

/-! ## Spreading a column, a vector and a scalar -/

/-- A one-column matrix spread over N columns (the kernel's broadcast), read at (p, j): the column's entry at row p. -/
theorem colSpread_apply {M N : Nat} {α : Type} (d : (⟨2, ![M, 1]⟩ : Shape).Idx → α)
    (h : (⟨2, ![M, 1]⟩ : Shape).Broadcasts ⟨2, ![M, N]⟩) (p : Fin M) (j : Fin N) :
    broadcastTo ⟨2, ![M, N]⟩ d h (ix2 p j) = d (ix2 p (0 : Fin 1)) :=
  broadcastTo_apply d h (ix2 p j) (ix2 p (0 : Fin 1)) (fun a => match a with
    | ⟨0, _⟩ => by
        show p.val = if M = 1 then 0 else p.val
        split_ifs with hM
        · have := p.isLt; omega
        · rfl
    | ⟨1, _⟩ => by show (0 : ℕ) = if (1 : ℕ) = 1 then 0 else j.val; rw [if_pos rfl])

/-- A one-column matrix spread over N columns (the host's broadcast_in_dim along both axes), read at (r, k). -/
theorem colKeep_apply {M N : Nat} {α : Type} (d : (⟨2, ![M, 1]⟩ : Shape).Idx → α)
    (h : (⟨2, ![M, 1]⟩ : Shape).BroadcastsInDim ⟨2, ![M, N]⟩ ![0, 1]) (r : Fin M) (k : Fin N) :
    broadcastInDim ⟨2, ![M, N]⟩ ![0, 1] h d (ix2 r k) = d (ix2 r (0 : Fin 1)) :=
  broadcastInDim_apply ![0, 1] h d (ix2 r k) (ix2 r (0 : Fin 1)) (fun a => match a with
    | ⟨0, _⟩ => by
        show r.val = if M = 1 then 0 else r.val
        split_ifs with hM
        · have := r.isLt; omega
        · rfl
    | ⟨1, _⟩ => by show (0 : ℕ) = if (1 : ℕ) = 1 then 0 else k.val; rw [if_pos rfl])

/-- A vector made a one-column matrix (the host's broadcast_in_dim along axis 0), read at (r, 0). -/
theorem colOf_apply {M : Nat} {α : Type} (v : (⟨1, ![M]⟩ : Shape).Idx → α)
    (h : (⟨1, ![M]⟩ : Shape).BroadcastsInDim ⟨2, ![M, 1]⟩ ![0]) (r : Fin M) :
    broadcastInDim ⟨2, ![M, 1]⟩ ![0] h v (ix2 r (0 : Fin 1)) = v (ix1 r) :=
  broadcastInDim_apply ![0] h v (ix2 r (0 : Fin 1)) (ix1 r) (fun a => match a with
    | ⟨0, _⟩ => by
        show r.val = if M = 1 then 0 else r.val
        split_ifs with hM
        · have := r.isLt; omega
        · rfl)

/-- A scalar spread over a whole array, at any entry: the scalar. -/
theorem scalarSpread_apply {s : Shape} {α : Type} (h : (⟨0, ![]⟩ : Shape).BroadcastsInDim s ![]) (v : (⟨0, ![]⟩ : Shape).Idx → α)
    (i : s.Idx) : broadcastInDim s ![] h v i = v ix0 :=
  broadcastInDim_apply ![] h v i ix0 (fun a => a.elim0)

/-! ## The leaky rectifier at one entry -/

/-- Testing `v > 0` or `v ≥ 0` gives the same rectified value: at v = 0 the scaled branch is slope · 0 = 0 = v. -/
theorem lrelu_scalar (c y : EReal) :
    Scalar.select (Ideal.cmp .ogt y 0) y (c * y) = Scalar.select (Ideal.cmp .oge y 0) y (c * y) := by
  unfold Scalar.select Ideal.cmp
  rcases lt_trichotomy (0 : EReal) y with h | h | h
  · simp [h, h.le]
  · subst h; simp
  · simp [not_lt.mpr h.le, not_le.mpr h]

/-! ## A sum along a row -/

/-- Over a row index `r` of a matrix, the index with column `k` put back is `(r, k)`. -/
theorem lift_row {M N : Nat} (h : (⟨2, ![M, N]⟩ : Shape).Reduces [1] ⟨1, ![M]⟩) (r : Fin M) (k : Fin N) :
    h.lift (ix1 r) k = ix2 r k := by
  funext c
  apply Fin.ext
  show h.liftVal (ix1 r) k.val c = (ix2 r k c).val
  unfold Shape.Reduces.liftVal
  match c with
  | ⟨0, _⟩ =>
    split
    · next hc => exact absurd hc (show ¬ ((0 : ℕ) = 1) from Nat.zero_ne_one)
    · split
      · rfl
      · next _ hlt => exact absurd (show (0 : ℕ) < 1 from Nat.zero_lt_one) hlt
  | ⟨1, _⟩ =>
    split
    · rfl
    · next hc => exact absurd (show (1 : ℕ) = 1 from rfl) hc

/-- The kernel's sum over the columns (its accumulator the zero word), at row p: Σ_k v[p, k]. -/
theorem laneSum_apply {M N : Nat} (v : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ v 0x00000000#32 h (.inl rfl) hacc (ix1 p) = ∑ k : Fin N, v (ix2 p k) := by
  refine (Ideal.multiReduction_add_single v 0x00000000#32 h (.inl rfl) hacc (ix1 p)).trans ?_
  exact Finset.sum_congr rfl fun k _ => congrArg v (lift_row h p k)

/-- The host's sum over the columns from the zero word, at row r: Σ_k v[r, k] (0 + s = s). -/
theorem hostSum_apply {M N : Nat} (v : FVec Ideal ⟨2, ![M, N]⟩ .f32) (h' : (⟨2, ![M, N]⟩ : Shape).ReducesTo [1] ⟨1, ![M]⟩)
    (h : (⟨2, ![M, N]⟩ : Shape).Reduces [1] ⟨1, ![M]⟩) (hu : 0 < (⟨0, ![]⟩ : Shape).numel) (r : Fin M) :
    Host.reduceAdd (F := Ideal) v (constant (F := Ideal) ⟨0, ![]⟩ .f32 0x00000000#32) h' hu (ix1 r) = ∑ k : Fin N, v (ix2 r k) := by
  show Ideal.hostReduceAdd h' v (Ideal.ofBits .f32 0x00000000#32) (ix1 r) = _
  rw [Ideal.hostReduceAdd_single h' h, Ideal.ofBits_zero_f32, zero_add]
  exact Finset.sum_congr rfl fun k _ => congrArg v (lift_row h r k)

/-! ## One row's arithmetic -/

/-- ε of the row normalisation, the constant both programs spell. -/
def epsW : EReal := Ideal.ofBits .f32 0x2B8CBCCC#32
/-- The leaky rectifier's slope, the constant both programs spell. -/
def slopeW : EReal := Ideal.ofBits .f32 0x3C23D70A#32

/-- An entry `x` of a row divided by max(√(Σ_k row[k]²), ε). -/
def nrm {N : Nat} (row : Fin N → EReal) (x : EReal) : EReal :=
  Ideal.div x (max (Ideal.sqrt (∑ k : Fin N, row k * row k)) epsW)

/-- The leaky rectifier: v for v ≥ 0, slope · v otherwise. -/
def lrelu (y : EReal) : EReal := Scalar.select (Ideal.cmp .oge y 0) y (slopeW * y)

end Cert.RowMath

end
-- ==== Proof.KPay.lean ====
/-
  What each kernel body computes from its loaded blocks, read at one entry (p, q) of the 5000-row block.

  The six bodies are compositions of four pieces: the product of the block with a weight matrix (into a zero
  accumulator; the change to bf16 in front of it is the identity on exact values), a bias row added to every row, the
  row normalisation, and the leaky rectifier. Each piece is read at an entry once, over any block; a body is then read
  by composing them.
-/
import proofs.«149707_j50672024159115_1_alg».proof.Proof.Gen.KernelIdeal.Skeleton
import proofs.«149707_j50672024159115_1_alg».proof.Proof.RowMath

noncomputable section

open scoped BigOperators

namespace Cert.KernelIdeal.Pay

open Idealize.ShloMosaic Idealize.ShloMosaic.ValueIdx Cert.KernelIdeal Cert.KernelIdeal.Facts₀ Cert.KernelIdeal.Facts
open Cert.RowMath Cert.Sage.ReadAt Cert.LibDot Cert.Gin

variable [Cert.KernelIdeal.Facts]

/-! ## The four pieces -/

/-- A 5000×64 block times a 64×64 weight matrix. -/
def mmK (x : FVec Ideal S5000x64 .f32) (w : FVec Ideal S64x64 .f32) : FVec Ideal S5000x64 .f32 :=
  matmul dot_S5000x64_S64x64_S5000x64_1_0_0_1_n_n none (truncf .bf16 x bitsLt_bf16_f32) (truncf .bf16 w bitsLt_bf16_f32)
    (constant S5000x64 .f32 0x00000000#32)

/-- A 5000×128 block times the 128×64 weight matrix. -/
def mmK128 (x : FVec Ideal S5000x128 .f32) (w : FVec Ideal S128x64 .f32) : FVec Ideal S5000x64 .f32 :=
  matmul dot_S5000x128_S128x64_S5000x64_1_0_0_1_n_n none (truncf .bf16 x bitsLt_bf16_f32) (truncf .bf16 w bitsLt_bf16_f32)
    (constant S5000x64 .f32 0x00000000#32)

/-- A bias row added to every row of the block. -/
def biasK (y : FVec Ideal S5000x64 .f32) (b : FVec Ideal S64 .f32) : FVec Ideal S5000x64 .f32 :=
  addf y (broadcastTo S5000x64 (shapeCast S1x64 b shapeCasts_S64_S1x64) broadcasts_S1x64_S5000x64)

/-- Each row of the block divided by max(‖row‖₂, ε). -/
def l2K (y : FVec Ideal S5000x64 .f32) : FVec Ideal S5000x64 .f32 :=
  divf y (broadcastTo S5000x64
    (maximumf (sqrt (shapeCast S5000x1
        (multiReduction .add [1] S5000 (mulf y y) 0x00000000#32 reduces_S5000x64_S5000 (.inl rfl) rfl) shapeCasts_S5000_S5000x1))
      (broadcast S5000x1 (Scalar.ofBits (F := Ideal) .f32 0x2B8CBCCC#32)))
    broadcasts_S5000x1_S5000x64)

/-- The leaky rectifier as the kernel spells it: the test is `v > 0`. -/
def lreluK (y : FVec Ideal S5000x64 .f32) : FVec Ideal S5000x64 .f32 :=
  select (cmpf .ogt y (broadcast S5000x64 (Scalar.ofBits (F := Ideal) .f32 0x00000000#32))) y
    (mulf (broadcast S5000x64 (Scalar.ofBits (F := Ideal) .f32 0x3C23D70A#32)) y)

theorem mmK_at (x : FVec Ideal S5000x64 .f32) (w : FVec Ideal S64x64 .f32) (p : Fin 5000) (q : Fin 64) :
    mmK x w (ix2 p q) = ∑ k : Fin 64, x (ix2 p k) * w (ix2 k q) :=
  matmul_cols_rows dot_S5000x64_S64x64_S5000x64_1_0_0_1_n_n_wf none _ _ p q

theorem mmK128_at (x : FVec Ideal S5000x128 .f32) (w : FVec Ideal S128x64 .f32) (p : Fin 5000) (q : Fin 64) :
    mmK128 x w (ix2 p q) = ∑ k : Fin 128, x (ix2 p k) * w (ix2 k q) :=
  matmul_cols_rows dot_S5000x128_S128x64_S5000x64_1_0_0_1_n_n_wf none _ _ p q

theorem biasK_at (y : FVec Ideal S5000x64 .f32) (b : FVec Ideal S64 .f32) (p : Fin 5000) (q : Fin 64) :
    biasK y b (ix2 p q) = y (ix2 p q) + b (ix1 q) := by
  unfold biasK
  rw [addf_apply, rowSpread_apply, row_reshape_apply]

theorem l2K_at (y : FVec Ideal S5000x64 .f32) (p : Fin 5000) (q : Fin 64) :
    l2K y (ix2 p q) = nrm (fun k : Fin 64 => y (ix2 p k)) (y (ix2 p q)) := by
  unfold l2K nrm
  rw [divf_apply, colSpread_apply, maximumf_apply]
  show Ideal.div (y (ix2 p q)) (max (Ideal.sqrt (shapeCast S5000x1 _ shapeCasts_S5000_S5000x1 (ix2 p (0 : Fin 1)))) epsW) = _
  rw [col_reshape_apply, laneSum_apply]
  rfl

theorem lreluK_at (y : FVec Ideal S5000x64 .f32) (i : S5000x64.Idx) : lreluK y i = lrelu (y i) := by
  unfold lreluK lrelu
  rw [select_apply, cmpf_apply, mulf_apply, broadcast_apply, broadcast_apply]
  show Scalar.select (Ideal.cmp .ogt (y i) (Ideal.ofBits .f32 0x00000000#32)) (y i) (slopeW * y i) = _
  rw [Ideal.ofBits_zero_f32]
  exact lrelu_scalar slopeW (y i)

/-! ## The sixteen bodies (the feature projection; the first normalisation; then four times a product, a
    bias + normalisation + rectifier, and a dense layer; and the two output heads) -/

theorem pay0 (x : Vec Ideal S5000x128 .f32) (w : Vec Ideal S128x64 .f32) (b : Vec Ideal S64 .f32) :
    Gen.k0_pay1 (F := Ideal) x w b = biasK (mmK128 x w) b := rfl

theorem pay1 (x : Vec Ideal S5000x64 .f32) : Gen.k1_pay1 (F := Ideal) x = l2K x := by
  unfold Gen.k1_pay1
  simp only [shapeCast_self]
  rfl

theorem pay2 (x : Vec Ideal S5000x64 .f32) (w : Vec Ideal S64x64 .f32) : Gen.k2_pay1 (F := Ideal) x w = mmK x w := by
  unfold Gen.k2_pay1
  simp only [shapeCast_self]
  rfl

theorem pay3 (x : Vec Ideal S5000x64 .f32) (b : Vec Ideal S64 .f32) :
    Gen.k3_pay1 (F := Ideal) x b = lreluK (l2K (biasK x b)) := by
  unfold Gen.k3_pay1
  simp only [shapeCast_self]
  rfl

theorem pay4 (x : Vec Ideal S5000x64 .f32) (w : Vec Ideal S64x64 .f32) (b : Vec Ideal S64 .f32) :
    Gen.k4_pay1 (F := Ideal) x w b = lreluK (biasK (mmK x w) b) := by
  unfold Gen.k4_pay1
  simp only [shapeCast_self]
  rfl

theorem pay5 (x : Vec Ideal S5000x64 .f32) (w : Vec Ideal S64x64 .f32) : Gen.k5_pay1 (F := Ideal) x w = mmK x w := by
  unfold Gen.k5_pay1
  simp only [shapeCast_self]
  rfl

theorem pay6 (x : Vec Ideal S5000x64 .f32) (b : Vec Ideal S64 .f32) :
    Gen.k6_pay1 (F := Ideal) x b = lreluK (l2K (biasK x b)) := by
  unfold Gen.k6_pay1
  simp only [shapeCast_self]
  rfl

theorem pay7 (x : Vec Ideal S5000x64 .f32) (w : Vec Ideal S64x64 .f32) (b : Vec Ideal S64 .f32) :
    Gen.k7_pay1 (F := Ideal) x w b = lreluK (biasK (mmK x w) b) := by
  unfold Gen.k7_pay1
  simp only [shapeCast_self]
  rfl

theorem pay8 (x : Vec Ideal S5000x64 .f32) (w : Vec Ideal S64x64 .f32) : Gen.k8_pay1 (F := Ideal) x w = mmK x w := by
  unfold Gen.k8_pay1
  simp only [shapeCast_self]
  rfl

theorem pay9 (x : Vec Ideal S5000x64 .f32) (b : Vec Ideal S64 .f32) :
    Gen.k9_pay1 (F := Ideal) x b = lreluK (l2K (biasK x b)) := by
  unfold Gen.k9_pay1
  simp only [shapeCast_self]
  rfl

theorem pay10 (x : Vec Ideal S5000x64 .f32) (w : Vec Ideal S64x64 .f32) (b : Vec Ideal S64 .f32) :
    Gen.k10_pay1 (F := Ideal) x w b = lreluK (biasK (mmK x w) b) := by
  unfold Gen.k10_pay1
  simp only [shapeCast_self]
  rfl

theorem pay11 (x : Vec Ideal S5000x64 .f32) (w : Vec Ideal S64x64 .f32) (b : Vec Ideal S64 .f32) (e : Vec Ideal S5000x64 .f32) :
    Gen.k11_pay1 (F := Ideal) x w b e = addf (biasK (mmK x w) b) e := by
  unfold Gen.k11_pay1
  simp only [shapeCast_self]
  rfl

theorem pay12 (x : Vec Ideal S5000x64 .f32) (w : Vec Ideal S64x64 .f32) : Gen.k12_pay1 (F := Ideal) x w = mmK x w := by
  unfold Gen.k12_pay1
  simp only [shapeCast_self]
  rfl

theorem pay13 (x : Vec Ideal S5000x64 .f32) (b : Vec Ideal S64 .f32) :
    Gen.k13_pay1 (F := Ideal) x b = lreluK (l2K (biasK x b)) := by
  unfold Gen.k13_pay1
  simp only [shapeCast_self]
  rfl

theorem pay14 (x : Vec Ideal S5000x64 .f32) (w : Vec Ideal S64x64 .f32) (b : Vec Ideal S64 .f32) :
    Gen.k14_pay1 (F := Ideal) x w b = lreluK (biasK (mmK x w) b) := by
  unfold Gen.k14_pay1
  simp only [shapeCast_self]
  rfl

theorem pay15 (x : Vec Ideal S5000x64 .f32) (w : Vec Ideal S64x64 .f32) (b : Vec Ideal S64 .f32) (e : Vec Ideal S5000x64 .f32) :
    Gen.k15_pay1 (F := Ideal) x w b e = addf (biasK (mmK x w) b) e := by
  unfold Gen.k15_pay1
  simp only [shapeCast_self]
  rfl

end Cert.KernelIdeal.Pay

end
-- ==== Proof.Spec.lean ====
/-
  The result both programs compute, written once as a function of the argument arrays, stage by stage.

  A graph convolution network over N = 100000 nodes (50000 users with a given 64-vector each, 50000 items whose 64-vector
  is an affine image of a 128-feature row) and E = 1600000 directed edges, every node carrying a self loop besides:
    x₀   = rownorm [preference ; features · mlp_w + mlp_b]
    conv(x, W, b) = lrelu (rownorm (A · (x · W) + b)),   A[d, s] = Σ_{edges s→d} deg(s)^(-1/2) · deg(d)^(-1/2)
    x₁ = lrelu (conv(x₀, W₁, b₁) · G₁ + g₁),  x₂ = lrelu (conv(x₁, W₂, b₂) · G₂ + g₂)
    mu = conv(x₂, W₄, b₄) · G₄ + g₄ + lrelu (x₂ · L₄ + l₄),   lv likewise with the fifth set of weights
  where rownorm divides each row by max(‖row‖₂, ε), lrelu(v) = v for v ≥ 0 and 0.01·v otherwise, and deg counts the
  edges leaving a node (self loop included). The edge list is never read entry by entry here: the gathers and the
  scatter-adds that implement `A ·` are carried as whole-array operations, the same on both sides.
-/
import proofs.«149707_j50672024159115_1_alg».proof.ReferenceIdeal
import Idealize.ShloMosaic.PureOps.Ideal

noncomputable section

namespace Cert.Spec

open Idealize.ShloMosaic Cert.ReferenceIdeal Cert.ReferenceIdeal.Facts₀ Cert.ReferenceIdeal.Facts

variable [Cert.ReferenceIdeal.Facts]

/-! ## The edge list -/

/-- Row `r` of the edge table (sources for r = 0, targets for r = 1) followed by the self loops 0 … N-1. -/
def srcF (e : IVec S2x1600000 32) : IVec S1700000 32 :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

def dstF (e : IVec S2x1600000 32) : IVec S1700000 32 :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A node number as an index column: negative numbers count from the end (n ↦ n + N), as `x[idx]` reads them. -/
def wrapF (i : IVec S1700000 32) : IVec S1700000x1 32 :=
  broadcastInDim S1700000x1 ![0] bcast_S1700000_S1700000x1_0
    (select (cmpi .slt i (broadcastInDim S1700000 ![] bcast_S_S1700000 (constantI S_ 32 0#32)))
      (addi i (broadcastInDim S1700000 ![] bcast_S_S1700000 (constantI S_ 32 100000#32))) i)

/-- deg^(-1/2): the number of edges leaving each node, to the power -1/2. -/
def dinvF (src : IVec S1700000 32) : FVec Ideal S100000 .f32 :=
  Host.powf (F := Ideal)
    (Host.scatterAdd (F := Ideal) scatter_S100000_S1700000x1_S1700000_n_0_0_1
      (broadcastInDim S100000 ![] bcast_S_S100000 (constant (F := Ideal) S_ .f32 0x00000000#32))
      (wrapF src)
      (broadcastInDim S1700000 ![] bcast_S_S1700000 (constant (F := Ideal) S_ .f32 0x3F800000#32)))
    (broadcastInDim S100000 ![] bcast_S_S100000 (constant (F := Ideal) S_ .f32 0xBF000000#32))

/-- The weight of each edge: deg(source)^(-1/2) · deg(target)^(-1/2). -/
def ewF (src dst : IVec S1700000 32) : FVec Ideal S1700000 .f32 :=
  mulf (Host.gather gather_S100000_S1700000x1_S1700000_n_0_n_n_0_1_1 (dinvF src) (wrapF src))
       (Host.gather gather_S100000_S1700000x1_S1700000_n_0_n_n_0_1_1 (dinvF src) (wrapF dst))

/-- The aggregation `A · xw`: every edge carries its weight times its source's row to its target's row. -/
def aggF (ew : FVec Ideal S1700000 .f32) (src dst : IVec S1700000 32) (xw : FVec Ideal S100000x64 .f32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (mulf (broadcastInDim S1700000x64 ![0, 1] bcast_S1700000x1_S1700000x64_0_1
            (broadcastInDim S1700000x1 ![0] bcast_S1700000_S1700000x1_0 ew))
          (Host.gather gather_S100000x64_S1700000x1_S1700000x64_1_0_n_n_0_1_164 xw (wrapF src)))

/-! ## The dense stages -/

/-- features · mlp_w -/
def dense128 (x : FVec Ideal S50000x128 .f32) (w : FVec Ideal S128x64 .f32) : FVec Ideal S50000x64 .f32 :=
  Host.dotGeneral (F := Ideal) dot_S50000x128_S128x64_S50000x64_1_0_0_1_n_n none x w

/-- + a bias row, on the 50000 item rows -/
def bias50 (y : FVec Ideal S50000x64 .f32) (b : FVec Ideal S64 .f32) : FVec Ideal S50000x64 .f32 :=
  addf y (broadcastInDim S50000x64 ![0, 1] bcast_S1x64_S50000x64_0_1 (broadcastInDim S1x64 ![1] bcast_S64_S1x64_1 b))

/-- users' rows above items' rows -/
def catF (p t : FVec Ideal S50000x64 .f32) : FVec Ideal S100000x64 .f32 :=
  concatenate S100000x64 0 [⟨S50000x64, p⟩, ⟨S50000x64, t⟩] concatenates_S50000x64_S50000x64_S100000x64_d0

/-- x · W on all N rows -/
def dense64 (x : FVec Ideal S100000x64 .f32) (w : FVec Ideal S64x64 .f32) : FVec Ideal S100000x64 .f32 :=
  Host.dotGeneral (F := Ideal) dot_S100000x64_S64x64_S100000x64_1_0_0_1_n_n none x w

/-- + a bias row, on all N rows -/
def biasF (y : FVec Ideal S100000x64 .f32) (b : FVec Ideal S64 .f32) : FVec Ideal S100000x64 .f32 :=
  addf y (broadcastInDim S100000x64 ![0, 1] bcast_S1x64_S100000x64_0_1 (broadcastInDim S1x64 ![1] bcast_S64_S1x64_1 b))

/-- ‖row‖₂ as a column: the square root of the sum of the row's squares. -/
def norm2F (x : FVec Ideal S100000x64 .f32) : FVec Ideal S100000x1 .f32 :=
  Host.sqrt (F := Ideal) (broadcastInDim S100000x1 ![0] bcast_S100000_S100000x1_0
    (Host.reduceAdd (F := Ideal) (mulf x x) (constant (F := Ideal) S_ .f32 0x00000000#32) reducesTo_S100000x64_S100000_d1 h_S_))

/-- Each row divided by max(‖row‖₂, ε). -/
def normF (x : FVec Ideal S100000x64 .f32) : FVec Ideal S100000x64 .f32 :=
  Host.divf (F := Ideal) x (broadcastInDim S100000x64 ![0, 1] bcast_S100000x1_S100000x64_0_1
    (maximumf (norm2F x) (broadcastInDim S100000x1 ![] bcast_S_S100000x1 (constant (F := Ideal) S_ .f32 0x2B8CBCCC#32))))

/-- v for v ≥ 0, slope · v otherwise. -/
def lreluF (x : FVec Ideal S100000x64 .f32) : FVec Ideal S100000x64 .f32 :=
  select (cmpf .oge x (broadcastInDim S100000x64 ![] bcast_S_S100000x64 (constant (F := Ideal) S_ .f32 0x00000000#32)))
    x (mulf (broadcastInDim S100000x64 ![] bcast_S_S100000x64 (id (constant (F := Ideal) S_ .f32 0x3C23D70A#32))) x)

/-! ## The layers -/

def convF (ew : FVec Ideal S1700000 .f32) (src dst : IVec S1700000 32) (x : FVec Ideal S100000x64 .f32) (w : FVec Ideal S64x64 .f32) (b : FVec Ideal S64 .f32) :
    FVec Ideal S100000x64 .f32 :=
  lreluF (normF (biasF (aggF ew src dst (dense64 x w)) b))

def linF (x : FVec Ideal S100000x64 .f32) (w : FVec Ideal S64x64 .f32) (b : FVec Ideal S64 .f32) : FVec Ideal S100000x64 .f32 :=
  lreluF (biasF (dense64 x w) b)

def headF (h : FVec Ideal S100000x64 .f32) (w : FVec Ideal S64x64 .f32) (b : FVec Ideal S64 .f32) (xh : FVec Ideal S100000x64 .f32) : FVec Ideal S100000x64 .f32 :=
  addf (biasF (dense64 h w) b) xh

/-- The node features entering the first layer. -/
def x0F (a0 : FVec Ideal S50000x128 .f32) (a1 : FVec Ideal S50000x64 .f32) (a3 : FVec Ideal S128x64 .f32) (a4 : FVec Ideal S64 .f32) : FVec Ideal S100000x64 .f32 :=
  normF (catF a1 (bias50 (dense128 a0 a3) a4))

/-- The node features after the two shared layers. -/
def x2F (a0 : FVec Ideal S50000x128 .f32) (a1 : FVec Ideal S50000x64 .f32) (a2 : IVec S2x1600000 32) (a3 : FVec Ideal S128x64 .f32) (a4 : FVec Ideal S64 .f32)
    (a5 : FVec Ideal S64x64 .f32) (a6 : FVec Ideal S64 .f32) (a7 : FVec Ideal S64x64 .f32) (a8 : FVec Ideal S64 .f32)
    (a9 : FVec Ideal S64x64 .f32) (a10 : FVec Ideal S64 .f32) (a11 : FVec Ideal S64x64 .f32) (a12 : FVec Ideal S64 .f32) : FVec Ideal S100000x64 .f32 :=
  linF (convF (ewF (srcF a2) (dstF a2)) (srcF a2) (dstF a2)
        (linF (convF (ewF (srcF a2) (dstF a2)) (srcF a2) (dstF a2) (x0F a0 a1 a3 a4) a5 a6) a7 a8) a9 a10) a11 a12

/-- One output head over the shared features `x`. -/
def outF (a2 : IVec S2x1600000 32) (x : FVec Ideal S100000x64 .f32) (wc : FVec Ideal S64x64 .f32) (bc : FVec Ideal S64 .f32)
    (wl : FVec Ideal S64x64 .f32) (bl : FVec Ideal S64 .f32) (wg : FVec Ideal S64x64 .f32) (bg : FVec Ideal S64 .f32) : FVec Ideal S100000x64 .f32 :=
  headF (convF (ewF (srcF a2) (dstF a2)) (srcF a2) (dstF a2) x wc bc) wg bg (linF x wl bl)

end Cert.Spec

end
-- ==== Proof.SpecAt.lean ====
/-
  The whole-array operations of the common result, read at one entry (r, q): a product with a weight matrix is
  Σ_k x[r, k] · w[k, q]; the bias adds b[q]; the row normalisation divides by max(√(Σ_k x[r, k]²), ε); the leaky
  rectifier acts entry by entry.
-/
import proofs.«149707_j50672024159115_1_alg».proof.Proof.Spec
import proofs.«149707_j50672024159115_1_alg».proof.Proof.RowMath

noncomputable section

open scoped BigOperators

namespace Cert.Spec

open Idealize.ShloMosaic Idealize.ShloMosaic.ValueIdx Cert.ReferenceIdeal Cert.ReferenceIdeal.Facts₀ Cert.ReferenceIdeal.Facts
open Cert.RowMath Cert.Sage.ReadAt

variable [Cert.ReferenceIdeal.Facts]

theorem dense64_at (X : FVec Ideal S100000x64 .f32) (W : FVec Ideal S64x64 .f32) (r : Fin 100000) (q : Fin 64) :
    dense64 X W (ix2 r q) = ∑ k : Fin 64, X (ix2 r k) * W (ix2 k q) :=
  dotGeneral_cols_rows dot_S100000x64_S64x64_S100000x64_1_0_0_1_n_n_wf none X W r q

theorem dense128_at (X : FVec Ideal S50000x128 .f32) (W : FVec Ideal S128x64 .f32) (r : Fin 50000) (q : Fin 64) :
    dense128 X W (ix2 r q) = ∑ k : Fin 128, X (ix2 r k) * W (ix2 k q) :=
  dotGeneral_cols_rows dot_S50000x128_S128x64_S50000x64_1_0_0_1_n_n_wf none X W r q

theorem biasF_at (Y : FVec Ideal S100000x64 .f32) (b : FVec Ideal S64 .f32) (r : Fin 100000) (q : Fin 64) :
    biasF Y b (ix2 r q) = Y (ix2 r q) + b (ix1 q) := by
  unfold biasF
  rw [addf_apply, bias_apply]

theorem bias50_at (Y : FVec Ideal S50000x64 .f32) (b : FVec Ideal S64 .f32) (r : Fin 50000) (q : Fin 64) :
    bias50 Y b (ix2 r q) = Y (ix2 r q) + b (ix1 q) := by
  unfold bias50
  rw [addf_apply, bias_apply]

/-- The host's square root and quotient act entry by entry. -/
theorem hostSqrt_apply {s : Shape} (x : FVec Ideal s .f32) (i : s.Idx) : Host.sqrt (F := Ideal) x i = Ideal.sqrt (x i) := rfl
theorem hostDivf_apply {s : Shape} (x y : FVec Ideal s .f32) (i : s.Idx) : Host.divf (F := Ideal) x y i = Ideal.div (x i) (y i) := rfl

theorem norm2F_at (X : FVec Ideal S100000x64 .f32) (r : Fin 100000) :
    norm2F X (ix2 r (0 : Fin 1)) = Ideal.sqrt (∑ k : Fin 64, X (ix2 r k) * X (ix2 r k)) := by
  unfold norm2F
  rw [hostSqrt_apply, colOf_apply, hostSum_apply _ _ (by decide) _ r]
  rfl

theorem normF_at (X : FVec Ideal S100000x64 .f32) (r : Fin 100000) (q : Fin 64) :
    normF X (ix2 r q) = nrm (fun k : Fin 64 => X (ix2 r k)) (X (ix2 r q)) := by
  unfold normF nrm
  rw [hostDivf_apply, colKeep_apply, maximumf_apply, norm2F_at, scalarSpread_apply]
  rfl

theorem lreluF_at (X : FVec Ideal S100000x64 .f32) (i : S100000x64.Idx) : lreluF X i = lrelu (X i) := by
  unfold lreluF lrelu
  rw [select_apply, cmpf_apply, mulf_apply, scalarSpread_apply, scalarSpread_apply]
  show Scalar.select (Ideal.cmp .oge (X i) (Ideal.ofBits .f32 0x00000000#32)) (X i) (Ideal.ofBits .f32 0x3C23D70A#32 * X i) = _
  rw [Ideal.ofBits_zero_f32]
  rfl

end Cert.Spec

end
-- ==== Proof.Blocks.lean ====
/-
  Block t of each whole-array stage is the kernel body's result on block t.

  A kernel's grid point t sees rows 5000·t … 5000·t + 4999 of its row-tiled operands and all of its weights and
  biases. Because every stage works row by row, entry (p, q) of what the body computes from block t is entry
  (5000·t + p, q) of the whole-array stage: the two are the same expression in the same entries of the same row.
-/
import proofs.«149707_j50672024159115_1_alg».proof.Proof.KPay
import proofs.«149707_j50672024159115_1_alg».proof.Proof.SpecAt

noncomputable section

open scoped BigOperators

namespace Cert.KernelIdeal.Blocks

open Idealize.ShloMosaic Idealize.ShloMosaic.ValueIdx Cert.KernelIdeal
open Cert.RowMath Cert.KernelIdeal.Pay Cert.Spec

variable [Cert.KernelIdeal.Facts] [Cert.ReferenceIdeal.Facts]

/-- Row `p` of block `t` as a row of the whole array. -/
abbrev rowOf (n : Nat) (t : Nat) (ht : t * 5000 + 5000 ≤ n) (p : Fin 5000) : Fin n := ⟨t * 5000 + p.val, by have := p.isLt; omega⟩

theorem mm_block (X : FVec Ideal Cert.ReferenceIdeal.S100000x64 .f32) (W : FVec Ideal Cert.ReferenceIdeal.S64x64 .f32)
    (xb : FVec Ideal S5000x64 .f32) (wb : FVec Ideal S64x64 .f32) (t : ℕ) (ht : t * 5000 + 5000 ≤ 100000)
    (hx : ∀ (p : Fin 5000) (k : Fin 64), xb (ix2 p k) = X (ix2 (rowOf 100000 t ht p) k))
    (hw : ∀ (k q : Fin 64), wb (ix2 k q) = W (ix2 k q)) (p : Fin 5000) (q : Fin 64) :
    mmK xb wb (ix2 p q) = dense64 X W (ix2 (rowOf 100000 t ht p) q) := by
  rw [mmK_at, dense64_at]
  exact Finset.sum_congr rfl fun k _ => by rw [hx, hw]

theorem lb_block (X : FVec Ideal Cert.ReferenceIdeal.S50000x128 .f32) (W : FVec Ideal Cert.ReferenceIdeal.S128x64 .f32)
    (B : FVec Ideal Cert.ReferenceIdeal.S64 .f32)
    (xb : FVec Ideal S5000x128 .f32) (wb : FVec Ideal S128x64 .f32) (bb : FVec Ideal S64 .f32) (t : ℕ) (ht : t * 5000 + 5000 ≤ 50000)
    (hx : ∀ (p : Fin 5000) (k : Fin 128), xb (ix2 p k) = X (ix2 (rowOf 50000 t ht p) k))
    (hw : ∀ (k : Fin 128) (q : Fin 64), wb (ix2 k q) = W (ix2 k q)) (hb : ∀ q : Fin 64, bb (ix1 q) = B (ix1 q))
    (p : Fin 5000) (q : Fin 64) :
    biasK (mmK128 xb wb) bb (ix2 p q) = bias50 (dense128 X W) B (ix2 (rowOf 50000 t ht p) q) := by
  rw [biasK_at, mmK128_at, bias50_at, dense128_at, hb]
  exact congrArg (· + B (ix1 q)) (Finset.sum_congr rfl fun k _ => by rw [hx, hw])

theorem l2_block (X : FVec Ideal Cert.ReferenceIdeal.S100000x64 .f32) (xb : FVec Ideal S5000x64 .f32) (t : ℕ)
    (ht : t * 5000 + 5000 ≤ 100000)
    (hx : ∀ (p : Fin 5000) (k : Fin 64), xb (ix2 p k) = X (ix2 (rowOf 100000 t ht p) k)) (p : Fin 5000) (q : Fin 64) :
    l2K xb (ix2 p q) = normF X (ix2 (rowOf 100000 t ht p) q) := by
  rw [l2K_at, normF_at, hx, show (fun k : Fin 64 => xb (ix2 p k)) = fun k : Fin 64 => X (ix2 (rowOf 100000 t ht p) k) from funext fun k => hx p k]

theorem bna_block (X : FVec Ideal Cert.ReferenceIdeal.S100000x64 .f32) (B : FVec Ideal Cert.ReferenceIdeal.S64 .f32)
    (xb : FVec Ideal S5000x64 .f32) (bb : FVec Ideal S64 .f32) (t : ℕ) (ht : t * 5000 + 5000 ≤ 100000)
    (hx : ∀ (p : Fin 5000) (k : Fin 64), xb (ix2 p k) = X (ix2 (rowOf 100000 t ht p) k))
    (hb : ∀ q : Fin 64, bb (ix1 q) = B (ix1 q)) (p : Fin 5000) (q : Fin 64) :
    lreluK (l2K (biasK xb bb)) (ix2 p q) = lreluF (normF (biasF X B)) (ix2 (rowOf 100000 t ht p) q) := by
  have hy : ∀ k : Fin 64, biasK xb bb (ix2 p k) = biasF X B (ix2 (rowOf 100000 t ht p) k) := fun k => by
    rw [biasK_at, biasF_at, hx, hb]
  rw [lreluK_at, l2K_at, lreluF_at, normF_at, hy, show (fun k : Fin 64 => biasK xb bb (ix2 p k)) = fun k : Fin 64 => biasF X B (ix2 (rowOf 100000 t ht p) k) from funext hy]

theorem lba_block (X : FVec Ideal Cert.ReferenceIdeal.S100000x64 .f32) (W : FVec Ideal Cert.ReferenceIdeal.S64x64 .f32)
    (B : FVec Ideal Cert.ReferenceIdeal.S64 .f32)
    (xb : FVec Ideal S5000x64 .f32) (wb : FVec Ideal S64x64 .f32) (bb : FVec Ideal S64 .f32) (t : ℕ) (ht : t * 5000 + 5000 ≤ 100000)
    (hx : ∀ (p : Fin 5000) (k : Fin 64), xb (ix2 p k) = X (ix2 (rowOf 100000 t ht p) k))
    (hw : ∀ (k q : Fin 64), wb (ix2 k q) = W (ix2 k q)) (hb : ∀ q : Fin 64, bb (ix1 q) = B (ix1 q))
    (p : Fin 5000) (q : Fin 64) :
    lreluK (biasK (mmK xb wb) bb) (ix2 p q) = linF X W B (ix2 (rowOf 100000 t ht p) q) := by
  unfold linF
  rw [lreluK_at, lreluF_at, biasK_at, biasF_at, hb, mm_block X W xb wb t ht hx hw p q]

theorem lbadd_block (X : FVec Ideal Cert.ReferenceIdeal.S100000x64 .f32) (W : FVec Ideal Cert.ReferenceIdeal.S64x64 .f32)
    (B : FVec Ideal Cert.ReferenceIdeal.S64 .f32) (E : FVec Ideal Cert.ReferenceIdeal.S100000x64 .f32)
    (xb : FVec Ideal S5000x64 .f32) (wb : FVec Ideal S64x64 .f32) (bb : FVec Ideal S64 .f32) (eb : FVec Ideal S5000x64 .f32)
    (t : ℕ) (ht : t * 5000 + 5000 ≤ 100000)
    (hx : ∀ (p : Fin 5000) (k : Fin 64), xb (ix2 p k) = X (ix2 (rowOf 100000 t ht p) k))
    (hw : ∀ (k q : Fin 64), wb (ix2 k q) = W (ix2 k q)) (hb : ∀ q : Fin 64, bb (ix1 q) = B (ix1 q))
    (he : ∀ (p : Fin 5000) (k : Fin 64), eb (ix2 p k) = E (ix2 (rowOf 100000 t ht p) k))
    (p : Fin 5000) (q : Fin 64) :
    addf (biasK (mmK xb wb) bb) eb (ix2 p q) = headF X W B E (ix2 (rowOf 100000 t ht p) q) := by
  unfold headF
  rw [addf_apply, addf_apply, biasK_at, biasF_at, hb, he, mm_block X W xb wb t ht hx hw p q]

end Cert.KernelIdeal.Blocks

end
-- ==== Proof.Finals.lean ====
/-
  What each of the sixteen row-tiled kernels leaves in its output array, as one whole-array function of the arrays it
  finds on entry.

  Every kernel runs over a grid of 20 points (10 for the feature projection, whose operands have 50000 rows); point t
  stages rows 5000·t … 5000·t + 4999 of its row-tiled operands, all of each weight matrix and bias, computes, and
  writes rows 5000·t … 5000·t + 4999 of the output. The 20 (or 10) output blocks tile the output array, and what
  point t writes is block t of the whole-array stage applied to the operands; so the output array ends holding that
  stage of the operands. For each kernel: the index maps decided over the grid, what point t writes back, which
  rows a block covers, that the blocks cover every row, and the array after the run.
-/
import proofs.«149707_j50672024159115_1_alg».proof.Proof.Gen.KernelIdeal.Frame
import proofs.«149707_j50672024159115_1_alg».proof.Proof.Gen.ReferenceIdeal
import proofs.«149707_j50672024159115_1_alg».proof.Proof.Blocks
import Idealize.ShloMosaic.Lib.Pipeline.Value

set_option maxRecDepth 16384

noncomputable section

open scoped BigOperators

namespace Cert.KernelIdeal.Finals

open Idealize.ShloMosaic Idealize.ShloMosaic.TcCoe Idealize.ShloMosaic.ValueIdx Idealize.SL.Sem Cert.KernelIdeal Cert.KernelIdeal.Gen
open Idealize.ShloMosaic.Pipeline (Dat Cfg Window)

-- the stages are compared as whole expressions, never opened, while a block is read through its window
attribute [local irreducible] Pay.lreluK Pay.l2K Pay.biasK Pay.mmK Pay.mmK128 Cert.Spec.lreluF Cert.Spec.normF Cert.Spec.biasF
  Cert.Spec.bias50 Cert.Spec.dense64 Cert.Spec.dense128 Cert.Spec.linF Cert.Spec.headF

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-! ## Kernel 0 -/

theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

theorem flushed0 (c : Dev nD) (t : Fin cfg0.N) :
    (dat0 V c).flushed 3 t = ((cfg0.win 3).blk t).view.read (Elt Ideal) (Cert.Spec.bias50 (Cert.Spec.dense128 (V c main_arg0) (V c main_arg3)) (V c main_arg4)) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x64) hz2, View.ld_unit_zero (S := S64) hz1]
  rw [Pay.pay0]
  obtain ⟨r0a, r0b, m1a, m1b, v2a, oa, ob⟩ := idx0 t
  funext j
  obtain ⟨p, q, rfl⟩ : ∃ (p : Fin 5000) (q : Fin 64), j = ix2 p q := ⟨j 0, j 1, eq_ix2 j⟩
  have ht : t.val * 5000 + 5000 ≤ 50000 := by have : t.val < 10 := t.isLt; omega
  have hemb : ((cfg0.win 3).blk t).view.emb (ix2 p q) = ix2 (Blocks.rowOf 50000 t.val ht p) q := by
    funext a; apply Fin.ext
    match a with
    | ⟨0, _⟩ => show win0_3.index t (0 : Fin 2) * 5000 + 1 * p.val = t.val * 5000 + p.val; rw [oa]; omega
    | ⟨1, _⟩ => show win0_3.index t (1 : Fin 2) * 64 + 1 * q.val = q.val; rw [ob]; omega
  show Pay.biasK (Pay.mmK128 (iblk0 V c 0 t) (iblk0 V c 1 t)) (iblk0 V c 2 t) (ix2 p q)
    = (Cert.Spec.bias50 (Cert.Spec.dense128 (V c main_arg0) (V c main_arg3)) (V c main_arg4)) (((cfg0.win 3).blk t).view.emb (ix2 p q))
  rw [hemb]
  refine Blocks.lb_block _ _ _ _ _ _ t.val ht ?_ ?_ ?_ p q
  · intro p k
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; rw [r0a]; omega
    | ⟨1, _⟩ => show win0_0.index t (1 : Fin 2) * 128 + 1 * k.val = k.val; rw [r0b]; omega
  · intro k q
    show V c main_arg3 (((cfg0.win 1).blk t).view.emb (ix2 k q)) = _
    refine congrArg (V c main_arg3) ?_
    funext a; apply Fin.ext
    match a with
    | ⟨0, _⟩ => show win0_1.index t (0 : Fin 2) * 128 + 1 * k.val = k.val; rw [m1a]; omega
    | ⟨1, _⟩ => show win0_1.index t (1 : Fin 2) * 64 + 1 * q.val = q.val; rw [m1b]; omega
  · intro q
    show V c main_arg4 (((cfg0.win 2).blk t).view.emb (ix1 q)) = _
    refine congrArg (V c main_arg4) ?_
    funext a; apply Fin.ext
    match a with
    | ⟨0, _⟩ => show win0_2.index t (0 : Fin 1) * 64 + 1 * q.val = q.val; rw [v2a]; omega

theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v33).slice (win0_3.rect t)).set ↔ _
  rw [View.set_slice_whole, Rect.mem_set_unit]
  exact Iff.rfl

theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hlt : (i 0).val / 5000 < 10 := by omega
  obtain ⟨r0a, r0b, m1a, m1b, v2a, oa, ob⟩ := idx0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val ∧ (i 0).val < win0_3.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win0_3.index ⟨(i 0).val / 5000, hlt⟩ (1 : Fin 2) * 64 ≤ (i 1).val ∧ (i 1).val < win0_3.index ⟨(i 0).val / 5000, hlt⟩ (1 : Fin 2) * 64 + 64
    rw [ob]; omega

/-- Kernel 0's output array after its run, as a function of the arrays it found. -/
theorem final0 (c : Dev nD) : (dat0 V c).arrAt 3 cfg0.N = Cert.Spec.bias50 (Cert.Spec.dense128 (V c main_arg0) (V c main_arg3)) (V c main_arg4) :=
  (dat0 V c).arrAt_eq_of_cover 3 _ (fun t _ => flushed0 V c t) cover0

/-! ## Kernel 1 -/

theorem idx1 : ∀ t : Fin cfg1.N, win1_0.index t (0 : Fin 2) = t.val
    ∧ win1_0.index t (1 : Fin 2) = 0
    ∧ win1_1.index t (0 : Fin 2) = t.val
    ∧ win1_1.index t (1 : Fin 2) = 0 :=
  (by decide +kernel : ∀ t : Fin grid1.N, _)

theorem flushed1 (c : Dev nD) (t : Fin cfg1.N) :
    (dat1 V c).flushed 1 t = ((cfg1.win 1).blk t).view.read (Elt Ideal) (Cert.Spec.normF (V c main_v34)) := by
  show (cfg1.win 1).cut (grid1.coords t) ((dat1 V c).after 1 t) = _
  rw [after1_1]
  unfold out1_1
  rw [View.canon_unit_zero hz2]
  simp only [View.ld_unit_zero (S := S5000x64) hz2]
  rw [Pay.pay1]
  obtain ⟨r0a, r0b, oa, ob⟩ := idx1 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg1.win 1).blk t).view.emb (ix2 p q) = ix2 (Blocks.rowOf 100000 t.val ht p) q := by
    funext a; apply Fin.ext
    match a with
    | ⟨0, _⟩ => show win1_1.index t (0 : Fin 2) * 5000 + 1 * p.val = t.val * 5000 + p.val; rw [oa]; omega
    | ⟨1, _⟩ => show win1_1.index t (1 : Fin 2) * 64 + 1 * q.val = q.val; rw [ob]; omega
  show Pay.l2K (iblk1 V c 0 t) (ix2 p q)
    = (Cert.Spec.normF (V c main_v34)) (((cfg1.win 1).blk t).view.emb (ix2 p q))
  rw [hemb]
  refine Blocks.l2_block _ _ t.val ht ?_ p q
  · intro p k
    show V c main_v34 (((cfg1.win 0).blk t).view.emb (ix2 p k)) = _
    refine congrArg (V c main_v34) ?_
    funext a; apply Fin.ext
    match a with
    | ⟨0, _⟩ => show win1_0.index t (0 : Fin 2) * 5000 + 1 * p.val = t.val * 5000 + p.val; rw [r0a]; omega
    | ⟨1, _⟩ => show win1_0.index t (1 : Fin 2) * 64 + 1 * k.val = k.val; rw [r0b]; omega

theorem mem_blk1 (t : Fin cfg1.N) (i : S100000x64.Idx) :
    i ∈ ((cfg1.win 1).blk t).view.set ↔ ∀ a : Fin 2, win1_1.index t a * S5000x64.size a ≤ (i a).val ∧ (i a).val < win1_1.index t a * S5000x64.size a + S5000x64.size a := by
  show i ∈ ((View.whole main_v35).slice (win1_1.rect t)).set ↔ _
  rw [View.set_slice_whole, Rect.mem_set_unit]
  exact Iff.rfl

theorem cover1 (i : S100000x64.Idx) : ∃ t : Fin cfg1.N, (cfg1.win 1).flush t = true ∧ i ∈ ((cfg1.win 1).blk t).view.set := by
  have hi0 : (i 0).val < 100000 := (i 0).isLt
  have hi1 : (i 1).val < 64 := (i 1).isLt
  have hlt : (i 0).val / 5000 < 20 := by omega
  obtain ⟨r0a, r0b, oa, ob⟩ := idx1 ⟨(i 0).val / 5000, hlt⟩
  refine ⟨⟨(i 0).val / 5000, hlt⟩, flush1_1 _, ?_⟩
  rw [mem_blk1]
  intro a
  match a with
  | ⟨0, _⟩ =>
    show win1_1.index ⟨(i 0).val / 5000, hlt⟩ (0 : Fin 2) * 5000 ≤ (i 0).val ∧ (i 0).val < win1_1.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win1_1.index ⟨(i 0).val / 5000, hlt⟩ (1 : Fin 2) * 64 ≤ (i 1).val ∧ (i 1).val < win1_1.index ⟨(i 0).val / 5000, hlt⟩ (1 : Fin 2) * 64 + 64
    rw [ob]; omega

/-- Kernel 1's output array after its run, as a function of the arrays it found. -/
theorem final1 (c : Dev nD) : (dat1 V c).arrAt 1 cfg1.N = Cert.Spec.normF (V c main_v34) :=
  (dat1 V c).arrAt_eq_of_cover 1 _ (fun t _ => flushed1 V c t) cover1

/-! ## Kernel 2 -/

theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

theorem flushed2 (c : Dev nD) (t : Fin cfg2.N) :
    (dat2 V c).flushed 2 t = ((cfg2.win 2).blk t).view.read (Elt Ideal) (Cert.Spec.dense64 (V c main_v35) (V c main_arg5)) := by
  show (cfg2.win 2).cut (grid2.coords t) ((dat2 V c).after 2 t) = _
  rw [after2_2]
  unfold out2_2
  rw [View.canon_unit_zero hz2]
  simp only [View.ld_unit_zero (S := S5000x64) hz2, View.ld_unit_zero (S := S64x64) hz2]
  rw [Pay.pay2]
  obtain ⟨r0a, r0b, m1a, m1b, oa, ob⟩ := idx2 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg2.win 2).blk t).view.emb (ix2 p q) = ix2 (Blocks.rowOf 100000 t.val ht p) q := by
    funext a; apply Fin.ext
    match a with
    | ⟨0, _⟩ => show win2_2.index t (0 : Fin 2) * 5000 + 1 * p.val = t.val * 5000 + p.val; rw [oa]; omega
    | ⟨1, _⟩ => show win2_2.index t (1 : Fin 2) * 64 + 1 * q.val = q.val; rw [ob]; omega
  show Pay.mmK (iblk2 V c 0 t) (iblk2 V c 1 t) (ix2 p q)
    = (Cert.Spec.dense64 (V c main_v35) (V c main_arg5)) (((cfg2.win 2).blk t).view.emb (ix2 p q))
  rw [hemb]
  refine Blocks.mm_block _ _ _ _ t.val ht ?_ ?_ p q
  · intro p k
    show V c main_v35 (((cfg2.win 0).blk t).view.emb (ix2 p k)) = _
    refine congrArg (V c main_v35) ?_
    funext a; apply Fin.ext
    match a with
    | ⟨0, _⟩ => show win2_0.index t (0 : Fin 2) * 5000 + 1 * p.val = t.val * 5000 + p.val; rw [r0a]; omega
    | ⟨1, _⟩ => show win2_0.index t (1 : Fin 2) * 64 + 1 * k.val = k.val; rw [r0b]; omega
  · intro k q
    show V c main_arg5 (((cfg2.win 1).blk t).view.emb (ix2 k q)) = _
    refine congrArg (V c main_arg5) ?_
    funext a; apply Fin.ext
    match a with
    | ⟨0, _⟩ => show win2_1.index t (0 : Fin 2) * 64 + 1 * k.val = k.val; rw [m1a]; omega
    | ⟨1, _⟩ => show win2_1.index t (1 : Fin 2) * 64 + 1 * q.val = q.val; rw [m1b]; omega

theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v36).slice (win2_2.rect t)).set ↔ _
  rw [View.set_slice_whole, Rect.mem_set_unit]
  exact Iff.rfl

theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hlt : (i 0).val / 5000 < 20 := by omega
  obtain ⟨r0a, r0b, m1a, m1b, oa, ob⟩ := idx2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ (0 : Fin 2) * 5000 ≤ (i 0).val ∧ (i 0).val < win2_2.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win2_2.index ⟨(i 0).val / 5000, hlt⟩ (1 : Fin 2) * 64 ≤ (i 1).val ∧ (i 1).val < win2_2.index ⟨(i 0).val / 5000, hlt⟩ (1 : Fin 2) * 64 + 64
    rw [ob]; omega

/-- Kernel 2's output array after its run, as a function of the arrays it found. -/
theorem final2 (c : Dev nD) : (dat2 V c).arrAt 2 cfg2.N = Cert.Spec.dense64 (V c main_v35) (V c main_arg5) :=
  (dat2 V c).arrAt_eq_of_cover 2 _ (fun t _ => flushed2 V c t) cover2

/-! ## Kernel 3 -/

theorem idx3 : ∀ t : Fin cfg3.N, win3_0.index t (0 : Fin 2) = t.val
    ∧ win3_0.index t (1 : Fin 2) = 0
    ∧ win3_1.index t (0 : Fin 1) = 0
    ∧ win3_2.index t (0 : Fin 2) = t.val
    ∧ win3_2.index t (1 : Fin 2) = 0 :=
  (by decide +kernel : ∀ t : Fin grid3.N, _)

theorem flushed3 (c : Dev nD) (t : Fin cfg3.N) :
    (dat3 V c).flushed 2 t = ((cfg3.win 2).blk t).view.read (Elt Ideal) (Cert.Spec.lreluF (Cert.Spec.normF (Cert.Spec.biasF (V c main_v49) (V c main_arg6)))) := by
  show (cfg3.win 2).cut (grid3.coords t) ((dat3 V c).after 2 t) = _
  rw [after3_2]
  unfold out3_2
  rw [View.canon_unit_zero hz2]
  simp only [View.ld_unit_zero (S := S5000x64) hz2, View.ld_unit_zero (S := S64) hz1]
  rw [Pay.pay3]
  obtain ⟨r0a, r0b, v1a, oa, ob⟩ := idx3 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg3.win 2).blk t).view.emb (ix2 p q) = ix2 (Blocks.rowOf 100000 t.val ht p) q := by
    funext a; apply Fin.ext
    match a with
    | ⟨0, _⟩ => show win3_2.index t (0 : Fin 2) * 5000 + 1 * p.val = t.val * 5000 + p.val; rw [oa]; omega
    | ⟨1, _⟩ => show win3_2.index t (1 : Fin 2) * 64 + 1 * q.val = q.val; rw [ob]; omega
  show Pay.lreluK (Pay.l2K (Pay.biasK (iblk3 V c 0 t) (iblk3 V c 1 t))) (ix2 p q)
    = (Cert.Spec.lreluF (Cert.Spec.normF (Cert.Spec.biasF (V c main_v49) (V c main_arg6)))) (((cfg3.win 2).blk t).view.emb (ix2 p q))
  rw [hemb]
  refine Blocks.bna_block _ _ _ _ t.val ht ?_ ?_ p q
  · intro p k
    show V c main_v49 (((cfg3.win 0).blk t).view.emb (ix2 p k)) = _
    refine congrArg (V c main_v49) ?_
    funext a; apply Fin.ext
    match a with
    | ⟨0, _⟩ => show win3_0.index t (0 : Fin 2) * 5000 + 1 * p.val = t.val * 5000 + p.val; rw [r0a]; omega
    | ⟨1, _⟩ => show win3_0.index t (1 : Fin 2) * 64 + 1 * k.val = k.val; rw [r0b]; omega
  · intro q
    show V c main_arg6 (((cfg3.win 1).blk t).view.emb (ix1 q)) = _
    refine congrArg (V c main_arg6) ?_
    funext a; apply Fin.ext
    match a with
    | ⟨0, _⟩ => show win3_1.index t (0 : Fin 1) * 64 + 1 * q.val = q.val; rw [v1a]; omega

theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v50).slice (win3_2.rect t)).set ↔ _
  rw [View.set_slice_whole, Rect.mem_set_unit]
  exact Iff.rfl

theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hlt : (i 0).val / 5000 < 20 := by omega
  obtain ⟨r0a, r0b, v1a, oa, ob⟩ := idx3 ⟨(i 0).val / 5000, hlt⟩
  refine ⟨⟨(i 0).val / 5000, hlt⟩, flush3_2 _, ?_⟩
  rw [mem_blk3]
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win3_2.index ⟨(i 0).val / 5000, hlt⟩ (1 : Fin 2) * 64 ≤ (i 1).val ∧ (i 1).val < win3_2.index ⟨(i 0).val / 5000, hlt⟩ (1 : Fin 2) * 64 + 64
    rw [ob]; omega

/-- Kernel 3's output array after its run, as a function of the arrays it found. -/
theorem final3 (c : Dev nD) : (dat3 V c).arrAt 2 cfg3.N = Cert.Spec.lreluF (Cert.Spec.normF (Cert.Spec.biasF (V c main_v49) (V c main_arg6))) :=
  (dat3 V c).arrAt_eq_of_cover 2 _ (fun t _ => flushed3 V c t) cover3

/-! ## Kernel 4 -/

theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 1) = 0
    ∧ win4_3.index t (0 : Fin 2) = t.val
    ∧ win4_3.index t (1 : Fin 2) = 0 :=
  (by decide +kernel : ∀ t : Fin grid4.N, _)

theorem flushed4 (c : Dev nD) (t : Fin cfg4.N) :
    (dat4 V c).flushed 3 t = ((cfg4.win 3).blk t).view.read (Elt Ideal) (Cert.Spec.linF (V c main_v50) (V c main_arg7) (V c main_arg8)) := by
  show (cfg4.win 3).cut (grid4.coords t) ((dat4 V c).after 3 t) = _
  rw [after4_3]
  unfold out4_3
  rw [View.canon_unit_zero hz2]
  simp only [View.ld_unit_zero (S := S5000x64) hz2, View.ld_unit_zero (S := S64x64) hz2, View.ld_unit_zero (S := S64) hz1]
  rw [Pay.pay4]
  obtain ⟨r0a, r0b, m1a, m1b, v2a, oa, ob⟩ := idx4 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg4.win 3).blk t).view.emb (ix2 p q) = ix2 (Blocks.rowOf 100000 t.val ht p) q := by
    funext a; apply Fin.ext
    match a with
    | ⟨0, _⟩ => show win4_3.index t (0 : Fin 2) * 5000 + 1 * p.val = t.val * 5000 + p.val; rw [oa]; omega
    | ⟨1, _⟩ => show win4_3.index t (1 : Fin 2) * 64 + 1 * q.val = q.val; rw [ob]; omega
  show Pay.lreluK (Pay.biasK (Pay.mmK (iblk4 V c 0 t) (iblk4 V c 1 t)) (iblk4 V c 2 t)) (ix2 p q)
    = (Cert.Spec.linF (V c main_v50) (V c main_arg7) (V c main_arg8)) (((cfg4.win 3).blk t).view.emb (ix2 p q))
  rw [hemb]
  refine Blocks.lba_block _ _ _ _ _ _ t.val ht ?_ ?_ ?_ p q
  · intro p k
    show V c main_v50 (((cfg4.win 0).blk t).view.emb (ix2 p k)) = _
    refine congrArg (V c main_v50) ?_
    funext a; apply Fin.ext
    match a with
    | ⟨0, _⟩ => show win4_0.index t (0 : Fin 2) * 5000 + 1 * p.val = t.val * 5000 + p.val; rw [r0a]; omega
    | ⟨1, _⟩ => show win4_0.index t (1 : Fin 2) * 64 + 1 * k.val = k.val; rw [r0b]; omega
  · intro k q
    show V c main_arg7 (((cfg4.win 1).blk t).view.emb (ix2 k q)) = _
    refine congrArg (V c main_arg7) ?_
    funext a; apply Fin.ext
    match a with
    | ⟨0, _⟩ => show win4_1.index t (0 : Fin 2) * 64 + 1 * k.val = k.val; rw [m1a]; omega
    | ⟨1, _⟩ => show win4_1.index t (1 : Fin 2) * 64 + 1 * q.val = q.val; rw [m1b]; omega
  · intro q
    show V c main_arg8 (((cfg4.win 2).blk t).view.emb (ix1 q)) = _
    refine congrArg (V c main_arg8) ?_
    funext a; apply Fin.ext
    match a with
    | ⟨0, _⟩ => show win4_2.index t (0 : Fin 1) * 64 + 1 * q.val = q.val; rw [v2a]; omega

theorem mem_blk4 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v51).slice (win4_3.rect t)).set ↔ _
  rw [View.set_slice_whole, Rect.mem_set_unit]
  exact Iff.rfl

theorem cover4 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hlt : (i 0).val / 5000 < 20 := by omega
  obtain ⟨r0a, r0b, m1a, m1b, v2a, oa, ob⟩ := idx4 ⟨(i 0).val / 5000, hlt⟩
  refine ⟨⟨(i 0).val / 5000, hlt⟩, flush4_3 _, ?_⟩
  rw [mem_blk4]
  intro a
  match a with
  | ⟨0, _⟩ =>
    show win4_3.index ⟨(i 0).val / 5000, hlt⟩ (0 : Fin 2) * 5000 ≤ (i 0).val ∧ (i 0).val < win4_3.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win4_3.index ⟨(i 0).val / 5000, hlt⟩ (1 : Fin 2) * 64 ≤ (i 1).val ∧ (i 1).val < win4_3.index ⟨(i 0).val / 5000, hlt⟩ (1 : Fin 2) * 64 + 64
    rw [ob]; omega

/-- Kernel 4's output array after its run, as a function of the arrays it found. -/
theorem final4 (c : Dev nD) : (dat4 V c).arrAt 3 cfg4.N = Cert.Spec.linF (V c main_v50) (V c main_arg7) (V c main_arg8) :=
  (dat4 V c).arrAt_eq_of_cover 3 _ (fun t _ => flushed4 V c t) cover4

/-! ## Kernel 5 -/

theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

theorem flushed5 (c : Dev nD) (t : Fin cfg5.N) :
    (dat5 V c).flushed 2 t = ((cfg5.win 2).blk t).view.read (Elt Ideal) (Cert.Spec.dense64 (V c main_v51) (V c main_arg9)) := by
  show (cfg5.win 2).cut (grid5.coords t) ((dat5 V c).after 2 t) = _
  rw [after5_2]
  unfold out5_2
  rw [View.canon_unit_zero hz2]
  simp only [View.ld_unit_zero (S := S5000x64) hz2, View.ld_unit_zero (S := S64x64) hz2]
  rw [Pay.pay5]
  obtain ⟨r0a, r0b, m1a, m1b, oa, ob⟩ := idx5 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg5.win 2).blk t).view.emb (ix2 p q) = ix2 (Blocks.rowOf 100000 t.val ht p) q := by
    funext a; apply Fin.ext
    match a with
    | ⟨0, _⟩ => show win5_2.index t (0 : Fin 2) * 5000 + 1 * p.val = t.val * 5000 + p.val; rw [oa]; omega
    | ⟨1, _⟩ => show win5_2.index t (1 : Fin 2) * 64 + 1 * q.val = q.val; rw [ob]; omega
  show Pay.mmK (iblk5 V c 0 t) (iblk5 V c 1 t) (ix2 p q)
    = (Cert.Spec.dense64 (V c main_v51) (V c main_arg9)) (((cfg5.win 2).blk t).view.emb (ix2 p q))
  rw [hemb]
  refine Blocks.mm_block _ _ _ _ t.val ht ?_ ?_ p q
  · intro p k
    show V c main_v51 (((cfg5.win 0).blk t).view.emb (ix2 p k)) = _
    refine congrArg (V c main_v51) ?_
    funext a; apply Fin.ext
    match a with
    | ⟨0, _⟩ => show win5_0.index t (0 : Fin 2) * 5000 + 1 * p.val = t.val * 5000 + p.val; rw [r0a]; omega
    | ⟨1, _⟩ => show win5_0.index t (1 : Fin 2) * 64 + 1 * k.val = k.val; rw [r0b]; omega
  · intro k q
    show V c main_arg9 (((cfg5.win 1).blk t).view.emb (ix2 k q)) = _
    refine congrArg (V c main_arg9) ?_
    funext a; apply Fin.ext
    match a with
    | ⟨0, _⟩ => show win5_1.index t (0 : Fin 2) * 64 + 1 * k.val = k.val; rw [m1a]; omega
    | ⟨1, _⟩ => show win5_1.index t (1 : Fin 2) * 64 + 1 * q.val = q.val; rw [m1b]; omega

theorem mem_blk5 (t : Fin cfg5.N) (i : S100000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v52).slice (win5_2.rect t)).set ↔ _
  rw [View.set_slice_whole, Rect.mem_set_unit]
  exact Iff.rfl

theorem cover5 (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  have hlt : (i 0).val / 5000 < 20 := by omega
  obtain ⟨r0a, r0b, m1a, m1b, oa, ob⟩ := idx5 ⟨(i 0).val / 5000, hlt⟩
  refine ⟨⟨(i 0).val / 5000, hlt⟩, flush5_2 _, ?_⟩
  rw [mem_blk5]
  intro a
  match a with
  | ⟨0, _⟩ =>
    show win5_2.index ⟨(i 0).val / 5000, hlt⟩ (0 : Fin 2) * 5000 ≤ (i 0).val ∧ (i 0).val < win5_2.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win5_2.index ⟨(i 0).val / 5000, hlt⟩ (1 : Fin 2) * 64 ≤ (i 1).val ∧ (i 1).val < win5_2.index ⟨(i 0).val / 5000, hlt⟩ (1 : Fin 2) * 64 + 64
    rw [ob]; omega

/-- Kernel 5's output array after its run, as a function of the arrays it found. -/
theorem final5 (c : Dev nD) : (dat5 V c).arrAt 2 cfg5.N = Cert.Spec.dense64 (V c main_v51) (V c main_arg9) :=
  (dat5 V c).arrAt_eq_of_cover 2 _ (fun t _ => flushed5 V c t) cover5

/-! ## Kernel 6 -/

theorem idx6 : ∀ t : Fin cfg6.N, win6_0.index t (0 : Fin 2) = t.val
    ∧ win6_0.index t (1 : Fin 2) = 0
    ∧ win6_1.index t (0 : Fin 1) = 0
    ∧ win6_2.index t (0 : Fin 2) = t.val
    ∧ win6_2.index t (1 : Fin 2) = 0 :=
  (by decide +kernel : ∀ t : Fin grid6.N, _)

theorem flushed6 (c : Dev nD) (t : Fin cfg6.N) :
    (dat6 V c).flushed 2 t = ((cfg6.win 2).blk t).view.read (Elt Ideal) (Cert.Spec.lreluF (Cert.Spec.normF (Cert.Spec.biasF (V c main_v65) (V c main_arg10)))) := by
  show (cfg6.win 2).cut (grid6.coords t) ((dat6 V c).after 2 t) = _
  rw [after6_2]
  unfold out6_2
  rw [View.canon_unit_zero hz2]
  simp only [View.ld_unit_zero (S := S5000x64) hz2, View.ld_unit_zero (S := S64) hz1]
  rw [Pay.pay6]
  obtain ⟨r0a, r0b, v1a, oa, ob⟩ := idx6 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg6.win 2).blk t).view.emb (ix2 p q) = ix2 (Blocks.rowOf 100000 t.val ht p) q := by
    funext a; apply Fin.ext
    match a with
    | ⟨0, _⟩ => show win6_2.index t (0 : Fin 2) * 5000 + 1 * p.val = t.val * 5000 + p.val; rw [oa]; omega
    | ⟨1, _⟩ => show win6_2.index t (1 : Fin 2) * 64 + 1 * q.val = q.val; rw [ob]; omega
  show Pay.lreluK (Pay.l2K (Pay.biasK (iblk6 V c 0 t) (iblk6 V c 1 t))) (ix2 p q)
    = (Cert.Spec.lreluF (Cert.Spec.normF (Cert.Spec.biasF (V c main_v65) (V c main_arg10)))) (((cfg6.win 2).blk t).view.emb (ix2 p q))
  rw [hemb]
  refine Blocks.bna_block _ _ _ _ t.val ht ?_ ?_ p q
  · intro p k
    show V c main_v65 (((cfg6.win 0).blk t).view.emb (ix2 p k)) = _
    refine congrArg (V c main_v65) ?_
    funext a; apply Fin.ext
    match a with
    | ⟨0, _⟩ => show win6_0.index t (0 : Fin 2) * 5000 + 1 * p.val = t.val * 5000 + p.val; rw [r0a]; omega
    | ⟨1, _⟩ => show win6_0.index t (1 : Fin 2) * 64 + 1 * k.val = k.val; rw [r0b]; omega
  · intro q
    show V c main_arg10 (((cfg6.win 1).blk t).view.emb (ix1 q)) = _
    refine congrArg (V c main_arg10) ?_
    funext a; apply Fin.ext
    match a with
    | ⟨0, _⟩ => show win6_1.index t (0 : Fin 1) * 64 + 1 * q.val = q.val; rw [v1a]; omega

theorem mem_blk6 (t : Fin cfg6.N) (i : S100000x64.Idx) :
    i ∈ ((cfg6.win 2).blk t).view.set ↔ ∀ a : Fin 2, win6_2.index t a * S5000x64.size a ≤ (i a).val ∧ (i a).val < win6_2.index t a * S5000x64.size a + S5000x64.size a := by
  show i ∈ ((View.whole main_v66).slice (win6_2.rect t)).set ↔ _
  rw [View.set_slice_whole, Rect.mem_set_unit]
  exact Iff.rfl

theorem cover6 (i : S100000x64.Idx) : ∃ t : Fin cfg6.N, (cfg6.win 2).flush t = true ∧ i ∈ ((cfg6.win 2).blk t).view.set := by
  have hi0 : (i 0).val < 100000 := (i 0).isLt
  have hi1 : (i 1).val < 64 := (i 1).isLt
  have hlt : (i 0).val / 5000 < 20 := by omega
  obtain ⟨r0a, r0b, v1a, oa, ob⟩ := idx6 ⟨(i 0).val / 5000, hlt⟩
  refine ⟨⟨(i 0).val / 5000, hlt⟩, flush6_2 _, ?_⟩
  rw [mem_blk6]
  intro a
  match a with
  | ⟨0, _⟩ =>
    show win6_2.index ⟨(i 0).val / 5000, hlt⟩ (0 : Fin 2) * 5000 ≤ (i 0).val ∧ (i 0).val < win6_2.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win6_2.index ⟨(i 0).val / 5000, hlt⟩ (1 : Fin 2) * 64 ≤ (i 1).val ∧ (i 1).val < win6_2.index ⟨(i 0).val / 5000, hlt⟩ (1 : Fin 2) * 64 + 64
    rw [ob]; omega

/-- Kernel 6's output array after its run, as a function of the arrays it found. -/
theorem final6 (c : Dev nD) : (dat6 V c).arrAt 2 cfg6.N = Cert.Spec.lreluF (Cert.Spec.normF (Cert.Spec.biasF (V c main_v65) (V c main_arg10))) :=
  (dat6 V c).arrAt_eq_of_cover 2 _ (fun t _ => flushed6 V c t) cover6

/-! ## Kernel 7 -/

theorem idx7 : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 1) = 0
    ∧ win7_3.index t (0 : Fin 2) = t.val
    ∧ win7_3.index t (1 : Fin 2) = 0 :=
  (by decide +kernel : ∀ t : Fin grid7.N, _)

theorem flushed7 (c : Dev nD) (t : Fin cfg7.N) :
    (dat7 V c).flushed 3 t = ((cfg7.win 3).blk t).view.read (Elt Ideal) (Cert.Spec.linF (V c main_v66) (V c main_arg11) (V c main_arg12)) := by
  show (cfg7.win 3).cut (grid7.coords t) ((dat7 V c).after 3 t) = _
  rw [after7_3]
  unfold out7_3
  rw [View.canon_unit_zero hz2]
  simp only [View.ld_unit_zero (S := S5000x64) hz2, View.ld_unit_zero (S := S64x64) hz2, View.ld_unit_zero (S := S64) hz1]
  rw [Pay.pay7]
  obtain ⟨r0a, r0b, m1a, m1b, v2a, oa, ob⟩ := idx7 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg7.win 3).blk t).view.emb (ix2 p q) = ix2 (Blocks.rowOf 100000 t.val ht p) q := by
    funext a; apply Fin.ext
    match a with
    | ⟨0, _⟩ => show win7_3.index t (0 : Fin 2) * 5000 + 1 * p.val = t.val * 5000 + p.val; rw [oa]; omega
    | ⟨1, _⟩ => show win7_3.index t (1 : Fin 2) * 64 + 1 * q.val = q.val; rw [ob]; omega
  show Pay.lreluK (Pay.biasK (Pay.mmK (iblk7 V c 0 t) (iblk7 V c 1 t)) (iblk7 V c 2 t)) (ix2 p q)
    = (Cert.Spec.linF (V c main_v66) (V c main_arg11) (V c main_arg12)) (((cfg7.win 3).blk t).view.emb (ix2 p q))
  rw [hemb]
  refine Blocks.lba_block _ _ _ _ _ _ t.val ht ?_ ?_ ?_ p q
  · intro p k
    show V c main_v66 (((cfg7.win 0).blk t).view.emb (ix2 p k)) = _
    refine congrArg (V c main_v66) ?_
    funext a; apply Fin.ext
    match a with
    | ⟨0, _⟩ => show win7_0.index t (0 : Fin 2) * 5000 + 1 * p.val = t.val * 5000 + p.val; rw [r0a]; omega
    | ⟨1, _⟩ => show win7_0.index t (1 : Fin 2) * 64 + 1 * k.val = k.val; rw [r0b]; omega
  · intro k q
    show V c main_arg11 (((cfg7.win 1).blk t).view.emb (ix2 k q)) = _
    refine congrArg (V c main_arg11) ?_
    funext a; apply Fin.ext
    match a with
    | ⟨0, _⟩ => show win7_1.index t (0 : Fin 2) * 64 + 1 * k.val = k.val; rw [m1a]; omega
    | ⟨1, _⟩ => show win7_1.index t (1 : Fin 2) * 64 + 1 * q.val = q.val; rw [m1b]; omega
  · intro q
    show V c main_arg12 (((cfg7.win 2).blk t).view.emb (ix1 q)) = _
    refine congrArg (V c main_arg12) ?_
    funext a; apply Fin.ext
    match a with
    | ⟨0, _⟩ => show win7_2.index t (0 : Fin 1) * 64 + 1 * q.val = q.val; rw [v2a]; omega

theorem mem_blk7 (t : Fin cfg7.N) (i : S100000x64.Idx) :
    i ∈ ((cfg7.win 3).blk t).view.set ↔ ∀ a : Fin 2, win7_3.index t a * S5000x64.size a ≤ (i a).val ∧ (i a).val < win7_3.index t a * S5000x64.size a + S5000x64.size a := by
  show i ∈ ((View.whole main_v67).slice (win7_3.rect t)).set ↔ _
  rw [View.set_slice_whole, Rect.mem_set_unit]
  exact Iff.rfl

theorem cover7 (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  have hlt : (i 0).val / 5000 < 20 := by omega
  obtain ⟨r0a, r0b, m1a, m1b, v2a, oa, ob⟩ := idx7 ⟨(i 0).val / 5000, hlt⟩
  refine ⟨⟨(i 0).val / 5000, hlt⟩, flush7_3 _, ?_⟩
  rw [mem_blk7]
  intro a
  match a with
  | ⟨0, _⟩ =>
    show win7_3.index ⟨(i 0).val / 5000, hlt⟩ (0 : Fin 2) * 5000 ≤ (i 0).val ∧ (i 0).val < win7_3.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win7_3.index ⟨(i 0).val / 5000, hlt⟩ (1 : Fin 2) * 64 ≤ (i 1).val ∧ (i 1).val < win7_3.index ⟨(i 0).val / 5000, hlt⟩ (1 : Fin 2) * 64 + 64
    rw [ob]; omega

/-- Kernel 7's output array after its run, as a function of the arrays it found. -/
theorem final7 (c : Dev nD) : (dat7 V c).arrAt 3 cfg7.N = Cert.Spec.linF (V c main_v66) (V c main_arg11) (V c main_arg12) :=
  (dat7 V c).arrAt_eq_of_cover 3 _ (fun t _ => flushed7 V c t) cover7

/-! ## Kernel 8 -/

theorem idx8 : ∀ t : Fin cfg8.N, win8_0.index t (0 : Fin 2) = t.val
    ∧ win8_0.index t (1 : Fin 2) = 0
    ∧ win8_1.index t (0 : Fin 2) = 0
    ∧ win8_1.index t (1 : Fin 2) = 0
    ∧ win8_2.index t (0 : Fin 2) = t.val
    ∧ win8_2.index t (1 : Fin 2) = 0 :=
  (by decide +kernel : ∀ t : Fin grid8.N, _)

theorem flushed8 (c : Dev nD) (t : Fin cfg8.N) :
    (dat8 V c).flushed 2 t = ((cfg8.win 2).blk t).view.read (Elt Ideal) (Cert.Spec.dense64 (V c main_v67) (V c main_arg13)) := by
  show (cfg8.win 2).cut (grid8.coords t) ((dat8 V c).after 2 t) = _
  rw [after8_2]
  unfold out8_2
  rw [View.canon_unit_zero hz2]
  simp only [View.ld_unit_zero (S := S5000x64) hz2, View.ld_unit_zero (S := S64x64) hz2]
  rw [Pay.pay8]
  obtain ⟨r0a, r0b, m1a, m1b, oa, ob⟩ := idx8 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg8.win 2).blk t).view.emb (ix2 p q) = ix2 (Blocks.rowOf 100000 t.val ht p) q := by
    funext a; apply Fin.ext
    match a with
    | ⟨0, _⟩ => show win8_2.index t (0 : Fin 2) * 5000 + 1 * p.val = t.val * 5000 + p.val; rw [oa]; omega
    | ⟨1, _⟩ => show win8_2.index t (1 : Fin 2) * 64 + 1 * q.val = q.val; rw [ob]; omega
  show Pay.mmK (iblk8 V c 0 t) (iblk8 V c 1 t) (ix2 p q)
    = (Cert.Spec.dense64 (V c main_v67) (V c main_arg13)) (((cfg8.win 2).blk t).view.emb (ix2 p q))
  rw [hemb]
  refine Blocks.mm_block _ _ _ _ t.val ht ?_ ?_ p q
  · intro p k
    show V c main_v67 (((cfg8.win 0).blk t).view.emb (ix2 p k)) = _
    refine congrArg (V c main_v67) ?_
    funext a; apply Fin.ext
    match a with
    | ⟨0, _⟩ => show win8_0.index t (0 : Fin 2) * 5000 + 1 * p.val = t.val * 5000 + p.val; rw [r0a]; omega
    | ⟨1, _⟩ => show win8_0.index t (1 : Fin 2) * 64 + 1 * k.val = k.val; rw [r0b]; omega
  · intro k q
    show V c main_arg13 (((cfg8.win 1).blk t).view.emb (ix2 k q)) = _
    refine congrArg (V c main_arg13) ?_
    funext a; apply Fin.ext
    match a with
    | ⟨0, _⟩ => show win8_1.index t (0 : Fin 2) * 64 + 1 * k.val = k.val; rw [m1a]; omega
    | ⟨1, _⟩ => show win8_1.index t (1 : Fin 2) * 64 + 1 * q.val = q.val; rw [m1b]; omega

theorem mem_blk8 (t : Fin cfg8.N) (i : S100000x64.Idx) :
    i ∈ ((cfg8.win 2).blk t).view.set ↔ ∀ a : Fin 2, win8_2.index t a * S5000x64.size a ≤ (i a).val ∧ (i a).val < win8_2.index t a * S5000x64.size a + S5000x64.size a := by
  show i ∈ ((View.whole main_v68).slice (win8_2.rect t)).set ↔ _
  rw [View.set_slice_whole, Rect.mem_set_unit]
  exact Iff.rfl

theorem cover8 (i : S100000x64.Idx) : ∃ t : Fin cfg8.N, (cfg8.win 2).flush t = true ∧ i ∈ ((cfg8.win 2).blk t).view.set := by
  have hi0 : (i 0).val < 100000 := (i 0).isLt
  have hi1 : (i 1).val < 64 := (i 1).isLt
  have hlt : (i 0).val / 5000 < 20 := by omega
  obtain ⟨r0a, r0b, m1a, m1b, oa, ob⟩ := idx8 ⟨(i 0).val / 5000, hlt⟩
  refine ⟨⟨(i 0).val / 5000, hlt⟩, flush8_2 _, ?_⟩
  rw [mem_blk8]
  intro a
  match a with
  | ⟨0, _⟩ =>
    show win8_2.index ⟨(i 0).val / 5000, hlt⟩ (0 : Fin 2) * 5000 ≤ (i 0).val ∧ (i 0).val < win8_2.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win8_2.index ⟨(i 0).val / 5000, hlt⟩ (1 : Fin 2) * 64 ≤ (i 1).val ∧ (i 1).val < win8_2.index ⟨(i 0).val / 5000, hlt⟩ (1 : Fin 2) * 64 + 64
    rw [ob]; omega

/-- Kernel 8's output array after its run, as a function of the arrays it found. -/
theorem final8 (c : Dev nD) : (dat8 V c).arrAt 2 cfg8.N = Cert.Spec.dense64 (V c main_v67) (V c main_arg13) :=
  (dat8 V c).arrAt_eq_of_cover 2 _ (fun t _ => flushed8 V c t) cover8

/-! ## Kernel 9 -/

theorem idx9 : ∀ t : Fin cfg9.N, win9_0.index t (0 : Fin 2) = t.val
    ∧ win9_0.index t (1 : Fin 2) = 0
    ∧ win9_1.index t (0 : Fin 1) = 0
    ∧ win9_2.index t (0 : Fin 2) = t.val
    ∧ win9_2.index t (1 : Fin 2) = 0 :=
  (by decide +kernel : ∀ t : Fin grid9.N, _)

theorem flushed9 (c : Dev nD) (t : Fin cfg9.N) :
    (dat9 V c).flushed 2 t = ((cfg9.win 2).blk t).view.read (Elt Ideal) (Cert.Spec.lreluF (Cert.Spec.normF (Cert.Spec.biasF (V c main_v81) (V c main_arg14)))) := by
  show (cfg9.win 2).cut (grid9.coords t) ((dat9 V c).after 2 t) = _
  rw [after9_2]
  unfold out9_2
  rw [View.canon_unit_zero hz2]
  simp only [View.ld_unit_zero (S := S5000x64) hz2, View.ld_unit_zero (S := S64) hz1]
  rw [Pay.pay9]
  obtain ⟨r0a, r0b, v1a, oa, ob⟩ := idx9 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg9.win 2).blk t).view.emb (ix2 p q) = ix2 (Blocks.rowOf 100000 t.val ht p) q := by
    funext a; apply Fin.ext
    match a with
    | ⟨0, _⟩ => show win9_2.index t (0 : Fin 2) * 5000 + 1 * p.val = t.val * 5000 + p.val; rw [oa]; omega
    | ⟨1, _⟩ => show win9_2.index t (1 : Fin 2) * 64 + 1 * q.val = q.val; rw [ob]; omega
  show Pay.lreluK (Pay.l2K (Pay.biasK (iblk9 V c 0 t) (iblk9 V c 1 t))) (ix2 p q)
    = (Cert.Spec.lreluF (Cert.Spec.normF (Cert.Spec.biasF (V c main_v81) (V c main_arg14)))) (((cfg9.win 2).blk t).view.emb (ix2 p q))
  rw [hemb]
  refine Blocks.bna_block _ _ _ _ t.val ht ?_ ?_ p q
  · intro p k
    show V c main_v81 (((cfg9.win 0).blk t).view.emb (ix2 p k)) = _
    refine congrArg (V c main_v81) ?_
    funext a; apply Fin.ext
    match a with
    | ⟨0, _⟩ => show win9_0.index t (0 : Fin 2) * 5000 + 1 * p.val = t.val * 5000 + p.val; rw [r0a]; omega
    | ⟨1, _⟩ => show win9_0.index t (1 : Fin 2) * 64 + 1 * k.val = k.val; rw [r0b]; omega
  · intro q
    show V c main_arg14 (((cfg9.win 1).blk t).view.emb (ix1 q)) = _
    refine congrArg (V c main_arg14) ?_
    funext a; apply Fin.ext
    match a with
    | ⟨0, _⟩ => show win9_1.index t (0 : Fin 1) * 64 + 1 * q.val = q.val; rw [v1a]; omega

theorem mem_blk9 (t : Fin cfg9.N) (i : S100000x64.Idx) :
    i ∈ ((cfg9.win 2).blk t).view.set ↔ ∀ a : Fin 2, win9_2.index t a * S5000x64.size a ≤ (i a).val ∧ (i a).val < win9_2.index t a * S5000x64.size a + S5000x64.size a := by
  show i ∈ ((View.whole main_v82).slice (win9_2.rect t)).set ↔ _
  rw [View.set_slice_whole, Rect.mem_set_unit]
  exact Iff.rfl

theorem cover9 (i : S100000x64.Idx) : ∃ t : Fin cfg9.N, (cfg9.win 2).flush t = true ∧ i ∈ ((cfg9.win 2).blk t).view.set := by
  have hi0 : (i 0).val < 100000 := (i 0).isLt
  have hi1 : (i 1).val < 64 := (i 1).isLt
  have hlt : (i 0).val / 5000 < 20 := by omega
  obtain ⟨r0a, r0b, v1a, oa, ob⟩ := idx9 ⟨(i 0).val / 5000, hlt⟩
  refine ⟨⟨(i 0).val / 5000, hlt⟩, flush9_2 _, ?_⟩
  rw [mem_blk9]
  intro a
  match a with
  | ⟨0, _⟩ =>
    show win9_2.index ⟨(i 0).val / 5000, hlt⟩ (0 : Fin 2) * 5000 ≤ (i 0).val ∧ (i 0).val < win9_2.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win9_2.index ⟨(i 0).val / 5000, hlt⟩ (1 : Fin 2) * 64 ≤ (i 1).val ∧ (i 1).val < win9_2.index ⟨(i 0).val / 5000, hlt⟩ (1 : Fin 2) * 64 + 64
    rw [ob]; omega

/-- Kernel 9's output array after its run, as a function of the arrays it found. -/
theorem final9 (c : Dev nD) : (dat9 V c).arrAt 2 cfg9.N = Cert.Spec.lreluF (Cert.Spec.normF (Cert.Spec.biasF (V c main_v81) (V c main_arg14))) :=
  (dat9 V c).arrAt_eq_of_cover 2 _ (fun t _ => flushed9 V c t) cover9

/-! ## Kernel 10 -/

theorem idx10 : ∀ t : Fin cfg10.N, win10_0.index t (0 : Fin 2) = t.val
    ∧ win10_0.index t (1 : Fin 2) = 0
    ∧ win10_1.index t (0 : Fin 2) = 0
    ∧ win10_1.index t (1 : Fin 2) = 0
    ∧ win10_2.index t (0 : Fin 1) = 0
    ∧ win10_3.index t (0 : Fin 2) = t.val
    ∧ win10_3.index t (1 : Fin 2) = 0 :=
  (by decide +kernel : ∀ t : Fin grid10.N, _)

theorem flushed10 (c : Dev nD) (t : Fin cfg10.N) :
    (dat10 V c).flushed 3 t = ((cfg10.win 3).blk t).view.read (Elt Ideal) (Cert.Spec.linF (V c main_v67) (V c main_arg15) (V c main_arg16)) := by
  show (cfg10.win 3).cut (grid10.coords t) ((dat10 V c).after 3 t) = _
  rw [after10_3]
  unfold out10_3
  rw [View.canon_unit_zero hz2]
  simp only [View.ld_unit_zero (S := S5000x64) hz2, View.ld_unit_zero (S := S64x64) hz2, View.ld_unit_zero (S := S64) hz1]
  rw [Pay.pay10]
  obtain ⟨r0a, r0b, m1a, m1b, v2a, oa, ob⟩ := idx10 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg10.win 3).blk t).view.emb (ix2 p q) = ix2 (Blocks.rowOf 100000 t.val ht p) q := by
    funext a; apply Fin.ext
    match a with
    | ⟨0, _⟩ => show win10_3.index t (0 : Fin 2) * 5000 + 1 * p.val = t.val * 5000 + p.val; rw [oa]; omega
    | ⟨1, _⟩ => show win10_3.index t (1 : Fin 2) * 64 + 1 * q.val = q.val; rw [ob]; omega
  show Pay.lreluK (Pay.biasK (Pay.mmK (iblk10 V c 0 t) (iblk10 V c 1 t)) (iblk10 V c 2 t)) (ix2 p q)
    = (Cert.Spec.linF (V c main_v67) (V c main_arg15) (V c main_arg16)) (((cfg10.win 3).blk t).view.emb (ix2 p q))
  rw [hemb]
  refine Blocks.lba_block _ _ _ _ _ _ t.val ht ?_ ?_ ?_ p q
  · intro p k
    show V c main_v67 (((cfg10.win 0).blk t).view.emb (ix2 p k)) = _
    refine congrArg (V c main_v67) ?_
    funext a; apply Fin.ext
    match a with
    | ⟨0, _⟩ => show win10_0.index t (0 : Fin 2) * 5000 + 1 * p.val = t.val * 5000 + p.val; rw [r0a]; omega
    | ⟨1, _⟩ => show win10_0.index t (1 : Fin 2) * 64 + 1 * k.val = k.val; rw [r0b]; omega
  · intro k q
    show V c main_arg15 (((cfg10.win 1).blk t).view.emb (ix2 k q)) = _
    refine congrArg (V c main_arg15) ?_
    funext a; apply Fin.ext
    match a with
    | ⟨0, _⟩ => show win10_1.index t (0 : Fin 2) * 64 + 1 * k.val = k.val; rw [m1a]; omega
    | ⟨1, _⟩ => show win10_1.index t (1 : Fin 2) * 64 + 1 * q.val = q.val; rw [m1b]; omega
  · intro q
    show V c main_arg16 (((cfg10.win 2).blk t).view.emb (ix1 q)) = _
    refine congrArg (V c main_arg16) ?_
    funext a; apply Fin.ext
    match a with
    | ⟨0, _⟩ => show win10_2.index t (0 : Fin 1) * 64 + 1 * q.val = q.val; rw [v2a]; omega

theorem mem_blk10 (t : Fin cfg10.N) (i : S100000x64.Idx) :
    i ∈ ((cfg10.win 3).blk t).view.set ↔ ∀ a : Fin 2, win10_3.index t a * S5000x64.size a ≤ (i a).val ∧ (i a).val < win10_3.index t a * S5000x64.size a + S5000x64.size a := by
  show i ∈ ((View.whole main_v83).slice (win10_3.rect t)).set ↔ _
  rw [View.set_slice_whole, Rect.mem_set_unit]
  exact Iff.rfl

theorem cover10 (i : S100000x64.Idx) : ∃ t : Fin cfg10.N, (cfg10.win 3).flush t = true ∧ i ∈ ((cfg10.win 3).blk t).view.set := by
  have hi0 : (i 0).val < 100000 := (i 0).isLt
  have hi1 : (i 1).val < 64 := (i 1).isLt
  have hlt : (i 0).val / 5000 < 20 := by omega
  obtain ⟨r0a, r0b, m1a, m1b, v2a, oa, ob⟩ := idx10 ⟨(i 0).val / 5000, hlt⟩
  refine ⟨⟨(i 0).val / 5000, hlt⟩, flush10_3 _, ?_⟩
  rw [mem_blk10]
  intro a
  match a with
  | ⟨0, _⟩ =>
    show win10_3.index ⟨(i 0).val / 5000, hlt⟩ (0 : Fin 2) * 5000 ≤ (i 0).val ∧ (i 0).val < win10_3.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win10_3.index ⟨(i 0).val / 5000, hlt⟩ (1 : Fin 2) * 64 ≤ (i 1).val ∧ (i 1).val < win10_3.index ⟨(i 0).val / 5000, hlt⟩ (1 : Fin 2) * 64 + 64
    rw [ob]; omega

/-- Kernel 10's output array after its run, as a function of the arrays it found. -/
theorem final10 (c : Dev nD) : (dat10 V c).arrAt 3 cfg10.N = Cert.Spec.linF (V c main_v67) (V c main_arg15) (V c main_arg16) :=
  (dat10 V c).arrAt_eq_of_cover 3 _ (fun t _ => flushed10 V c t) cover10

/-! ## Kernel 11 -/

theorem idx11 : ∀ t : Fin cfg11.N, win11_0.index t (0 : Fin 2) = t.val
    ∧ win11_0.index t (1 : Fin 2) = 0
    ∧ win11_1.index t (0 : Fin 2) = 0
    ∧ win11_1.index t (1 : Fin 2) = 0
    ∧ win11_2.index t (0 : Fin 1) = 0
    ∧ win11_3.index t (0 : Fin 2) = t.val
    ∧ win11_3.index t (1 : Fin 2) = 0
    ∧ win11_4.index t (0 : Fin 2) = t.val
    ∧ win11_4.index t (1 : Fin 2) = 0 :=
  (by decide +kernel : ∀ t : Fin grid11.N, _)

theorem flushed11 (c : Dev nD) (t : Fin cfg11.N) :
    (dat11 V c).flushed 4 t = ((cfg11.win 4).blk t).view.read (Elt Ideal) (Cert.Spec.headF (V c main_v82) (V c main_arg17) (V c main_arg18) (V c main_v83)) := by
  show (cfg11.win 4).cut (grid11.coords t) ((dat11 V c).after 4 t) = _
  rw [after11_4]
  unfold out11_4
  rw [View.canon_unit_zero hz2]
  simp only [View.ld_unit_zero (S := S5000x64) hz2, View.ld_unit_zero (S := S64x64) hz2, View.ld_unit_zero (S := S64) hz1]
  rw [Pay.pay11]
  obtain ⟨r0a, r0b, m1a, m1b, v2a, r3a, r3b, oa, ob⟩ := idx11 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg11.win 4).blk t).view.emb (ix2 p q) = ix2 (Blocks.rowOf 100000 t.val ht p) q := by
    funext a; apply Fin.ext
    match a with
    | ⟨0, _⟩ => show win11_4.index t (0 : Fin 2) * 5000 + 1 * p.val = t.val * 5000 + p.val; rw [oa]; omega
    | ⟨1, _⟩ => show win11_4.index t (1 : Fin 2) * 64 + 1 * q.val = q.val; rw [ob]; omega
  show addf (Pay.biasK (Pay.mmK (iblk11 V c 0 t) (iblk11 V c 1 t)) (iblk11 V c 2 t)) (iblk11 V c 3 t) (ix2 p q)
    = (Cert.Spec.headF (V c main_v82) (V c main_arg17) (V c main_arg18) (V c main_v83)) (((cfg11.win 4).blk t).view.emb (ix2 p q))
  rw [hemb]
  refine Blocks.lbadd_block _ _ _ _ _ _ _ _ t.val ht ?_ ?_ ?_ ?_ p q
  · intro p k
    show V c main_v82 (((cfg11.win 0).blk t).view.emb (ix2 p k)) = _
    refine congrArg (V c main_v82) ?_
    funext a; apply Fin.ext
    match a with
    | ⟨0, _⟩ => show win11_0.index t (0 : Fin 2) * 5000 + 1 * p.val = t.val * 5000 + p.val; rw [r0a]; omega
    | ⟨1, _⟩ => show win11_0.index t (1 : Fin 2) * 64 + 1 * k.val = k.val; rw [r0b]; omega
  · intro k q
    show V c main_arg17 (((cfg11.win 1).blk t).view.emb (ix2 k q)) = _
    refine congrArg (V c main_arg17) ?_
    funext a; apply Fin.ext
    match a with
    | ⟨0, _⟩ => show win11_1.index t (0 : Fin 2) * 64 + 1 * k.val = k.val; rw [m1a]; omega
    | ⟨1, _⟩ => show win11_1.index t (1 : Fin 2) * 64 + 1 * q.val = q.val; rw [m1b]; omega
  · intro q
    show V c main_arg18 (((cfg11.win 2).blk t).view.emb (ix1 q)) = _
    refine congrArg (V c main_arg18) ?_
    funext a; apply Fin.ext
    match a with
    | ⟨0, _⟩ => show win11_2.index t (0 : Fin 1) * 64 + 1 * q.val = q.val; rw [v2a]; omega
  · intro p k
    show V c main_v83 (((cfg11.win 3).blk t).view.emb (ix2 p k)) = _
    refine congrArg (V c main_v83) ?_
    funext a; apply Fin.ext
    match a with
    | ⟨0, _⟩ => show win11_3.index t (0 : Fin 2) * 5000 + 1 * p.val = t.val * 5000 + p.val; rw [r3a]; omega
    | ⟨1, _⟩ => show win11_3.index t (1 : Fin 2) * 64 + 1 * k.val = k.val; rw [r3b]; omega

theorem mem_blk11 (t : Fin cfg11.N) (i : S100000x64.Idx) :
    i ∈ ((cfg11.win 4).blk t).view.set ↔ ∀ a : Fin 2, win11_4.index t a * S5000x64.size a ≤ (i a).val ∧ (i a).val < win11_4.index t a * S5000x64.size a + S5000x64.size a := by
  show i ∈ ((View.whole main_v84).slice (win11_4.rect t)).set ↔ _
  rw [View.set_slice_whole, Rect.mem_set_unit]
  exact Iff.rfl

theorem cover11 (i : S100000x64.Idx) : ∃ t : Fin cfg11.N, (cfg11.win 4).flush t = true ∧ i ∈ ((cfg11.win 4).blk t).view.set := by
  have hi0 : (i 0).val < 100000 := (i 0).isLt
  have hi1 : (i 1).val < 64 := (i 1).isLt
  have hlt : (i 0).val / 5000 < 20 := by omega
  obtain ⟨r0a, r0b, m1a, m1b, v2a, r3a, r3b, oa, ob⟩ := idx11 ⟨(i 0).val / 5000, hlt⟩
  refine ⟨⟨(i 0).val / 5000, hlt⟩, flush11_4 _, ?_⟩
  rw [mem_blk11]
  intro a
  match a with
  | ⟨0, _⟩ =>
    show win11_4.index ⟨(i 0).val / 5000, hlt⟩ (0 : Fin 2) * 5000 ≤ (i 0).val ∧ (i 0).val < win11_4.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win11_4.index ⟨(i 0).val / 5000, hlt⟩ (1 : Fin 2) * 64 ≤ (i 1).val ∧ (i 1).val < win11_4.index ⟨(i 0).val / 5000, hlt⟩ (1 : Fin 2) * 64 + 64
    rw [ob]; omega

/-- Kernel 11's output array after its run, as a function of the arrays it found. -/
theorem final11 (c : Dev nD) : (dat11 V c).arrAt 4 cfg11.N = Cert.Spec.headF (V c main_v82) (V c main_arg17) (V c main_arg18) (V c main_v83) :=
  (dat11 V c).arrAt_eq_of_cover 4 _ (fun t _ => flushed11 V c t) cover11

/-! ## Kernel 12 -/

theorem idx12 : ∀ t : Fin cfg12.N, win12_0.index t (0 : Fin 2) = t.val
    ∧ win12_0.index t (1 : Fin 2) = 0
    ∧ win12_1.index t (0 : Fin 2) = 0
    ∧ win12_1.index t (1 : Fin 2) = 0
    ∧ win12_2.index t (0 : Fin 2) = t.val
    ∧ win12_2.index t (1 : Fin 2) = 0 :=
  (by decide +kernel : ∀ t : Fin grid12.N, _)

theorem flushed12 (c : Dev nD) (t : Fin cfg12.N) :
    (dat12 V c).flushed 2 t = ((cfg12.win 2).blk t).view.read (Elt Ideal) (Cert.Spec.dense64 (V c main_v67) (V c main_arg19)) := by
  show (cfg12.win 2).cut (grid12.coords t) ((dat12 V c).after 2 t) = _
  rw [after12_2]
  unfold out12_2
  rw [View.canon_unit_zero hz2]
  simp only [View.ld_unit_zero (S := S5000x64) hz2, View.ld_unit_zero (S := S64x64) hz2]
  rw [Pay.pay12]
  obtain ⟨r0a, r0b, m1a, m1b, oa, ob⟩ := idx12 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg12.win 2).blk t).view.emb (ix2 p q) = ix2 (Blocks.rowOf 100000 t.val ht p) q := by
    funext a; apply Fin.ext
    match a with
    | ⟨0, _⟩ => show win12_2.index t (0 : Fin 2) * 5000 + 1 * p.val = t.val * 5000 + p.val; rw [oa]; omega
    | ⟨1, _⟩ => show win12_2.index t (1 : Fin 2) * 64 + 1 * q.val = q.val; rw [ob]; omega
  show Pay.mmK (iblk12 V c 0 t) (iblk12 V c 1 t) (ix2 p q)
    = (Cert.Spec.dense64 (V c main_v67) (V c main_arg19)) (((cfg12.win 2).blk t).view.emb (ix2 p q))
  rw [hemb]
  refine Blocks.mm_block _ _ _ _ t.val ht ?_ ?_ p q
  · intro p k
    show V c main_v67 (((cfg12.win 0).blk t).view.emb (ix2 p k)) = _
    refine congrArg (V c main_v67) ?_
    funext a; apply Fin.ext
    match a with
    | ⟨0, _⟩ => show win12_0.index t (0 : Fin 2) * 5000 + 1 * p.val = t.val * 5000 + p.val; rw [r0a]; omega
    | ⟨1, _⟩ => show win12_0.index t (1 : Fin 2) * 64 + 1 * k.val = k.val; rw [r0b]; omega
  · intro k q
    show V c main_arg19 (((cfg12.win 1).blk t).view.emb (ix2 k q)) = _
    refine congrArg (V c main_arg19) ?_
    funext a; apply Fin.ext
    match a with
    | ⟨0, _⟩ => show win12_1.index t (0 : Fin 2) * 64 + 1 * k.val = k.val; rw [m1a]; omega
    | ⟨1, _⟩ => show win12_1.index t (1 : Fin 2) * 64 + 1 * q.val = q.val; rw [m1b]; omega

theorem mem_blk12 (t : Fin cfg12.N) (i : S100000x64.Idx) :
    i ∈ ((cfg12.win 2).blk t).view.set ↔ ∀ a : Fin 2, win12_2.index t a * S5000x64.size a ≤ (i a).val ∧ (i a).val < win12_2.index t a * S5000x64.size a + S5000x64.size a := by
  show i ∈ ((View.whole main_v85).slice (win12_2.rect t)).set ↔ _
  rw [View.set_slice_whole, Rect.mem_set_unit]
  exact Iff.rfl

theorem cover12 (i : S100000x64.Idx) : ∃ t : Fin cfg12.N, (cfg12.win 2).flush t = true ∧ i ∈ ((cfg12.win 2).blk t).view.set := by
  have hi0 : (i 0).val < 100000 := (i 0).isLt
  have hi1 : (i 1).val < 64 := (i 1).isLt
  have hlt : (i 0).val / 5000 < 20 := by omega
  obtain ⟨r0a, r0b, m1a, m1b, oa, ob⟩ := idx12 ⟨(i 0).val / 5000, hlt⟩
  refine ⟨⟨(i 0).val / 5000, hlt⟩, flush12_2 _, ?_⟩
  rw [mem_blk12]
  intro a
  match a with
  | ⟨0, _⟩ =>
    show win12_2.index ⟨(i 0).val / 5000, hlt⟩ (0 : Fin 2) * 5000 ≤ (i 0).val ∧ (i 0).val < win12_2.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win12_2.index ⟨(i 0).val / 5000, hlt⟩ (1 : Fin 2) * 64 ≤ (i 1).val ∧ (i 1).val < win12_2.index ⟨(i 0).val / 5000, hlt⟩ (1 : Fin 2) * 64 + 64
    rw [ob]; omega

/-- Kernel 12's output array after its run, as a function of the arrays it found. -/
theorem final12 (c : Dev nD) : (dat12 V c).arrAt 2 cfg12.N = Cert.Spec.dense64 (V c main_v67) (V c main_arg19) :=
  (dat12 V c).arrAt_eq_of_cover 2 _ (fun t _ => flushed12 V c t) cover12

/-! ## Kernel 13 -/

theorem idx13 : ∀ t : Fin cfg13.N, win13_0.index t (0 : Fin 2) = t.val
    ∧ win13_0.index t (1 : Fin 2) = 0
    ∧ win13_1.index t (0 : Fin 1) = 0
    ∧ win13_2.index t (0 : Fin 2) = t.val
    ∧ win13_2.index t (1 : Fin 2) = 0 :=
  (by decide +kernel : ∀ t : Fin grid13.N, _)

theorem flushed13 (c : Dev nD) (t : Fin cfg13.N) :
    (dat13 V c).flushed 2 t = ((cfg13.win 2).blk t).view.read (Elt Ideal) (Cert.Spec.lreluF (Cert.Spec.normF (Cert.Spec.biasF (V c main_v98) (V c main_arg20)))) := by
  show (cfg13.win 2).cut (grid13.coords t) ((dat13 V c).after 2 t) = _
  rw [after13_2]
  unfold out13_2
  rw [View.canon_unit_zero hz2]
  simp only [View.ld_unit_zero (S := S5000x64) hz2, View.ld_unit_zero (S := S64) hz1]
  rw [Pay.pay13]
  obtain ⟨r0a, r0b, v1a, oa, ob⟩ := idx13 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg13.win 2).blk t).view.emb (ix2 p q) = ix2 (Blocks.rowOf 100000 t.val ht p) q := by
    funext a; apply Fin.ext
    match a with
    | ⟨0, _⟩ => show win13_2.index t (0 : Fin 2) * 5000 + 1 * p.val = t.val * 5000 + p.val; rw [oa]; omega
    | ⟨1, _⟩ => show win13_2.index t (1 : Fin 2) * 64 + 1 * q.val = q.val; rw [ob]; omega
  show Pay.lreluK (Pay.l2K (Pay.biasK (iblk13 V c 0 t) (iblk13 V c 1 t))) (ix2 p q)
    = (Cert.Spec.lreluF (Cert.Spec.normF (Cert.Spec.biasF (V c main_v98) (V c main_arg20)))) (((cfg13.win 2).blk t).view.emb (ix2 p q))
  rw [hemb]
  refine Blocks.bna_block _ _ _ _ t.val ht ?_ ?_ p q
  · intro p k
    show V c main_v98 (((cfg13.win 0).blk t).view.emb (ix2 p k)) = _
    refine congrArg (V c main_v98) ?_
    funext a; apply Fin.ext
    match a with
    | ⟨0, _⟩ => show win13_0.index t (0 : Fin 2) * 5000 + 1 * p.val = t.val * 5000 + p.val; rw [r0a]; omega
    | ⟨1, _⟩ => show win13_0.index t (1 : Fin 2) * 64 + 1 * k.val = k.val; rw [r0b]; omega
  · intro q
    show V c main_arg20 (((cfg13.win 1).blk t).view.emb (ix1 q)) = _
    refine congrArg (V c main_arg20) ?_
    funext a; apply Fin.ext
    match a with
    | ⟨0, _⟩ => show win13_1.index t (0 : Fin 1) * 64 + 1 * q.val = q.val; rw [v1a]; omega

theorem mem_blk13 (t : Fin cfg13.N) (i : S100000x64.Idx) :
    i ∈ ((cfg13.win 2).blk t).view.set ↔ ∀ a : Fin 2, win13_2.index t a * S5000x64.size a ≤ (i a).val ∧ (i a).val < win13_2.index t a * S5000x64.size a + S5000x64.size a := by
  show i ∈ ((View.whole main_v99).slice (win13_2.rect t)).set ↔ _
  rw [View.set_slice_whole, Rect.mem_set_unit]
  exact Iff.rfl

theorem cover13 (i : S100000x64.Idx) : ∃ t : Fin cfg13.N, (cfg13.win 2).flush t = true ∧ i ∈ ((cfg13.win 2).blk t).view.set := by
  have hi0 : (i 0).val < 100000 := (i 0).isLt
  have hi1 : (i 1).val < 64 := (i 1).isLt
  have hlt : (i 0).val / 5000 < 20 := by omega
  obtain ⟨r0a, r0b, v1a, oa, ob⟩ := idx13 ⟨(i 0).val / 5000, hlt⟩
  refine ⟨⟨(i 0).val / 5000, hlt⟩, flush13_2 _, ?_⟩
  rw [mem_blk13]
  intro a
  match a with
  | ⟨0, _⟩ =>
    show win13_2.index ⟨(i 0).val / 5000, hlt⟩ (0 : Fin 2) * 5000 ≤ (i 0).val ∧ (i 0).val < win13_2.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win13_2.index ⟨(i 0).val / 5000, hlt⟩ (1 : Fin 2) * 64 ≤ (i 1).val ∧ (i 1).val < win13_2.index ⟨(i 0).val / 5000, hlt⟩ (1 : Fin 2) * 64 + 64
    rw [ob]; omega

/-- Kernel 13's output array after its run, as a function of the arrays it found. -/
theorem final13 (c : Dev nD) : (dat13 V c).arrAt 2 cfg13.N = Cert.Spec.lreluF (Cert.Spec.normF (Cert.Spec.biasF (V c main_v98) (V c main_arg20))) :=
  (dat13 V c).arrAt_eq_of_cover 2 _ (fun t _ => flushed13 V c t) cover13

/-! ## Kernel 14 -/

theorem idx14 : ∀ t : Fin cfg14.N, win14_0.index t (0 : Fin 2) = t.val
    ∧ win14_0.index t (1 : Fin 2) = 0
    ∧ win14_1.index t (0 : Fin 2) = 0
    ∧ win14_1.index t (1 : Fin 2) = 0
    ∧ win14_2.index t (0 : Fin 1) = 0
    ∧ win14_3.index t (0 : Fin 2) = t.val
    ∧ win14_3.index t (1 : Fin 2) = 0 :=
  (by decide +kernel : ∀ t : Fin grid14.N, _)

theorem flushed14 (c : Dev nD) (t : Fin cfg14.N) :
    (dat14 V c).flushed 3 t = ((cfg14.win 3).blk t).view.read (Elt Ideal) (Cert.Spec.linF (V c main_v67) (V c main_arg21) (V c main_arg22)) := by
  show (cfg14.win 3).cut (grid14.coords t) ((dat14 V c).after 3 t) = _
  rw [after14_3]
  unfold out14_3
  rw [View.canon_unit_zero hz2]
  simp only [View.ld_unit_zero (S := S5000x64) hz2, View.ld_unit_zero (S := S64x64) hz2, View.ld_unit_zero (S := S64) hz1]
  rw [Pay.pay14]
  obtain ⟨r0a, r0b, m1a, m1b, v2a, oa, ob⟩ := idx14 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg14.win 3).blk t).view.emb (ix2 p q) = ix2 (Blocks.rowOf 100000 t.val ht p) q := by
    funext a; apply Fin.ext
    match a with
    | ⟨0, _⟩ => show win14_3.index t (0 : Fin 2) * 5000 + 1 * p.val = t.val * 5000 + p.val; rw [oa]; omega
    | ⟨1, _⟩ => show win14_3.index t (1 : Fin 2) * 64 + 1 * q.val = q.val; rw [ob]; omega
  show Pay.lreluK (Pay.biasK (Pay.mmK (iblk14 V c 0 t) (iblk14 V c 1 t)) (iblk14 V c 2 t)) (ix2 p q)
    = (Cert.Spec.linF (V c main_v67) (V c main_arg21) (V c main_arg22)) (((cfg14.win 3).blk t).view.emb (ix2 p q))
  rw [hemb]
  refine Blocks.lba_block _ _ _ _ _ _ t.val ht ?_ ?_ ?_ p q
  · intro p k
    show V c main_v67 (((cfg14.win 0).blk t).view.emb (ix2 p k)) = _
    refine congrArg (V c main_v67) ?_
    funext a; apply Fin.ext
    match a with
    | ⟨0, _⟩ => show win14_0.index t (0 : Fin 2) * 5000 + 1 * p.val = t.val * 5000 + p.val; rw [r0a]; omega
    | ⟨1, _⟩ => show win14_0.index t (1 : Fin 2) * 64 + 1 * k.val = k.val; rw [r0b]; omega
  · intro k q
    show V c main_arg21 (((cfg14.win 1).blk t).view.emb (ix2 k q)) = _
    refine congrArg (V c main_arg21) ?_
    funext a; apply Fin.ext
    match a with
    | ⟨0, _⟩ => show win14_1.index t (0 : Fin 2) * 64 + 1 * k.val = k.val; rw [m1a]; omega
    | ⟨1, _⟩ => show win14_1.index t (1 : Fin 2) * 64 + 1 * q.val = q.val; rw [m1b]; omega
  · intro q
    show V c main_arg22 (((cfg14.win 2).blk t).view.emb (ix1 q)) = _
    refine congrArg (V c main_arg22) ?_
    funext a; apply Fin.ext
    match a with
    | ⟨0, _⟩ => show win14_2.index t (0 : Fin 1) * 64 + 1 * q.val = q.val; rw [v2a]; omega

theorem mem_blk14 (t : Fin cfg14.N) (i : S100000x64.Idx) :
    i ∈ ((cfg14.win 3).blk t).view.set ↔ ∀ a : Fin 2, win14_3.index t a * S5000x64.size a ≤ (i a).val ∧ (i a).val < win14_3.index t a * S5000x64.size a + S5000x64.size a := by
  show i ∈ ((View.whole main_v100).slice (win14_3.rect t)).set ↔ _
  rw [View.set_slice_whole, Rect.mem_set_unit]
  exact Iff.rfl

theorem cover14 (i : S100000x64.Idx) : ∃ t : Fin cfg14.N, (cfg14.win 3).flush t = true ∧ i ∈ ((cfg14.win 3).blk t).view.set := by
  have hi0 : (i 0).val < 100000 := (i 0).isLt
  have hi1 : (i 1).val < 64 := (i 1).isLt
  have hlt : (i 0).val / 5000 < 20 := by omega
  obtain ⟨r0a, r0b, m1a, m1b, v2a, oa, ob⟩ := idx14 ⟨(i 0).val / 5000, hlt⟩
  refine ⟨⟨(i 0).val / 5000, hlt⟩, flush14_3 _, ?_⟩
  rw [mem_blk14]
  intro a
  match a with
  | ⟨0, _⟩ =>
    show win14_3.index ⟨(i 0).val / 5000, hlt⟩ (0 : Fin 2) * 5000 ≤ (i 0).val ∧ (i 0).val < win14_3.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win14_3.index ⟨(i 0).val / 5000, hlt⟩ (1 : Fin 2) * 64 ≤ (i 1).val ∧ (i 1).val < win14_3.index ⟨(i 0).val / 5000, hlt⟩ (1 : Fin 2) * 64 + 64
    rw [ob]; omega

/-- Kernel 14's output array after its run, as a function of the arrays it found. -/
theorem final14 (c : Dev nD) : (dat14 V c).arrAt 3 cfg14.N = Cert.Spec.linF (V c main_v67) (V c main_arg21) (V c main_arg22) :=
  (dat14 V c).arrAt_eq_of_cover 3 _ (fun t _ => flushed14 V c t) cover14

/-! ## Kernel 15 -/

theorem idx15 : ∀ t : Fin cfg15.N, win15_0.index t (0 : Fin 2) = t.val
    ∧ win15_0.index t (1 : Fin 2) = 0
    ∧ win15_1.index t (0 : Fin 2) = 0
    ∧ win15_1.index t (1 : Fin 2) = 0
    ∧ win15_2.index t (0 : Fin 1) = 0
    ∧ win15_3.index t (0 : Fin 2) = t.val
    ∧ win15_3.index t (1 : Fin 2) = 0
    ∧ win15_4.index t (0 : Fin 2) = t.val
    ∧ win15_4.index t (1 : Fin 2) = 0 :=
  (by decide +kernel : ∀ t : Fin grid15.N, _)

theorem flushed15 (c : Dev nD) (t : Fin cfg15.N) :
    (dat15 V c).flushed 4 t = ((cfg15.win 4).blk t).view.read (Elt Ideal) (Cert.Spec.headF (V c main_v99) (V c main_arg23) (V c main_arg24) (V c main_v100)) := by
  show (cfg15.win 4).cut (grid15.coords t) ((dat15 V c).after 4 t) = _
  rw [after15_4]
  unfold out15_4
  rw [View.canon_unit_zero hz2]
  simp only [View.ld_unit_zero (S := S5000x64) hz2, View.ld_unit_zero (S := S64x64) hz2, View.ld_unit_zero (S := S64) hz1]
  rw [Pay.pay15]
  obtain ⟨r0a, r0b, m1a, m1b, v2a, r3a, r3b, oa, ob⟩ := idx15 t
  funext j
  obtain ⟨p, q, rfl⟩ : ∃ (p : Fin 5000) (q : Fin 64), j = ix2 p q := ⟨j 0, j 1, eq_ix2 j⟩
  have ht : t.val * 5000 + 5000 ≤ 100000 := by have : t.val < 20 := t.isLt; omega
  have hemb : ((cfg15.win 4).blk t).view.emb (ix2 p q) = ix2 (Blocks.rowOf 100000 t.val ht p) q := by
    funext a; apply Fin.ext
    match a with
    | ⟨0, _⟩ => show win15_4.index t (0 : Fin 2) * 5000 + 1 * p.val = t.val * 5000 + p.val; rw [oa]; omega
    | ⟨1, _⟩ => show win15_4.index t (1 : Fin 2) * 64 + 1 * q.val = q.val; rw [ob]; omega
  show addf (Pay.biasK (Pay.mmK (iblk15 V c 0 t) (iblk15 V c 1 t)) (iblk15 V c 2 t)) (iblk15 V c 3 t) (ix2 p q)
    = (Cert.Spec.headF (V c main_v99) (V c main_arg23) (V c main_arg24) (V c main_v100)) (((cfg15.win 4).blk t).view.emb (ix2 p q))
  rw [hemb]
  refine Blocks.lbadd_block _ _ _ _ _ _ _ _ t.val ht ?_ ?_ ?_ ?_ p q
  · intro p k
    show V c main_v99 (((cfg15.win 0).blk t).view.emb (ix2 p k)) = _
    refine congrArg (V c main_v99) ?_
    funext a; apply Fin.ext
    match a with
    | ⟨0, _⟩ => show win15_0.index t (0 : Fin 2) * 5000 + 1 * p.val = t.val * 5000 + p.val; rw [r0a]; omega
    | ⟨1, _⟩ => show win15_0.index t (1 : Fin 2) * 64 + 1 * k.val = k.val; rw [r0b]; omega
  · intro k q
    show V c main_arg23 (((cfg15.win 1).blk t).view.emb (ix2 k q)) = _
    refine congrArg (V c main_arg23) ?_
    funext a; apply Fin.ext
    match a with
    | ⟨0, _⟩ => show win15_1.index t (0 : Fin 2) * 64 + 1 * k.val = k.val; rw [m1a]; omega
    | ⟨1, _⟩ => show win15_1.index t (1 : Fin 2) * 64 + 1 * q.val = q.val; rw [m1b]; omega
  · intro q
    show V c main_arg24 (((cfg15.win 2).blk t).view.emb (ix1 q)) = _
    refine congrArg (V c main_arg24) ?_
    funext a; apply Fin.ext
    match a with
    | ⟨0, _⟩ => show win15_2.index t (0 : Fin 1) * 64 + 1 * q.val = q.val; rw [v2a]; omega
  · intro p k
    show V c main_v100 (((cfg15.win 3).blk t).view.emb (ix2 p k)) = _
    refine congrArg (V c main_v100) ?_
    funext a; apply Fin.ext
    match a with
    | ⟨0, _⟩ => show win15_3.index t (0 : Fin 2) * 5000 + 1 * p.val = t.val * 5000 + p.val; rw [r3a]; omega
    | ⟨1, _⟩ => show win15_3.index t (1 : Fin 2) * 64 + 1 * k.val = k.val; rw [r3b]; omega

theorem mem_blk15 (t : Fin cfg15.N) (i : S100000x64.Idx) :
    i ∈ ((cfg15.win 4).blk t).view.set ↔ ∀ a : Fin 2, win15_4.index t a * S5000x64.size a ≤ (i a).val ∧ (i a).val < win15_4.index t a * S5000x64.size a + S5000x64.size a := by
  show i ∈ ((View.whole main_v101).slice (win15_4.rect t)).set ↔ _
  rw [View.set_slice_whole, Rect.mem_set_unit]
  exact Iff.rfl

theorem cover15 (i : S100000x64.Idx) : ∃ t : Fin cfg15.N, (cfg15.win 4).flush t = true ∧ i ∈ ((cfg15.win 4).blk t).view.set := by
  have hi0 : (i 0).val < 100000 := (i 0).isLt
  have hi1 : (i 1).val < 64 := (i 1).isLt
  have hlt : (i 0).val / 5000 < 20 := by omega
  obtain ⟨r0a, r0b, m1a, m1b, v2a, r3a, r3b, oa, ob⟩ := idx15 ⟨(i 0).val / 5000, hlt⟩
  refine ⟨⟨(i 0).val / 5000, hlt⟩, flush15_4 _, ?_⟩
  rw [mem_blk15]
  intro a
  match a with
  | ⟨0, _⟩ =>
    show win15_4.index ⟨(i 0).val / 5000, hlt⟩ (0 : Fin 2) * 5000 ≤ (i 0).val ∧ (i 0).val < win15_4.index ⟨(i 0).val / 5000, hlt⟩ (0 : Fin 2) * 5000 + 5000
    rw [oa]; show (i 0).val / 5000 * 5000 ≤ (i 0).val ∧ (i 0).val < (i 0).val / 5000 * 5000 + 5000; omega
  | ⟨1, _⟩ =>
    show win15_4.index ⟨(i 0).val / 5000, hlt⟩ (1 : Fin 2) * 64 ≤ (i 1).val ∧ (i 1).val < win15_4.index ⟨(i 0).val / 5000, hlt⟩ (1 : Fin 2) * 64 + 64
    rw [ob]; omega

/-- Kernel 15's output array after its run, as a function of the arrays it found. -/
theorem final15 (c : Dev nD) : (dat15 V c).arrAt 4 cfg15.N = Cert.Spec.headF (V c main_v99) (V c main_arg23) (V c main_arg24) (V c main_v100) :=
  (dat15 V c).arrAt_eq_of_cover 4 _ (fun t _ => flushed15 V c t) cover15

end Cert.KernelIdeal.Finals

end
-- ==== Proof.KernelRun.lean ====
/-
  The kernel program's run with its two results named.

  The program is a chain of 22 segments: six stretches of host operations and sixteen row-tiled regions. The contents
  of every buffer at each boundary between two segments are a fold from the launch memory (`Gen.W0` … `Gen.W22`):
  a stretch of host operations rewrites the buffers its operations define, a region rewrites its output array and
  leaves everything else as it found it. `run_named` states that every weakly fair execution terminates without a
  fault and that, in every final state, the two result buffers hold the last boundary's contents `Gen.W22` at their
  references, while each of the 25 argument arrays holds what it held at launch.
-/
import proofs.«149707_j50672024159115_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the implicit arguments of the chain rule are found by unifying its conclusion with this statement, which takes
-- unfolding plain definitions in a metavariable's type
set_option backward.isDefEq.respectTransparency.types false in
/-- The run: from any memory with zero counters every weakly fair execution of the program terminates, nothing
    faulting; in every final state the first result's buffer holds `Gen.W22` at its reference, the second result's
    likewise, and every argument array is as launched. The chain of segments is run once; the last thread state holds
    every unscoped buffer at `Gen.W22`, and the results and the arguments are read off it. -/
theorem run_named : θ_run defs (onTc (τ := τ) (main (F := F))) ⟨m, fun _ => 0, ρ⟩ (fun r => ∀ c : Dev nD,
      r.2.mem ((c.tc : Thread nD τ).loc main_v84) = Gen.W22 m ρ c (Proc.devRef .tc main_v84)
      ∧ r.2.mem ((c.tc : Thread nD τ).loc main_v101) = Gen.W22 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v84 (by decide)),
       h c _ (mem_uc main_v101 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c),
       (h c _ (mem_uc main_arg16 (by decide))).trans (W22_main_arg16 m ρ c),
       (h c _ (mem_uc main_arg17 (by decide))).trans (W22_main_arg17 m ρ c),
       (h c _ (mem_uc main_arg18 (by decide))).trans (W22_main_arg18 m ρ c),
       (h c _ (mem_uc main_arg19 (by decide))).trans (W22_main_arg19 m ρ c),
       (h c _ (mem_uc main_arg20 (by decide))).trans (W22_main_arg20 m ρ c),
       (h c _ (mem_uc main_arg21 (by decide))).trans (W22_main_arg21 m ρ c),
       (h c _ (mem_uc main_arg22 (by decide))).trans (W22_main_arg22 m ρ c),
       (h c _ (mem_uc main_arg23 (by decide))).trans (W22_main_arg23 m ρ c),
       (h c _ (mem_uc main_arg24 (by decide))).trans (W22_main_arg24 m ρ c)⟩)

end Cert.KernelIdeal.KRun

end
-- ==== Proof.KernelFold.lean ====
/-
  The kernel program's two results read back through its run.

  The run is a chain of 22 segments (six stretches of host operations, sixteen row-tiled regions); `Gen.W0` … `Gen.W22`
  are the contents of every buffer at the boundaries between them. Given, for every region, what its output array holds
  at its exit as a whole-array function of what its input arrays held at its entry (`Finals`), the contents of the two
  result buffers at the last boundary are computed forward, one buffer and one boundary at a time:
    * a buffer that a segment does not write holds at its exit what it held at its entry;
    * the array of an input window of a region is left as the region found it;
    * the array of a region's output window holds the region's function of its inputs;
    * a buffer written by a stretch of host operations holds the operations' composite of their operands.
  Every value is named through the common specification `Cert.Spec`:
    src, dst = the edge list with the self loops,  ew = the edge weights,
    x₀ = the normalised node features, cᵢ = conv(xᵢ₋₁, …), xᵢ = lrelu(cᵢ · G + g), and the two heads over x₂.
  The edge arrays have 1.7 million entries: the gathers, the scatter-adds, the power and the concatenations are
  carried as opaque whole-array operations and never evaluated.
-/
import proofs.«149707_j50672024159115_1_alg».proof.Proof.Gen.KernelIdeal.Frame
import proofs.«149707_j50672024159115_1_alg».proof.Proof.Spec
import proofs.«149707_j50672024159115_1_alg».proof.Proof.Gen.ReferenceIdeal
import Idealize.ShloMosaic.Lib.StableHlo.Run
import Idealize.ShloMosaic.Lib.Tactic
import Idealize.ShloMosaic.Lib.Pipeline.FrameSuffix

set_option maxRecDepth 16384

noncomputable section

namespace Cert.KernelIdeal.KRun

open Idealize.ShloMosaic Idealize.ShloMosaic.TcCoe Idealize.ShloMosaic.Tactic
open Idealize.ShloMosaic.Pipeline (Dat Cfg Window BodyObligation cellOf)
open Cert.KernelIdeal Cert.KernelIdeal.Gen

-- whole-array operations over the long axes: compared by their arguments, never opened
attribute [local irreducible] Host.gather Host.scatterAdd Host.powf concatenate

/-- What each region leaves in its output array, as the specification's whole-array function of what its input
    arrays held when the region was entered (`V`): region 0 the affine image of the item features, region 1 the row
    normalisation, regions 3, 6, 9, 13 the bias, the row normalisation and the leaky rectifier after an aggregation,
    regions 2, 5, 8, 12 the products with a weight matrix, regions 4, 7, 10, 14 the dense layers, regions 11 and 15 the two heads. -/
structure Finals : Prop where
  f0 : ∀ (V : (c : Dev nD) → (b : Ref sig .tc) → Buf (Elt Ideal) ((c : Thread nD τ).loc b)) (c : Dev nD), (dat0 V c).arrAt 3 cfg0.N = Cert.Spec.bias50 (Cert.Spec.dense128 (V c main_arg0) (V c main_arg3)) (V c main_arg4)
  f1 : ∀ (V : (c : Dev nD) → (b : Ref sig .tc) → Buf (Elt Ideal) ((c : Thread nD τ).loc b)) (c : Dev nD), (dat1 V c).arrAt 1 cfg1.N = Cert.Spec.normF (V c main_v34)
  f2 : ∀ (V : (c : Dev nD) → (b : Ref sig .tc) → Buf (Elt Ideal) ((c : Thread nD τ).loc b)) (c : Dev nD), (dat2 V c).arrAt 2 cfg2.N = Cert.Spec.dense64 (V c main_v35) (V c main_arg5)
  f3 : ∀ (V : (c : Dev nD) → (b : Ref sig .tc) → Buf (Elt Ideal) ((c : Thread nD τ).loc b)) (c : Dev nD), (dat3 V c).arrAt 2 cfg3.N = Cert.Spec.lreluF (Cert.Spec.normF (Cert.Spec.biasF (V c main_v49) (V c main_arg6)))
  f4 : ∀ (V : (c : Dev nD) → (b : Ref sig .tc) → Buf (Elt Ideal) ((c : Thread nD τ).loc b)) (c : Dev nD), (dat4 V c).arrAt 3 cfg4.N = Cert.Spec.linF (V c main_v50) (V c main_arg7) (V c main_arg8)
  f5 : ∀ (V : (c : Dev nD) → (b : Ref sig .tc) → Buf (Elt Ideal) ((c : Thread nD τ).loc b)) (c : Dev nD), (dat5 V c).arrAt 2 cfg5.N = Cert.Spec.dense64 (V c main_v51) (V c main_arg9)
  f6 : ∀ (V : (c : Dev nD) → (b : Ref sig .tc) → Buf (Elt Ideal) ((c : Thread nD τ).loc b)) (c : Dev nD), (dat6 V c).arrAt 2 cfg6.N = Cert.Spec.lreluF (Cert.Spec.normF (Cert.Spec.biasF (V c main_v65) (V c main_arg10)))
  f7 : ∀ (V : (c : Dev nD) → (b : Ref sig .tc) → Buf (Elt Ideal) ((c : Thread nD τ).loc b)) (c : Dev nD), (dat7 V c).arrAt 3 cfg7.N = Cert.Spec.linF (V c main_v66) (V c main_arg11) (V c main_arg12)
  f8 : ∀ (V : (c : Dev nD) → (b : Ref sig .tc) → Buf (Elt Ideal) ((c : Thread nD τ).loc b)) (c : Dev nD), (dat8 V c).arrAt 2 cfg8.N = Cert.Spec.dense64 (V c main_v67) (V c main_arg13)
  f9 : ∀ (V : (c : Dev nD) → (b : Ref sig .tc) → Buf (Elt Ideal) ((c : Thread nD τ).loc b)) (c : Dev nD), (dat9 V c).arrAt 2 cfg9.N = Cert.Spec.lreluF (Cert.Spec.normF (Cert.Spec.biasF (V c main_v81) (V c main_arg14)))
  f10 : ∀ (V : (c : Dev nD) → (b : Ref sig .tc) → Buf (Elt Ideal) ((c : Thread nD τ).loc b)) (c : Dev nD), (dat10 V c).arrAt 3 cfg10.N = Cert.Spec.linF (V c main_v67) (V c main_arg15) (V c main_arg16)
  f11 : ∀ (V : (c : Dev nD) → (b : Ref sig .tc) → Buf (Elt Ideal) ((c : Thread nD τ).loc b)) (c : Dev nD), (dat11 V c).arrAt 4 cfg11.N = Cert.Spec.headF (V c main_v82) (V c main_arg17) (V c main_arg18) (V c main_v83)
  f12 : ∀ (V : (c : Dev nD) → (b : Ref sig .tc) → Buf (Elt Ideal) ((c : Thread nD τ).loc b)) (c : Dev nD), (dat12 V c).arrAt 2 cfg12.N = Cert.Spec.dense64 (V c main_v67) (V c main_arg19)
  f13 : ∀ (V : (c : Dev nD) → (b : Ref sig .tc) → Buf (Elt Ideal) ((c : Thread nD τ).loc b)) (c : Dev nD), (dat13 V c).arrAt 2 cfg13.N = Cert.Spec.lreluF (Cert.Spec.normF (Cert.Spec.biasF (V c main_v98) (V c main_arg20)))
  f14 : ∀ (V : (c : Dev nD) → (b : Ref sig .tc) → Buf (Elt Ideal) ((c : Thread nD τ).loc b)) (c : Dev nD), (dat14 V c).arrAt 3 cfg14.N = Cert.Spec.linF (V c main_v67) (V c main_arg21) (V c main_arg22)
  f15 : ∀ (V : (c : Dev nD) → (b : Ref sig .tc) → Buf (Elt Ideal) ((c : Thread nD τ).loc b)) (c : Dev nD), (dat15 V c).arrAt 4 cfg15.N = Cert.Spec.headF (V c main_v99) (V c main_arg23) (V c main_arg24) (V c main_v100)

/-! ## What each stretch of host operations writes -/

/-- The buffers `hostOps0` defines. -/
abbrev wl_hostOps0 : List (Ref sig .tc) := [main_v0, main_v1, main_v2, main_v3, main_v4, main_v5, main_v6, main_cst, main_v7, main_c, main_v8, main_v9, main_c_0, main_v10, main_v11, main_v12, main_v13, main_cst_1, main_v14, main_v15, main_cst_2, main_v16, main_v17, main_c_3, main_v18, main_v19, main_c_4, main_v20, main_v21, main_v22, main_v23, main_v24, main_c_5, main_v25, main_v26, main_c_6, main_v27, main_v28, main_v29, main_v30, main_v31, main_v32]
theorem writes_hostOps0 : (hostOps0 (F := Ideal)).Forall fun op => op.writes ⊆ ((wl_hostOps0).map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps1` defines. -/
abbrev wl_hostOps1 : List (Ref sig .tc) := [main_v34]
theorem writes_hostOps1 : (hostOps1 (F := Ideal)).Forall fun op => op.writes ⊆ ((wl_hostOps1).map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps3` defines. -/
abbrev wl_hostOps3 : List (Ref sig .tc) := [main_v37, main_c_7, main_v38, main_v39, main_c_8, main_v40, main_v41, main_v42, main_v43, main_v44, main_v45, main_v46, main_cst_9, main_v47, main_v48, main_v49]
theorem writes_hostOps3 : (hostOps3 (F := Ideal)).Forall fun op => op.writes ⊆ ((wl_hostOps3).map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps6` defines. -/
abbrev wl_hostOps6 : List (Ref sig .tc) := [main_v53, main_c_10, main_v54, main_v55, main_c_11, main_v56, main_v57, main_v58, main_v59, main_v60, main_v61, main_v62, main_cst_12, main_v63, main_v64, main_v65]
theorem writes_hostOps6 : (hostOps6 (F := Ideal)).Forall fun op => op.writes ⊆ ((wl_hostOps6).map (Proc.devRef (τ := τ) .tc)).toFinset := by
  simp only [hostOps6, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps9` defines. -/
abbrev wl_hostOps9 : List (Ref sig .tc) := [main_v69, main_c_13, main_v70, main_v71, main_c_14, main_v72, main_v73, main_v74, main_v75, main_v76, main_v77, main_v78, main_cst_15, main_v79, main_v80, main_v81]
theorem writes_hostOps9 : (hostOps9 (F := Ideal)).Forall fun op => op.writes ⊆ ((wl_hostOps9).map (Proc.devRef (τ := τ) .tc)).toFinset := by
  simp only [hostOps9, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-- The buffers `hostOps13` defines. -/
abbrev wl_hostOps13 : List (Ref sig .tc) := [main_v86, main_c_16, main_v87, main_v88, main_c_17, main_v89, main_v90, main_v91, main_v92, main_v93, main_v94, main_v95, main_cst_18, main_v96, main_v97, main_v98]
theorem writes_hostOps13 : (hostOps13 (F := Ideal)).Forall fun op => op.writes ⊆ ((wl_hostOps13).map (Proc.devRef (τ := τ) .tc)).toFinset := by
  simp only [hostOps13, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

set_option quotPrecheck false

variable (H : Finals) (m : (ℓ : Loc nD τ sig) → Buf (Elt Ideal) ℓ) (ρ : Dev nD → PrngReg) (c : Dev nD)

local notation "A0" => m ((c.tc : Thread nD τ).loc main_arg0)
local notation "A1" => m ((c.tc : Thread nD τ).loc main_arg1)
local notation "A2" => m ((c.tc : Thread nD τ).loc main_arg2)
local notation "A3" => m ((c.tc : Thread nD τ).loc main_arg3)
local notation "A4" => m ((c.tc : Thread nD τ).loc main_arg4)
local notation "A5" => m ((c.tc : Thread nD τ).loc main_arg5)
local notation "A6" => m ((c.tc : Thread nD τ).loc main_arg6)
local notation "A7" => m ((c.tc : Thread nD τ).loc main_arg7)
local notation "A8" => m ((c.tc : Thread nD τ).loc main_arg8)
local notation "A9" => m ((c.tc : Thread nD τ).loc main_arg9)
local notation "A10" => m ((c.tc : Thread nD τ).loc main_arg10)
local notation "A11" => m ((c.tc : Thread nD τ).loc main_arg11)
local notation "A12" => m ((c.tc : Thread nD τ).loc main_arg12)
local notation "A13" => m ((c.tc : Thread nD τ).loc main_arg13)
local notation "A14" => m ((c.tc : Thread nD τ).loc main_arg14)
local notation "A15" => m ((c.tc : Thread nD τ).loc main_arg15)
local notation "A16" => m ((c.tc : Thread nD τ).loc main_arg16)
local notation "A17" => m ((c.tc : Thread nD τ).loc main_arg17)
local notation "A18" => m ((c.tc : Thread nD τ).loc main_arg18)
local notation "A19" => m ((c.tc : Thread nD τ).loc main_arg19)
local notation "A20" => m ((c.tc : Thread nD τ).loc main_arg20)
local notation "A21" => m ((c.tc : Thread nD τ).loc main_arg21)
local notation "A22" => m ((c.tc : Thread nD τ).loc main_arg22)
local notation "A23" => m ((c.tc : Thread nD τ).loc main_arg23)
local notation "A24" => m ((c.tc : Thread nD τ).loc main_arg24)
local notation "SRC" => Cert.Spec.srcF A2
local notation "DST" => Cert.Spec.dstF A2
local notation "EW" => Cert.Spec.ewF SRC DST
local notation "X0" => Cert.Spec.x0F A0 A1 A3 A4
local notation "C1" => Cert.Spec.convF EW SRC DST X0 A5 A6
local notation "X1" => Cert.Spec.linF C1 A7 A8
local notation "C2" => Cert.Spec.convF EW SRC DST X1 A9 A10
local notation "X2" => Cert.Spec.x2F A0 A1 A2 A3 A4 A5 A6 A7 A8 A9 A10 A11 A12

/-! ## The arguments and the edge arrays: written once (or never), carried unchanged to where they are read -/

theorem W0_arg0 : Gen.W0 (F := Ideal) m ρ c (Proc.devRef .tc main_arg0) = A0 := rfl
theorem W1_arg0 : Gen.W1 (F := Ideal) m ρ c (Proc.devRef .tc main_arg0) = A0 :=
  (StableHlo.after_of_writes_sub (r := main_arg0) hostOps0 (Gen.W0 m ρ c) writes_hostOps0 (by decide)).trans (W0_arg0 m ρ c)

theorem W0_arg1 : Gen.W0 (F := Ideal) m ρ c (Proc.devRef .tc main_arg1) = A1 := rfl
theorem W1_arg1 : Gen.W1 (F := Ideal) m ρ c (Proc.devRef .tc main_arg1) = A1 :=
  (StableHlo.after_of_writes_sub (r := main_arg1) hostOps0 (Gen.W0 m ρ c) writes_hostOps0 (by decide)).trans (W0_arg1 m ρ c)
theorem W2_arg1 : Gen.W2 (F := Ideal) m ρ c (Proc.devRef .tc main_arg1) = A1 :=
  (Gen.W2_of_ne m ρ c main_arg1 (by decide)).trans (W1_arg1 m ρ c)

theorem W0_arg2 : Gen.W0 (F := Ideal) m ρ c (Proc.devRef .tc main_arg2) = A2 := rfl

theorem W0_arg3 : Gen.W0 (F := Ideal) m ρ c (Proc.devRef .tc main_arg3) = A3 := rfl
theorem W1_arg3 : Gen.W1 (F := Ideal) m ρ c (Proc.devRef .tc main_arg3) = A3 :=
  (StableHlo.after_of_writes_sub (r := main_arg3) hostOps0 (Gen.W0 m ρ c) writes_hostOps0 (by decide)).trans (W0_arg3 m ρ c)

theorem W0_arg4 : Gen.W0 (F := Ideal) m ρ c (Proc.devRef .tc main_arg4) = A4 := rfl
theorem W1_arg4 : Gen.W1 (F := Ideal) m ρ c (Proc.devRef .tc main_arg4) = A4 :=
  (StableHlo.after_of_writes_sub (r := main_arg4) hostOps0 (Gen.W0 m ρ c) writes_hostOps0 (by decide)).trans (W0_arg4 m ρ c)

theorem W0_arg5 : Gen.W0 (F := Ideal) m ρ c (Proc.devRef .tc main_arg5) = A5 := rfl
theorem W1_arg5 : Gen.W1 (F := Ideal) m ρ c (Proc.devRef .tc main_arg5) = A5 :=
  (StableHlo.after_of_writes_sub (r := main_arg5) hostOps0 (Gen.W0 m ρ c) writes_hostOps0 (by decide)).trans (W0_arg5 m ρ c)
theorem W2_arg5 : Gen.W2 (F := Ideal) m ρ c (Proc.devRef .tc main_arg5) = A5 :=
  (Gen.W2_of_ne m ρ c main_arg5 (by decide)).trans (W1_arg5 m ρ c)
theorem W3_arg5 : Gen.W3 (F := Ideal) m ρ c (Proc.devRef .tc main_arg5) = A5 :=
  (StableHlo.after_of_writes_sub (r := main_arg5) hostOps1 (Gen.W2 m ρ c) writes_hostOps1 (by decide)).trans (W2_arg5 m ρ c)
theorem W4_arg5 : Gen.W4 (F := Ideal) m ρ c (Proc.devRef .tc main_arg5) = A5 :=
  (Gen.W4_of_ne m ρ c main_arg5 (by decide)).trans (W3_arg5 m ρ c)

theorem W0_arg6 : Gen.W0 (F := Ideal) m ρ c (Proc.devRef .tc main_arg6) = A6 := rfl
theorem W1_arg6 : Gen.W1 (F := Ideal) m ρ c (Proc.devRef .tc main_arg6) = A6 :=
  (StableHlo.after_of_writes_sub (r := main_arg6) hostOps0 (Gen.W0 m ρ c) writes_hostOps0 (by decide)).trans (W0_arg6 m ρ c)
theorem W2_arg6 : Gen.W2 (F := Ideal) m ρ c (Proc.devRef .tc main_arg6) = A6 :=
  (Gen.W2_of_ne m ρ c main_arg6 (by decide)).trans (W1_arg6 m ρ c)
theorem W3_arg6 : Gen.W3 (F := Ideal) m ρ c (Proc.devRef .tc main_arg6) = A6 :=
  (StableHlo.after_of_writes_sub (r := main_arg6) hostOps1 (Gen.W2 m ρ c) writes_hostOps1 (by decide)).trans (W2_arg6 m ρ c)
theorem W4_arg6 : Gen.W4 (F := Ideal) m ρ c (Proc.devRef .tc main_arg6) = A6 :=
  (Gen.W4_of_ne m ρ c main_arg6 (by decide)).trans (W3_arg6 m ρ c)
theorem W5_arg6 : Gen.W5 (F := Ideal) m ρ c (Proc.devRef .tc main_arg6) = A6 :=
  (Gen.W5_of_ne m ρ c main_arg6 (by decide)).trans (W4_arg6 m ρ c)
theorem W6_arg6 : Gen.W6 (F := Ideal) m ρ c (Proc.devRef .tc main_arg6) = A6 :=
  (StableHlo.after_of_writes_sub (r := main_arg6) hostOps3 (Gen.W5 m ρ c) writes_hostOps3 (by decide)).trans (W5_arg6 m ρ c)

theorem W0_arg7 : Gen.W0 (F := Ideal) m ρ c (Proc.devRef .tc main_arg7) = A7 := rfl
theorem W1_arg7 : Gen.W1 (F := Ideal) m ρ c (Proc.devRef .tc main_arg7) = A7 :=
  (StableHlo.after_of_writes_sub (r := main_arg7) hostOps0 (Gen.W0 m ρ c) writes_hostOps0 (by decide)).trans (W0_arg7 m ρ c)
theorem W2_arg7 : Gen.W2 (F := Ideal) m ρ c (Proc.devRef .tc main_arg7) = A7 :=
  (Gen.W2_of_ne m ρ c main_arg7 (by decide)).trans (W1_arg7 m ρ c)
theorem W3_arg7 : Gen.W3 (F := Ideal) m ρ c (Proc.devRef .tc main_arg7) = A7 :=
  (StableHlo.after_of_writes_sub (r := main_arg7) hostOps1 (Gen.W2 m ρ c) writes_hostOps1 (by decide)).trans (W2_arg7 m ρ c)
theorem W4_arg7 : Gen.W4 (F := Ideal) m ρ c (Proc.devRef .tc main_arg7) = A7 :=
  (Gen.W4_of_ne m ρ c main_arg7 (by decide)).trans (W3_arg7 m ρ c)
theorem W5_arg7 : Gen.W5 (F := Ideal) m ρ c (Proc.devRef .tc main_arg7) = A7 :=
  (Gen.W5_of_ne m ρ c main_arg7 (by decide)).trans (W4_arg7 m ρ c)
theorem W6_arg7 : Gen.W6 (F := Ideal) m ρ c (Proc.devRef .tc main_arg7) = A7 :=
  (StableHlo.after_of_writes_sub (r := main_arg7) hostOps3 (Gen.W5 m ρ c) writes_hostOps3 (by decide)).trans (W5_arg7 m ρ c)
theorem W7_arg7 : Gen.W7 (F := Ideal) m ρ c (Proc.devRef .tc main_arg7) = A7 :=
  (Gen.W7_of_ne m ρ c main_arg7 (by decide)).trans (W6_arg7 m ρ c)

theorem W0_arg8 : Gen.W0 (F := Ideal) m ρ c (Proc.devRef .tc main_arg8) = A8 := rfl
theorem W1_arg8 : Gen.W1 (F := Ideal) m ρ c (Proc.devRef .tc main_arg8) = A8 :=
  (StableHlo.after_of_writes_sub (r := main_arg8) hostOps0 (Gen.W0 m ρ c) writes_hostOps0 (by decide)).trans (W0_arg8 m ρ c)
theorem W2_arg8 : Gen.W2 (F := Ideal) m ρ c (Proc.devRef .tc main_arg8) = A8 :=
  (Gen.W2_of_ne m ρ c main_arg8 (by decide)).trans (W1_arg8 m ρ c)
theorem W3_arg8 : Gen.W3 (F := Ideal) m ρ c (Proc.devRef .tc main_arg8) = A8 :=
  (StableHlo.after_of_writes_sub (r := main_arg8) hostOps1 (Gen.W2 m ρ c) writes_hostOps1 (by decide)).trans (W2_arg8 m ρ c)
theorem W4_arg8 : Gen.W4 (F := Ideal) m ρ c (Proc.devRef .tc main_arg8) = A8 :=
  (Gen.W4_of_ne m ρ c main_arg8 (by decide)).trans (W3_arg8 m ρ c)
theorem W5_arg8 : Gen.W5 (F := Ideal) m ρ c (Proc.devRef .tc main_arg8) = A8 :=
  (Gen.W5_of_ne m ρ c main_arg8 (by decide)).trans (W4_arg8 m ρ c)
theorem W6_arg8 : Gen.W6 (F := Ideal) m ρ c (Proc.devRef .tc main_arg8) = A8 :=
  (StableHlo.after_of_writes_sub (r := main_arg8) hostOps3 (Gen.W5 m ρ c) writes_hostOps3 (by decide)).trans (W5_arg8 m ρ c)
theorem W7_arg8 : Gen.W7 (F := Ideal) m ρ c (Proc.devRef .tc main_arg8) = A8 :=
  (Gen.W7_of_ne m ρ c main_arg8 (by decide)).trans (W6_arg8 m ρ c)

theorem W0_arg9 : Gen.W0 (F := Ideal) m ρ c (Proc.devRef .tc main_arg9) = A9 := rfl
theorem W1_arg9 : Gen.W1 (F := Ideal) m ρ c (Proc.devRef .tc main_arg9) = A9 :=
  (StableHlo.after_of_writes_sub (r := main_arg9) hostOps0 (Gen.W0 m ρ c) writes_hostOps0 (by decide)).trans (W0_arg9 m ρ c)
theorem W2_arg9 : Gen.W2 (F := Ideal) m ρ c (Proc.devRef .tc main_arg9) = A9 :=
  (Gen.W2_of_ne m ρ c main_arg9 (by decide)).trans (W1_arg9 m ρ c)
theorem W3_arg9 : Gen.W3 (F := Ideal) m ρ c (Proc.devRef .tc main_arg9) = A9 :=
  (StableHlo.after_of_writes_sub (r := main_arg9) hostOps1 (Gen.W2 m ρ c) writes_hostOps1 (by decide)).trans (W2_arg9 m ρ c)
theorem W4_arg9 : Gen.W4 (F := Ideal) m ρ c (Proc.devRef .tc main_arg9) = A9 :=
  (Gen.W4_of_ne m ρ c main_arg9 (by decide)).trans (W3_arg9 m ρ c)
theorem W5_arg9 : Gen.W5 (F := Ideal) m ρ c (Proc.devRef .tc main_arg9) = A9 :=
  (Gen.W5_of_ne m ρ c main_arg9 (by decide)).trans (W4_arg9 m ρ c)
theorem W6_arg9 : Gen.W6 (F := Ideal) m ρ c (Proc.devRef .tc main_arg9) = A9 :=
  (StableHlo.after_of_writes_sub (r := main_arg9) hostOps3 (Gen.W5 m ρ c) writes_hostOps3 (by decide)).trans (W5_arg9 m ρ c)
theorem W7_arg9 : Gen.W7 (F := Ideal) m ρ c (Proc.devRef .tc main_arg9) = A9 :=
  (Gen.W7_of_ne m ρ c main_arg9 (by decide)).trans (W6_arg9 m ρ c)
theorem W8_arg9 : Gen.W8 (F := Ideal) m ρ c (Proc.devRef .tc main_arg9) = A9 :=
  (Gen.W8_of_ne m ρ c main_arg9 (by decide)).trans (W7_arg9 m ρ c)

theorem W0_arg10 : Gen.W0 (F := Ideal) m ρ c (Proc.devRef .tc main_arg10) = A10 := rfl
theorem W1_arg10 : Gen.W1 (F := Ideal) m ρ c (Proc.devRef .tc main_arg10) = A10 :=
  (StableHlo.after_of_writes_sub (r := main_arg10) hostOps0 (Gen.W0 m ρ c) writes_hostOps0 (by decide)).trans (W0_arg10 m ρ c)
theorem W2_arg10 : Gen.W2 (F := Ideal) m ρ c (Proc.devRef .tc main_arg10) = A10 :=
  (Gen.W2_of_ne m ρ c main_arg10 (by decide)).trans (W1_arg10 m ρ c)
theorem W3_arg10 : Gen.W3 (F := Ideal) m ρ c (Proc.devRef .tc main_arg10) = A10 :=
  (StableHlo.after_of_writes_sub (r := main_arg10) hostOps1 (Gen.W2 m ρ c) writes_hostOps1 (by decide)).trans (W2_arg10 m ρ c)
theorem W4_arg10 : Gen.W4 (F := Ideal) m ρ c (Proc.devRef .tc main_arg10) = A10 :=
  (Gen.W4_of_ne m ρ c main_arg10 (by decide)).trans (W3_arg10 m ρ c)
theorem W5_arg10 : Gen.W5 (F := Ideal) m ρ c (Proc.devRef .tc main_arg10) = A10 :=
  (Gen.W5_of_ne m ρ c main_arg10 (by decide)).trans (W4_arg10 m ρ c)
theorem W6_arg10 : Gen.W6 (F := Ideal) m ρ c (Proc.devRef .tc main_arg10) = A10 :=
  (StableHlo.after_of_writes_sub (r := main_arg10) hostOps3 (Gen.W5 m ρ c) writes_hostOps3 (by decide)).trans (W5_arg10 m ρ c)
theorem W7_arg10 : Gen.W7 (F := Ideal) m ρ c (Proc.devRef .tc main_arg10) = A10 :=
  (Gen.W7_of_ne m ρ c main_arg10 (by decide)).trans (W6_arg10 m ρ c)
theorem W8_arg10 : Gen.W8 (F := Ideal) m ρ c (Proc.devRef .tc main_arg10) = A10 :=
  (Gen.W8_of_ne m ρ c main_arg10 (by decide)).trans (W7_arg10 m ρ c)
theorem W9_arg10 : Gen.W9 (F := Ideal) m ρ c (Proc.devRef .tc main_arg10) = A10 :=
  (Gen.W9_of_ne m ρ c main_arg10 (by decide)).trans (W8_arg10 m ρ c)
theorem W10_arg10 : Gen.W10 (F := Ideal) m ρ c (Proc.devRef .tc main_arg10) = A10 :=
  (StableHlo.after_of_writes_sub (r := main_arg10) hostOps6 (Gen.W9 m ρ c) writes_hostOps6 (by decide)).trans (W9_arg10 m ρ c)

theorem W0_arg11 : Gen.W0 (F := Ideal) m ρ c (Proc.devRef .tc main_arg11) = A11 := rfl
theorem W1_arg11 : Gen.W1 (F := Ideal) m ρ c (Proc.devRef .tc main_arg11) = A11 :=
  (StableHlo.after_of_writes_sub (r := main_arg11) hostOps0 (Gen.W0 m ρ c) writes_hostOps0 (by decide)).trans (W0_arg11 m ρ c)
theorem W2_arg11 : Gen.W2 (F := Ideal) m ρ c (Proc.devRef .tc main_arg11) = A11 :=
  (Gen.W2_of_ne m ρ c main_arg11 (by decide)).trans (W1_arg11 m ρ c)
theorem W3_arg11 : Gen.W3 (F := Ideal) m ρ c (Proc.devRef .tc main_arg11) = A11 :=
  (StableHlo.after_of_writes_sub (r := main_arg11) hostOps1 (Gen.W2 m ρ c) writes_hostOps1 (by decide)).trans (W2_arg11 m ρ c)
theorem W4_arg11 : Gen.W4 (F := Ideal) m ρ c (Proc.devRef .tc main_arg11) = A11 :=
  (Gen.W4_of_ne m ρ c main_arg11 (by decide)).trans (W3_arg11 m ρ c)
theorem W5_arg11 : Gen.W5 (F := Ideal) m ρ c (Proc.devRef .tc main_arg11) = A11 :=
  (Gen.W5_of_ne m ρ c main_arg11 (by decide)).trans (W4_arg11 m ρ c)
theorem W6_arg11 : Gen.W6 (F := Ideal) m ρ c (Proc.devRef .tc main_arg11) = A11 :=
  (StableHlo.after_of_writes_sub (r := main_arg11) hostOps3 (Gen.W5 m ρ c) writes_hostOps3 (by decide)).trans (W5_arg11 m ρ c)
theorem W7_arg11 : Gen.W7 (F := Ideal) m ρ c (Proc.devRef .tc main_arg11) = A11 :=
  (Gen.W7_of_ne m ρ c main_arg11 (by decide)).trans (W6_arg11 m ρ c)
theorem W8_arg11 : Gen.W8 (F := Ideal) m ρ c (Proc.devRef .tc main_arg11) = A11 :=
  (Gen.W8_of_ne m ρ c main_arg11 (by decide)).trans (W7_arg11 m ρ c)
theorem W9_arg11 : Gen.W9 (F := Ideal) m ρ c (Proc.devRef .tc main_arg11) = A11 :=
  (Gen.W9_of_ne m ρ c main_arg11 (by decide)).trans (W8_arg11 m ρ c)
theorem W10_arg11 : Gen.W10 (F := Ideal) m ρ c (Proc.devRef .tc main_arg11) = A11 :=
  (StableHlo.after_of_writes_sub (r := main_arg11) hostOps6 (Gen.W9 m ρ c) writes_hostOps6 (by decide)).trans (W9_arg11 m ρ c)
theorem W11_arg11 : Gen.W11 (F := Ideal) m ρ c (Proc.devRef .tc main_arg11) = A11 :=
  (Gen.W11_of_ne m ρ c main_arg11 (by decide)).trans (W10_arg11 m ρ c)

theorem W0_arg12 : Gen.W0 (F := Ideal) m ρ c (Proc.devRef .tc main_arg12) = A12 := rfl
theorem W1_arg12 : Gen.W1 (F := Ideal) m ρ c (Proc.devRef .tc main_arg12) = A12 :=
  (StableHlo.after_of_writes_sub (r := main_arg12) hostOps0 (Gen.W0 m ρ c) writes_hostOps0 (by decide)).trans (W0_arg12 m ρ c)
theorem W2_arg12 : Gen.W2 (F := Ideal) m ρ c (Proc.devRef .tc main_arg12) = A12 :=
  (Gen.W2_of_ne m ρ c main_arg12 (by decide)).trans (W1_arg12 m ρ c)
theorem W3_arg12 : Gen.W3 (F := Ideal) m ρ c (Proc.devRef .tc main_arg12) = A12 :=
  (StableHlo.after_of_writes_sub (r := main_arg12) hostOps1 (Gen.W2 m ρ c) writes_hostOps1 (by decide)).trans (W2_arg12 m ρ c)
theorem W4_arg12 : Gen.W4 (F := Ideal) m ρ c (Proc.devRef .tc main_arg12) = A12 :=
  (Gen.W4_of_ne m ρ c main_arg12 (by decide)).trans (W3_arg12 m ρ c)
theorem W5_arg12 : Gen.W5 (F := Ideal) m ρ c (Proc.devRef .tc main_arg12) = A12 :=
  (Gen.W5_of_ne m ρ c main_arg12 (by decide)).trans (W4_arg12 m ρ c)
theorem W6_arg12 : Gen.W6 (F := Ideal) m ρ c (Proc.devRef .tc main_arg12) = A12 :=
  (StableHlo.after_of_writes_sub (r := main_arg12) hostOps3 (Gen.W5 m ρ c) writes_hostOps3 (by decide)).trans (W5_arg12 m ρ c)
theorem W7_arg12 : Gen.W7 (F := Ideal) m ρ c (Proc.devRef .tc main_arg12) = A12 :=
  (Gen.W7_of_ne m ρ c main_arg12 (by decide)).trans (W6_arg12 m ρ c)
theorem W8_arg12 : Gen.W8 (F := Ideal) m ρ c (Proc.devRef .tc main_arg12) = A12 :=
  (Gen.W8_of_ne m ρ c main_arg12 (by decide)).trans (W7_arg12 m ρ c)
theorem W9_arg12 : Gen.W9 (F := Ideal) m ρ c (Proc.devRef .tc main_arg12) = A12 :=
  (Gen.W9_of_ne m ρ c main_arg12 (by decide)).trans (W8_arg12 m ρ c)
theorem W10_arg12 : Gen.W10 (F := Ideal) m ρ c (Proc.devRef .tc main_arg12) = A12 :=
  (StableHlo.after_of_writes_sub (r := main_arg12) hostOps6 (Gen.W9 m ρ c) writes_hostOps6 (by decide)).trans (W9_arg12 m ρ c)
theorem W11_arg12 : Gen.W11 (F := Ideal) m ρ c (Proc.devRef .tc main_arg12) = A12 :=
  (Gen.W11_of_ne m ρ c main_arg12 (by decide)).trans (W10_arg12 m ρ c)

theorem W0_arg13 : Gen.W0 (F := Ideal) m ρ c (Proc.devRef .tc main_arg13) = A13 := rfl
theorem W1_arg13 : Gen.W1 (F := Ideal) m ρ c (Proc.devRef .tc main_arg13) = A13 :=
  (StableHlo.after_of_writes_sub (r := main_arg13) hostOps0 (Gen.W0 m ρ c) writes_hostOps0 (by decide)).trans (W0_arg13 m ρ c)
theorem W2_arg13 : Gen.W2 (F := Ideal) m ρ c (Proc.devRef .tc main_arg13) = A13 :=
  (Gen.W2_of_ne m ρ c main_arg13 (by decide)).trans (W1_arg13 m ρ c)
theorem W3_arg13 : Gen.W3 (F := Ideal) m ρ c (Proc.devRef .tc main_arg13) = A13 :=
  (StableHlo.after_of_writes_sub (r := main_arg13) hostOps1 (Gen.W2 m ρ c) writes_hostOps1 (by decide)).trans (W2_arg13 m ρ c)
theorem W4_arg13 : Gen.W4 (F := Ideal) m ρ c (Proc.devRef .tc main_arg13) = A13 :=
  (Gen.W4_of_ne m ρ c main_arg13 (by decide)).trans (W3_arg13 m ρ c)
theorem W5_arg13 : Gen.W5 (F := Ideal) m ρ c (Proc.devRef .tc main_arg13) = A13 :=
  (Gen.W5_of_ne m ρ c main_arg13 (by decide)).trans (W4_arg13 m ρ c)
theorem W6_arg13 : Gen.W6 (F := Ideal) m ρ c (Proc.devRef .tc main_arg13) = A13 :=
  (StableHlo.after_of_writes_sub (r := main_arg13) hostOps3 (Gen.W5 m ρ c) writes_hostOps3 (by decide)).trans (W5_arg13 m ρ c)
theorem W7_arg13 : Gen.W7 (F := Ideal) m ρ c (Proc.devRef .tc main_arg13) = A13 :=
  (Gen.W7_of_ne m ρ c main_arg13 (by decide)).trans (W6_arg13 m ρ c)
theorem W8_arg13 : Gen.W8 (F := Ideal) m ρ c (Proc.devRef .tc main_arg13) = A13 :=
  (Gen.W8_of_ne m ρ c main_arg13 (by decide)).trans (W7_arg13 m ρ c)
theorem W9_arg13 : Gen.W9 (F := Ideal) m ρ c (Proc.devRef .tc main_arg13) = A13 :=
  (Gen.W9_of_ne m ρ c main_arg13 (by decide)).trans (W8_arg13 m ρ c)
theorem W10_arg13 : Gen.W10 (F := Ideal) m ρ c (Proc.devRef .tc main_arg13) = A13 :=
  (StableHlo.after_of_writes_sub (r := main_arg13) hostOps6 (Gen.W9 m ρ c) writes_hostOps6 (by decide)).trans (W9_arg13 m ρ c)
theorem W11_arg13 : Gen.W11 (F := Ideal) m ρ c (Proc.devRef .tc main_arg13) = A13 :=
  (Gen.W11_of_ne m ρ c main_arg13 (by decide)).trans (W10_arg13 m ρ c)
theorem W12_arg13 : Gen.W12 (F := Ideal) m ρ c (Proc.devRef .tc main_arg13) = A13 :=
  (Gen.W12_of_ne m ρ c main_arg13 (by decide)).trans (W11_arg13 m ρ c)

theorem W0_arg14 : Gen.W0 (F := Ideal) m ρ c (Proc.devRef .tc main_arg14) = A14 := rfl
theorem W1_arg14 : Gen.W1 (F := Ideal) m ρ c (Proc.devRef .tc main_arg14) = A14 :=
  (StableHlo.after_of_writes_sub (r := main_arg14) hostOps0 (Gen.W0 m ρ c) writes_hostOps0 (by decide)).trans (W0_arg14 m ρ c)
theorem W2_arg14 : Gen.W2 (F := Ideal) m ρ c (Proc.devRef .tc main_arg14) = A14 :=
  (Gen.W2_of_ne m ρ c main_arg14 (by decide)).trans (W1_arg14 m ρ c)
theorem W3_arg14 : Gen.W3 (F := Ideal) m ρ c (Proc.devRef .tc main_arg14) = A14 :=
  (StableHlo.after_of_writes_sub (r := main_arg14) hostOps1 (Gen.W2 m ρ c) writes_hostOps1 (by decide)).trans (W2_arg14 m ρ c)
theorem W4_arg14 : Gen.W4 (F := Ideal) m ρ c (Proc.devRef .tc main_arg14) = A14 :=
  (Gen.W4_of_ne m ρ c main_arg14 (by decide)).trans (W3_arg14 m ρ c)
theorem W5_arg14 : Gen.W5 (F := Ideal) m ρ c (Proc.devRef .tc main_arg14) = A14 :=
  (Gen.W5_of_ne m ρ c main_arg14 (by decide)).trans (W4_arg14 m ρ c)
theorem W6_arg14 : Gen.W6 (F := Ideal) m ρ c (Proc.devRef .tc main_arg14) = A14 :=
  (StableHlo.after_of_writes_sub (r := main_arg14) hostOps3 (Gen.W5 m ρ c) writes_hostOps3 (by decide)).trans (W5_arg14 m ρ c)
theorem W7_arg14 : Gen.W7 (F := Ideal) m ρ c (Proc.devRef .tc main_arg14) = A14 :=
  (Gen.W7_of_ne m ρ c main_arg14 (by decide)).trans (W6_arg14 m ρ c)
theorem W8_arg14 : Gen.W8 (F := Ideal) m ρ c (Proc.devRef .tc main_arg14) = A14 :=
  (Gen.W8_of_ne m ρ c main_arg14 (by decide)).trans (W7_arg14 m ρ c)
theorem W9_arg14 : Gen.W9 (F := Ideal) m ρ c (Proc.devRef .tc main_arg14) = A14 :=
  (Gen.W9_of_ne m ρ c main_arg14 (by decide)).trans (W8_arg14 m ρ c)
theorem W10_arg14 : Gen.W10 (F := Ideal) m ρ c (Proc.devRef .tc main_arg14) = A14 :=
  (StableHlo.after_of_writes_sub (r := main_arg14) hostOps6 (Gen.W9 m ρ c) writes_hostOps6 (by decide)).trans (W9_arg14 m ρ c)
theorem W11_arg14 : Gen.W11 (F := Ideal) m ρ c (Proc.devRef .tc main_arg14) = A14 :=
  (Gen.W11_of_ne m ρ c main_arg14 (by decide)).trans (W10_arg14 m ρ c)
theorem W12_arg14 : Gen.W12 (F := Ideal) m ρ c (Proc.devRef .tc main_arg14) = A14 :=
  (Gen.W12_of_ne m ρ c main_arg14 (by decide)).trans (W11_arg14 m ρ c)
theorem W13_arg14 : Gen.W13 (F := Ideal) m ρ c (Proc.devRef .tc main_arg14) = A14 :=
  (Gen.W13_of_ne m ρ c main_arg14 (by decide)).trans (W12_arg14 m ρ c)
theorem W14_arg14 : Gen.W14 (F := Ideal) m ρ c (Proc.devRef .tc main_arg14) = A14 :=
  (StableHlo.after_of_writes_sub (r := main_arg14) hostOps9 (Gen.W13 m ρ c) writes_hostOps9 (by decide)).trans (W13_arg14 m ρ c)

theorem W0_arg15 : Gen.W0 (F := Ideal) m ρ c (Proc.devRef .tc main_arg15) = A15 := rfl
theorem W1_arg15 : Gen.W1 (F := Ideal) m ρ c (Proc.devRef .tc main_arg15) = A15 :=
  (StableHlo.after_of_writes_sub (r := main_arg15) hostOps0 (Gen.W0 m ρ c) writes_hostOps0 (by decide)).trans (W0_arg15 m ρ c)
theorem W2_arg15 : Gen.W2 (F := Ideal) m ρ c (Proc.devRef .tc main_arg15) = A15 :=
  (Gen.W2_of_ne m ρ c main_arg15 (by decide)).trans (W1_arg15 m ρ c)
theorem W3_arg15 : Gen.W3 (F := Ideal) m ρ c (Proc.devRef .tc main_arg15) = A15 :=
  (StableHlo.after_of_writes_sub (r := main_arg15) hostOps1 (Gen.W2 m ρ c) writes_hostOps1 (by decide)).trans (W2_arg15 m ρ c)
theorem W4_arg15 : Gen.W4 (F := Ideal) m ρ c (Proc.devRef .tc main_arg15) = A15 :=
  (Gen.W4_of_ne m ρ c main_arg15 (by decide)).trans (W3_arg15 m ρ c)
theorem W5_arg15 : Gen.W5 (F := Ideal) m ρ c (Proc.devRef .tc main_arg15) = A15 :=
  (Gen.W5_of_ne m ρ c main_arg15 (by decide)).trans (W4_arg15 m ρ c)
theorem W6_arg15 : Gen.W6 (F := Ideal) m ρ c (Proc.devRef .tc main_arg15) = A15 :=
  (StableHlo.after_of_writes_sub (r := main_arg15) hostOps3 (Gen.W5 m ρ c) writes_hostOps3 (by decide)).trans (W5_arg15 m ρ c)
theorem W7_arg15 : Gen.W7 (F := Ideal) m ρ c (Proc.devRef .tc main_arg15) = A15 :=
  (Gen.W7_of_ne m ρ c main_arg15 (by decide)).trans (W6_arg15 m ρ c)
theorem W8_arg15 : Gen.W8 (F := Ideal) m ρ c (Proc.devRef .tc main_arg15) = A15 :=
  (Gen.W8_of_ne m ρ c main_arg15 (by decide)).trans (W7_arg15 m ρ c)
theorem W9_arg15 : Gen.W9 (F := Ideal) m ρ c (Proc.devRef .tc main_arg15) = A15 :=
  (Gen.W9_of_ne m ρ c main_arg15 (by decide)).trans (W8_arg15 m ρ c)
theorem W10_arg15 : Gen.W10 (F := Ideal) m ρ c (Proc.devRef .tc main_arg15) = A15 :=
  (StableHlo.after_of_writes_sub (r := main_arg15) hostOps6 (Gen.W9 m ρ c) writes_hostOps6 (by decide)).trans (W9_arg15 m ρ c)
theorem W11_arg15 : Gen.W11 (F := Ideal) m ρ c (Proc.devRef .tc main_arg15) = A15 :=
  (Gen.W11_of_ne m ρ c main_arg15 (by decide)).trans (W10_arg15 m ρ c)
theorem W12_arg15 : Gen.W12 (F := Ideal) m ρ c (Proc.devRef .tc main_arg15) = A15 :=
  (Gen.W12_of_ne m ρ c main_arg15 (by decide)).trans (W11_arg15 m ρ c)
theorem W13_arg15 : Gen.W13 (F := Ideal) m ρ c (Proc.devRef .tc main_arg15) = A15 :=
  (Gen.W13_of_ne m ρ c main_arg15 (by decide)).trans (W12_arg15 m ρ c)
theorem W14_arg15 : Gen.W14 (F := Ideal) m ρ c (Proc.devRef .tc main_arg15) = A15 :=
  (StableHlo.after_of_writes_sub (r := main_arg15) hostOps9 (Gen.W13 m ρ c) writes_hostOps9 (by decide)).trans (W13_arg15 m ρ c)
theorem W15_arg15 : Gen.W15 (F := Ideal) m ρ c (Proc.devRef .tc main_arg15) = A15 :=
  (Gen.W15_of_ne m ρ c main_arg15 (by decide)).trans (W14_arg15 m ρ c)

theorem W0_arg16 : Gen.W0 (F := Ideal) m ρ c (Proc.devRef .tc main_arg16) = A16 := rfl
theorem W1_arg16 : Gen.W1 (F := Ideal) m ρ c (Proc.devRef .tc main_arg16) = A16 :=
  (StableHlo.after_of_writes_sub (r := main_arg16) hostOps0 (Gen.W0 m ρ c) writes_hostOps0 (by decide)).trans (W0_arg16 m ρ c)
theorem W2_arg16 : Gen.W2 (F := Ideal) m ρ c (Proc.devRef .tc main_arg16) = A16 :=
  (Gen.W2_of_ne m ρ c main_arg16 (by decide)).trans (W1_arg16 m ρ c)
theorem W3_arg16 : Gen.W3 (F := Ideal) m ρ c (Proc.devRef .tc main_arg16) = A16 :=
  (StableHlo.after_of_writes_sub (r := main_arg16) hostOps1 (Gen.W2 m ρ c) writes_hostOps1 (by decide)).trans (W2_arg16 m ρ c)
theorem W4_arg16 : Gen.W4 (F := Ideal) m ρ c (Proc.devRef .tc main_arg16) = A16 :=
  (Gen.W4_of_ne m ρ c main_arg16 (by decide)).trans (W3_arg16 m ρ c)
theorem W5_arg16 : Gen.W5 (F := Ideal) m ρ c (Proc.devRef .tc main_arg16) = A16 :=
  (Gen.W5_of_ne m ρ c main_arg16 (by decide)).trans (W4_arg16 m ρ c)
theorem W6_arg16 : Gen.W6 (F := Ideal) m ρ c (Proc.devRef .tc main_arg16) = A16 :=
  (StableHlo.after_of_writes_sub (r := main_arg16) hostOps3 (Gen.W5 m ρ c) writes_hostOps3 (by decide)).trans (W5_arg16 m ρ c)
theorem W7_arg16 : Gen.W7 (F := Ideal) m ρ c (Proc.devRef .tc main_arg16) = A16 :=
  (Gen.W7_of_ne m ρ c main_arg16 (by decide)).trans (W6_arg16 m ρ c)
theorem W8_arg16 : Gen.W8 (F := Ideal) m ρ c (Proc.devRef .tc main_arg16) = A16 :=
  (Gen.W8_of_ne m ρ c main_arg16 (by decide)).trans (W7_arg16 m ρ c)
theorem W9_arg16 : Gen.W9 (F := Ideal) m ρ c (Proc.devRef .tc main_arg16) = A16 :=
  (Gen.W9_of_ne m ρ c main_arg16 (by decide)).trans (W8_arg16 m ρ c)
theorem W10_arg16 : Gen.W10 (F := Ideal) m ρ c (Proc.devRef .tc main_arg16) = A16 :=
  (StableHlo.after_of_writes_sub (r := main_arg16) hostOps6 (Gen.W9 m ρ c) writes_hostOps6 (by decide)).trans (W9_arg16 m ρ c)
theorem W11_arg16 : Gen.W11 (F := Ideal) m ρ c (Proc.devRef .tc main_arg16) = A16 :=
  (Gen.W11_of_ne m ρ c main_arg16 (by decide)).trans (W10_arg16 m ρ c)
theorem W12_arg16 : Gen.W12 (F := Ideal) m ρ c (Proc.devRef .tc main_arg16) = A16 :=
  (Gen.W12_of_ne m ρ c main_arg16 (by decide)).trans (W11_arg16 m ρ c)
theorem W13_arg16 : Gen.W13 (F := Ideal) m ρ c (Proc.devRef .tc main_arg16) = A16 :=
  (Gen.W13_of_ne m ρ c main_arg16 (by decide)).trans (W12_arg16 m ρ c)
theorem W14_arg16 : Gen.W14 (F := Ideal) m ρ c (Proc.devRef .tc main_arg16) = A16 :=
  (StableHlo.after_of_writes_sub (r := main_arg16) hostOps9 (Gen.W13 m ρ c) writes_hostOps9 (by decide)).trans (W13_arg16 m ρ c)
theorem W15_arg16 : Gen.W15 (F := Ideal) m ρ c (Proc.devRef .tc main_arg16) = A16 :=
  (Gen.W15_of_ne m ρ c main_arg16 (by decide)).trans (W14_arg16 m ρ c)

theorem W0_arg17 : Gen.W0 (F := Ideal) m ρ c (Proc.devRef .tc main_arg17) = A17 := rfl
theorem W1_arg17 : Gen.W1 (F := Ideal) m ρ c (Proc.devRef .tc main_arg17) = A17 :=
  (StableHlo.after_of_writes_sub (r := main_arg17) hostOps0 (Gen.W0 m ρ c) writes_hostOps0 (by decide)).trans (W0_arg17 m ρ c)
theorem W2_arg17 : Gen.W2 (F := Ideal) m ρ c (Proc.devRef .tc main_arg17) = A17 :=
  (Gen.W2_of_ne m ρ c main_arg17 (by decide)).trans (W1_arg17 m ρ c)
theorem W3_arg17 : Gen.W3 (F := Ideal) m ρ c (Proc.devRef .tc main_arg17) = A17 :=
  (StableHlo.after_of_writes_sub (r := main_arg17) hostOps1 (Gen.W2 m ρ c) writes_hostOps1 (by decide)).trans (W2_arg17 m ρ c)
theorem W4_arg17 : Gen.W4 (F := Ideal) m ρ c (Proc.devRef .tc main_arg17) = A17 :=
  (Gen.W4_of_ne m ρ c main_arg17 (by decide)).trans (W3_arg17 m ρ c)
theorem W5_arg17 : Gen.W5 (F := Ideal) m ρ c (Proc.devRef .tc main_arg17) = A17 :=
  (Gen.W5_of_ne m ρ c main_arg17 (by decide)).trans (W4_arg17 m ρ c)
theorem W6_arg17 : Gen.W6 (F := Ideal) m ρ c (Proc.devRef .tc main_arg17) = A17 :=
  (StableHlo.after_of_writes_sub (r := main_arg17) hostOps3 (Gen.W5 m ρ c) writes_hostOps3 (by decide)).trans (W5_arg17 m ρ c)
theorem W7_arg17 : Gen.W7 (F := Ideal) m ρ c (Proc.devRef .tc main_arg17) = A17 :=
  (Gen.W7_of_ne m ρ c main_arg17 (by decide)).trans (W6_arg17 m ρ c)
theorem W8_arg17 : Gen.W8 (F := Ideal) m ρ c (Proc.devRef .tc main_arg17) = A17 :=
  (Gen.W8_of_ne m ρ c main_arg17 (by decide)).trans (W7_arg17 m ρ c)
theorem W9_arg17 : Gen.W9 (F := Ideal) m ρ c (Proc.devRef .tc main_arg17) = A17 :=
  (Gen.W9_of_ne m ρ c main_arg17 (by decide)).trans (W8_arg17 m ρ c)
theorem W10_arg17 : Gen.W10 (F := Ideal) m ρ c (Proc.devRef .tc main_arg17) = A17 :=
  (StableHlo.after_of_writes_sub (r := main_arg17) hostOps6 (Gen.W9 m ρ c) writes_hostOps6 (by decide)).trans (W9_arg17 m ρ c)
theorem W11_arg17 : Gen.W11 (F := Ideal) m ρ c (Proc.devRef .tc main_arg17) = A17 :=
  (Gen.W11_of_ne m ρ c main_arg17 (by decide)).trans (W10_arg17 m ρ c)
theorem W12_arg17 : Gen.W12 (F := Ideal) m ρ c (Proc.devRef .tc main_arg17) = A17 :=
  (Gen.W12_of_ne m ρ c main_arg17 (by decide)).trans (W11_arg17 m ρ c)
theorem W13_arg17 : Gen.W13 (F := Ideal) m ρ c (Proc.devRef .tc main_arg17) = A17 :=
  (Gen.W13_of_ne m ρ c main_arg17 (by decide)).trans (W12_arg17 m ρ c)
theorem W14_arg17 : Gen.W14 (F := Ideal) m ρ c (Proc.devRef .tc main_arg17) = A17 :=
  (StableHlo.after_of_writes_sub (r := main_arg17) hostOps9 (Gen.W13 m ρ c) writes_hostOps9 (by decide)).trans (W13_arg17 m ρ c)
theorem W15_arg17 : Gen.W15 (F := Ideal) m ρ c (Proc.devRef .tc main_arg17) = A17 :=
  (Gen.W15_of_ne m ρ c main_arg17 (by decide)).trans (W14_arg17 m ρ c)
theorem W16_arg17 : Gen.W16 (F := Ideal) m ρ c (Proc.devRef .tc main_arg17) = A17 :=
  (Gen.W16_of_ne m ρ c main_arg17 (by decide)).trans (W15_arg17 m ρ c)

theorem W0_arg18 : Gen.W0 (F := Ideal) m ρ c (Proc.devRef .tc main_arg18) = A18 := rfl
theorem W1_arg18 : Gen.W1 (F := Ideal) m ρ c (Proc.devRef .tc main_arg18) = A18 :=
  (StableHlo.after_of_writes_sub (r := main_arg18) hostOps0 (Gen.W0 m ρ c) writes_hostOps0 (by decide)).trans (W0_arg18 m ρ c)
theorem W2_arg18 : Gen.W2 (F := Ideal) m ρ c (Proc.devRef .tc main_arg18) = A18 :=
  (Gen.W2_of_ne m ρ c main_arg18 (by decide)).trans (W1_arg18 m ρ c)
theorem W3_arg18 : Gen.W3 (F := Ideal) m ρ c (Proc.devRef .tc main_arg18) = A18 :=
  (StableHlo.after_of_writes_sub (r := main_arg18) hostOps1 (Gen.W2 m ρ c) writes_hostOps1 (by decide)).trans (W2_arg18 m ρ c)
theorem W4_arg18 : Gen.W4 (F := Ideal) m ρ c (Proc.devRef .tc main_arg18) = A18 :=
  (Gen.W4_of_ne m ρ c main_arg18 (by decide)).trans (W3_arg18 m ρ c)
theorem W5_arg18 : Gen.W5 (F := Ideal) m ρ c (Proc.devRef .tc main_arg18) = A18 :=
  (Gen.W5_of_ne m ρ c main_arg18 (by decide)).trans (W4_arg18 m ρ c)
theorem W6_arg18 : Gen.W6 (F := Ideal) m ρ c (Proc.devRef .tc main_arg18) = A18 :=
  (StableHlo.after_of_writes_sub (r := main_arg18) hostOps3 (Gen.W5 m ρ c) writes_hostOps3 (by decide)).trans (W5_arg18 m ρ c)
theorem W7_arg18 : Gen.W7 (F := Ideal) m ρ c (Proc.devRef .tc main_arg18) = A18 :=
  (Gen.W7_of_ne m ρ c main_arg18 (by decide)).trans (W6_arg18 m ρ c)
theorem W8_arg18 : Gen.W8 (F := Ideal) m ρ c (Proc.devRef .tc main_arg18) = A18 :=
  (Gen.W8_of_ne m ρ c main_arg18 (by decide)).trans (W7_arg18 m ρ c)
theorem W9_arg18 : Gen.W9 (F := Ideal) m ρ c (Proc.devRef .tc main_arg18) = A18 :=
  (Gen.W9_of_ne m ρ c main_arg18 (by decide)).trans (W8_arg18 m ρ c)
theorem W10_arg18 : Gen.W10 (F := Ideal) m ρ c (Proc.devRef .tc main_arg18) = A18 :=
  (StableHlo.after_of_writes_sub (r := main_arg18) hostOps6 (Gen.W9 m ρ c) writes_hostOps6 (by decide)).trans (W9_arg18 m ρ c)
theorem W11_arg18 : Gen.W11 (F := Ideal) m ρ c (Proc.devRef .tc main_arg18) = A18 :=
  (Gen.W11_of_ne m ρ c main_arg18 (by decide)).trans (W10_arg18 m ρ c)
theorem W12_arg18 : Gen.W12 (F := Ideal) m ρ c (Proc.devRef .tc main_arg18) = A18 :=
  (Gen.W12_of_ne m ρ c main_arg18 (by decide)).trans (W11_arg18 m ρ c)
theorem W13_arg18 : Gen.W13 (F := Ideal) m ρ c (Proc.devRef .tc main_arg18) = A18 :=
  (Gen.W13_of_ne m ρ c main_arg18 (by decide)).trans (W12_arg18 m ρ c)
theorem W14_arg18 : Gen.W14 (F := Ideal) m ρ c (Proc.devRef .tc main_arg18) = A18 :=
  (StableHlo.after_of_writes_sub (r := main_arg18) hostOps9 (Gen.W13 m ρ c) writes_hostOps9 (by decide)).trans (W13_arg18 m ρ c)
theorem W15_arg18 : Gen.W15 (F := Ideal) m ρ c (Proc.devRef .tc main_arg18) = A18 :=
  (Gen.W15_of_ne m ρ c main_arg18 (by decide)).trans (W14_arg18 m ρ c)
theorem W16_arg18 : Gen.W16 (F := Ideal) m ρ c (Proc.devRef .tc main_arg18) = A18 :=
  (Gen.W16_of_ne m ρ c main_arg18 (by decide)).trans (W15_arg18 m ρ c)

theorem W0_arg19 : Gen.W0 (F := Ideal) m ρ c (Proc.devRef .tc main_arg19) = A19 := rfl
theorem W1_arg19 : Gen.W1 (F := Ideal) m ρ c (Proc.devRef .tc main_arg19) = A19 :=
  (StableHlo.after_of_writes_sub (r := main_arg19) hostOps0 (Gen.W0 m ρ c) writes_hostOps0 (by decide)).trans (W0_arg19 m ρ c)
theorem W2_arg19 : Gen.W2 (F := Ideal) m ρ c (Proc.devRef .tc main_arg19) = A19 :=
  (Gen.W2_of_ne m ρ c main_arg19 (by decide)).trans (W1_arg19 m ρ c)
theorem W3_arg19 : Gen.W3 (F := Ideal) m ρ c (Proc.devRef .tc main_arg19) = A19 :=
  (StableHlo.after_of_writes_sub (r := main_arg19) hostOps1 (Gen.W2 m ρ c) writes_hostOps1 (by decide)).trans (W2_arg19 m ρ c)
theorem W4_arg19 : Gen.W4 (F := Ideal) m ρ c (Proc.devRef .tc main_arg19) = A19 :=
  (Gen.W4_of_ne m ρ c main_arg19 (by decide)).trans (W3_arg19 m ρ c)
theorem W5_arg19 : Gen.W5 (F := Ideal) m ρ c (Proc.devRef .tc main_arg19) = A19 :=
  (Gen.W5_of_ne m ρ c main_arg19 (by decide)).trans (W4_arg19 m ρ c)
theorem W6_arg19 : Gen.W6 (F := Ideal) m ρ c (Proc.devRef .tc main_arg19) = A19 :=
  (StableHlo.after_of_writes_sub (r := main_arg19) hostOps3 (Gen.W5 m ρ c) writes_hostOps3 (by decide)).trans (W5_arg19 m ρ c)
theorem W7_arg19 : Gen.W7 (F := Ideal) m ρ c (Proc.devRef .tc main_arg19) = A19 :=
  (Gen.W7_of_ne m ρ c main_arg19 (by decide)).trans (W6_arg19 m ρ c)
theorem W8_arg19 : Gen.W8 (F := Ideal) m ρ c (Proc.devRef .tc main_arg19) = A19 :=
  (Gen.W8_of_ne m ρ c main_arg19 (by decide)).trans (W7_arg19 m ρ c)
theorem W9_arg19 : Gen.W9 (F := Ideal) m ρ c (Proc.devRef .tc main_arg19) = A19 :=
  (Gen.W9_of_ne m ρ c main_arg19 (by decide)).trans (W8_arg19 m ρ c)
theorem W10_arg19 : Gen.W10 (F := Ideal) m ρ c (Proc.devRef .tc main_arg19) = A19 :=
  (StableHlo.after_of_writes_sub (r := main_arg19) hostOps6 (Gen.W9 m ρ c) writes_hostOps6 (by decide)).trans (W9_arg19 m ρ c)
theorem W11_arg19 : Gen.W11 (F := Ideal) m ρ c (Proc.devRef .tc main_arg19) = A19 :=
  (Gen.W11_of_ne m ρ c main_arg19 (by decide)).trans (W10_arg19 m ρ c)
theorem W12_arg19 : Gen.W12 (F := Ideal) m ρ c (Proc.devRef .tc main_arg19) = A19 :=
  (Gen.W12_of_ne m ρ c main_arg19 (by decide)).trans (W11_arg19 m ρ c)
theorem W13_arg19 : Gen.W13 (F := Ideal) m ρ c (Proc.devRef .tc main_arg19) = A19 :=
  (Gen.W13_of_ne m ρ c main_arg19 (by decide)).trans (W12_arg19 m ρ c)
theorem W14_arg19 : Gen.W14 (F := Ideal) m ρ c (Proc.devRef .tc main_arg19) = A19 :=
  (StableHlo.after_of_writes_sub (r := main_arg19) hostOps9 (Gen.W13 m ρ c) writes_hostOps9 (by decide)).trans (W13_arg19 m ρ c)
theorem W15_arg19 : Gen.W15 (F := Ideal) m ρ c (Proc.devRef .tc main_arg19) = A19 :=
  (Gen.W15_of_ne m ρ c main_arg19 (by decide)).trans (W14_arg19 m ρ c)
theorem W16_arg19 : Gen.W16 (F := Ideal) m ρ c (Proc.devRef .tc main_arg19) = A19 :=
  (Gen.W16_of_ne m ρ c main_arg19 (by decide)).trans (W15_arg19 m ρ c)
theorem W17_arg19 : Gen.W17 (F := Ideal) m ρ c (Proc.devRef .tc main_arg19) = A19 :=
  (Gen.W17_of_ne m ρ c main_arg19 (by decide)).trans (W16_arg19 m ρ c)

theorem W0_arg20 : Gen.W0 (F := Ideal) m ρ c (Proc.devRef .tc main_arg20) = A20 := rfl
theorem W1_arg20 : Gen.W1 (F := Ideal) m ρ c (Proc.devRef .tc main_arg20) = A20 :=
  (StableHlo.after_of_writes_sub (r := main_arg20) hostOps0 (Gen.W0 m ρ c) writes_hostOps0 (by decide)).trans (W0_arg20 m ρ c)
theorem W2_arg20 : Gen.W2 (F := Ideal) m ρ c (Proc.devRef .tc main_arg20) = A20 :=
  (Gen.W2_of_ne m ρ c main_arg20 (by decide)).trans (W1_arg20 m ρ c)
theorem W3_arg20 : Gen.W3 (F := Ideal) m ρ c (Proc.devRef .tc main_arg20) = A20 :=
  (StableHlo.after_of_writes_sub (r := main_arg20) hostOps1 (Gen.W2 m ρ c) writes_hostOps1 (by decide)).trans (W2_arg20 m ρ c)
theorem W4_arg20 : Gen.W4 (F := Ideal) m ρ c (Proc.devRef .tc main_arg20) = A20 :=
  (Gen.W4_of_ne m ρ c main_arg20 (by decide)).trans (W3_arg20 m ρ c)
theorem W5_arg20 : Gen.W5 (F := Ideal) m ρ c (Proc.devRef .tc main_arg20) = A20 :=
  (Gen.W5_of_ne m ρ c main_arg20 (by decide)).trans (W4_arg20 m ρ c)
theorem W6_arg20 : Gen.W6 (F := Ideal) m ρ c (Proc.devRef .tc main_arg20) = A20 :=
  (StableHlo.after_of_writes_sub (r := main_arg20) hostOps3 (Gen.W5 m ρ c) writes_hostOps3 (by decide)).trans (W5_arg20 m ρ c)
theorem W7_arg20 : Gen.W7 (F := Ideal) m ρ c (Proc.devRef .tc main_arg20) = A20 :=
  (Gen.W7_of_ne m ρ c main_arg20 (by decide)).trans (W6_arg20 m ρ c)
theorem W8_arg20 : Gen.W8 (F := Ideal) m ρ c (Proc.devRef .tc main_arg20) = A20 :=
  (Gen.W8_of_ne m ρ c main_arg20 (by decide)).trans (W7_arg20 m ρ c)
theorem W9_arg20 : Gen.W9 (F := Ideal) m ρ c (Proc.devRef .tc main_arg20) = A20 :=
  (Gen.W9_of_ne m ρ c main_arg20 (by decide)).trans (W8_arg20 m ρ c)
theorem W10_arg20 : Gen.W10 (F := Ideal) m ρ c (Proc.devRef .tc main_arg20) = A20 :=
  (StableHlo.after_of_writes_sub (r := main_arg20) hostOps6 (Gen.W9 m ρ c) writes_hostOps6 (by decide)).trans (W9_arg20 m ρ c)
theorem W11_arg20 : Gen.W11 (F := Ideal) m ρ c (Proc.devRef .tc main_arg20) = A20 :=
  (Gen.W11_of_ne m ρ c main_arg20 (by decide)).trans (W10_arg20 m ρ c)
theorem W12_arg20 : Gen.W12 (F := Ideal) m ρ c (Proc.devRef .tc main_arg20) = A20 :=
  (Gen.W12_of_ne m ρ c main_arg20 (by decide)).trans (W11_arg20 m ρ c)
theorem W13_arg20 : Gen.W13 (F := Ideal) m ρ c (Proc.devRef .tc main_arg20) = A20 :=
  (Gen.W13_of_ne m ρ c main_arg20 (by decide)).trans (W12_arg20 m ρ c)
theorem W14_arg20 : Gen.W14 (F := Ideal) m ρ c (Proc.devRef .tc main_arg20) = A20 :=
  (StableHlo.after_of_writes_sub (r := main_arg20) hostOps9 (Gen.W13 m ρ c) writes_hostOps9 (by decide)).trans (W13_arg20 m ρ c)
theorem W15_arg20 : Gen.W15 (F := Ideal) m ρ c (Proc.devRef .tc main_arg20) = A20 :=
  (Gen.W15_of_ne m ρ c main_arg20 (by decide)).trans (W14_arg20 m ρ c)
theorem W16_arg20 : Gen.W16 (F := Ideal) m ρ c (Proc.devRef .tc main_arg20) = A20 :=
  (Gen.W16_of_ne m ρ c main_arg20 (by decide)).trans (W15_arg20 m ρ c)
theorem W17_arg20 : Gen.W17 (F := Ideal) m ρ c (Proc.devRef .tc main_arg20) = A20 :=
  (Gen.W17_of_ne m ρ c main_arg20 (by decide)).trans (W16_arg20 m ρ c)
theorem W18_arg20 : Gen.W18 (F := Ideal) m ρ c (Proc.devRef .tc main_arg20) = A20 :=
  (Gen.W18_of_ne m ρ c main_arg20 (by decide)).trans (W17_arg20 m ρ c)
theorem W19_arg20 : Gen.W19 (F := Ideal) m ρ c (Proc.devRef .tc main_arg20) = A20 :=
  (StableHlo.after_of_writes_sub (r := main_arg20) hostOps13 (Gen.W18 m ρ c) writes_hostOps13 (by decide)).trans (W18_arg20 m ρ c)

theorem W0_arg21 : Gen.W0 (F := Ideal) m ρ c (Proc.devRef .tc main_arg21) = A21 := rfl
theorem W1_arg21 : Gen.W1 (F := Ideal) m ρ c (Proc.devRef .tc main_arg21) = A21 :=
  (StableHlo.after_of_writes_sub (r := main_arg21) hostOps0 (Gen.W0 m ρ c) writes_hostOps0 (by decide)).trans (W0_arg21 m ρ c)
theorem W2_arg21 : Gen.W2 (F := Ideal) m ρ c (Proc.devRef .tc main_arg21) = A21 :=
  (Gen.W2_of_ne m ρ c main_arg21 (by decide)).trans (W1_arg21 m ρ c)
theorem W3_arg21 : Gen.W3 (F := Ideal) m ρ c (Proc.devRef .tc main_arg21) = A21 :=
  (StableHlo.after_of_writes_sub (r := main_arg21) hostOps1 (Gen.W2 m ρ c) writes_hostOps1 (by decide)).trans (W2_arg21 m ρ c)
theorem W4_arg21 : Gen.W4 (F := Ideal) m ρ c (Proc.devRef .tc main_arg21) = A21 :=
  (Gen.W4_of_ne m ρ c main_arg21 (by decide)).trans (W3_arg21 m ρ c)
theorem W5_arg21 : Gen.W5 (F := Ideal) m ρ c (Proc.devRef .tc main_arg21) = A21 :=
  (Gen.W5_of_ne m ρ c main_arg21 (by decide)).trans (W4_arg21 m ρ c)
theorem W6_arg21 : Gen.W6 (F := Ideal) m ρ c (Proc.devRef .tc main_arg21) = A21 :=
  (StableHlo.after_of_writes_sub (r := main_arg21) hostOps3 (Gen.W5 m ρ c) writes_hostOps3 (by decide)).trans (W5_arg21 m ρ c)
theorem W7_arg21 : Gen.W7 (F := Ideal) m ρ c (Proc.devRef .tc main_arg21) = A21 :=
  (Gen.W7_of_ne m ρ c main_arg21 (by decide)).trans (W6_arg21 m ρ c)
theorem W8_arg21 : Gen.W8 (F := Ideal) m ρ c (Proc.devRef .tc main_arg21) = A21 :=
  (Gen.W8_of_ne m ρ c main_arg21 (by decide)).trans (W7_arg21 m ρ c)
theorem W9_arg21 : Gen.W9 (F := Ideal) m ρ c (Proc.devRef .tc main_arg21) = A21 :=
  (Gen.W9_of_ne m ρ c main_arg21 (by decide)).trans (W8_arg21 m ρ c)
theorem W10_arg21 : Gen.W10 (F := Ideal) m ρ c (Proc.devRef .tc main_arg21) = A21 :=
  (StableHlo.after_of_writes_sub (r := main_arg21) hostOps6 (Gen.W9 m ρ c) writes_hostOps6 (by decide)).trans (W9_arg21 m ρ c)
theorem W11_arg21 : Gen.W11 (F := Ideal) m ρ c (Proc.devRef .tc main_arg21) = A21 :=
  (Gen.W11_of_ne m ρ c main_arg21 (by decide)).trans (W10_arg21 m ρ c)
theorem W12_arg21 : Gen.W12 (F := Ideal) m ρ c (Proc.devRef .tc main_arg21) = A21 :=
  (Gen.W12_of_ne m ρ c main_arg21 (by decide)).trans (W11_arg21 m ρ c)
theorem W13_arg21 : Gen.W13 (F := Ideal) m ρ c (Proc.devRef .tc main_arg21) = A21 :=
  (Gen.W13_of_ne m ρ c main_arg21 (by decide)).trans (W12_arg21 m ρ c)
theorem W14_arg21 : Gen.W14 (F := Ideal) m ρ c (Proc.devRef .tc main_arg21) = A21 :=
  (StableHlo.after_of_writes_sub (r := main_arg21) hostOps9 (Gen.W13 m ρ c) writes_hostOps9 (by decide)).trans (W13_arg21 m ρ c)
theorem W15_arg21 : Gen.W15 (F := Ideal) m ρ c (Proc.devRef .tc main_arg21) = A21 :=
  (Gen.W15_of_ne m ρ c main_arg21 (by decide)).trans (W14_arg21 m ρ c)
theorem W16_arg21 : Gen.W16 (F := Ideal) m ρ c (Proc.devRef .tc main_arg21) = A21 :=
  (Gen.W16_of_ne m ρ c main_arg21 (by decide)).trans (W15_arg21 m ρ c)
theorem W17_arg21 : Gen.W17 (F := Ideal) m ρ c (Proc.devRef .tc main_arg21) = A21 :=
  (Gen.W17_of_ne m ρ c main_arg21 (by decide)).trans (W16_arg21 m ρ c)
theorem W18_arg21 : Gen.W18 (F := Ideal) m ρ c (Proc.devRef .tc main_arg21) = A21 :=
  (Gen.W18_of_ne m ρ c main_arg21 (by decide)).trans (W17_arg21 m ρ c)
theorem W19_arg21 : Gen.W19 (F := Ideal) m ρ c (Proc.devRef .tc main_arg21) = A21 :=
  (StableHlo.after_of_writes_sub (r := main_arg21) hostOps13 (Gen.W18 m ρ c) writes_hostOps13 (by decide)).trans (W18_arg21 m ρ c)
theorem W20_arg21 : Gen.W20 (F := Ideal) m ρ c (Proc.devRef .tc main_arg21) = A21 :=
  (Gen.W20_of_ne m ρ c main_arg21 (by decide)).trans (W19_arg21 m ρ c)

theorem W0_arg22 : Gen.W0 (F := Ideal) m ρ c (Proc.devRef .tc main_arg22) = A22 := rfl
theorem W1_arg22 : Gen.W1 (F := Ideal) m ρ c (Proc.devRef .tc main_arg22) = A22 :=
  (StableHlo.after_of_writes_sub (r := main_arg22) hostOps0 (Gen.W0 m ρ c) writes_hostOps0 (by decide)).trans (W0_arg22 m ρ c)
theorem W2_arg22 : Gen.W2 (F := Ideal) m ρ c (Proc.devRef .tc main_arg22) = A22 :=
  (Gen.W2_of_ne m ρ c main_arg22 (by decide)).trans (W1_arg22 m ρ c)
theorem W3_arg22 : Gen.W3 (F := Ideal) m ρ c (Proc.devRef .tc main_arg22) = A22 :=
  (StableHlo.after_of_writes_sub (r := main_arg22) hostOps1 (Gen.W2 m ρ c) writes_hostOps1 (by decide)).trans (W2_arg22 m ρ c)
theorem W4_arg22 : Gen.W4 (F := Ideal) m ρ c (Proc.devRef .tc main_arg22) = A22 :=
  (Gen.W4_of_ne m ρ c main_arg22 (by decide)).trans (W3_arg22 m ρ c)
theorem W5_arg22 : Gen.W5 (F := Ideal) m ρ c (Proc.devRef .tc main_arg22) = A22 :=
  (Gen.W5_of_ne m ρ c main_arg22 (by decide)).trans (W4_arg22 m ρ c)
theorem W6_arg22 : Gen.W6 (F := Ideal) m ρ c (Proc.devRef .tc main_arg22) = A22 :=
  (StableHlo.after_of_writes_sub (r := main_arg22) hostOps3 (Gen.W5 m ρ c) writes_hostOps3 (by decide)).trans (W5_arg22 m ρ c)
theorem W7_arg22 : Gen.W7 (F := Ideal) m ρ c (Proc.devRef .tc main_arg22) = A22 :=
  (Gen.W7_of_ne m ρ c main_arg22 (by decide)).trans (W6_arg22 m ρ c)
theorem W8_arg22 : Gen.W8 (F := Ideal) m ρ c (Proc.devRef .tc main_arg22) = A22 :=
  (Gen.W8_of_ne m ρ c main_arg22 (by decide)).trans (W7_arg22 m ρ c)
theorem W9_arg22 : Gen.W9 (F := Ideal) m ρ c (Proc.devRef .tc main_arg22) = A22 :=
  (Gen.W9_of_ne m ρ c main_arg22 (by decide)).trans (W8_arg22 m ρ c)
theorem W10_arg22 : Gen.W10 (F := Ideal) m ρ c (Proc.devRef .tc main_arg22) = A22 :=
  (StableHlo.after_of_writes_sub (r := main_arg22) hostOps6 (Gen.W9 m ρ c) writes_hostOps6 (by decide)).trans (W9_arg22 m ρ c)
theorem W11_arg22 : Gen.W11 (F := Ideal) m ρ c (Proc.devRef .tc main_arg22) = A22 :=
  (Gen.W11_of_ne m ρ c main_arg22 (by decide)).trans (W10_arg22 m ρ c)
theorem W12_arg22 : Gen.W12 (F := Ideal) m ρ c (Proc.devRef .tc main_arg22) = A22 :=
  (Gen.W12_of_ne m ρ c main_arg22 (by decide)).trans (W11_arg22 m ρ c)
theorem W13_arg22 : Gen.W13 (F := Ideal) m ρ c (Proc.devRef .tc main_arg22) = A22 :=
  (Gen.W13_of_ne m ρ c main_arg22 (by decide)).trans (W12_arg22 m ρ c)
theorem W14_arg22 : Gen.W14 (F := Ideal) m ρ c (Proc.devRef .tc main_arg22) = A22 :=
  (StableHlo.after_of_writes_sub (r := main_arg22) hostOps9 (Gen.W13 m ρ c) writes_hostOps9 (by decide)).trans (W13_arg22 m ρ c)
theorem W15_arg22 : Gen.W15 (F := Ideal) m ρ c (Proc.devRef .tc main_arg22) = A22 :=
  (Gen.W15_of_ne m ρ c main_arg22 (by decide)).trans (W14_arg22 m ρ c)
theorem W16_arg22 : Gen.W16 (F := Ideal) m ρ c (Proc.devRef .tc main_arg22) = A22 :=
  (Gen.W16_of_ne m ρ c main_arg22 (by decide)).trans (W15_arg22 m ρ c)
theorem W17_arg22 : Gen.W17 (F := Ideal) m ρ c (Proc.devRef .tc main_arg22) = A22 :=
  (Gen.W17_of_ne m ρ c main_arg22 (by decide)).trans (W16_arg22 m ρ c)
theorem W18_arg22 : Gen.W18 (F := Ideal) m ρ c (Proc.devRef .tc main_arg22) = A22 :=
  (Gen.W18_of_ne m ρ c main_arg22 (by decide)).trans (W17_arg22 m ρ c)
theorem W19_arg22 : Gen.W19 (F := Ideal) m ρ c (Proc.devRef .tc main_arg22) = A22 :=
  (StableHlo.after_of_writes_sub (r := main_arg22) hostOps13 (Gen.W18 m ρ c) writes_hostOps13 (by decide)).trans (W18_arg22 m ρ c)
theorem W20_arg22 : Gen.W20 (F := Ideal) m ρ c (Proc.devRef .tc main_arg22) = A22 :=
  (Gen.W20_of_ne m ρ c main_arg22 (by decide)).trans (W19_arg22 m ρ c)

theorem W0_arg23 : Gen.W0 (F := Ideal) m ρ c (Proc.devRef .tc main_arg23) = A23 := rfl
theorem W1_arg23 : Gen.W1 (F := Ideal) m ρ c (Proc.devRef .tc main_arg23) = A23 :=
  (StableHlo.after_of_writes_sub (r := main_arg23) hostOps0 (Gen.W0 m ρ c) writes_hostOps0 (by decide)).trans (W0_arg23 m ρ c)
theorem W2_arg23 : Gen.W2 (F := Ideal) m ρ c (Proc.devRef .tc main_arg23) = A23 :=
  (Gen.W2_of_ne m ρ c main_arg23 (by decide)).trans (W1_arg23 m ρ c)
theorem W3_arg23 : Gen.W3 (F := Ideal) m ρ c (Proc.devRef .tc main_arg23) = A23 :=
  (StableHlo.after_of_writes_sub (r := main_arg23) hostOps1 (Gen.W2 m ρ c) writes_hostOps1 (by decide)).trans (W2_arg23 m ρ c)
theorem W4_arg23 : Gen.W4 (F := Ideal) m ρ c (Proc.devRef .tc main_arg23) = A23 :=
  (Gen.W4_of_ne m ρ c main_arg23 (by decide)).trans (W3_arg23 m ρ c)
theorem W5_arg23 : Gen.W5 (F := Ideal) m ρ c (Proc.devRef .tc main_arg23) = A23 :=
  (Gen.W5_of_ne m ρ c main_arg23 (by decide)).trans (W4_arg23 m ρ c)
theorem W6_arg23 : Gen.W6 (F := Ideal) m ρ c (Proc.devRef .tc main_arg23) = A23 :=
  (StableHlo.after_of_writes_sub (r := main_arg23) hostOps3 (Gen.W5 m ρ c) writes_hostOps3 (by decide)).trans (W5_arg23 m ρ c)
theorem W7_arg23 : Gen.W7 (F := Ideal) m ρ c (Proc.devRef .tc main_arg23) = A23 :=
  (Gen.W7_of_ne m ρ c main_arg23 (by decide)).trans (W6_arg23 m ρ c)
theorem W8_arg23 : Gen.W8 (F := Ideal) m ρ c (Proc.devRef .tc main_arg23) = A23 :=
  (Gen.W8_of_ne m ρ c main_arg23 (by decide)).trans (W7_arg23 m ρ c)
theorem W9_arg23 : Gen.W9 (F := Ideal) m ρ c (Proc.devRef .tc main_arg23) = A23 :=
  (Gen.W9_of_ne m ρ c main_arg23 (by decide)).trans (W8_arg23 m ρ c)
theorem W10_arg23 : Gen.W10 (F := Ideal) m ρ c (Proc.devRef .tc main_arg23) = A23 :=
  (StableHlo.after_of_writes_sub (r := main_arg23) hostOps6 (Gen.W9 m ρ c) writes_hostOps6 (by decide)).trans (W9_arg23 m ρ c)
theorem W11_arg23 : Gen.W11 (F := Ideal) m ρ c (Proc.devRef .tc main_arg23) = A23 :=
  (Gen.W11_of_ne m ρ c main_arg23 (by decide)).trans (W10_arg23 m ρ c)
theorem W12_arg23 : Gen.W12 (F := Ideal) m ρ c (Proc.devRef .tc main_arg23) = A23 :=
  (Gen.W12_of_ne m ρ c main_arg23 (by decide)).trans (W11_arg23 m ρ c)
theorem W13_arg23 : Gen.W13 (F := Ideal) m ρ c (Proc.devRef .tc main_arg23) = A23 :=
  (Gen.W13_of_ne m ρ c main_arg23 (by decide)).trans (W12_arg23 m ρ c)
theorem W14_arg23 : Gen.W14 (F := Ideal) m ρ c (Proc.devRef .tc main_arg23) = A23 :=
  (StableHlo.after_of_writes_sub (r := main_arg23) hostOps9 (Gen.W13 m ρ c) writes_hostOps9 (by decide)).trans (W13_arg23 m ρ c)
theorem W15_arg23 : Gen.W15 (F := Ideal) m ρ c (Proc.devRef .tc main_arg23) = A23 :=
  (Gen.W15_of_ne m ρ c main_arg23 (by decide)).trans (W14_arg23 m ρ c)
theorem W16_arg23 : Gen.W16 (F := Ideal) m ρ c (Proc.devRef .tc main_arg23) = A23 :=
  (Gen.W16_of_ne m ρ c main_arg23 (by decide)).trans (W15_arg23 m ρ c)
theorem W17_arg23 : Gen.W17 (F := Ideal) m ρ c (Proc.devRef .tc main_arg23) = A23 :=
  (Gen.W17_of_ne m ρ c main_arg23 (by decide)).trans (W16_arg23 m ρ c)
theorem W18_arg23 : Gen.W18 (F := Ideal) m ρ c (Proc.devRef .tc main_arg23) = A23 :=
  (Gen.W18_of_ne m ρ c main_arg23 (by decide)).trans (W17_arg23 m ρ c)
theorem W19_arg23 : Gen.W19 (F := Ideal) m ρ c (Proc.devRef .tc main_arg23) = A23 :=
  (StableHlo.after_of_writes_sub (r := main_arg23) hostOps13 (Gen.W18 m ρ c) writes_hostOps13 (by decide)).trans (W18_arg23 m ρ c)
theorem W20_arg23 : Gen.W20 (F := Ideal) m ρ c (Proc.devRef .tc main_arg23) = A23 :=
  (Gen.W20_of_ne m ρ c main_arg23 (by decide)).trans (W19_arg23 m ρ c)
theorem W21_arg23 : Gen.W21 (F := Ideal) m ρ c (Proc.devRef .tc main_arg23) = A23 :=
  (Gen.W21_of_ne m ρ c main_arg23 (by decide)).trans (W20_arg23 m ρ c)

theorem W0_arg24 : Gen.W0 (F := Ideal) m ρ c (Proc.devRef .tc main_arg24) = A24 := rfl
theorem W1_arg24 : Gen.W1 (F := Ideal) m ρ c (Proc.devRef .tc main_arg24) = A24 :=
  (StableHlo.after_of_writes_sub (r := main_arg24) hostOps0 (Gen.W0 m ρ c) writes_hostOps0 (by decide)).trans (W0_arg24 m ρ c)
theorem W2_arg24 : Gen.W2 (F := Ideal) m ρ c (Proc.devRef .tc main_arg24) = A24 :=
  (Gen.W2_of_ne m ρ c main_arg24 (by decide)).trans (W1_arg24 m ρ c)
theorem W3_arg24 : Gen.W3 (F := Ideal) m ρ c (Proc.devRef .tc main_arg24) = A24 :=
  (StableHlo.after_of_writes_sub (r := main_arg24) hostOps1 (Gen.W2 m ρ c) writes_hostOps1 (by decide)).trans (W2_arg24 m ρ c)
theorem W4_arg24 : Gen.W4 (F := Ideal) m ρ c (Proc.devRef .tc main_arg24) = A24 :=
  (Gen.W4_of_ne m ρ c main_arg24 (by decide)).trans (W3_arg24 m ρ c)
theorem W5_arg24 : Gen.W5 (F := Ideal) m ρ c (Proc.devRef .tc main_arg24) = A24 :=
  (Gen.W5_of_ne m ρ c main_arg24 (by decide)).trans (W4_arg24 m ρ c)
theorem W6_arg24 : Gen.W6 (F := Ideal) m ρ c (Proc.devRef .tc main_arg24) = A24 :=
  (StableHlo.after_of_writes_sub (r := main_arg24) hostOps3 (Gen.W5 m ρ c) writes_hostOps3 (by decide)).trans (W5_arg24 m ρ c)
theorem W7_arg24 : Gen.W7 (F := Ideal) m ρ c (Proc.devRef .tc main_arg24) = A24 :=
  (Gen.W7_of_ne m ρ c main_arg24 (by decide)).trans (W6_arg24 m ρ c)
theorem W8_arg24 : Gen.W8 (F := Ideal) m ρ c (Proc.devRef .tc main_arg24) = A24 :=
  (Gen.W8_of_ne m ρ c main_arg24 (by decide)).trans (W7_arg24 m ρ c)
theorem W9_arg24 : Gen.W9 (F := Ideal) m ρ c (Proc.devRef .tc main_arg24) = A24 :=
  (Gen.W9_of_ne m ρ c main_arg24 (by decide)).trans (W8_arg24 m ρ c)
theorem W10_arg24 : Gen.W10 (F := Ideal) m ρ c (Proc.devRef .tc main_arg24) = A24 :=
  (StableHlo.after_of_writes_sub (r := main_arg24) hostOps6 (Gen.W9 m ρ c) writes_hostOps6 (by decide)).trans (W9_arg24 m ρ c)
theorem W11_arg24 : Gen.W11 (F := Ideal) m ρ c (Proc.devRef .tc main_arg24) = A24 :=
  (Gen.W11_of_ne m ρ c main_arg24 (by decide)).trans (W10_arg24 m ρ c)
theorem W12_arg24 : Gen.W12 (F := Ideal) m ρ c (Proc.devRef .tc main_arg24) = A24 :=
  (Gen.W12_of_ne m ρ c main_arg24 (by decide)).trans (W11_arg24 m ρ c)
theorem W13_arg24 : Gen.W13 (F := Ideal) m ρ c (Proc.devRef .tc main_arg24) = A24 :=
  (Gen.W13_of_ne m ρ c main_arg24 (by decide)).trans (W12_arg24 m ρ c)
theorem W14_arg24 : Gen.W14 (F := Ideal) m ρ c (Proc.devRef .tc main_arg24) = A24 :=
  (StableHlo.after_of_writes_sub (r := main_arg24) hostOps9 (Gen.W13 m ρ c) writes_hostOps9 (by decide)).trans (W13_arg24 m ρ c)
theorem W15_arg24 : Gen.W15 (F := Ideal) m ρ c (Proc.devRef .tc main_arg24) = A24 :=
  (Gen.W15_of_ne m ρ c main_arg24 (by decide)).trans (W14_arg24 m ρ c)
theorem W16_arg24 : Gen.W16 (F := Ideal) m ρ c (Proc.devRef .tc main_arg24) = A24 :=
  (Gen.W16_of_ne m ρ c main_arg24 (by decide)).trans (W15_arg24 m ρ c)
theorem W17_arg24 : Gen.W17 (F := Ideal) m ρ c (Proc.devRef .tc main_arg24) = A24 :=
  (Gen.W17_of_ne m ρ c main_arg24 (by decide)).trans (W16_arg24 m ρ c)
theorem W18_arg24 : Gen.W18 (F := Ideal) m ρ c (Proc.devRef .tc main_arg24) = A24 :=
  (Gen.W18_of_ne m ρ c main_arg24 (by decide)).trans (W17_arg24 m ρ c)
theorem W19_arg24 : Gen.W19 (F := Ideal) m ρ c (Proc.devRef .tc main_arg24) = A24 :=
  (StableHlo.after_of_writes_sub (r := main_arg24) hostOps13 (Gen.W18 m ρ c) writes_hostOps13 (by decide)).trans (W18_arg24 m ρ c)
theorem W20_arg24 : Gen.W20 (F := Ideal) m ρ c (Proc.devRef .tc main_arg24) = A24 :=
  (Gen.W20_of_ne m ρ c main_arg24 (by decide)).trans (W19_arg24 m ρ c)
theorem W21_arg24 : Gen.W21 (F := Ideal) m ρ c (Proc.devRef .tc main_arg24) = A24 :=
  (Gen.W21_of_ne m ρ c main_arg24 (by decide)).trans (W20_arg24 m ρ c)

/-- The edge sources with the self loops. -/
theorem W1_v5 : Gen.W1 (F := Ideal) m ρ c (Proc.devRef .tc main_v5) = SRC := by
  show StableHlo.after hostOps0 (Gen.W0 m ρ c) (Proc.devRef .tc main_v5) = _
  after_results
  rfl
theorem W2_v5 : Gen.W2 (F := Ideal) m ρ c (Proc.devRef .tc main_v5) = SRC :=
  (Gen.W2_of_ne m ρ c main_v5 (by decide)).trans (W1_v5 m ρ c)
theorem W3_v5 : Gen.W3 (F := Ideal) m ρ c (Proc.devRef .tc main_v5) = SRC :=
  (StableHlo.after_of_writes_sub (r := main_v5) hostOps1 (Gen.W2 m ρ c) writes_hostOps1 (by decide)).trans (W2_v5 m ρ c)
theorem W4_v5 : Gen.W4 (F := Ideal) m ρ c (Proc.devRef .tc main_v5) = SRC :=
  (Gen.W4_of_ne m ρ c main_v5 (by decide)).trans (W3_v5 m ρ c)
theorem W5_v5 : Gen.W5 (F := Ideal) m ρ c (Proc.devRef .tc main_v5) = SRC :=
  (Gen.W5_of_ne m ρ c main_v5 (by decide)).trans (W4_v5 m ρ c)
theorem W6_v5 : Gen.W6 (F := Ideal) m ρ c (Proc.devRef .tc main_v5) = SRC :=
  (StableHlo.after_of_writes_sub (r := main_v5) hostOps3 (Gen.W5 m ρ c) writes_hostOps3 (by decide)).trans (W5_v5 m ρ c)
theorem W7_v5 : Gen.W7 (F := Ideal) m ρ c (Proc.devRef .tc main_v5) = SRC :=
  (Gen.W7_of_ne m ρ c main_v5 (by decide)).trans (W6_v5 m ρ c)
theorem W8_v5 : Gen.W8 (F := Ideal) m ρ c (Proc.devRef .tc main_v5) = SRC :=
  (Gen.W8_of_ne m ρ c main_v5 (by decide)).trans (W7_v5 m ρ c)
theorem W9_v5 : Gen.W9 (F := Ideal) m ρ c (Proc.devRef .tc main_v5) = SRC :=
  (Gen.W9_of_ne m ρ c main_v5 (by decide)).trans (W8_v5 m ρ c)
theorem W10_v5 : Gen.W10 (F := Ideal) m ρ c (Proc.devRef .tc main_v5) = SRC :=
  (StableHlo.after_of_writes_sub (r := main_v5) hostOps6 (Gen.W9 m ρ c) writes_hostOps6 (by decide)).trans (W9_v5 m ρ c)
theorem W11_v5 : Gen.W11 (F := Ideal) m ρ c (Proc.devRef .tc main_v5) = SRC :=
  (Gen.W11_of_ne m ρ c main_v5 (by decide)).trans (W10_v5 m ρ c)
theorem W12_v5 : Gen.W12 (F := Ideal) m ρ c (Proc.devRef .tc main_v5) = SRC :=
  (Gen.W12_of_ne m ρ c main_v5 (by decide)).trans (W11_v5 m ρ c)
theorem W13_v5 : Gen.W13 (F := Ideal) m ρ c (Proc.devRef .tc main_v5) = SRC :=
  (Gen.W13_of_ne m ρ c main_v5 (by decide)).trans (W12_v5 m ρ c)
theorem W14_v5 : Gen.W14 (F := Ideal) m ρ c (Proc.devRef .tc main_v5) = SRC :=
  (StableHlo.after_of_writes_sub (r := main_v5) hostOps9 (Gen.W13 m ρ c) writes_hostOps9 (by decide)).trans (W13_v5 m ρ c)
theorem W15_v5 : Gen.W15 (F := Ideal) m ρ c (Proc.devRef .tc main_v5) = SRC :=
  (Gen.W15_of_ne m ρ c main_v5 (by decide)).trans (W14_v5 m ρ c)
theorem W16_v5 : Gen.W16 (F := Ideal) m ρ c (Proc.devRef .tc main_v5) = SRC :=
  (Gen.W16_of_ne m ρ c main_v5 (by decide)).trans (W15_v5 m ρ c)
theorem W17_v5 : Gen.W17 (F := Ideal) m ρ c (Proc.devRef .tc main_v5) = SRC :=
  (Gen.W17_of_ne m ρ c main_v5 (by decide)).trans (W16_v5 m ρ c)
theorem W18_v5 : Gen.W18 (F := Ideal) m ρ c (Proc.devRef .tc main_v5) = SRC :=
  (Gen.W18_of_ne m ρ c main_v5 (by decide)).trans (W17_v5 m ρ c)
/-- The edge targets with the self loops. -/
theorem W1_v6 : Gen.W1 (F := Ideal) m ρ c (Proc.devRef .tc main_v6) = DST := by
  show StableHlo.after hostOps0 (Gen.W0 m ρ c) (Proc.devRef .tc main_v6) = _
  after_results
  rfl
theorem W2_v6 : Gen.W2 (F := Ideal) m ρ c (Proc.devRef .tc main_v6) = DST :=
  (Gen.W2_of_ne m ρ c main_v6 (by decide)).trans (W1_v6 m ρ c)
theorem W3_v6 : Gen.W3 (F := Ideal) m ρ c (Proc.devRef .tc main_v6) = DST :=
  (StableHlo.after_of_writes_sub (r := main_v6) hostOps1 (Gen.W2 m ρ c) writes_hostOps1 (by decide)).trans (W2_v6 m ρ c)
theorem W4_v6 : Gen.W4 (F := Ideal) m ρ c (Proc.devRef .tc main_v6) = DST :=
  (Gen.W4_of_ne m ρ c main_v6 (by decide)).trans (W3_v6 m ρ c)
theorem W5_v6 : Gen.W5 (F := Ideal) m ρ c (Proc.devRef .tc main_v6) = DST :=
  (Gen.W5_of_ne m ρ c main_v6 (by decide)).trans (W4_v6 m ρ c)
theorem W6_v6 : Gen.W6 (F := Ideal) m ρ c (Proc.devRef .tc main_v6) = DST :=
  (StableHlo.after_of_writes_sub (r := main_v6) hostOps3 (Gen.W5 m ρ c) writes_hostOps3 (by decide)).trans (W5_v6 m ρ c)
theorem W7_v6 : Gen.W7 (F := Ideal) m ρ c (Proc.devRef .tc main_v6) = DST :=
  (Gen.W7_of_ne m ρ c main_v6 (by decide)).trans (W6_v6 m ρ c)
theorem W8_v6 : Gen.W8 (F := Ideal) m ρ c (Proc.devRef .tc main_v6) = DST :=
  (Gen.W8_of_ne m ρ c main_v6 (by decide)).trans (W7_v6 m ρ c)
theorem W9_v6 : Gen.W9 (F := Ideal) m ρ c (Proc.devRef .tc main_v6) = DST :=
  (Gen.W9_of_ne m ρ c main_v6 (by decide)).trans (W8_v6 m ρ c)
theorem W10_v6 : Gen.W10 (F := Ideal) m ρ c (Proc.devRef .tc main_v6) = DST :=
  (StableHlo.after_of_writes_sub (r := main_v6) hostOps6 (Gen.W9 m ρ c) writes_hostOps6 (by decide)).trans (W9_v6 m ρ c)
theorem W11_v6 : Gen.W11 (F := Ideal) m ρ c (Proc.devRef .tc main_v6) = DST :=
  (Gen.W11_of_ne m ρ c main_v6 (by decide)).trans (W10_v6 m ρ c)
theorem W12_v6 : Gen.W12 (F := Ideal) m ρ c (Proc.devRef .tc main_v6) = DST :=
  (Gen.W12_of_ne m ρ c main_v6 (by decide)).trans (W11_v6 m ρ c)
theorem W13_v6 : Gen.W13 (F := Ideal) m ρ c (Proc.devRef .tc main_v6) = DST :=
  (Gen.W13_of_ne m ρ c main_v6 (by decide)).trans (W12_v6 m ρ c)
theorem W14_v6 : Gen.W14 (F := Ideal) m ρ c (Proc.devRef .tc main_v6) = DST :=
  (StableHlo.after_of_writes_sub (r := main_v6) hostOps9 (Gen.W13 m ρ c) writes_hostOps9 (by decide)).trans (W13_v6 m ρ c)
theorem W15_v6 : Gen.W15 (F := Ideal) m ρ c (Proc.devRef .tc main_v6) = DST :=
  (Gen.W15_of_ne m ρ c main_v6 (by decide)).trans (W14_v6 m ρ c)
theorem W16_v6 : Gen.W16 (F := Ideal) m ρ c (Proc.devRef .tc main_v6) = DST :=
  (Gen.W16_of_ne m ρ c main_v6 (by decide)).trans (W15_v6 m ρ c)
theorem W17_v6 : Gen.W17 (F := Ideal) m ρ c (Proc.devRef .tc main_v6) = DST :=
  (Gen.W17_of_ne m ρ c main_v6 (by decide)).trans (W16_v6 m ρ c)
theorem W18_v6 : Gen.W18 (F := Ideal) m ρ c (Proc.devRef .tc main_v6) = DST :=
  (Gen.W18_of_ne m ρ c main_v6 (by decide)).trans (W17_v6 m ρ c)
set_option maxHeartbeats 2000000 in
/-- The edge weights deg(source)^(-1/2) · deg(target)^(-1/2). -/
theorem W1_v32 : Gen.W1 (F := Ideal) m ρ c (Proc.devRef .tc main_v32) = EW := by
  show StableHlo.after hostOps0 (Gen.W0 m ρ c) (Proc.devRef .tc main_v32) = _
  after_results_simp
  rfl
theorem W2_v32 : Gen.W2 (F := Ideal) m ρ c (Proc.devRef .tc main_v32) = EW :=
  (Gen.W2_of_ne m ρ c main_v32 (by decide)).trans (W1_v32 m ρ c)
theorem W3_v32 : Gen.W3 (F := Ideal) m ρ c (Proc.devRef .tc main_v32) = EW :=
  (StableHlo.after_of_writes_sub (r := main_v32) hostOps1 (Gen.W2 m ρ c) writes_hostOps1 (by decide)).trans (W2_v32 m ρ c)
theorem W4_v32 : Gen.W4 (F := Ideal) m ρ c (Proc.devRef .tc main_v32) = EW :=
  (Gen.W4_of_ne m ρ c main_v32 (by decide)).trans (W3_v32 m ρ c)
theorem W5_v32 : Gen.W5 (F := Ideal) m ρ c (Proc.devRef .tc main_v32) = EW :=
  (Gen.W5_of_ne m ρ c main_v32 (by decide)).trans (W4_v32 m ρ c)
theorem W6_v32 : Gen.W6 (F := Ideal) m ρ c (Proc.devRef .tc main_v32) = EW :=
  (StableHlo.after_of_writes_sub (r := main_v32) hostOps3 (Gen.W5 m ρ c) writes_hostOps3 (by decide)).trans (W5_v32 m ρ c)
theorem W7_v32 : Gen.W7 (F := Ideal) m ρ c (Proc.devRef .tc main_v32) = EW :=
  (Gen.W7_of_ne m ρ c main_v32 (by decide)).trans (W6_v32 m ρ c)
theorem W8_v32 : Gen.W8 (F := Ideal) m ρ c (Proc.devRef .tc main_v32) = EW :=
  (Gen.W8_of_ne m ρ c main_v32 (by decide)).trans (W7_v32 m ρ c)
theorem W9_v32 : Gen.W9 (F := Ideal) m ρ c (Proc.devRef .tc main_v32) = EW :=
  (Gen.W9_of_ne m ρ c main_v32 (by decide)).trans (W8_v32 m ρ c)
theorem W10_v32 : Gen.W10 (F := Ideal) m ρ c (Proc.devRef .tc main_v32) = EW :=
  (StableHlo.after_of_writes_sub (r := main_v32) hostOps6 (Gen.W9 m ρ c) writes_hostOps6 (by decide)).trans (W9_v32 m ρ c)
theorem W11_v32 : Gen.W11 (F := Ideal) m ρ c (Proc.devRef .tc main_v32) = EW :=
  (Gen.W11_of_ne m ρ c main_v32 (by decide)).trans (W10_v32 m ρ c)
theorem W12_v32 : Gen.W12 (F := Ideal) m ρ c (Proc.devRef .tc main_v32) = EW :=
  (Gen.W12_of_ne m ρ c main_v32 (by decide)).trans (W11_v32 m ρ c)
theorem W13_v32 : Gen.W13 (F := Ideal) m ρ c (Proc.devRef .tc main_v32) = EW :=
  (Gen.W13_of_ne m ρ c main_v32 (by decide)).trans (W12_v32 m ρ c)
theorem W14_v32 : Gen.W14 (F := Ideal) m ρ c (Proc.devRef .tc main_v32) = EW :=
  (StableHlo.after_of_writes_sub (r := main_v32) hostOps9 (Gen.W13 m ρ c) writes_hostOps9 (by decide)).trans (W13_v32 m ρ c)
theorem W15_v32 : Gen.W15 (F := Ideal) m ρ c (Proc.devRef .tc main_v32) = EW :=
  (Gen.W15_of_ne m ρ c main_v32 (by decide)).trans (W14_v32 m ρ c)
theorem W16_v32 : Gen.W16 (F := Ideal) m ρ c (Proc.devRef .tc main_v32) = EW :=
  (Gen.W16_of_ne m ρ c main_v32 (by decide)).trans (W15_v32 m ρ c)
theorem W17_v32 : Gen.W17 (F := Ideal) m ρ c (Proc.devRef .tc main_v32) = EW :=
  (Gen.W17_of_ne m ρ c main_v32 (by decide)).trans (W16_v32 m ρ c)
theorem W18_v32 : Gen.W18 (F := Ideal) m ρ c (Proc.devRef .tc main_v32) = EW :=
  (Gen.W18_of_ne m ρ c main_v32 (by decide)).trans (W17_v32 m ρ c)

/-! ## The values, segment by segment -/

include H

/-- Region 0's output. -/
theorem W2_v33 : Gen.W2 (F := Ideal) m ρ c (Proc.devRef .tc main_v33) = (Cert.Spec.bias50 (Cert.Spec.dense128 A0 A3) A4) := by
  refine (Gen.W2_arr m ρ c 3).trans ((H.f0 (Gen.V1 m ρ) c).trans ?_)
  rw [show Gen.V1 (F := Ideal) m ρ c main_arg0 = _ from W1_arg0 m ρ c,
    show Gen.V1 (F := Ideal) m ρ c main_arg3 = _ from W1_arg3 m ρ c,
    show Gen.V1 (F := Ideal) m ρ c main_arg4 = _ from W1_arg4 m ρ c]
/-- The stretch `hostOps1`: the users' rows above the items' rows. -/
theorem W3_v34 : Gen.W3 (F := Ideal) m ρ c (Proc.devRef .tc main_v34) = (Cert.Spec.catF A1 (Cert.Spec.bias50 (Cert.Spec.dense128 A0 A3) A4)) := by
  show StableHlo.after hostOps1 (Gen.W2 m ρ c) (Proc.devRef .tc main_v34) = _
  after_results
  rw [W2_arg1 m ρ c, W2_v33 H m ρ c]
  rfl
/-- Region 1's output. -/
theorem W4_v35 : Gen.W4 (F := Ideal) m ρ c (Proc.devRef .tc main_v35) = X0 := by
  refine (Gen.W4_arr m ρ c 1).trans ((H.f1 (Gen.V3 m ρ) c).trans ?_)
  rw [show Gen.V3 (F := Ideal) m ρ c main_v34 = _ from W3_v34 H m ρ c]
  rfl
/-- Region 2's output. -/
theorem W5_v36 : Gen.W5 (F := Ideal) m ρ c (Proc.devRef .tc main_v36) = (Cert.Spec.dense64 X0 A5) := by
  refine (Gen.W5_arr m ρ c 2).trans ((H.f2 (Gen.V4 m ρ) c).trans ?_)
  rw [show Gen.V4 (F := Ideal) m ρ c main_v35 = _ from W4_v35 H m ρ c,
    show Gen.V4 (F := Ideal) m ρ c main_arg5 = _ from W4_arg5 m ρ c]
set_option maxHeartbeats 2000000 in
/-- The stretch `hostOps3`: the aggregation over the edges. -/
theorem W6_v49 : Gen.W6 (F := Ideal) m ρ c (Proc.devRef .tc main_v49) = (Cert.Spec.aggF EW SRC DST (Cert.Spec.dense64 X0 A5)) := by
  show StableHlo.after hostOps3 (Gen.W5 m ρ c) (Proc.devRef .tc main_v49) = _
  after_results_simp
  rw [W5_v32 m ρ c, W5_v5 m ρ c, W5_v6 m ρ c, W5_v36 H m ρ c]
  rfl
/-- Region 3's output. -/
theorem W7_v50 : Gen.W7 (F := Ideal) m ρ c (Proc.devRef .tc main_v50) = C1 := by
  refine (Gen.W7_arr m ρ c 2).trans ((H.f3 (Gen.V6 m ρ) c).trans ?_)
  rw [show Gen.V6 (F := Ideal) m ρ c main_v49 = _ from W6_v49 H m ρ c,
    show Gen.V6 (F := Ideal) m ρ c main_arg6 = _ from W6_arg6 m ρ c]
  rfl
/-- Region 4's output. -/
theorem W8_v51 : Gen.W8 (F := Ideal) m ρ c (Proc.devRef .tc main_v51) = X1 := by
  refine (Gen.W8_arr m ρ c 3).trans ((H.f4 (Gen.V7 m ρ) c).trans ?_)
  rw [show Gen.V7 (F := Ideal) m ρ c main_v50 = _ from W7_v50 H m ρ c,
    show Gen.V7 (F := Ideal) m ρ c main_arg7 = _ from W7_arg7 m ρ c,
    show Gen.V7 (F := Ideal) m ρ c main_arg8 = _ from W7_arg8 m ρ c]
/-- Region 5's output. -/
theorem W9_v52 : Gen.W9 (F := Ideal) m ρ c (Proc.devRef .tc main_v52) = (Cert.Spec.dense64 X1 A9) := by
  refine (Gen.W9_arr m ρ c 2).trans ((H.f5 (Gen.V8 m ρ) c).trans ?_)
  rw [show Gen.V8 (F := Ideal) m ρ c main_v51 = _ from W8_v51 H m ρ c,
    show Gen.V8 (F := Ideal) m ρ c main_arg9 = _ from W8_arg9 m ρ c]
set_option maxHeartbeats 2000000 in
/-- The stretch `hostOps6`: the aggregation over the edges. -/
theorem W10_v65 : Gen.W10 (F := Ideal) m ρ c (Proc.devRef .tc main_v65) = (Cert.Spec.aggF EW SRC DST (Cert.Spec.dense64 X1 A9)) := by
  show StableHlo.after hostOps6 (Gen.W9 m ρ c) (Proc.devRef .tc main_v65) = _
  after_results_simp
  rw [W9_v32 m ρ c, W9_v5 m ρ c, W9_v6 m ρ c, W9_v52 H m ρ c]
  rfl
/-- Region 6's output. -/
theorem W11_v66 : Gen.W11 (F := Ideal) m ρ c (Proc.devRef .tc main_v66) = C2 := by
  refine (Gen.W11_arr m ρ c 2).trans ((H.f6 (Gen.V10 m ρ) c).trans ?_)
  rw [show Gen.V10 (F := Ideal) m ρ c main_v65 = _ from W10_v65 H m ρ c,
    show Gen.V10 (F := Ideal) m ρ c main_arg10 = _ from W10_arg10 m ρ c]
  rfl
/-- Region 7's output. -/
theorem W12_v67 : Gen.W12 (F := Ideal) m ρ c (Proc.devRef .tc main_v67) = X2 := by
  refine (Gen.W12_arr m ρ c 3).trans ((H.f7 (Gen.V11 m ρ) c).trans ?_)
  rw [show Gen.V11 (F := Ideal) m ρ c main_v66 = _ from W11_v66 H m ρ c,
    show Gen.V11 (F := Ideal) m ρ c main_arg11 = _ from W11_arg11 m ρ c,
    show Gen.V11 (F := Ideal) m ρ c main_arg12 = _ from W11_arg12 m ρ c]
  rfl
theorem W13_v67 : Gen.W13 (F := Ideal) m ρ c (Proc.devRef .tc main_v67) = X2 :=
  ((Gen.W13_arr m ρ c 0).trans (((Gen.dat8 (Gen.V12 m ρ) c).arrAt_in 0 rfl _).trans (Gen.A_eq8 (Gen.V12 m ρ) c 0))).trans (W12_v67 H m ρ c)
theorem W14_v67 : Gen.W14 (F := Ideal) m ρ c (Proc.devRef .tc main_v67) = X2 :=
  (StableHlo.after_of_writes_sub (r := main_v67) hostOps9 (Gen.W13 m ρ c) writes_hostOps9 (by decide)).trans (W13_v67 H m ρ c)
theorem W15_v67 : Gen.W15 (F := Ideal) m ρ c (Proc.devRef .tc main_v67) = X2 :=
  (Gen.W15_of_ne m ρ c main_v67 (by decide)).trans (W14_v67 H m ρ c)
theorem W16_v67 : Gen.W16 (F := Ideal) m ρ c (Proc.devRef .tc main_v67) = X2 :=
  ((Gen.W16_arr m ρ c 0).trans (((Gen.dat10 (Gen.V15 m ρ) c).arrAt_in 0 rfl _).trans (Gen.A_eq10 (Gen.V15 m ρ) c 0))).trans (W15_v67 H m ρ c)
theorem W17_v67 : Gen.W17 (F := Ideal) m ρ c (Proc.devRef .tc main_v67) = X2 :=
  (Gen.W17_of_ne m ρ c main_v67 (by decide)).trans (W16_v67 H m ρ c)
theorem W18_v67 : Gen.W18 (F := Ideal) m ρ c (Proc.devRef .tc main_v67) = X2 :=
  ((Gen.W18_arr m ρ c 0).trans (((Gen.dat12 (Gen.V17 m ρ) c).arrAt_in 0 rfl _).trans (Gen.A_eq12 (Gen.V17 m ρ) c 0))).trans (W17_v67 H m ρ c)
theorem W19_v67 : Gen.W19 (F := Ideal) m ρ c (Proc.devRef .tc main_v67) = X2 :=
  (StableHlo.after_of_writes_sub (r := main_v67) hostOps13 (Gen.W18 m ρ c) writes_hostOps13 (by decide)).trans (W18_v67 H m ρ c)
theorem W20_v67 : Gen.W20 (F := Ideal) m ρ c (Proc.devRef .tc main_v67) = X2 :=
  (Gen.W20_of_ne m ρ c main_v67 (by decide)).trans (W19_v67 H m ρ c)
/-- Region 8's output. -/
theorem W13_v68 : Gen.W13 (F := Ideal) m ρ c (Proc.devRef .tc main_v68) = (Cert.Spec.dense64 X2 A13) := by
  refine (Gen.W13_arr m ρ c 2).trans ((H.f8 (Gen.V12 m ρ) c).trans ?_)
  rw [show Gen.V12 (F := Ideal) m ρ c main_v67 = _ from W12_v67 H m ρ c,
    show Gen.V12 (F := Ideal) m ρ c main_arg13 = _ from W12_arg13 m ρ c]
set_option maxHeartbeats 2000000 in
/-- The stretch `hostOps9`: the aggregation over the edges. -/
theorem W14_v81 : Gen.W14 (F := Ideal) m ρ c (Proc.devRef .tc main_v81) = (Cert.Spec.aggF EW SRC DST (Cert.Spec.dense64 X2 A13)) := by
  show StableHlo.after hostOps9 (Gen.W13 m ρ c) (Proc.devRef .tc main_v81) = _
  after_results_simp
  rw [W13_v32 m ρ c, W13_v5 m ρ c, W13_v6 m ρ c, W13_v68 H m ρ c]
  rfl
/-- Region 9's output. -/
theorem W15_v82 : Gen.W15 (F := Ideal) m ρ c (Proc.devRef .tc main_v82) = (Cert.Spec.convF EW SRC DST X2 A13 A14) := by
  refine (Gen.W15_arr m ρ c 2).trans ((H.f9 (Gen.V14 m ρ) c).trans ?_)
  rw [show Gen.V14 (F := Ideal) m ρ c main_v81 = _ from W14_v81 H m ρ c,
    show Gen.V14 (F := Ideal) m ρ c main_arg14 = _ from W14_arg14 m ρ c]
  rfl
theorem W16_v82 : Gen.W16 (F := Ideal) m ρ c (Proc.devRef .tc main_v82) = (Cert.Spec.convF EW SRC DST X2 A13 A14) :=
  (Gen.W16_of_ne m ρ c main_v82 (by decide)).trans (W15_v82 H m ρ c)
/-- Region 10's output. -/
theorem W16_v83 : Gen.W16 (F := Ideal) m ρ c (Proc.devRef .tc main_v83) = (Cert.Spec.linF X2 A15 A16) := by
  refine (Gen.W16_arr m ρ c 3).trans ((H.f10 (Gen.V15 m ρ) c).trans ?_)
  rw [show Gen.V15 (F := Ideal) m ρ c main_v67 = _ from W15_v67 H m ρ c,
    show Gen.V15 (F := Ideal) m ρ c main_arg15 = _ from W15_arg15 m ρ c,
    show Gen.V15 (F := Ideal) m ρ c main_arg16 = _ from W15_arg16 m ρ c]
/-- Region 11's output. -/
theorem W17_v84 : Gen.W17 (F := Ideal) m ρ c (Proc.devRef .tc main_v84) = (Cert.Spec.outF A2 X2 A13 A14 A15 A16 A17 A18) := by
  refine (Gen.W17_arr m ρ c 4).trans ((H.f11 (Gen.V16 m ρ) c).trans ?_)
  rw [show Gen.V16 (F := Ideal) m ρ c main_v82 = _ from W16_v82 H m ρ c,
    show Gen.V16 (F := Ideal) m ρ c main_arg17 = _ from W16_arg17 m ρ c,
    show Gen.V16 (F := Ideal) m ρ c main_arg18 = _ from W16_arg18 m ρ c,
    show Gen.V16 (F := Ideal) m ρ c main_v83 = _ from W16_v83 H m ρ c]
  rfl
theorem W18_v84 : Gen.W18 (F := Ideal) m ρ c (Proc.devRef .tc main_v84) = (Cert.Spec.outF A2 X2 A13 A14 A15 A16 A17 A18) :=
  (Gen.W18_of_ne m ρ c main_v84 (by decide)).trans (W17_v84 H m ρ c)
theorem W19_v84 : Gen.W19 (F := Ideal) m ρ c (Proc.devRef .tc main_v84) = (Cert.Spec.outF A2 X2 A13 A14 A15 A16 A17 A18) :=
  (StableHlo.after_of_writes_sub (r := main_v84) hostOps13 (Gen.W18 m ρ c) writes_hostOps13 (by decide)).trans (W18_v84 H m ρ c)
theorem W20_v84 : Gen.W20 (F := Ideal) m ρ c (Proc.devRef .tc main_v84) = (Cert.Spec.outF A2 X2 A13 A14 A15 A16 A17 A18) :=
  (Gen.W20_of_ne m ρ c main_v84 (by decide)).trans (W19_v84 H m ρ c)
theorem W21_v84 : Gen.W21 (F := Ideal) m ρ c (Proc.devRef .tc main_v84) = (Cert.Spec.outF A2 X2 A13 A14 A15 A16 A17 A18) :=
  (Gen.W21_of_ne m ρ c main_v84 (by decide)).trans (W20_v84 H m ρ c)
theorem W22_v84 : Gen.W22 (F := Ideal) m ρ c (Proc.devRef .tc main_v84) = (Cert.Spec.outF A2 X2 A13 A14 A15 A16 A17 A18) :=
  (Gen.W22_of_ne m ρ c main_v84 (by decide)).trans (W21_v84 H m ρ c)
/-- Region 12's output. -/
theorem W18_v85 : Gen.W18 (F := Ideal) m ρ c (Proc.devRef .tc main_v85) = (Cert.Spec.dense64 X2 A19) := by
  refine (Gen.W18_arr m ρ c 2).trans ((H.f12 (Gen.V17 m ρ) c).trans ?_)
  rw [show Gen.V17 (F := Ideal) m ρ c main_v67 = _ from W17_v67 H m ρ c,
    show Gen.V17 (F := Ideal) m ρ c main_arg19 = _ from W17_arg19 m ρ c]
set_option maxHeartbeats 2000000 in
/-- The stretch `hostOps13`: the aggregation over the edges. -/
theorem W19_v98 : Gen.W19 (F := Ideal) m ρ c (Proc.devRef .tc main_v98) = (Cert.Spec.aggF EW SRC DST (Cert.Spec.dense64 X2 A19)) := by
  show StableHlo.after hostOps13 (Gen.W18 m ρ c) (Proc.devRef .tc main_v98) = _
  after_results_simp
  rw [W18_v32 m ρ c, W18_v5 m ρ c, W18_v6 m ρ c, W18_v85 H m ρ c]
  rfl
/-- Region 13's output. -/
theorem W20_v99 : Gen.W20 (F := Ideal) m ρ c (Proc.devRef .tc main_v99) = (Cert.Spec.convF EW SRC DST X2 A19 A20) := by
  refine (Gen.W20_arr m ρ c 2).trans ((H.f13 (Gen.V19 m ρ) c).trans ?_)
  rw [show Gen.V19 (F := Ideal) m ρ c main_v98 = _ from W19_v98 H m ρ c,
    show Gen.V19 (F := Ideal) m ρ c main_arg20 = _ from W19_arg20 m ρ c]
  rfl
theorem W21_v99 : Gen.W21 (F := Ideal) m ρ c (Proc.devRef .tc main_v99) = (Cert.Spec.convF EW SRC DST X2 A19 A20) :=
  (Gen.W21_of_ne m ρ c main_v99 (by decide)).trans (W20_v99 H m ρ c)
/-- Region 14's output. -/
theorem W21_v100 : Gen.W21 (F := Ideal) m ρ c (Proc.devRef .tc main_v100) = (Cert.Spec.linF X2 A21 A22) := by
  refine (Gen.W21_arr m ρ c 3).trans ((H.f14 (Gen.V20 m ρ) c).trans ?_)
  rw [show Gen.V20 (F := Ideal) m ρ c main_v67 = _ from W20_v67 H m ρ c,
    show Gen.V20 (F := Ideal) m ρ c main_arg21 = _ from W20_arg21 m ρ c,
    show Gen.V20 (F := Ideal) m ρ c main_arg22 = _ from W20_arg22 m ρ c]
/-- Region 15's output. -/
theorem W22_v101 : Gen.W22 (F := Ideal) m ρ c (Proc.devRef .tc main_v101) = (Cert.Spec.outF A2 X2 A19 A20 A21 A22 A23 A24) := by
  refine (Gen.W22_arr m ρ c 4).trans ((H.f15 (Gen.V21 m ρ) c).trans ?_)
  rw [show Gen.V21 (F := Ideal) m ρ c main_v99 = _ from W21_v99 H m ρ c,
    show Gen.V21 (F := Ideal) m ρ c main_arg23 = _ from W21_arg23 m ρ c,
    show Gen.V21 (F := Ideal) m ρ c main_arg24 = _ from W21_arg24 m ρ c,
    show Gen.V21 (F := Ideal) m ρ c main_v100 = _ from W21_v100 H m ρ c]
  rfl

/-- The first result at the end of the run: the mean head over the shared features. -/
theorem v84_eq : Gen.W22 (F := Ideal) m ρ c (Proc.devRef .tc main_v84) = Cert.Spec.outF A2 (Cert.Spec.x2F A0 A1 A2 A3 A4 A5 A6 A7 A8 A9 A10 A11 A12) A13 A14 A15 A16 A17 A18 :=
  W22_v84 H m ρ c

/-- The second result at the end of the run: the log-variance head over the shared features. -/
theorem v101_eq : Gen.W22 (F := Ideal) m ρ c (Proc.devRef .tc main_v101) = Cert.Spec.outF A2 (Cert.Spec.x2F A0 A1 A2 A3 A4 A5 A6 A7 A8 A9 A10 A11 A12) A19 A20 A21 A22 A23 A24 :=
  W22_v101 H m ρ c

end Cert.KernelIdeal.KRun

end
-- ==== Proof.RefOps.lean ====
/-
  The reference network as ONE straight line of whole-array operations.

  The printed program is six consecutive windows of statements, thirteen of which apply an outlined function
  (the row norm ‖row‖₂, five times; the leaky rectifier, eight times, which itself applies the three-way choice).
  Applying a function is running its body on the operands, so the whole program is the list below: the windows'
  statements in order, each application replaced by the body's operations over that application's own arrays (an array of the
  application is named there by a record's field; here it is named directly, and an operation's function is stated at
  the arrays' own types, which is the same function).
  The list is cut where a window ends and where a stage of the network ends (the edge list, the entering features,
  each convolution, each dense layer, each head), so that a later file can read one stage at a time.
  Running the list is folding it over the arrays' contents: every execution ends, and ends with each array at the
  fold's value.
-/
import proofs.«149707_j50672024159115_1_alg».proof.Proof.Gen.ReferenceIdeal
import Idealize.ShloMosaic.Lib.StableHlo.Run

noncomputable section

namespace Cert.ReferenceIdeal.RefRun

open Idealize.ShloMosaic Idealize.ShloMosaic.TcCoe Idealize.ShloMosaic.StableHlo Idealize.SL.Sem
open Cert.ReferenceIdeal Cert.ReferenceIdeal.Facts₀ Cert.ReferenceIdeal.Facts

variable [Cert.ReferenceIdeal.Facts]
variable {F : FTy → Type} [FloatOps F]

/-- Folding two lines in a row is folding the second from where the first ends. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Every operation of two lines in a row stays within the arrays when every operation of each does. -/
theorem sub_app {l₁ l₂ : List (HloOp τ sig (Elt F))}
    (h₁ : l₁.Forall fun op => op.bufs ⊆ tcRefs τ sig) (h₂ : l₂.Forall fun op => op.bufs ⊆ tcRefs τ sig) :
    (l₁ ++ l₂).Forall fun op => op.bufs ⊆ tcRefs τ sig :=
  List.forall_append.mpr ⟨h₁, h₂⟩

/-! ## The operations, stage by stage -/

/-- The edge list: the source row and the target row of the edge table, each followed by the self loops 0 … N-1. -/
abbrev p0a : List (HloOp τ sig (Elt F)) :=
  [ nullary main_v0 (iotaInDim S100000 32 0),
    unary main_arg2 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg2 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The entering features x₀: the items' rows `features · mlp_w + mlp_b` below the users' rows, each row divided by max(‖row‖₂, ε). -/
abbrev p0b : List (HloOp τ sig (Elt F)) :=
  [ binary main_arg0 main_arg3 main_v7 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v8 (broadcastInDim S1x64 ![1] bcast_S64_S1x64_1 : (⟨S64, .f32⟩ : BufTy).Contents (Elt F) → (⟨S1x64, .f32⟩ : BufTy).Contents (Elt F)),
    unary main_v8 main_v9 (broadcastInDim S50000x64 ![0, 1] bcast_S1x64_S50000x64_0_1 : (⟨S1x64, .f32⟩ : BufTy).Contents (Elt F) → (⟨S50000x64, .f32⟩ : BufTy).Contents (Elt F)),
    binary main_v7 main_v9 main_v10 (addf : (⟨S50000x64, .f32⟩ : BufTy).Contents (Elt F) → (⟨S50000x64, .f32⟩ : BufTy).Contents (Elt F) → (⟨S50000x64, .f32⟩ : BufTy).Contents (Elt F)),
    binary main_arg1 main_v10 main_v11 ((fun a b => concatenate S100000x64 0 [⟨S50000x64, a⟩, ⟨S50000x64, b⟩] concatenates_S50000x64_S50000x64_S100000x64_d0) : (⟨S50000x64, .f32⟩ : BufTy).Contents (Elt F) → (⟨S50000x64, .f32⟩ : BufTy).Contents (Elt F) → (⟨S100000x64, .f32⟩ : BufTy).Contents (Elt F)),
    binary main_v11 main_v11 main_call0_v0 (mulf : (⟨S100000x64, .f32⟩ : BufTy).Contents (Elt F) → (⟨S100000x64, .f32⟩ : BufTy).Contents (Elt F) → (⟨S100000x64, .f32⟩ : BufTy).Contents (Elt F)),
    nullary main_call0_cst (constant S_ .f32 0x00000000#32),
    binary main_call0_v0 main_call0_cst main_call0_v1 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_call0_v1 main_call0_v2 (broadcastInDim S100000x1 ![0] bcast_S100000_S100000x1_0 : (⟨S100000, .f32⟩ : BufTy).Contents (Elt F) → (⟨S100000x1, .f32⟩ : BufTy).Contents (Elt F)),
    unary main_call0_v2 main_v12 (Host.sqrt : (⟨S100000x1, .f32⟩ : BufTy).Contents (Elt F) → (⟨S100000x1, .f32⟩ : BufTy).Contents (Elt F)),
    nullary main_cst (constant S_ .f32 0x2B8CBCCC#32),
    unary main_cst main_v13 (broadcastInDim S100000x1 ![] bcast_S_S100000x1 : (⟨S_, .f32⟩ : BufTy).Contents (Elt F) → (⟨S100000x1, .f32⟩ : BufTy).Contents (Elt F)),
    binary main_v12 main_v13 main_v14 (maximumf : (⟨S100000x1, .f32⟩ : BufTy).Contents (Elt F) → (⟨S100000x1, .f32⟩ : BufTy).Contents (Elt F) → (⟨S100000x1, .f32⟩ : BufTy).Contents (Elt F)),
    unary main_v14 main_v15 (broadcastInDim S100000x64 ![0, 1] bcast_S100000x1_S100000x64_0_1 : (⟨S100000x1, .f32⟩ : BufTy).Contents (Elt F) → (⟨S100000x64, .f32⟩ : BufTy).Contents (Elt F)),
    binary main_v11 main_v15 main_v16 (Host.divf : (⟨S100000x64, .f32⟩ : BufTy).Contents (Elt F) → (⟨S100000x64, .f32⟩ : BufTy).Contents (Elt F) → (⟨S100000x64, .f32⟩ : BufTy).Contents (Elt F)) ]

/-- First convolution: `x₀ · W₁`, and the degrees (edges leaving each node) to the power -1/2. -/
abbrev p0c : List (HloOp τ sig (Elt F)) :=
  [ binary main_v16 main_arg5 main_v17 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_0 (constant S_ .f32 0x00000000#32),
    unary main_cst_0 main_v18 (broadcastInDim S100000 ![] bcast_S_S100000 : (⟨S_, .f32⟩ : BufTy).Contents (Elt F) → (⟨S100000, .f32⟩ : BufTy).Contents (Elt F)),
    nullary main_c (constantI S_ 32 0#32),
    unary main_c main_v19 (broadcastInDim S1700000 ![] bcast_S_S1700000 : (⟨S_, .i32⟩ : BufTy).Contents (Elt F) → (⟨S1700000, .i32⟩ : BufTy).Contents (Elt F)),
    binary main_v3 main_v19 main_v20 (cmpi .slt : (⟨S1700000, .i32⟩ : BufTy).Contents (Elt F) → (⟨S1700000, .i32⟩ : BufTy).Contents (Elt F) → (⟨S1700000, .i1⟩ : BufTy).Contents (Elt F)),
    nullary main_c_1 (constantI S_ 32 100000#32),
    unary main_c_1 main_v21 (broadcastInDim S1700000 ![] bcast_S_S1700000 : (⟨S_, .i32⟩ : BufTy).Contents (Elt F) → (⟨S1700000, .i32⟩ : BufTy).Contents (Elt F)),
    binary main_v3 main_v21 main_v22 (addi : (⟨S1700000, .i32⟩ : BufTy).Contents (Elt F) → (⟨S1700000, .i32⟩ : BufTy).Contents (Elt F) → (⟨S1700000, .i32⟩ : BufTy).Contents (Elt F)),
    ternary main_v20 main_v22 main_v3 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v23 main_v24 (broadcastInDim S1700000x1 ![0] bcast_S1700000_S1700000x1_0 : (⟨S1700000, .i32⟩ : BufTy).Contents (Elt F) → (⟨S1700000x1, .i32⟩ : BufTy).Contents (Elt F)),
    nullary main_cst_2 (constant S_ .f32 0x3F800000#32),
    unary main_cst_2 main_v25 (broadcastInDim S1700000 ![] bcast_S_S1700000 : (⟨S_, .f32⟩ : BufTy).Contents (Elt F) → (⟨S1700000, .f32⟩ : BufTy).Contents (Elt F)),
    ternary main_v18 main_v24 main_v25 main_v26 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_3 (constant S_ .f32 0xBF000000#32),
    unary main_cst_3 main_v27 (broadcastInDim S100000 ![] bcast_S_S100000 : (⟨S_, .f32⟩ : BufTy).Contents (Elt F) → (⟨S100000, .f32⟩ : BufTy).Contents (Elt F)),
    binary main_v26 main_v27 main_v28 (Host.powf : (⟨S100000, .f32⟩ : BufTy).Contents (Elt F) → (⟨S100000, .f32⟩ : BufTy).Contents (Elt F) → (⟨S100000, .f32⟩ : BufTy).Contents (Elt F)) ]

/-- First convolution: the edge weights deg(source)^(-1/2) · deg(target)^(-1/2), as a column. -/
abbrev p0d : List (HloOp τ sig (Elt F)) :=
  [ nullary main_c_4 (constantI S_ 32 0#32),
    unary main_c_4 main_v29 (broadcastInDim S1700000 ![] bcast_S_S1700000 : (⟨S_, .i32⟩ : BufTy).Contents (Elt F) → (⟨S1700000, .i32⟩ : BufTy).Contents (Elt F)),
    binary main_v3 main_v29 main_v30 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v31 (broadcastInDim S1700000 ![] bcast_S_S1700000 : (⟨S_, .i32⟩ : BufTy).Contents (Elt F) → (⟨S1700000, .i32⟩ : BufTy).Contents (Elt F)),
    binary main_v3 main_v31 main_v32 (addi : (⟨S1700000, .i32⟩ : BufTy).Contents (Elt F) → (⟨S1700000, .i32⟩ : BufTy).Contents (Elt F) → (⟨S1700000, .i32⟩ : BufTy).Contents (Elt F)),
    ternary main_v30 main_v32 main_v3 main_v33 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v33 main_v34 (broadcastInDim S1700000x1 ![0] bcast_S1700000_S1700000x1_0 : (⟨S1700000, .i32⟩ : BufTy).Contents (Elt F) → (⟨S1700000x1, .i32⟩ : BufTy).Contents (Elt F)),
    binary main_v28 main_v34 main_v35 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_6 (constantI S_ 32 0#32),
    unary main_c_6 main_v36 (broadcastInDim S1700000 ![] bcast_S_S1700000 : (⟨S_, .i32⟩ : BufTy).Contents (Elt F) → (⟨S1700000, .i32⟩ : BufTy).Contents (Elt F)),
    binary main_v6 main_v36 main_v37 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v38 (broadcastInDim S1700000 ![] bcast_S_S1700000 : (⟨S_, .i32⟩ : BufTy).Contents (Elt F) → (⟨S1700000, .i32⟩ : BufTy).Contents (Elt F)),
    binary main_v6 main_v38 main_v39 (addi : (⟨S1700000, .i32⟩ : BufTy).Contents (Elt F) → (⟨S1700000, .i32⟩ : BufTy).Contents (Elt F) → (⟨S1700000, .i32⟩ : BufTy).Contents (Elt F)),
    ternary main_v37 main_v39 main_v6 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v40 main_v41 (broadcastInDim S1700000x1 ![0] bcast_S1700000_S1700000x1_0 : (⟨S1700000, .i32⟩ : BufTy).Contents (Elt F) → (⟨S1700000x1, .i32⟩ : BufTy).Contents (Elt F)),
    binary main_v28 main_v41 main_v42 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v35 main_v42 main_v43 (mulf : (⟨S1700000, .f32⟩ : BufTy).Contents (Elt F) → (⟨S1700000, .f32⟩ : BufTy).Contents (Elt F) → (⟨S1700000, .f32⟩ : BufTy).Contents (Elt F)),
    unary main_v43 main_v44 (broadcastInDim S1700000x1 ![0] bcast_S1700000_S1700000x1_0 : (⟨S1700000, .f32⟩ : BufTy).Contents (Elt F) → (⟨S1700000x1, .f32⟩ : BufTy).Contents (Elt F)) ]

/-- First convolution: the source index column, begun (the comparison with zero and the node count). -/
abbrev p0e : List (HloOp τ sig (Elt F)) :=
  [ nullary main_c_8 (constantI S_ 32 0#32),
    unary main_c_8 main_v45 (broadcastInDim S1700000 ![] bcast_S_S1700000 : (⟨S_, .i32⟩ : BufTy).Contents (Elt F) → (⟨S1700000, .i32⟩ : BufTy).Contents (Elt F)),
    binary main_v3 main_v45 main_v46 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v47 (broadcastInDim S1700000 ![] bcast_S_S1700000 : (⟨S_, .i32⟩ : BufTy).Contents (Elt F) → (⟨S1700000, .i32⟩ : BufTy).Contents (Elt F)) ]

/-- First convolution: the source index column, ended; the sources' rows gathered, weighted, summed at their targets; the bias row added. -/
abbrev p1a : List (HloOp τ sig (Elt F)) :=
  [ binary main_v3 main_v47 main_v48 (addi : (⟨S1700000, .i32⟩ : BufTy).Contents (Elt F) → (⟨S1700000, .i32⟩ : BufTy).Contents (Elt F) → (⟨S1700000, .i32⟩ : BufTy).Contents (Elt F)),
    ternary main_v46 main_v48 main_v3 main_v49 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v49 main_v50 (broadcastInDim S1700000x1 ![0] bcast_S1700000_S1700000x1_0 : (⟨S1700000, .i32⟩ : BufTy).Contents (Elt F) → (⟨S1700000x1, .i32⟩ : BufTy).Contents (Elt F)),
    binary main_v17 main_v50 main_v51 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v44 main_v52 (broadcastInDim S1700000x64 ![0, 1] bcast_S1700000x1_S1700000x64_0_1 : (⟨S1700000x1, .f32⟩ : BufTy).Contents (Elt F) → (⟨S1700000x64, .f32⟩ : BufTy).Contents (Elt F)),
    binary main_v52 main_v51 main_v53 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v54 (broadcastInDim S100000x64 ![] bcast_S_S100000x64 : (⟨S_, .f32⟩ : BufTy).Contents (Elt F) → (⟨S100000x64, .f32⟩ : BufTy).Contents (Elt F)),
    unary main_v6 main_v55 (broadcastInDim S1700000x1 ![0] bcast_S1700000_S1700000x1_0 : (⟨S1700000, .i32⟩ : BufTy).Contents (Elt F) → (⟨S1700000x1, .i32⟩ : BufTy).Contents (Elt F)),
    ternary main_v54 main_v55 main_v53 main_v56 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg6 main_v57 (broadcastInDim S1x64 ![1] bcast_S64_S1x64_1 : (⟨S64, .f32⟩ : BufTy).Contents (Elt F) → (⟨S1x64, .f32⟩ : BufTy).Contents (Elt F)),
    unary main_v57 main_v58 (broadcastInDim S100000x64 ![0, 1] bcast_S1x64_S100000x64_0_1 : (⟨S1x64, .f32⟩ : BufTy).Contents (Elt F) → (⟨S100000x64, .f32⟩ : BufTy).Contents (Elt F)),
    binary main_v56 main_v58 main_v59 (addf : (⟨S100000x64, .f32⟩ : BufTy).Contents (Elt F) → (⟨S100000x64, .f32⟩ : BufTy).Contents (Elt F) → (⟨S100000x64, .f32⟩ : BufTy).Contents (Elt F)) ]

/-- First convolution: each row divided by max(‖row‖₂, ε). -/
abbrev p1b : List (HloOp τ sig (Elt F)) :=
  [ binary main_v59 main_v59 main_call1_v0 (mulf : (⟨S100000x64, .f32⟩ : BufTy).Contents (Elt F) → (⟨S100000x64, .f32⟩ : BufTy).Contents (Elt F) → (⟨S100000x64, .f32⟩ : BufTy).Contents (Elt F)),
    nullary main_call1_cst (constant S_ .f32 0x00000000#32),
    binary main_call1_v0 main_call1_cst main_call1_v1 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_call1_v1 main_call1_v2 (broadcastInDim S100000x1 ![0] bcast_S100000_S100000x1_0 : (⟨S100000, .f32⟩ : BufTy).Contents (Elt F) → (⟨S100000x1, .f32⟩ : BufTy).Contents (Elt F)),
    unary main_call1_v2 main_v60 (Host.sqrt : (⟨S100000x1, .f32⟩ : BufTy).Contents (Elt F) → (⟨S100000x1, .f32⟩ : BufTy).Contents (Elt F)),
    nullary main_cst_11 (constant S_ .f32 0x2B8CBCCC#32),
    unary main_cst_11 main_v61 (broadcastInDim S100000x1 ![] bcast_S_S100000x1 : (⟨S_, .f32⟩ : BufTy).Contents (Elt F) → (⟨S100000x1, .f32⟩ : BufTy).Contents (Elt F)),
    binary main_v60 main_v61 main_v62 (maximumf : (⟨S100000x1, .f32⟩ : BufTy).Contents (Elt F) → (⟨S100000x1, .f32⟩ : BufTy).Contents (Elt F) → (⟨S100000x1, .f32⟩ : BufTy).Contents (Elt F)),
    unary main_v62 main_v63 (broadcastInDim S100000x64 ![0, 1] bcast_S100000x1_S100000x64_0_1 : (⟨S100000x1, .f32⟩ : BufTy).Contents (Elt F) → (⟨S100000x64, .f32⟩ : BufTy).Contents (Elt F)),
    binary main_v59 main_v63 main_v64 (Host.divf : (⟨S100000x64, .f32⟩ : BufTy).Contents (Elt F) → (⟨S100000x64, .f32⟩ : BufTy).Contents (Elt F) → (⟨S100000x64, .f32⟩ : BufTy).Contents (Elt F)) ]

/-- First convolution: the leaky rectifier. -/
abbrev p1c : List (HloOp τ sig (Elt F)) :=
  [ nullary main_cst_12 (constant S_ .f32 0x3C23D70A#32),
    nullary main_call2_cst (constant S_ .f32 0x00000000#32),
    unary main_call2_cst main_call2_v0 (broadcastInDim S100000x64 ![] bcast_S_S100000x64 : (⟨S_, .f32⟩ : BufTy).Contents (Elt F) → (⟨S100000x64, .f32⟩ : BufTy).Contents (Elt F)),
    binary main_v64 main_call2_v0 main_call2_v1 (cmpf .oge : (⟨S100000x64, .f32⟩ : BufTy).Contents (Elt F) → (⟨S100000x64, .f32⟩ : BufTy).Contents (Elt F) → (⟨S100000x64, .i1⟩ : BufTy).Contents (Elt F)),
    unary main_cst_12 main_call2_v2 (id : (⟨S_, .f32⟩ : BufTy).Contents (Elt F) → (⟨S_, .f32⟩ : BufTy).Contents (Elt F)),
    unary main_call2_v2 main_call2_v3 (broadcastInDim S100000x64 ![] bcast_S_S100000x64 : (⟨S_, .f32⟩ : BufTy).Contents (Elt F) → (⟨S100000x64, .f32⟩ : BufTy).Contents (Elt F)),
    binary main_call2_v3 main_v64 main_call2_v4 (mulf : (⟨S100000x64, .f32⟩ : BufTy).Contents (Elt F) → (⟨S100000x64, .f32⟩ : BufTy).Contents (Elt F) → (⟨S100000x64, .f32⟩ : BufTy).Contents (Elt F)),
    ternary main_call2_v1 main_v64 main_call2_v4 main_v65 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- First dense layer: `· G₁ + g₁`, then the leaky rectifier: x₁. -/
abbrev p1d : List (HloOp τ sig (Elt F)) :=
  [ binary main_v65 main_arg7 main_v66 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v67 (broadcastInDim S1x64 ![1] bcast_S64_S1x64_1 : (⟨S64, .f32⟩ : BufTy).Contents (Elt F) → (⟨S1x64, .f32⟩ : BufTy).Contents (Elt F)),
    unary main_v67 main_v68 (broadcastInDim S100000x64 ![0, 1] bcast_S1x64_S100000x64_0_1 : (⟨S1x64, .f32⟩ : BufTy).Contents (Elt F) → (⟨S100000x64, .f32⟩ : BufTy).Contents (Elt F)),
    binary main_v66 main_v68 main_v69 (addf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3C23D70A#32),
    nullary main_call3_cst (constant S_ .f32 0x00000000#32),
    unary main_call3_cst main_call3_v0 (broadcastInDim S100000x64 ![] bcast_S_S100000x64 : (⟨S_, .f32⟩ : BufTy).Contents (Elt F) → (⟨S100000x64, .f32⟩ : BufTy).Contents (Elt F)),
    binary main_v69 main_call3_v0 main_call3_v1 (cmpf .oge : (⟨S100000x64, .f32⟩ : BufTy).Contents (Elt F) → (⟨S100000x64, .f32⟩ : BufTy).Contents (Elt F) → (⟨S100000x64, .i1⟩ : BufTy).Contents (Elt F)),
    unary main_cst_13 main_call3_v2 (id : (⟨S_, .f32⟩ : BufTy).Contents (Elt F) → (⟨S_, .f32⟩ : BufTy).Contents (Elt F)),
    unary main_call3_v2 main_call3_v3 (broadcastInDim S100000x64 ![] bcast_S_S100000x64 : (⟨S_, .f32⟩ : BufTy).Contents (Elt F) → (⟨S100000x64, .f32⟩ : BufTy).Contents (Elt F)),
    binary main_call3_v3 main_v69 main_call3_v4 (mulf : (⟨S100000x64, .f32⟩ : BufTy).Contents (Elt F) → (⟨S100000x64, .f32⟩ : BufTy).Contents (Elt F) → (⟨S100000x64, .f32⟩ : BufTy).Contents (Elt F)),
    ternary main_call3_v1 main_v69 main_call3_v4 main_v70 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Second convolution: `x₁ · W₂`, and the degrees to the power -1/2. -/
abbrev p1e : List (HloOp τ sig (Elt F)) :=
  [ binary main_v70 main_arg9 main_v71 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_14 (constant S_ .f32 0x00000000#32),
    unary main_cst_14 main_v72 (broadcastInDim S100000 ![] bcast_S_S100000 : (⟨S_, .f32⟩ : BufTy).Contents (Elt F) → (⟨S100000, .f32⟩ : BufTy).Contents (Elt F)),
    nullary main_c_15 (constantI S_ 32 0#32),
    unary main_c_15 main_v73 (broadcastInDim S1700000 ![] bcast_S_S1700000 : (⟨S_, .i32⟩ : BufTy).Contents (Elt F) → (⟨S1700000, .i32⟩ : BufTy).Contents (Elt F)),
    binary main_v3 main_v73 main_v74 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v75 (broadcastInDim S1700000 ![] bcast_S_S1700000 : (⟨S_, .i32⟩ : BufTy).Contents (Elt F) → (⟨S1700000, .i32⟩ : BufTy).Contents (Elt F)),
    binary main_v3 main_v75 main_v76 (addi : (⟨S1700000, .i32⟩ : BufTy).Contents (Elt F) → (⟨S1700000, .i32⟩ : BufTy).Contents (Elt F) → (⟨S1700000, .i32⟩ : BufTy).Contents (Elt F)),
    ternary main_v74 main_v76 main_v3 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v77 main_v78 (broadcastInDim S1700000x1 ![0] bcast_S1700000_S1700000x1_0 : (⟨S1700000, .i32⟩ : BufTy).Contents (Elt F) → (⟨S1700000x1, .i32⟩ : BufTy).Contents (Elt F)),
    nullary main_cst_17 (constant S_ .f32 0x3F800000#32),
    unary main_cst_17 main_v79 (broadcastInDim S1700000 ![] bcast_S_S1700000 : (⟨S_, .f32⟩ : BufTy).Contents (Elt F) → (⟨S1700000, .f32⟩ : BufTy).Contents (Elt F)),
    ternary main_v72 main_v78 main_v79 main_v80 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_18 (constant S_ .f32 0xBF000000#32),
    unary main_cst_18 main_v81 (broadcastInDim S100000 ![] bcast_S_S100000 : (⟨S_, .f32⟩ : BufTy).Contents (Elt F) → (⟨S100000, .f32⟩ : BufTy).Contents (Elt F)),
    binary main_v80 main_v81 main_v82 (Host.powf : (⟨S100000, .f32⟩ : BufTy).Contents (Elt F) → (⟨S100000, .f32⟩ : BufTy).Contents (Elt F) → (⟨S100000, .f32⟩ : BufTy).Contents (Elt F)) ]

/-- Second convolution: the edge weights, begun (the two degree factors gathered, up to the target index column's choice). -/
abbrev p1f : List (HloOp τ sig (Elt F)) :=
  [ nullary main_c_19 (constantI S_ 32 0#32),
    unary main_c_19 main_v83 (broadcastInDim S1700000 ![] bcast_S_S1700000 : (⟨S_, .i32⟩ : BufTy).Contents (Elt F) → (⟨S1700000, .i32⟩ : BufTy).Contents (Elt F)),
    binary main_v3 main_v83 main_v84 (cmpi .slt : (⟨S1700000, .i32⟩ : BufTy).Contents (Elt F) → (⟨S1700000, .i32⟩ : BufTy).Contents (Elt F) → (⟨S1700000, .i1⟩ : BufTy).Contents (Elt F)),
    nullary main_c_20 (constantI S_ 32 100000#32),
    unary main_c_20 main_v85 (broadcastInDim S1700000 ![] bcast_S_S1700000 : (⟨S_, .i32⟩ : BufTy).Contents (Elt F) → (⟨S1700000, .i32⟩ : BufTy).Contents (Elt F)),
    binary main_v3 main_v85 main_v86 (addi : (⟨S1700000, .i32⟩ : BufTy).Contents (Elt F) → (⟨S1700000, .i32⟩ : BufTy).Contents (Elt F) → (⟨S1700000, .i32⟩ : BufTy).Contents (Elt F)),
    ternary main_v84 main_v86 main_v3 main_v87 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v87 main_v88 (broadcastInDim S1700000x1 ![0] bcast_S1700000_S1700000x1_0 : (⟨S1700000, .i32⟩ : BufTy).Contents (Elt F) → (⟨S1700000x1, .i32⟩ : BufTy).Contents (Elt F)),
    binary main_v82 main_v88 main_v89 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_21 (constantI S_ 32 0#32),
    unary main_c_21 main_v90 (broadcastInDim S1700000 ![] bcast_S_S1700000 : (⟨S_, .i32⟩ : BufTy).Contents (Elt F) → (⟨S1700000, .i32⟩ : BufTy).Contents (Elt F)),
    binary main_v6 main_v90 main_v91 (cmpi .slt : (⟨S1700000, .i32⟩ : BufTy).Contents (Elt F) → (⟨S1700000, .i32⟩ : BufTy).Contents (Elt F) → (⟨S1700000, .i1⟩ : BufTy).Contents (Elt F)),
    nullary main_c_22 (constantI S_ 32 100000#32),
    unary main_c_22 main_v92 (broadcastInDim S1700000 ![] bcast_S_S1700000 : (⟨S_, .i32⟩ : BufTy).Contents (Elt F) → (⟨S1700000, .i32⟩ : BufTy).Contents (Elt F)),
    binary main_v6 main_v92 main_v93 (addi : (⟨S1700000, .i32⟩ : BufTy).Contents (Elt F) → (⟨S1700000, .i32⟩ : BufTy).Contents (Elt F) → (⟨S1700000, .i32⟩ : BufTy).Contents (Elt F)),
    ternary main_v91 main_v93 main_v6 main_v94 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ]

/-- Second convolution: the edge weights, ended, as a column. -/
abbrev p2a : List (HloOp τ sig (Elt F)) :=
  [ unary main_v94 main_v95 (broadcastInDim S1700000x1 ![0] bcast_S1700000_S1700000x1_0 : (⟨S1700000, .i32⟩ : BufTy).Contents (Elt F) → (⟨S1700000x1, .i32⟩ : BufTy).Contents (Elt F)),
    binary main_v82 main_v95 main_v96 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v89 main_v96 main_v97 (mulf : (⟨S1700000, .f32⟩ : BufTy).Contents (Elt F) → (⟨S1700000, .f32⟩ : BufTy).Contents (Elt F) → (⟨S1700000, .f32⟩ : BufTy).Contents (Elt F)),
    unary main_v97 main_v98 (broadcastInDim S1700000x1 ![0] bcast_S1700000_S1700000x1_0 : (⟨S1700000, .f32⟩ : BufTy).Contents (Elt F) → (⟨S1700000x1, .f32⟩ : BufTy).Contents (Elt F)) ]

/-- Second convolution: the sources' rows gathered, weighted, summed at their targets; the bias row added. -/
abbrev p2b : List (HloOp τ sig (Elt F)) :=
  [ nullary main_c_23 (constantI S_ 32 0#32),
    unary main_c_23 main_v99 (broadcastInDim S1700000 ![] bcast_S_S1700000 : (⟨S_, .i32⟩ : BufTy).Contents (Elt F) → (⟨S1700000, .i32⟩ : BufTy).Contents (Elt F)),
    binary main_v3 main_v99 main_v100 (cmpi .slt : (⟨S1700000, .i32⟩ : BufTy).Contents (Elt F) → (⟨S1700000, .i32⟩ : BufTy).Contents (Elt F) → (⟨S1700000, .i1⟩ : BufTy).Contents (Elt F)),
    nullary main_c_24 (constantI S_ 32 100000#32),
    unary main_c_24 main_v101 (broadcastInDim S1700000 ![] bcast_S_S1700000 : (⟨S_, .i32⟩ : BufTy).Contents (Elt F) → (⟨S1700000, .i32⟩ : BufTy).Contents (Elt F)),
    binary main_v3 main_v101 main_v102 (addi : (⟨S1700000, .i32⟩ : BufTy).Contents (Elt F) → (⟨S1700000, .i32⟩ : BufTy).Contents (Elt F) → (⟨S1700000, .i32⟩ : BufTy).Contents (Elt F)),
    ternary main_v100 main_v102 main_v3 main_v103 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v103 main_v104 (broadcastInDim S1700000x1 ![0] bcast_S1700000_S1700000x1_0 : (⟨S1700000, .i32⟩ : BufTy).Contents (Elt F) → (⟨S1700000x1, .i32⟩ : BufTy).Contents (Elt F)),
    binary main_v71 main_v104 main_v105 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v98 main_v106 (broadcastInDim S1700000x64 ![0, 1] bcast_S1700000x1_S1700000x64_0_1 : (⟨S1700000x1, .f32⟩ : BufTy).Contents (Elt F) → (⟨S1700000x64, .f32⟩ : BufTy).Contents (Elt F)),
    binary main_v106 main_v105 main_v107 (mulf : (⟨S1700000x64, .f32⟩ : BufTy).Contents (Elt F) → (⟨S1700000x64, .f32⟩ : BufTy).Contents (Elt F) → (⟨S1700000x64, .f32⟩ : BufTy).Contents (Elt F)),
    nullary main_cst_25 (constant S_ .f32 0x00000000#32),
    unary main_cst_25 main_v108 (broadcastInDim S100000x64 ![] bcast_S_S100000x64 : (⟨S_, .f32⟩ : BufTy).Contents (Elt F) → (⟨S100000x64, .f32⟩ : BufTy).Contents (Elt F)),
    unary main_v6 main_v109 (broadcastInDim S1700000x1 ![0] bcast_S1700000_S1700000x1_0 : (⟨S1700000, .i32⟩ : BufTy).Contents (Elt F) → (⟨S1700000x1, .i32⟩ : BufTy).Contents (Elt F)),
    ternary main_v108 main_v109 main_v107 main_v110 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg10 main_v111 (broadcastInDim S1x64 ![1] bcast_S64_S1x64_1 : (⟨S64, .f32⟩ : BufTy).Contents (Elt F) → (⟨S1x64, .f32⟩ : BufTy).Contents (Elt F)),
    unary main_v111 main_v112 (broadcastInDim S100000x64 ![0, 1] bcast_S1x64_S100000x64_0_1 : (⟨S1x64, .f32⟩ : BufTy).Contents (Elt F) → (⟨S100000x64, .f32⟩ : BufTy).Contents (Elt F)),
    binary main_v110 main_v112 main_v113 (addf : (⟨S100000x64, .f32⟩ : BufTy).Contents (Elt F) → (⟨S100000x64, .f32⟩ : BufTy).Contents (Elt F) → (⟨S100000x64, .f32⟩ : BufTy).Contents (Elt F)) ]

/-- Second convolution: each row divided by max(‖row‖₂, ε). -/
abbrev p2c : List (HloOp τ sig (Elt F)) :=
  [ binary main_v113 main_v113 main_call4_v0 (mulf : (⟨S100000x64, .f32⟩ : BufTy).Contents (Elt F) → (⟨S100000x64, .f32⟩ : BufTy).Contents (Elt F) → (⟨S100000x64, .f32⟩ : BufTy).Contents (Elt F)),
    nullary main_call4_cst (constant S_ .f32 0x00000000#32),
    binary main_call4_v0 main_call4_cst main_call4_v1 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_call4_v1 main_call4_v2 (broadcastInDim S100000x1 ![0] bcast_S100000_S100000x1_0 : (⟨S100000, .f32⟩ : BufTy).Contents (Elt F) → (⟨S100000x1, .f32⟩ : BufTy).Contents (Elt F)),
    unary main_call4_v2 main_v114 (Host.sqrt : (⟨S100000x1, .f32⟩ : BufTy).Contents (Elt F) → (⟨S100000x1, .f32⟩ : BufTy).Contents (Elt F)),
    nullary main_cst_26 (constant S_ .f32 0x2B8CBCCC#32),
    unary main_cst_26 main_v115 (broadcastInDim S100000x1 ![] bcast_S_S100000x1 : (⟨S_, .f32⟩ : BufTy).Contents (Elt F) → (⟨S100000x1, .f32⟩ : BufTy).Contents (Elt F)),
    binary main_v114 main_v115 main_v116 (maximumf : (⟨S100000x1, .f32⟩ : BufTy).Contents (Elt F) → (⟨S100000x1, .f32⟩ : BufTy).Contents (Elt F) → (⟨S100000x1, .f32⟩ : BufTy).Contents (Elt F)),
    unary main_v116 main_v117 (broadcastInDim S100000x64 ![0, 1] bcast_S100000x1_S100000x64_0_1 : (⟨S100000x1, .f32⟩ : BufTy).Contents (Elt F) → (⟨S100000x64, .f32⟩ : BufTy).Contents (Elt F)),
    binary main_v113 main_v117 main_v118 (Host.divf : (⟨S100000x64, .f32⟩ : BufTy).Contents (Elt F) → (⟨S100000x64, .f32⟩ : BufTy).Contents (Elt F) → (⟨S100000x64, .f32⟩ : BufTy).Contents (Elt F)) ]

/-- Second convolution: the leaky rectifier. -/
abbrev p2d : List (HloOp τ sig (Elt F)) :=
  [ nullary main_cst_27 (constant S_ .f32 0x3C23D70A#32),
    nullary main_call5_cst (constant S_ .f32 0x00000000#32),
    unary main_call5_cst main_call5_v0 (broadcastInDim S100000x64 ![] bcast_S_S100000x64 : (⟨S_, .f32⟩ : BufTy).Contents (Elt F) → (⟨S100000x64, .f32⟩ : BufTy).Contents (Elt F)),
    binary main_v118 main_call5_v0 main_call5_v1 (cmpf .oge : (⟨S100000x64, .f32⟩ : BufTy).Contents (Elt F) → (⟨S100000x64, .f32⟩ : BufTy).Contents (Elt F) → (⟨S100000x64, .i1⟩ : BufTy).Contents (Elt F)),
    unary main_cst_27 main_call5_v2 (id : (⟨S_, .f32⟩ : BufTy).Contents (Elt F) → (⟨S_, .f32⟩ : BufTy).Contents (Elt F)),
    unary main_call5_v2 main_call5_v3 (broadcastInDim S100000x64 ![] bcast_S_S100000x64 : (⟨S_, .f32⟩ : BufTy).Contents (Elt F) → (⟨S100000x64, .f32⟩ : BufTy).Contents (Elt F)),
    binary main_call5_v3 main_v118 main_call5_v4 (mulf : (⟨S100000x64, .f32⟩ : BufTy).Contents (Elt F) → (⟨S100000x64, .f32⟩ : BufTy).Contents (Elt F) → (⟨S100000x64, .f32⟩ : BufTy).Contents (Elt F)),
    ternary main_call5_v1 main_v118 main_call5_v4 main_v119 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Second dense layer: `· G₂ + g₂`, then the leaky rectifier: x₂. -/
abbrev p2e : List (HloOp τ sig (Elt F)) :=
  [ binary main_v119 main_arg11 main_v120 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v120 main_v122 main_v123 (addf : (⟨S100000x64, .f32⟩ : BufTy).Contents (Elt F) → (⟨S100000x64, .f32⟩ : BufTy).Contents (Elt F) → (⟨S100000x64, .f32⟩ : BufTy).Contents (Elt F)),
    nullary main_cst_28 (constant S_ .f32 0x3C23D70A#32),
    nullary main_call6_cst (constant S_ .f32 0x00000000#32),
    unary main_call6_cst main_call6_v0 (broadcastInDim S100000x64 ![] bcast_S_S100000x64 : (⟨S_, .f32⟩ : BufTy).Contents (Elt F) → (⟨S100000x64, .f32⟩ : BufTy).Contents (Elt F)),
    binary main_v123 main_call6_v0 main_call6_v1 (cmpf .oge : (⟨S100000x64, .f32⟩ : BufTy).Contents (Elt F) → (⟨S100000x64, .f32⟩ : BufTy).Contents (Elt F) → (⟨S100000x64, .i1⟩ : BufTy).Contents (Elt F)),
    unary main_cst_28 main_call6_v2 (id : (⟨S_, .f32⟩ : BufTy).Contents (Elt F) → (⟨S_, .f32⟩ : BufTy).Contents (Elt F)),
    unary main_call6_v2 main_call6_v3 (broadcastInDim S100000x64 ![] bcast_S_S100000x64 : (⟨S_, .f32⟩ : BufTy).Contents (Elt F) → (⟨S100000x64, .f32⟩ : BufTy).Contents (Elt F)),
    binary main_call6_v3 main_v123 main_call6_v4 (mulf : (⟨S100000x64, .f32⟩ : BufTy).Contents (Elt F) → (⟨S100000x64, .f32⟩ : BufTy).Contents (Elt F) → (⟨S100000x64, .f32⟩ : BufTy).Contents (Elt F)),
    ternary main_call6_v1 main_v123 main_call6_v4 main_v124 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- First head's convolution: `x₂ · W₄`, and the degrees to the power -1/2. -/
abbrev p2f : List (HloOp τ sig (Elt F)) :=
  [ binary main_v124 main_arg13 main_v125 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_29 (constant S_ .f32 0x00000000#32),
    unary main_cst_29 main_v126 (broadcastInDim S100000 ![] bcast_S_S100000 : (⟨S_, .f32⟩ : BufTy).Contents (Elt F) → (⟨S100000, .f32⟩ : BufTy).Contents (Elt F)),
    nullary main_c_30 (constantI S_ 32 0#32),
    unary main_c_30 main_v127 (broadcastInDim S1700000 ![] bcast_S_S1700000 : (⟨S_, .i32⟩ : BufTy).Contents (Elt F) → (⟨S1700000, .i32⟩ : BufTy).Contents (Elt F)),
    binary main_v3 main_v127 main_v128 (cmpi .slt : (⟨S1700000, .i32⟩ : BufTy).Contents (Elt F) → (⟨S1700000, .i32⟩ : BufTy).Contents (Elt F) → (⟨S1700000, .i1⟩ : BufTy).Contents (Elt F)),
    nullary main_c_31 (constantI S_ 32 100000#32),
    unary main_c_31 main_v129 (broadcastInDim S1700000 ![] bcast_S_S1700000 : (⟨S_, .i32⟩ : BufTy).Contents (Elt F) → (⟨S1700000, .i32⟩ : BufTy).Contents (Elt F)),
    binary main_v3 main_v129 main_v130 (addi : (⟨S1700000, .i32⟩ : BufTy).Contents (Elt F) → (⟨S1700000, .i32⟩ : BufTy).Contents (Elt F) → (⟨S1700000, .i32⟩ : BufTy).Contents (Elt F)),
    ternary main_v128 main_v130 main_v3 main_v131 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v131 main_v132 (broadcastInDim S1700000x1 ![0] bcast_S1700000_S1700000x1_0 : (⟨S1700000, .i32⟩ : BufTy).Contents (Elt F) → (⟨S1700000x1, .i32⟩ : BufTy).Contents (Elt F)),
    nullary main_cst_32 (constant S_ .f32 0x3F800000#32),
    unary main_cst_32 main_v133 (broadcastInDim S1700000 ![] bcast_S_S1700000 : (⟨S_, .f32⟩ : BufTy).Contents (Elt F) → (⟨S1700000, .f32⟩ : BufTy).Contents (Elt F)),
    ternary main_v126 main_v132 main_v133 main_v134 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_33 (constant S_ .f32 0xBF000000#32),
    unary main_cst_33 main_v135 (broadcastInDim S100000 ![] bcast_S_S100000 : (⟨S_, .f32⟩ : BufTy).Contents (Elt F) → (⟨S100000, .f32⟩ : BufTy).Contents (Elt F)),
    binary main_v134 main_v135 main_v136 (Host.powf : (⟨S100000, .f32⟩ : BufTy).Contents (Elt F) → (⟨S100000, .f32⟩ : BufTy).Contents (Elt F) → (⟨S100000, .f32⟩ : BufTy).Contents (Elt F)) ]

/-- First head's convolution: the edge weights, begun (the source index column). -/
abbrev p2g : List (HloOp τ sig (Elt F)) :=
  [ nullary main_c_34 (constantI S_ 32 0#32),
    unary main_c_34 main_v137 (broadcastInDim S1700000 ![] bcast_S_S1700000 : (⟨S_, .i32⟩ : BufTy).Contents (Elt F) → (⟨S1700000, .i32⟩ : BufTy).Contents (Elt F)),
    binary main_v3 main_v137 main_v138 (cmpi .slt : (⟨S1700000, .i32⟩ : BufTy).Contents (Elt F) → (⟨S1700000, .i32⟩ : BufTy).Contents (Elt F) → (⟨S1700000, .i1⟩ : BufTy).Contents (Elt F)),
    nullary main_c_35 (constantI S_ 32 100000#32),
    unary main_c_35 main_v139 (broadcastInDim S1700000 ![] bcast_S_S1700000 : (⟨S_, .i32⟩ : BufTy).Contents (Elt F) → (⟨S1700000, .i32⟩ : BufTy).Contents (Elt F)),
    binary main_v3 main_v139 main_v140 (addi : (⟨S1700000, .i32⟩ : BufTy).Contents (Elt F) → (⟨S1700000, .i32⟩ : BufTy).Contents (Elt F) → (⟨S1700000, .i32⟩ : BufTy).Contents (Elt F)),
    ternary main_v138 main_v140 main_v3 main_v141 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ]

/-- First head's convolution: the edge weights, ended, as a column. -/
abbrev p3a : List (HloOp τ sig (Elt F)) :=
  [ unary main_v141 main_v142 (broadcastInDim S1700000x1 ![0] bcast_S1700000_S1700000x1_0 : (⟨S1700000, .i32⟩ : BufTy).Contents (Elt F) → (⟨S1700000x1, .i32⟩ : BufTy).Contents (Elt F)),
    binary main_v136 main_v142 main_v143 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_36 (constantI S_ 32 0#32),
    unary main_c_36 main_v144 (broadcastInDim S1700000 ![] bcast_S_S1700000 : (⟨S_, .i32⟩ : BufTy).Contents (Elt F) → (⟨S1700000, .i32⟩ : BufTy).Contents (Elt F)),
    binary main_v6 main_v144 main_v145 (cmpi .slt : (⟨S1700000, .i32⟩ : BufTy).Contents (Elt F) → (⟨S1700000, .i32⟩ : BufTy).Contents (Elt F) → (⟨S1700000, .i1⟩ : BufTy).Contents (Elt F)),
    nullary main_c_37 (constantI S_ 32 100000#32),
    unary main_c_37 main_v146 (broadcastInDim S1700000 ![] bcast_S_S1700000 : (⟨S_, .i32⟩ : BufTy).Contents (Elt F) → (⟨S1700000, .i32⟩ : BufTy).Contents (Elt F)),
    binary main_v6 main_v146 main_v147 (addi : (⟨S1700000, .i32⟩ : BufTy).Contents (Elt F) → (⟨S1700000, .i32⟩ : BufTy).Contents (Elt F) → (⟨S1700000, .i32⟩ : BufTy).Contents (Elt F)),
    ternary main_v145 main_v147 main_v6 main_v148 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v148 main_v149 (broadcastInDim S1700000x1 ![0] bcast_S1700000_S1700000x1_0 : (⟨S1700000, .i32⟩ : BufTy).Contents (Elt F) → (⟨S1700000x1, .i32⟩ : BufTy).Contents (Elt F)),
    binary main_v136 main_v149 main_v150 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v143 main_v150 main_v151 (mulf : (⟨S1700000, .f32⟩ : BufTy).Contents (Elt F) → (⟨S1700000, .f32⟩ : BufTy).Contents (Elt F) → (⟨S1700000, .f32⟩ : BufTy).Contents (Elt F)),
    unary main_v151 main_v152 (broadcastInDim S1700000x1 ![0] bcast_S1700000_S1700000x1_0 : (⟨S1700000, .f32⟩ : BufTy).Contents (Elt F) → (⟨S1700000x1, .f32⟩ : BufTy).Contents (Elt F)) ]

/-- First head's convolution: the sources' rows gathered, weighted, summed at their targets; the bias row added. -/
abbrev p3b : List (HloOp τ sig (Elt F)) :=
  [ nullary main_c_38 (constantI S_ 32 0#32),
    unary main_c_38 main_v153 (broadcastInDim S1700000 ![] bcast_S_S1700000 : (⟨S_, .i32⟩ : BufTy).Contents (Elt F) → (⟨S1700000, .i32⟩ : BufTy).Contents (Elt F)),
    binary main_v3 main_v153 main_v154 (cmpi .slt : (⟨S1700000, .i32⟩ : BufTy).Contents (Elt F) → (⟨S1700000, .i32⟩ : BufTy).Contents (Elt F) → (⟨S1700000, .i1⟩ : BufTy).Contents (Elt F)),
    nullary main_c_39 (constantI S_ 32 100000#32),
    unary main_c_39 main_v155 (broadcastInDim S1700000 ![] bcast_S_S1700000 : (⟨S_, .i32⟩ : BufTy).Contents (Elt F) → (⟨S1700000, .i32⟩ : BufTy).Contents (Elt F)),
    binary main_v3 main_v155 main_v156 (addi : (⟨S1700000, .i32⟩ : BufTy).Contents (Elt F) → (⟨S1700000, .i32⟩ : BufTy).Contents (Elt F) → (⟨S1700000, .i32⟩ : BufTy).Contents (Elt F)),
    ternary main_v154 main_v156 main_v3 main_v157 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v157 main_v158 (broadcastInDim S1700000x1 ![0] bcast_S1700000_S1700000x1_0 : (⟨S1700000, .i32⟩ : BufTy).Contents (Elt F) → (⟨S1700000x1, .i32⟩ : BufTy).Contents (Elt F)),
    binary main_v125 main_v158 main_v159 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v152 main_v160 (broadcastInDim S1700000x64 ![0, 1] bcast_S1700000x1_S1700000x64_0_1 : (⟨S1700000x1, .f32⟩ : BufTy).Contents (Elt F) → (⟨S1700000x64, .f32⟩ : BufTy).Contents (Elt F)),
    binary main_v160 main_v159 main_v161 (mulf : (⟨S1700000x64, .f32⟩ : BufTy).Contents (Elt F) → (⟨S1700000x64, .f32⟩ : BufTy).Contents (Elt F) → (⟨S1700000x64, .f32⟩ : BufTy).Contents (Elt F)),
    nullary main_cst_40 (constant S_ .f32 0x00000000#32),
    unary main_cst_40 main_v162 (broadcastInDim S100000x64 ![] bcast_S_S100000x64 : (⟨S_, .f32⟩ : BufTy).Contents (Elt F) → (⟨S100000x64, .f32⟩ : BufTy).Contents (Elt F)),
    unary main_v6 main_v163 (broadcastInDim S1700000x1 ![0] bcast_S1700000_S1700000x1_0 : (⟨S1700000, .i32⟩ : BufTy).Contents (Elt F) → (⟨S1700000x1, .i32⟩ : BufTy).Contents (Elt F)),
    ternary main_v162 main_v163 main_v161 main_v164 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg14 main_v165 (broadcastInDim S1x64 ![1] bcast_S64_S1x64_1 : (⟨S64, .f32⟩ : BufTy).Contents (Elt F) → (⟨S1x64, .f32⟩ : BufTy).Contents (Elt F)),
    unary main_v165 main_v166 (broadcastInDim S100000x64 ![0, 1] bcast_S1x64_S100000x64_0_1 : (⟨S1x64, .f32⟩ : BufTy).Contents (Elt F) → (⟨S100000x64, .f32⟩ : BufTy).Contents (Elt F)),
    binary main_v164 main_v166 main_v167 (addf : (⟨S100000x64, .f32⟩ : BufTy).Contents (Elt F) → (⟨S100000x64, .f32⟩ : BufTy).Contents (Elt F) → (⟨S100000x64, .f32⟩ : BufTy).Contents (Elt F)) ]

/-- First head's convolution: each row divided by max(‖row‖₂, ε). -/
abbrev p3c : List (HloOp τ sig (Elt F)) :=
  [ binary main_v167 main_v167 main_call7_v0 (mulf : (⟨S100000x64, .f32⟩ : BufTy).Contents (Elt F) → (⟨S100000x64, .f32⟩ : BufTy).Contents (Elt F) → (⟨S100000x64, .f32⟩ : BufTy).Contents (Elt F)),
    nullary main_call7_cst (constant S_ .f32 0x00000000#32),
    binary main_call7_v0 main_call7_cst main_call7_v1 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_call7_v1 main_call7_v2 (broadcastInDim S100000x1 ![0] bcast_S100000_S100000x1_0 : (⟨S100000, .f32⟩ : BufTy).Contents (Elt F) → (⟨S100000x1, .f32⟩ : BufTy).Contents (Elt F)),
    unary main_call7_v2 main_v168 (Host.sqrt : (⟨S100000x1, .f32⟩ : BufTy).Contents (Elt F) → (⟨S100000x1, .f32⟩ : BufTy).Contents (Elt F)),
    nullary main_cst_41 (constant S_ .f32 0x2B8CBCCC#32),
    unary main_cst_41 main_v169 (broadcastInDim S100000x1 ![] bcast_S_S100000x1 : (⟨S_, .f32⟩ : BufTy).Contents (Elt F) → (⟨S100000x1, .f32⟩ : BufTy).Contents (Elt F)),
    binary main_v168 main_v169 main_v170 (maximumf : (⟨S100000x1, .f32⟩ : BufTy).Contents (Elt F) → (⟨S100000x1, .f32⟩ : BufTy).Contents (Elt F) → (⟨S100000x1, .f32⟩ : BufTy).Contents (Elt F)),
    unary main_v170 main_v171 (broadcastInDim S100000x64 ![0, 1] bcast_S100000x1_S100000x64_0_1 : (⟨S100000x1, .f32⟩ : BufTy).Contents (Elt F) → (⟨S100000x64, .f32⟩ : BufTy).Contents (Elt F)),
    binary main_v167 main_v171 main_v172 (Host.divf : (⟨S100000x64, .f32⟩ : BufTy).Contents (Elt F) → (⟨S100000x64, .f32⟩ : BufTy).Contents (Elt F) → (⟨S100000x64, .f32⟩ : BufTy).Contents (Elt F)) ]

/-- First head's convolution: the leaky rectifier. -/
abbrev p3d : List (HloOp τ sig (Elt F)) :=
  [ nullary main_cst_42 (constant S_ .f32 0x3C23D70A#32),
    nullary main_call8_cst (constant S_ .f32 0x00000000#32),
    unary main_call8_cst main_call8_v0 (broadcastInDim S100000x64 ![] bcast_S_S100000x64 : (⟨S_, .f32⟩ : BufTy).Contents (Elt F) → (⟨S100000x64, .f32⟩ : BufTy).Contents (Elt F)),
    binary main_v172 main_call8_v0 main_call8_v1 (cmpf .oge : (⟨S100000x64, .f32⟩ : BufTy).Contents (Elt F) → (⟨S100000x64, .f32⟩ : BufTy).Contents (Elt F) → (⟨S100000x64, .i1⟩ : BufTy).Contents (Elt F)),
    unary main_cst_42 main_call8_v2 (id : (⟨S_, .f32⟩ : BufTy).Contents (Elt F) → (⟨S_, .f32⟩ : BufTy).Contents (Elt F)),
    unary main_call8_v2 main_call8_v3 (broadcastInDim S100000x64 ![] bcast_S_S100000x64 : (⟨S_, .f32⟩ : BufTy).Contents (Elt F) → (⟨S100000x64, .f32⟩ : BufTy).Contents (Elt F)),
    binary main_call8_v3 main_v172 main_call8_v4 (mulf : (⟨S100000x64, .f32⟩ : BufTy).Contents (Elt F) → (⟨S100000x64, .f32⟩ : BufTy).Contents (Elt F) → (⟨S100000x64, .f32⟩ : BufTy).Contents (Elt F)),
    ternary main_call8_v1 main_v172 main_call8_v4 main_v173 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- First head: the rectified `x₂ · L₄ + l₄`, the convolution's image `· G₄ + g₄`, and their sum: the first result. -/
abbrev p3e : List (HloOp τ sig (Elt F)) :=
  [ binary main_v124 main_arg15 main_v174 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg16 main_v175 (broadcastInDim S1x64 ![1] bcast_S64_S1x64_1 : (⟨S64, .f32⟩ : BufTy).Contents (Elt F) → (⟨S1x64, .f32⟩ : BufTy).Contents (Elt F)),
    unary main_v175 main_v176 (broadcastInDim S100000x64 ![0, 1] bcast_S1x64_S100000x64_0_1 : (⟨S1x64, .f32⟩ : BufTy).Contents (Elt F) → (⟨S100000x64, .f32⟩ : BufTy).Contents (Elt F)),
    binary main_v174 main_v176 main_v177 (addf : (⟨S100000x64, .f32⟩ : BufTy).Contents (Elt F) → (⟨S100000x64, .f32⟩ : BufTy).Contents (Elt F) → (⟨S100000x64, .f32⟩ : BufTy).Contents (Elt F)),
    nullary main_cst_43 (constant S_ .f32 0x3C23D70A#32),
    nullary main_call9_cst (constant S_ .f32 0x00000000#32),
    unary main_call9_cst main_call9_v0 (broadcastInDim S100000x64 ![] bcast_S_S100000x64 : (⟨S_, .f32⟩ : BufTy).Contents (Elt F) → (⟨S100000x64, .f32⟩ : BufTy).Contents (Elt F)),
    binary main_v177 main_call9_v0 main_call9_v1 (cmpf .oge : (⟨S100000x64, .f32⟩ : BufTy).Contents (Elt F) → (⟨S100000x64, .f32⟩ : BufTy).Contents (Elt F) → (⟨S100000x64, .i1⟩ : BufTy).Contents (Elt F)),
    unary main_cst_43 main_call9_v2 (id : (⟨S_, .f32⟩ : BufTy).Contents (Elt F) → (⟨S_, .f32⟩ : BufTy).Contents (Elt F)),
    unary main_call9_v2 main_call9_v3 (broadcastInDim S100000x64 ![] bcast_S_S100000x64 : (⟨S_, .f32⟩ : BufTy).Contents (Elt F) → (⟨S100000x64, .f32⟩ : BufTy).Contents (Elt F)),
    binary main_call9_v3 main_v177 main_call9_v4 (mulf : (⟨S100000x64, .f32⟩ : BufTy).Contents (Elt F) → (⟨S100000x64, .f32⟩ : BufTy).Contents (Elt F) → (⟨S100000x64, .f32⟩ : BufTy).Contents (Elt F)),
    ternary main_call9_v1 main_v177 main_call9_v4 main_v178 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v173 main_arg17 main_v179 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg18 main_v180 (broadcastInDim S1x64 ![1] bcast_S64_S1x64_1 : (⟨S64, .f32⟩ : BufTy).Contents (Elt F) → (⟨S1x64, .f32⟩ : BufTy).Contents (Elt F)),
    unary main_v180 main_v181 (broadcastInDim S100000x64 ![0, 1] bcast_S1x64_S100000x64_0_1 : (⟨S1x64, .f32⟩ : BufTy).Contents (Elt F) → (⟨S100000x64, .f32⟩ : BufTy).Contents (Elt F)),
    binary main_v179 main_v181 main_v182 (addf : (⟨S100000x64, .f32⟩ : BufTy).Contents (Elt F) → (⟨S100000x64, .f32⟩ : BufTy).Contents (Elt F) → (⟨S100000x64, .f32⟩ : BufTy).Contents (Elt F)),
    binary main_v182 main_v178 main_v183 (addf : (⟨S100000x64, .f32⟩ : BufTy).Contents (Elt F) → (⟨S100000x64, .f32⟩ : BufTy).Contents (Elt F) → (⟨S100000x64, .f32⟩ : BufTy).Contents (Elt F)) ]

/-- Second head's convolution: `x₂ · W₅`, and the degree count, begun (the source index column's choice). -/
abbrev p3f : List (HloOp τ sig (Elt F)) :=
  [ binary main_v124 main_arg19 main_v184 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_44 (constant S_ .f32 0x00000000#32),
    unary main_cst_44 main_v185 (broadcastInDim S100000 ![] bcast_S_S100000 : (⟨S_, .f32⟩ : BufTy).Contents (Elt F) → (⟨S100000, .f32⟩ : BufTy).Contents (Elt F)),
    nullary main_c_45 (constantI S_ 32 0#32),
    unary main_c_45 main_v186 (broadcastInDim S1700000 ![] bcast_S_S1700000 : (⟨S_, .i32⟩ : BufTy).Contents (Elt F) → (⟨S1700000, .i32⟩ : BufTy).Contents (Elt F)),
    binary main_v3 main_v186 main_v187 (cmpi .slt : (⟨S1700000, .i32⟩ : BufTy).Contents (Elt F) → (⟨S1700000, .i32⟩ : BufTy).Contents (Elt F) → (⟨S1700000, .i1⟩ : BufTy).Contents (Elt F)),
    nullary main_c_46 (constantI S_ 32 100000#32),
    unary main_c_46 main_v188 (broadcastInDim S1700000 ![] bcast_S_S1700000 : (⟨S_, .i32⟩ : BufTy).Contents (Elt F) → (⟨S1700000, .i32⟩ : BufTy).Contents (Elt F)),
    binary main_v3 main_v188 main_v189 (addi : (⟨S1700000, .i32⟩ : BufTy).Contents (Elt F) → (⟨S1700000, .i32⟩ : BufTy).Contents (Elt F) → (⟨S1700000, .i32⟩ : BufTy).Contents (Elt F)),
    ternary main_v187 main_v189 main_v3 main_v190 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)) ]

/-- Second head's convolution: the degree count, ended, and the degrees to the power -1/2. -/
abbrev p4a : List (HloOp τ sig (Elt F)) :=
  [ unary main_v190 main_v191 (broadcastInDim S1700000x1 ![0] bcast_S1700000_S1700000x1_0 : (⟨S1700000, .i32⟩ : BufTy).Contents (Elt F) → (⟨S1700000x1, .i32⟩ : BufTy).Contents (Elt F)),
    nullary main_cst_47 (constant S_ .f32 0x3F800000#32),
    unary main_cst_47 main_v192 (broadcastInDim S1700000 ![] bcast_S_S1700000 : (⟨S_, .f32⟩ : BufTy).Contents (Elt F) → (⟨S1700000, .f32⟩ : BufTy).Contents (Elt F)),
    ternary main_v185 main_v191 main_v192 main_v193 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_48 (constant S_ .f32 0xBF000000#32),
    unary main_cst_48 main_v194 (broadcastInDim S100000 ![] bcast_S_S100000 : (⟨S_, .f32⟩ : BufTy).Contents (Elt F) → (⟨S100000, .f32⟩ : BufTy).Contents (Elt F)),
    binary main_v193 main_v194 main_v195 (Host.powf : (⟨S100000, .f32⟩ : BufTy).Contents (Elt F) → (⟨S100000, .f32⟩ : BufTy).Contents (Elt F) → (⟨S100000, .f32⟩ : BufTy).Contents (Elt F)) ]

/-- Second head's convolution: the edge weights, as a column. -/
abbrev p4b : List (HloOp τ sig (Elt F)) :=
  [ nullary main_c_49 (constantI S_ 32 0#32),
    unary main_c_49 main_v196 (broadcastInDim S1700000 ![] bcast_S_S1700000 : (⟨S_, .i32⟩ : BufTy).Contents (Elt F) → (⟨S1700000, .i32⟩ : BufTy).Contents (Elt F)),
    binary main_v3 main_v196 main_v197 (cmpi .slt : (⟨S1700000, .i32⟩ : BufTy).Contents (Elt F) → (⟨S1700000, .i32⟩ : BufTy).Contents (Elt F) → (⟨S1700000, .i1⟩ : BufTy).Contents (Elt F)),
    nullary main_c_50 (constantI S_ 32 100000#32),
    unary main_c_50 main_v198 (broadcastInDim S1700000 ![] bcast_S_S1700000 : (⟨S_, .i32⟩ : BufTy).Contents (Elt F) → (⟨S1700000, .i32⟩ : BufTy).Contents (Elt F)),
    binary main_v3 main_v198 main_v199 (addi : (⟨S1700000, .i32⟩ : BufTy).Contents (Elt F) → (⟨S1700000, .i32⟩ : BufTy).Contents (Elt F) → (⟨S1700000, .i32⟩ : BufTy).Contents (Elt F)),
    ternary main_v197 main_v199 main_v3 main_v200 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v200 main_v201 (broadcastInDim S1700000x1 ![0] bcast_S1700000_S1700000x1_0 : (⟨S1700000, .i32⟩ : BufTy).Contents (Elt F) → (⟨S1700000x1, .i32⟩ : BufTy).Contents (Elt F)),
    binary main_v195 main_v201 main_v202 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_51 (constantI S_ 32 0#32),
    unary main_c_51 main_v203 (broadcastInDim S1700000 ![] bcast_S_S1700000 : (⟨S_, .i32⟩ : BufTy).Contents (Elt F) → (⟨S1700000, .i32⟩ : BufTy).Contents (Elt F)),
    binary main_v6 main_v203 main_v204 (cmpi .slt : (⟨S1700000, .i32⟩ : BufTy).Contents (Elt F) → (⟨S1700000, .i32⟩ : BufTy).Contents (Elt F) → (⟨S1700000, .i1⟩ : BufTy).Contents (Elt F)),
    nullary main_c_52 (constantI S_ 32 100000#32),
    unary main_c_52 main_v205 (broadcastInDim S1700000 ![] bcast_S_S1700000 : (⟨S_, .i32⟩ : BufTy).Contents (Elt F) → (⟨S1700000, .i32⟩ : BufTy).Contents (Elt F)),
    binary main_v6 main_v205 main_v206 (addi : (⟨S1700000, .i32⟩ : BufTy).Contents (Elt F) → (⟨S1700000, .i32⟩ : BufTy).Contents (Elt F) → (⟨S1700000, .i32⟩ : BufTy).Contents (Elt F)),
    ternary main_v204 main_v206 main_v6 main_v207 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v207 main_v208 (broadcastInDim S1700000x1 ![0] bcast_S1700000_S1700000x1_0 : (⟨S1700000, .i32⟩ : BufTy).Contents (Elt F) → (⟨S1700000x1, .i32⟩ : BufTy).Contents (Elt F)),
    binary main_v195 main_v208 main_v209 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v202 main_v209 main_v210 (mulf : (⟨S1700000, .f32⟩ : BufTy).Contents (Elt F) → (⟨S1700000, .f32⟩ : BufTy).Contents (Elt F) → (⟨S1700000, .f32⟩ : BufTy).Contents (Elt F)),
    unary main_v210 main_v211 (broadcastInDim S1700000x1 ![0] bcast_S1700000_S1700000x1_0 : (⟨S1700000, .f32⟩ : BufTy).Contents (Elt F) → (⟨S1700000x1, .f32⟩ : BufTy).Contents (Elt F)) ]

/-- Second head's convolution: the sources' rows gathered, weighted, summed at their targets; the bias row added. -/
abbrev p4c : List (HloOp τ sig (Elt F)) :=
  [ nullary main_c_53 (constantI S_ 32 0#32),
    unary main_c_53 main_v212 (broadcastInDim S1700000 ![] bcast_S_S1700000 : (⟨S_, .i32⟩ : BufTy).Contents (Elt F) → (⟨S1700000, .i32⟩ : BufTy).Contents (Elt F)),
    binary main_v3 main_v212 main_v213 (cmpi .slt : (⟨S1700000, .i32⟩ : BufTy).Contents (Elt F) → (⟨S1700000, .i32⟩ : BufTy).Contents (Elt F) → (⟨S1700000, .i1⟩ : BufTy).Contents (Elt F)),
    nullary main_c_54 (constantI S_ 32 100000#32),
    unary main_c_54 main_v214 (broadcastInDim S1700000 ![] bcast_S_S1700000 : (⟨S_, .i32⟩ : BufTy).Contents (Elt F) → (⟨S1700000, .i32⟩ : BufTy).Contents (Elt F)),
    binary main_v3 main_v214 main_v215 (addi : (⟨S1700000, .i32⟩ : BufTy).Contents (Elt F) → (⟨S1700000, .i32⟩ : BufTy).Contents (Elt F) → (⟨S1700000, .i32⟩ : BufTy).Contents (Elt F)),
    ternary main_v213 main_v215 main_v3 main_v216 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v216 main_v217 (broadcastInDim S1700000x1 ![0] bcast_S1700000_S1700000x1_0 : (⟨S1700000, .i32⟩ : BufTy).Contents (Elt F) → (⟨S1700000x1, .i32⟩ : BufTy).Contents (Elt F)),
    binary main_v184 main_v217 main_v218 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v211 main_v219 (broadcastInDim S1700000x64 ![0, 1] bcast_S1700000x1_S1700000x64_0_1 : (⟨S1700000x1, .f32⟩ : BufTy).Contents (Elt F) → (⟨S1700000x64, .f32⟩ : BufTy).Contents (Elt F)),
    binary main_v219 main_v218 main_v220 (mulf : (⟨S1700000x64, .f32⟩ : BufTy).Contents (Elt F) → (⟨S1700000x64, .f32⟩ : BufTy).Contents (Elt F) → (⟨S1700000x64, .f32⟩ : BufTy).Contents (Elt F)),
    nullary main_cst_55 (constant S_ .f32 0x00000000#32),
    unary main_cst_55 main_v221 (broadcastInDim S100000x64 ![] bcast_S_S100000x64 : (⟨S_, .f32⟩ : BufTy).Contents (Elt F) → (⟨S100000x64, .f32⟩ : BufTy).Contents (Elt F)),
    unary main_v6 main_v222 (broadcastInDim S1700000x1 ![0] bcast_S1700000_S1700000x1_0 : (⟨S1700000, .i32⟩ : BufTy).Contents (Elt F) → (⟨S1700000x1, .i32⟩ : BufTy).Contents (Elt F)),
    ternary main_v221 main_v222 main_v220 main_v223 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg20 main_v224 (broadcastInDim S1x64 ![1] bcast_S64_S1x64_1 : (⟨S64, .f32⟩ : BufTy).Contents (Elt F) → (⟨S1x64, .f32⟩ : BufTy).Contents (Elt F)),
    unary main_v224 main_v225 (broadcastInDim S100000x64 ![0, 1] bcast_S1x64_S100000x64_0_1 : (⟨S1x64, .f32⟩ : BufTy).Contents (Elt F) → (⟨S100000x64, .f32⟩ : BufTy).Contents (Elt F)),
    binary main_v223 main_v225 main_v226 (addf : (⟨S100000x64, .f32⟩ : BufTy).Contents (Elt F) → (⟨S100000x64, .f32⟩ : BufTy).Contents (Elt F) → (⟨S100000x64, .f32⟩ : BufTy).Contents (Elt F)) ]

/-- Second head's convolution: each row divided by max(‖row‖₂, ε). -/
abbrev p4d : List (HloOp τ sig (Elt F)) :=
  [ binary main_v226 main_v226 main_call10_v0 (mulf : (⟨S100000x64, .f32⟩ : BufTy).Contents (Elt F) → (⟨S100000x64, .f32⟩ : BufTy).Contents (Elt F) → (⟨S100000x64, .f32⟩ : BufTy).Contents (Elt F)),
    nullary main_call10_cst (constant S_ .f32 0x00000000#32),
    binary main_call10_v0 main_call10_cst main_call10_v1 ((fun x v => Host.reduceAdd x v reducesTo_S100000x64_S100000_d1 h_S_) : (⟨S100000x64, .f32⟩ : BufTy).Contents (Elt F) → (⟨S_, .f32⟩ : BufTy).Contents (Elt F) → (⟨S100000, .f32⟩ : BufTy).Contents (Elt F)),
    unary main_call10_v1 main_call10_v2 (broadcastInDim S100000x1 ![0] bcast_S100000_S100000x1_0 : (⟨S100000, .f32⟩ : BufTy).Contents (Elt F) → (⟨S100000x1, .f32⟩ : BufTy).Contents (Elt F)),
    unary main_call10_v2 main_v227 (Host.sqrt : (⟨S100000x1, .f32⟩ : BufTy).Contents (Elt F) → (⟨S100000x1, .f32⟩ : BufTy).Contents (Elt F)),
    nullary main_cst_56 (constant S_ .f32 0x2B8CBCCC#32),
    unary main_cst_56 main_v228 (broadcastInDim S100000x1 ![] bcast_S_S100000x1 : (⟨S_, .f32⟩ : BufTy).Contents (Elt F) → (⟨S100000x1, .f32⟩ : BufTy).Contents (Elt F)),
    binary main_v227 main_v228 main_v229 (maximumf : (⟨S100000x1, .f32⟩ : BufTy).Contents (Elt F) → (⟨S100000x1, .f32⟩ : BufTy).Contents (Elt F) → (⟨S100000x1, .f32⟩ : BufTy).Contents (Elt F)),
    unary main_v229 main_v230 (broadcastInDim S100000x64 ![0, 1] bcast_S100000x1_S100000x64_0_1 : (⟨S100000x1, .f32⟩ : BufTy).Contents (Elt F) → (⟨S100000x64, .f32⟩ : BufTy).Contents (Elt F)),
    binary main_v226 main_v230 main_v231 (Host.divf : (⟨S100000x64, .f32⟩ : BufTy).Contents (Elt F) → (⟨S100000x64, .f32⟩ : BufTy).Contents (Elt F) → (⟨S100000x64, .f32⟩ : BufTy).Contents (Elt F)) ]

/-- Second head's convolution: the leaky rectifier. -/
abbrev p4e : List (HloOp τ sig (Elt F)) :=
  [ nullary main_cst_57 (constant S_ .f32 0x3C23D70A#32),
    nullary main_call11_cst (constant S_ .f32 0x00000000#32),
    unary main_call11_cst main_call11_v0 (broadcastInDim S100000x64 ![] bcast_S_S100000x64 : (⟨S_, .f32⟩ : BufTy).Contents (Elt F) → (⟨S100000x64, .f32⟩ : BufTy).Contents (Elt F)),
    binary main_v231 main_call11_v0 main_call11_v1 (cmpf .oge : (⟨S100000x64, .f32⟩ : BufTy).Contents (Elt F) → (⟨S100000x64, .f32⟩ : BufTy).Contents (Elt F) → (⟨S100000x64, .i1⟩ : BufTy).Contents (Elt F)),
    unary main_cst_57 main_call11_v2 (id : (⟨S_, .f32⟩ : BufTy).Contents (Elt F) → (⟨S_, .f32⟩ : BufTy).Contents (Elt F)),
    unary main_call11_v2 main_call11_v3 (broadcastInDim S100000x64 ![] bcast_S_S100000x64 : (⟨S_, .f32⟩ : BufTy).Contents (Elt F) → (⟨S100000x64, .f32⟩ : BufTy).Contents (Elt F)),
    binary main_call11_v3 main_v231 main_call11_v4 (mulf : (⟨S100000x64, .f32⟩ : BufTy).Contents (Elt F) → (⟨S100000x64, .f32⟩ : BufTy).Contents (Elt F) → (⟨S100000x64, .f32⟩ : BufTy).Contents (Elt F)),
    ternary main_call11_v1 main_v231 main_call11_v4 main_v232 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)) ]

/-- Second head: the rectified `x₂ · L₅ + l₅`, and the convolution's image times `G₅`. -/
abbrev p4f : List (HloOp τ sig (Elt F)) :=
  [ binary main_v124 main_arg21 main_v233 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg22 main_v234 (broadcastInDim S1x64 ![1] bcast_S64_S1x64_1 : (⟨S64, .f32⟩ : BufTy).Contents (Elt F) → (⟨S1x64, .f32⟩ : BufTy).Contents (Elt F)),
    unary main_v234 main_v235 (broadcastInDim S100000x64 ![0, 1] bcast_S1x64_S100000x64_0_1 : (⟨S1x64, .f32⟩ : BufTy).Contents (Elt F) → (⟨S100000x64, .f32⟩ : BufTy).Contents (Elt F)),
    binary main_v233 main_v235 main_v236 (addf : (⟨S100000x64, .f32⟩ : BufTy).Contents (Elt F) → (⟨S100000x64, .f32⟩ : BufTy).Contents (Elt F) → (⟨S100000x64, .f32⟩ : BufTy).Contents (Elt F)),
    nullary main_cst_58 (constant S_ .f32 0x3C23D70A#32),
    nullary main_call12_cst (constant S_ .f32 0x00000000#32),
    unary main_call12_cst main_call12_v0 (broadcastInDim S100000x64 ![] bcast_S_S100000x64 : (⟨S_, .f32⟩ : BufTy).Contents (Elt F) → (⟨S100000x64, .f32⟩ : BufTy).Contents (Elt F)),
    binary main_v236 main_call12_v0 main_call12_v1 (cmpf .oge : (⟨S100000x64, .f32⟩ : BufTy).Contents (Elt F) → (⟨S100000x64, .f32⟩ : BufTy).Contents (Elt F) → (⟨S100000x64, .i1⟩ : BufTy).Contents (Elt F)),
    unary main_cst_58 main_call12_v2 (id : (⟨S_, .f32⟩ : BufTy).Contents (Elt F) → (⟨S_, .f32⟩ : BufTy).Contents (Elt F)),
    unary main_call12_v2 main_call12_v3 (broadcastInDim S100000x64 ![] bcast_S_S100000x64 : (⟨S_, .f32⟩ : BufTy).Contents (Elt F) → (⟨S100000x64, .f32⟩ : BufTy).Contents (Elt F)),
    binary main_call12_v3 main_v236 main_call12_v4 (mulf : (⟨S100000x64, .f32⟩ : BufTy).Contents (Elt F) → (⟨S100000x64, .f32⟩ : BufTy).Contents (Elt F) → (⟨S100000x64, .f32⟩ : BufTy).Contents (Elt F)),
    ternary main_call12_v1 main_v236 main_call12_v4 main_v237 (select : (⟨S100000x64, .i1⟩ : BufTy).Contents (Elt F) → (⟨S100000x64, .f32⟩ : BufTy).Contents (Elt F) → (⟨S100000x64, .f32⟩ : BufTy).Contents (Elt F) → (⟨S100000x64, .f32⟩ : BufTy).Contents (Elt F)),
    binary main_v232 main_arg23 main_v238 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Second head: `+ g₅`, and the sum: the second result. -/
abbrev p5a : List (HloOp τ sig (Elt F)) :=
  [ unary main_arg24 main_v239 (broadcastInDim S1x64 ![1] bcast_S64_S1x64_1 : (⟨S64, .f32⟩ : BufTy).Contents (Elt F) → (⟨S1x64, .f32⟩ : BufTy).Contents (Elt F)),
    unary main_v239 main_v240 (broadcastInDim S100000x64 ![0, 1] bcast_S1x64_S100000x64_0_1 : (⟨S1x64, .f32⟩ : BufTy).Contents (Elt F) → (⟨S100000x64, .f32⟩ : BufTy).Contents (Elt F)),
    binary main_v238 main_v240 main_v241 (addf : (⟨S100000x64, .f32⟩ : BufTy).Contents (Elt F) → (⟨S100000x64, .f32⟩ : BufTy).Contents (Elt F) → (⟨S100000x64, .f32⟩ : BufTy).Contents (Elt F)),
    binary main_v241 main_v237 main_v242 (addf : (⟨S100000x64, .f32⟩ : BufTy).Contents (Elt F) → (⟨S100000x64, .f32⟩ : BufTy).Contents (Elt F) → (⟨S100000x64, .f32⟩ : BufTy).Contents (Elt F)) ]

/-! ## Each operation reads and writes arrays of the program -/

theorem p0a_sub : (p0a : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub ..⟩

theorem p0b_sub : (p0b : List (HloOp τ sig (Elt F))).Forall fun op => op.bufs ⊆ tcRefs τ sig :=
  ⟨binary_bufs_sub .., unary_bufs_sub .., unary_bufs_sub .., binary_bufs_sub .., binary_bufs_sub .., binary_bufs_sub ..,
    nullary_bufs_sub .., binary_bufs_sub .., unary_bufs_sub .., unary_bufs_sub .., nullary_bufs_sub .., unary_bufs_sub ..,
    binary_bufs_sub .., unary_bufs_sub .., binary_bufs_sub ..⟩

theorem p0c_sub : (p0c : List (HloOp τ sig (Elt F))).Forall fun op => op.bufs ⊆ tcRefs τ sig :=
  ⟨binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., unary_bufs_sub .., binary_bufs_sub ..⟩

theorem p0d_sub : (p0d : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub ..⟩

theorem p0e_sub : (p0e : List (HloOp τ sig (Elt F))).Forall fun op => op.bufs ⊆ tcRefs τ sig :=
  ⟨nullary_bufs_sub .., unary_bufs_sub .., binary_bufs_sub .., nullary_bufs_sub .., unary_bufs_sub ..⟩

theorem p1a_sub : (p1a : List (HloOp τ sig (Elt F))).Forall fun op => op.bufs ⊆ tcRefs τ sig :=
  ⟨binary_bufs_sub .., ternary_bufs_sub .., unary_bufs_sub .., binary_bufs_sub .., unary_bufs_sub .., binary_bufs_sub ..,
    nullary_bufs_sub .., unary_bufs_sub .., unary_bufs_sub .., ternary_bufs_sub .., unary_bufs_sub .., unary_bufs_sub ..,
    binary_bufs_sub ..⟩

theorem p1b_sub : (p1b : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub ..⟩

theorem p1c_sub : (p1c : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩

theorem p1d_sub : (p1d : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

theorem p1e_sub : (p1e : List (HloOp τ sig (Elt F))).Forall fun op => op.bufs ⊆ tcRefs τ sig :=
  ⟨binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., unary_bufs_sub .., binary_bufs_sub ..⟩

theorem p1f_sub : (p1f : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub ..⟩

theorem p2a_sub : (p2a : List (HloOp τ sig (Elt F))).Forall fun op => op.bufs ⊆ tcRefs τ sig :=
  ⟨unary_bufs_sub .., binary_bufs_sub .., binary_bufs_sub .., unary_bufs_sub ..⟩

theorem p2b_sub : (p2b : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..⟩

theorem p2c_sub : (p2c : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub ..⟩

theorem p2d_sub : (p2d : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩

theorem p2e_sub : (p2e : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..⟩

theorem p2f_sub : (p2f : List (HloOp τ sig (Elt F))).Forall fun op => op.bufs ⊆ tcRefs τ sig :=
  ⟨binary_bufs_sub .., nullary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., unary_bufs_sub .., binary_bufs_sub ..⟩

theorem p2g_sub : (p2g : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub ..⟩

theorem p3a_sub : (p3a : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub ..⟩

theorem p3b_sub : (p3b : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..⟩

theorem p3c_sub : (p3c : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub ..⟩

theorem p3d_sub : (p3d : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩

theorem p3e_sub : (p3e : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., binary_bufs_sub ..⟩

theorem p3f_sub : (p3f : List (HloOp τ sig (Elt F))).Forall fun op => op.bufs ⊆ tcRefs τ sig :=
  ⟨binary_bufs_sub .., nullary_bufs_sub .., unary_bufs_sub .., nullary_bufs_sub .., unary_bufs_sub .., binary_bufs_sub ..,
    nullary_bufs_sub .., unary_bufs_sub .., binary_bufs_sub .., ternary_bufs_sub ..⟩

theorem p4a_sub : (p4a : List (HloOp τ sig (Elt F))).Forall fun op => op.bufs ⊆ tcRefs τ sig :=
  ⟨unary_bufs_sub .., nullary_bufs_sub .., unary_bufs_sub .., ternary_bufs_sub .., nullary_bufs_sub .., unary_bufs_sub ..,
    binary_bufs_sub ..⟩

theorem p4b_sub : (p4b : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., unary_bufs_sub ..⟩

theorem p4c_sub : (p4c : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub .., ternary_bufs_sub .., unary_bufs_sub .., unary_bufs_sub .., binary_bufs_sub ..⟩

theorem p4d_sub : (p4d : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub ..⟩

theorem p4e_sub : (p4e : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub .., ternary_bufs_sub ..⟩

theorem p4f_sub : (p4f : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub ..⟩

theorem p5a_sub : (p5a : List (HloOp τ sig (Elt F))).Forall fun op => op.bufs ⊆ tcRefs τ sig :=
  ⟨unary_bufs_sub .., unary_bufs_sub .., binary_bufs_sub .., binary_bufs_sub ..⟩

/-! ## The six windows, and the whole line -/

abbrev ops0 : List (HloOp τ sig (Elt F)) := p0a ++ p0b ++ p0c ++ p0d ++ p0e
abbrev ops1 : List (HloOp τ sig (Elt F)) := p1a ++ p1b ++ p1c ++ p1d ++ p1e ++ p1f
abbrev ops2 : List (HloOp τ sig (Elt F)) := p2a ++ p2b ++ p2c ++ p2d ++ p2e ++ p2f ++ p2g
abbrev ops3 : List (HloOp τ sig (Elt F)) := p3a ++ p3b ++ p3c ++ p3d ++ p3e ++ p3f
abbrev ops4 : List (HloOp τ sig (Elt F)) := p4a ++ p4b ++ p4c ++ p4d ++ p4e ++ p4f
abbrev ops5 : List (HloOp τ sig (Elt F)) := p5a

/-- The program's operations, in order. -/
abbrev ops : List (HloOp τ sig (Elt F)) := ops0 ++ ops1 ++ ops2 ++ ops3 ++ ops4 ++ ops5

theorem ops0_sub : (ops0 : List (HloOp τ sig (Elt F))).Forall fun op => op.bufs ⊆ tcRefs τ sig :=
  (sub_app (sub_app (sub_app (sub_app p0a_sub p0b_sub) p0c_sub) p0d_sub) p0e_sub)

theorem ops1_sub : (ops1 : List (HloOp τ sig (Elt F))).Forall fun op => op.bufs ⊆ tcRefs τ sig :=
  (sub_app (sub_app (sub_app (sub_app (sub_app p1a_sub p1b_sub) p1c_sub) p1d_sub) p1e_sub) p1f_sub)

theorem ops2_sub : (ops2 : List (HloOp τ sig (Elt F))).Forall fun op => op.bufs ⊆ tcRefs τ sig :=
  (sub_app (sub_app (sub_app (sub_app (sub_app (sub_app p2a_sub p2b_sub) p2c_sub) p2d_sub) p2e_sub) p2f_sub) p2g_sub)

theorem ops3_sub : (ops3 : List (HloOp τ sig (Elt F))).Forall fun op => op.bufs ⊆ tcRefs τ sig :=
  (sub_app (sub_app (sub_app (sub_app (sub_app p3a_sub p3b_sub) p3c_sub) p3d_sub) p3e_sub) p3f_sub)

theorem ops4_sub : (ops4 : List (HloOp τ sig (Elt F))).Forall fun op => op.bufs ⊆ tcRefs τ sig :=
  (sub_app (sub_app (sub_app (sub_app (sub_app p4a_sub p4b_sub) p4c_sub) p4d_sub) p4e_sub) p4f_sub)

theorem ops5_sub : (ops5 : List (HloOp τ sig (Elt F))).Forall fun op => op.bufs ⊆ tcRefs τ sig :=
  p5a_sub

theorem ops_sub : (ops : List (HloOp τ sig (Elt F))).Forall fun op => op.bufs ⊆ tcRefs τ sig :=
  sub_app (sub_app (sub_app (sub_app (sub_app ops0_sub ops1_sub) ops2_sub) ops3_sub) ops4_sub) ops5_sub

/-! Each window is its operations run in order: an applied function is its body run on the operands, running
    a body and then the rest is running the body's operations and then the rest (sequencing is associative), and a
    body's operation over a record's fields is the operation over the arrays the fields name. -/

set_option maxRecDepth 8192 in
theorem main_part0_eq (c : Dev nD) : main_part0 (F := F) c = seq ops0 := by
  simp only [main_part0, fn_norm.body, fn_leaky_relu.body, fn_where.body, bind_assoc, pure_bind]
  rfl

set_option maxRecDepth 8192 in
theorem main_part1_eq (c : Dev nD) : main_part1 (F := F) c = seq ops1 := by
  simp only [main_part1, fn_norm.body, fn_leaky_relu.body, fn_where.body, bind_assoc, pure_bind]
  rfl

set_option maxRecDepth 8192 in
theorem main_part2_eq (c : Dev nD) : main_part2 (F := F) c = seq ops2 := by
  simp only [main_part2, fn_norm.body, fn_leaky_relu.body, fn_where.body, bind_assoc, pure_bind]
  rfl

set_option maxRecDepth 8192 in
theorem main_part3_eq (c : Dev nD) : main_part3 (F := F) c = seq ops3 := by
  simp only [main_part3, fn_norm.body, fn_leaky_relu.body, fn_where.body, bind_assoc, pure_bind]
  rfl

set_option maxRecDepth 8192 in
theorem main_part4_eq (c : Dev nD) : main_part4 (F := F) c = seq ops4 := by
  simp only [main_part4, fn_norm.body, fn_leaky_relu.body, fn_where.body, bind_assoc, pure_bind]
  rfl

set_option maxRecDepth 8192 in
theorem main_part5_eq (c : Dev nD) : main_part5 (F := F) c = seq ops5 := rfl

/-- The program is its operations run in order. -/
theorem main_eq (c : Dev nD) : main (F := F) c = seq ops := by
  simp only [ops, seq_append, ← main_part0_eq c, ← main_part1_eq c, ← main_part2_eq c, ← main_part3_eq c,
    ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

/-- For any float values, from any memory with zero counters: every weakly fair execution of the program ends, and
    ends with each array at the fold of the operations over the contents the arrays started with. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefVal.lean ====
/-
  What the reference network computes, read off its line of operations stage by stage.

  The line is read in ten stages — the edge list; the entering features x₀; the first convolution; the first dense
  layer (giving x₁); the second convolution; the second dense layer (giving x₂); the first head's convolution; the
  first head's sum (the first result); the second head's convolution; the second head's sum (the second result).
  Each stage reads a few arrays that earlier stages or the arguments fixed, and fixes the one or two arrays that later
  stages read: folding the stage's operations over any contents gives, at those arrays, the stage's function
  (Spec.lean) of the contents it reads, and leaves every array the stage does not write as it was. Composing the ten
  readings gives the two results as the stated functions of the twenty-five argument arrays, and the arguments
  themselves unchanged, since no operation writes an argument.

  The gathers, scatter-adds, products, row sums, powers and concatenations are carried as whole-array operations
  throughout: both sides of every equation apply the same ones to the same operands.
-/
import proofs.«149707_j50672024159115_1_alg».proof.Proof.RefOps
import proofs.«149707_j50672024159115_1_alg».proof.Proof.Spec

noncomputable section

namespace Cert.ReferenceIdeal.RefRun

open Idealize.ShloMosaic Idealize.ShloMosaic.TcCoe Idealize.ShloMosaic.StableHlo Idealize.SL.Sem
open Cert.ReferenceIdeal Cert.ReferenceIdeal.Facts₀ Cert.ReferenceIdeal.Facts

variable [Cert.ReferenceIdeal.Facts]

/-! ## The arrays each cut of the line writes -/

/-- One operation writes only its result array, and that array is in the list. -/
macro "writes_one" : tactic =>
  `(tactic| (simp only [nullary_writes, unary_writes, binary_writes, ternary_writes, reshape_writes,
               Finset.singleton_subset_iff, List.mem_toFinset]
             exact List.mem_map_of_mem (by decide)))

def p0a_W : List (Ref sig .tc) :=
  [main_v0, main_v1, main_v2, main_v3, main_v4, main_v5, main_v6]

theorem p0a_writes : (p0a (F := Ideal)).Forall fun op =>
    op.writes ⊆ (p0a_W.map (Proc.devRef (τ := τ) .tc)).toFinset := by
  simp only [List.Forall]
  refine ⟨?_, ?_, ?_, ?_, ?_, ?_, ?_⟩ <;> writes_one

def p0b_W : List (Ref sig .tc) :=
  [main_v7, main_v8, main_v9, main_v10, main_v11, main_call0_v0, main_call0_cst, main_call0_v1, main_call0_v2, main_v12,
   main_cst, main_v13, main_v14, main_v15, main_v16]

theorem p0b_writes : (p0b (F := Ideal)).Forall fun op =>
    op.writes ⊆ (p0b_W.map (Proc.devRef (τ := τ) .tc)).toFinset := by
  simp only [List.Forall]
  refine ⟨?_, ?_, ?_, ?_, ?_, ?_, ?_, ?_, ?_, ?_, ?_, ?_, ?_, ?_, ?_⟩ <;> writes_one

def p0c_W : List (Ref sig .tc) :=
  [main_v17, main_cst_0, main_v18, main_c, main_v19, main_v20, main_c_1, main_v21, main_v22, main_v23,
   main_v24, main_cst_2, main_v25, main_v26, main_cst_3, main_v27, main_v28]

theorem p0c_writes : (p0c (F := Ideal)).Forall fun op =>
    op.writes ⊆ (p0c_W.map (Proc.devRef (τ := τ) .tc)).toFinset := by
  simp only [List.Forall]
  refine ⟨?_, ?_, ?_, ?_, ?_, ?_, ?_, ?_, ?_, ?_, ?_, ?_, ?_, ?_, ?_, ?_, ?_⟩ <;> writes_one

def p0d_W : List (Ref sig .tc) :=
  [main_c_4, main_v29, main_v30, main_c_5, main_v31, main_v32, main_v33, main_v34, main_v35, main_c_6,
   main_v36, main_v37, main_c_7, main_v38, main_v39, main_v40, main_v41, main_v42, main_v43, main_v44]

theorem p0d_writes : (p0d (F := Ideal)).Forall fun op =>
    op.writes ⊆ (p0d_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> writes_one

def p0e_W : List (Ref sig .tc) :=
  [main_c_8, main_v45, main_v46, main_c_9, main_v47]

theorem p0e_writes : (p0e (F := Ideal)).Forall fun op =>
    op.writes ⊆ (p0e_W.map (Proc.devRef (τ := τ) .tc)).toFinset := by
  simp only [List.Forall]
  refine ⟨?_, ?_, ?_, ?_, ?_⟩ <;> writes_one

def p1a_W : List (Ref sig .tc) :=
  [main_v48, main_v49, main_v50, main_v51, main_v52, main_v53, main_cst_10, main_v54, main_v55, main_v56,
   main_v57, main_v58, main_v59]

theorem p1a_writes : (p1a (F := Ideal)).Forall fun op =>
    op.writes ⊆ (p1a_W.map (Proc.devRef (τ := τ) .tc)).toFinset := by
  simp only [List.Forall]
  refine ⟨?_, ?_, ?_, ?_, ?_, ?_, ?_, ?_, ?_, ?_, ?_, ?_, ?_⟩ <;> writes_one

def p1b_W : List (Ref sig .tc) :=
  [main_call1_v0, main_call1_cst, main_call1_v1, main_call1_v2, main_v60, main_cst_11, main_v61, main_v62, main_v63, main_v64]

theorem p1b_writes : (p1b (F := Ideal)).Forall fun op =>
    op.writes ⊆ (p1b_W.map (Proc.devRef (τ := τ) .tc)).toFinset := by
  simp only [List.Forall]
  refine ⟨?_, ?_, ?_, ?_, ?_, ?_, ?_, ?_, ?_, ?_⟩ <;> writes_one

def p1c_W : List (Ref sig .tc) :=
  [main_cst_12, main_call2_cst, main_call2_v0, main_call2_v1, main_call2_v2, main_call2_v3, main_call2_v4, main_v65]

theorem p1c_writes : (p1c (F := Ideal)).Forall fun op =>
    op.writes ⊆ (p1c_W.map (Proc.devRef (τ := τ) .tc)).toFinset := by
  simp only [List.Forall]
  refine ⟨?_, ?_, ?_, ?_, ?_, ?_, ?_, ?_⟩ <;> writes_one

def p1d_W : List (Ref sig .tc) :=
  [main_v66, main_v67, main_v68, main_v69, main_cst_13, main_call3_cst, main_call3_v0, main_call3_v1, main_call3_v2, main_call3_v3,
   main_call3_v4, main_v70]

theorem p1d_writes : (p1d (F := Ideal)).Forall fun op =>
    op.writes ⊆ (p1d_W.map (Proc.devRef (τ := τ) .tc)).toFinset := by
  simp only [List.Forall]
  refine ⟨?_, ?_, ?_, ?_, ?_, ?_, ?_, ?_, ?_, ?_, ?_, ?_⟩ <;> writes_one

def p1e_W : List (Ref sig .tc) :=
  [main_v71, main_cst_14, main_v72, main_c_15, main_v73, main_v74, main_c_16, main_v75, main_v76, main_v77,
   main_v78, main_cst_17, main_v79, main_v80, main_cst_18, main_v81, main_v82]

theorem p1e_writes : (p1e (F := Ideal)).Forall fun op =>
    op.writes ⊆ (p1e_W.map (Proc.devRef (τ := τ) .tc)).toFinset := by
  simp only [List.Forall]
  refine ⟨?_, ?_, ?_, ?_, ?_, ?_, ?_, ?_, ?_, ?_, ?_, ?_, ?_, ?_, ?_, ?_, ?_⟩ <;> writes_one

def p1f_W : List (Ref sig .tc) :=
  [main_c_19, main_v83, main_v84, main_c_20, main_v85, main_v86, main_v87, main_v88, main_v89, main_c_21,
   main_v90, main_v91, main_c_22, main_v92, main_v93, main_v94]

theorem p1f_writes : (p1f (F := Ideal)).Forall fun op =>
    op.writes ⊆ (p1f_W.map (Proc.devRef (τ := τ) .tc)).toFinset := by
  simp only [List.Forall]
  refine ⟨?_, ?_, ?_, ?_, ?_, ?_, ?_, ?_, ?_, ?_, ?_, ?_, ?_, ?_, ?_, ?_⟩ <;> writes_one

def p2a_W : List (Ref sig .tc) :=
  [main_v95, main_v96, main_v97, main_v98]

theorem p2a_writes : (p2a (F := Ideal)).Forall fun op =>
    op.writes ⊆ (p2a_W.map (Proc.devRef (τ := τ) .tc)).toFinset := by
  simp only [List.Forall]
  refine ⟨?_, ?_, ?_, ?_⟩ <;> writes_one

def p2b_W : List (Ref sig .tc) :=
  [main_c_23, main_v99, main_v100, main_c_24, main_v101, main_v102, main_v103, main_v104, main_v105, main_v106,
   main_v107, main_cst_25, main_v108, main_v109, main_v110, main_v111, main_v112, main_v113]

theorem p2b_writes : (p2b (F := Ideal)).Forall fun op =>
    op.writes ⊆ (p2b_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> writes_one

def p2c_W : List (Ref sig .tc) :=
  [main_call4_v0, main_call4_cst, main_call4_v1, main_call4_v2, main_v114, main_cst_26, main_v115, main_v116, main_v117, main_v118]

theorem p2c_writes : (p2c (F := Ideal)).Forall fun op =>
    op.writes ⊆ (p2c_W.map (Proc.devRef (τ := τ) .tc)).toFinset := by
  simp only [List.Forall]
  refine ⟨?_, ?_, ?_, ?_, ?_, ?_, ?_, ?_, ?_, ?_⟩ <;> writes_one

def p2d_W : List (Ref sig .tc) :=
  [main_cst_27, main_call5_cst, main_call5_v0, main_call5_v1, main_call5_v2, main_call5_v3, main_call5_v4, main_v119]

theorem p2d_writes : (p2d (F := Ideal)).Forall fun op =>
    op.writes ⊆ (p2d_W.map (Proc.devRef (τ := τ) .tc)).toFinset := by
  simp only [List.Forall]
  refine ⟨?_, ?_, ?_, ?_, ?_, ?_, ?_, ?_⟩ <;> writes_one

def p2e_W : List (Ref sig .tc) :=
  [main_v120, main_v121, main_v122, main_v123, main_cst_28, main_call6_cst, main_call6_v0, main_call6_v1, main_call6_v2, main_call6_v3,
   main_call6_v4, main_v124]

theorem p2e_writes : (p2e (F := Ideal)).Forall fun op =>
    op.writes ⊆ (p2e_W.map (Proc.devRef (τ := τ) .tc)).toFinset := by
  simp only [List.Forall]
  refine ⟨?_, ?_, ?_, ?_, ?_, ?_, ?_, ?_, ?_, ?_, ?_, ?_⟩ <;> writes_one

def p2f_W : List (Ref sig .tc) :=
  [main_v125, main_cst_29, main_v126, main_c_30, main_v127, main_v128, main_c_31, main_v129, main_v130, main_v131,
   main_v132, main_cst_32, main_v133, main_v134, main_cst_33, main_v135, main_v136]

theorem p2f_writes : (p2f (F := Ideal)).Forall fun op =>
    op.writes ⊆ (p2f_W.map (Proc.devRef (τ := τ) .tc)).toFinset := by
  simp only [List.Forall]
  refine ⟨?_, ?_, ?_, ?_, ?_, ?_, ?_, ?_, ?_, ?_, ?_, ?_, ?_, ?_, ?_, ?_, ?_⟩ <;> writes_one

def p2g_W : List (Ref sig .tc) :=
  [main_c_34, main_v137, main_v138, main_c_35, main_v139, main_v140, main_v141]

theorem p2g_writes : (p2g (F := Ideal)).Forall fun op =>
    op.writes ⊆ (p2g_W.map (Proc.devRef (τ := τ) .tc)).toFinset := by
  simp only [List.Forall]
  refine ⟨?_, ?_, ?_, ?_, ?_, ?_, ?_⟩ <;> writes_one

def p3a_W : List (Ref sig .tc) :=
  [main_v142, main_v143, main_c_36, main_v144, main_v145, main_c_37, main_v146, main_v147, main_v148, main_v149,
   main_v150, main_v151, main_v152]

theorem p3a_writes : (p3a (F := Ideal)).Forall fun op =>
    op.writes ⊆ (p3a_W.map (Proc.devRef (τ := τ) .tc)).toFinset := by
  simp only [List.Forall]
  refine ⟨?_, ?_, ?_, ?_, ?_, ?_, ?_, ?_, ?_, ?_, ?_, ?_, ?_⟩ <;> writes_one

def p3b_W : List (Ref sig .tc) :=
  [main_c_38, main_v153, main_v154, main_c_39, main_v155, main_v156, main_v157, main_v158, main_v159, main_v160,
   main_v161, main_cst_40, main_v162, main_v163, main_v164, main_v165, main_v166, main_v167]

theorem p3b_writes : (p3b (F := Ideal)).Forall fun op =>
    op.writes ⊆ (p3b_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> writes_one

def p3c_W : List (Ref sig .tc) :=
  [main_call7_v0, main_call7_cst, main_call7_v1, main_call7_v2, main_v168, main_cst_41, main_v169, main_v170, main_v171, main_v172]

theorem p3c_writes : (p3c (F := Ideal)).Forall fun op =>
    op.writes ⊆ (p3c_W.map (Proc.devRef (τ := τ) .tc)).toFinset := by
  simp only [List.Forall]
  refine ⟨?_, ?_, ?_, ?_, ?_, ?_, ?_, ?_, ?_, ?_⟩ <;> writes_one

def p3d_W : List (Ref sig .tc) :=
  [main_cst_42, main_call8_cst, main_call8_v0, main_call8_v1, main_call8_v2, main_call8_v3, main_call8_v4, main_v173]

theorem p3d_writes : (p3d (F := Ideal)).Forall fun op =>
    op.writes ⊆ (p3d_W.map (Proc.devRef (τ := τ) .tc)).toFinset := by
  simp only [List.Forall]
  refine ⟨?_, ?_, ?_, ?_, ?_, ?_, ?_, ?_⟩ <;> writes_one

def p3e_W : List (Ref sig .tc) :=
  [main_v174, main_v175, main_v176, main_v177, main_cst_43, main_call9_cst, main_call9_v0, main_call9_v1, main_call9_v2, main_call9_v3,
   main_call9_v4, main_v178, main_v179, main_v180, main_v181, main_v182, main_v183]

theorem p3e_writes : (p3e (F := Ideal)).Forall fun op =>
    op.writes ⊆ (p3e_W.map (Proc.devRef (τ := τ) .tc)).toFinset := by
  simp only [List.Forall]
  refine ⟨?_, ?_, ?_, ?_, ?_, ?_, ?_, ?_, ?_, ?_, ?_, ?_, ?_, ?_, ?_, ?_, ?_⟩ <;> writes_one

def p3f_W : List (Ref sig .tc) :=
  [main_v184, main_cst_44, main_v185, main_c_45, main_v186, main_v187, main_c_46, main_v188, main_v189, main_v190]

theorem p3f_writes : (p3f (F := Ideal)).Forall fun op =>
    op.writes ⊆ (p3f_W.map (Proc.devRef (τ := τ) .tc)).toFinset := by
  simp only [List.Forall]
  refine ⟨?_, ?_, ?_, ?_, ?_, ?_, ?_, ?_, ?_, ?_⟩ <;> writes_one

def p4a_W : List (Ref sig .tc) :=
  [main_v191, main_cst_47, main_v192, main_v193, main_cst_48, main_v194, main_v195]

theorem p4a_writes : (p4a (F := Ideal)).Forall fun op =>
    op.writes ⊆ (p4a_W.map (Proc.devRef (τ := τ) .tc)).toFinset := by
  simp only [List.Forall]
  refine ⟨?_, ?_, ?_, ?_, ?_, ?_, ?_⟩ <;> writes_one

def p4b_W : List (Ref sig .tc) :=
  [main_c_49, main_v196, main_v197, main_c_50, main_v198, main_v199, main_v200, main_v201, main_v202, main_c_51,
   main_v203, main_v204, main_c_52, main_v205, main_v206, main_v207, main_v208, main_v209, main_v210, main_v211]

theorem p4b_writes : (p4b (F := Ideal)).Forall fun op =>
    op.writes ⊆ (p4b_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;> writes_one

def p4c_W : List (Ref sig .tc) :=
  [main_c_53, main_v212, main_v213, main_c_54, main_v214, main_v215, main_v216, main_v217, main_v218, main_v219,
   main_v220, main_cst_55, main_v221, main_v222, main_v223, main_v224, main_v225, main_v226]

theorem p4c_writes : (p4c (F := Ideal)).Forall fun op =>
    op.writes ⊆ (p4c_W.map (Proc.devRef (τ := τ) .tc)).toFinset := by
  simp only [List.Forall]
  refine ⟨?_, ?_, ?_, ?_, ?_, ?_, ?_, ?_, ?_, ?_, ?_, ?_, ?_, ?_, ?_, ?_, ?_, ?_⟩ <;> writes_one

def p4d_W : List (Ref sig .tc) :=
  [main_call10_v0, main_call10_cst, main_call10_v1, main_call10_v2, main_v227, main_cst_56, main_v228, main_v229, main_v230, main_v231]

theorem p4d_writes : (p4d (F := Ideal)).Forall fun op =>
    op.writes ⊆ (p4d_W.map (Proc.devRef (τ := τ) .tc)).toFinset := by
  simp only [List.Forall]
  refine ⟨?_, ?_, ?_, ?_, ?_, ?_, ?_, ?_, ?_, ?_⟩ <;> writes_one

def p4e_W : List (Ref sig .tc) :=
  [main_cst_57, main_call11_cst, main_call11_v0, main_call11_v1, main_call11_v2, main_call11_v3, main_call11_v4, main_v232]

theorem p4e_writes : (p4e (F := Ideal)).Forall fun op =>
    op.writes ⊆ (p4e_W.map (Proc.devRef (τ := τ) .tc)).toFinset := by
  simp only [List.Forall]
  refine ⟨?_, ?_, ?_, ?_, ?_, ?_, ?_, ?_⟩ <;> writes_one

def p4f_W : List (Ref sig .tc) :=
  [main_v233, main_v234, main_v235, main_v236, main_cst_58, main_call12_cst, main_call12_v0, main_call12_v1, main_call12_v2, main_call12_v3,
   main_call12_v4, main_v237, main_v238]

theorem p4f_writes : (p4f (F := Ideal)).Forall fun op =>
    op.writes ⊆ (p4f_W.map (Proc.devRef (τ := τ) .tc)).toFinset := by
  simp only [List.Forall]
  refine ⟨?_, ?_, ?_, ?_, ?_, ?_, ?_, ?_, ?_, ?_, ?_, ?_, ?_⟩ <;> writes_one

def p5a_W : List (Ref sig .tc) :=
  [main_v239, main_v240, main_v241, main_v242]

theorem p5a_writes : (p5a (F := Ideal)).Forall fun op =>
    op.writes ⊆ (p5a_W.map (Proc.devRef (τ := τ) .tc)).toFinset := by
  simp only [List.Forall]
  refine ⟨?_, ?_, ?_, ?_⟩ <;> writes_one

/-- Two lines in a row write what the first writes and what the second writes. -/
theorem writes_app {l₁ l₂ : List (HloOp τ sig (Elt Ideal))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  refine List.forall_append.mpr ⟨h₁.imp fun op h b hb => ?_, h₂.imp fun op h b hb => ?_⟩
  · have := h hb
    simp only [List.map_append, List.toFinset_append, Finset.mem_union]
    exact Or.inl this
  · have := h hb
    simp only [List.map_append, List.toFinset_append, Finset.mem_union]
    exact Or.inr this

/-! ## The stages' readings

Over ANY contents `U` of the arrays: the fold of a stage's operations, read at the array the stage fixes, is the stage's
function of `U` at the arrays the stage reads. The fold is unrolled operation by operation; an operation's result at its
own array is its function of its operands' contents, and at any other array what was there. -/

attribute [local irreducible] Host.gather Host.scatterAdd Host.reduceAdd Host.powf Host.sqrt Host.divf concatenate

set_option maxRecDepth 8192 in
/-- The sources: row 0 of the edge table, then the self loops. -/
theorem edges_src (U : Valuation τ sig (Elt Ideal)) :
    after (p0a (F := Ideal)) U (Proc.devRef .tc main_v3) = Spec.srcF (U (Proc.devRef .tc main_arg2)) := by
  after_results_simp
  rfl

set_option maxRecDepth 8192 in
/-- The targets: row 1 of the edge table, then the self loops. -/
theorem edges_dst (U : Valuation τ sig (Elt Ideal)) :
    after (p0a (F := Ideal)) U (Proc.devRef .tc main_v6) = Spec.dstF (U (Proc.devRef .tc main_arg2)) := by
  after_results_simp
  rfl

set_option maxRecDepth 8192 in
/-- The entering features x₀. -/
theorem enter_x0 (U : Valuation τ sig (Elt Ideal)) :
    after (p0b (F := Ideal)) U (Proc.devRef .tc main_v16) = Spec.x0F (U (Proc.devRef .tc main_arg0)) (U (Proc.devRef .tc main_arg1)) (U (Proc.devRef .tc main_arg3)) (U (Proc.devRef .tc main_arg4)) := by
  after_results_simp
  rfl

set_option maxRecDepth 16384 in
set_option maxHeartbeats 4000000 in
/-- The first convolution, of x₀. -/
theorem conv1 (U : Valuation τ sig (Elt Ideal)) :
    after (p1c (F := Ideal)) (after (p1b (F := Ideal)) (after (p1a (F := Ideal)) (after (p0e (F := Ideal)) (after (p0d (F := Ideal)) (after (p0c (F := Ideal)) U))))) (Proc.devRef .tc main_v65)
      = Spec.convF (Spec.ewF (U (Proc.devRef .tc main_v3)) (U (Proc.devRef .tc main_v6))) (U (Proc.devRef .tc main_v3)) (U (Proc.devRef .tc main_v6))
          (U (Proc.devRef .tc main_v16)) (U (Proc.devRef .tc main_arg5)) (U (Proc.devRef .tc main_arg6)) := by
  after_results_simp
  rfl

set_option maxRecDepth 8192 in
/-- The first dense layer: x₁. -/
theorem lin1 (U : Valuation τ sig (Elt Ideal)) :
    after (p1d (F := Ideal)) U (Proc.devRef .tc main_v70) = Spec.linF (U (Proc.devRef .tc main_v65)) (U (Proc.devRef .tc main_arg7)) (U (Proc.devRef .tc main_arg8)) := by
  after_results_simp
  rfl

set_option maxRecDepth 16384 in
set_option maxHeartbeats 4000000 in
/-- The second convolution, of x₁. -/
theorem conv2 (U : Valuation τ sig (Elt Ideal)) :
    after (p2d (F := Ideal)) (after (p2c (F := Ideal)) (after (p2b (F := Ideal)) (after (p2a (F := Ideal)) (after (p1f (F := Ideal)) (after (p1e (F := Ideal)) U))))) (Proc.devRef .tc main_v119)
      = Spec.convF (Spec.ewF (U (Proc.devRef .tc main_v3)) (U (Proc.devRef .tc main_v6))) (U (Proc.devRef .tc main_v3)) (U (Proc.devRef .tc main_v6))
          (U (Proc.devRef .tc main_v70)) (U (Proc.devRef .tc main_arg9)) (U (Proc.devRef .tc main_arg10)) := by
  after_results_simp
  rfl

set_option maxRecDepth 8192 in
/-- The second dense layer: x₂. -/
theorem lin2 (U : Valuation τ sig (Elt Ideal)) :
    after (p2e (F := Ideal)) U (Proc.devRef .tc main_v124) = Spec.linF (U (Proc.devRef .tc main_v119)) (U (Proc.devRef .tc main_arg11)) (U (Proc.devRef .tc main_arg12)) := by
  after_results_simp
  rfl

set_option maxRecDepth 16384 in
set_option maxHeartbeats 4000000 in
/-- The first head's convolution, of x₂. -/
theorem conv3 (U : Valuation τ sig (Elt Ideal)) :
    after (p3d (F := Ideal)) (after (p3c (F := Ideal)) (after (p3b (F := Ideal)) (after (p3a (F := Ideal)) (after (p2g (F := Ideal)) (after (p2f (F := Ideal)) U))))) (Proc.devRef .tc main_v173)
      = Spec.convF (Spec.ewF (U (Proc.devRef .tc main_v3)) (U (Proc.devRef .tc main_v6))) (U (Proc.devRef .tc main_v3)) (U (Proc.devRef .tc main_v6))
          (U (Proc.devRef .tc main_v124)) (U (Proc.devRef .tc main_arg13)) (U (Proc.devRef .tc main_arg14)) := by
  after_results_simp
  rfl

set_option maxRecDepth 8192 in
/-- The first head's sum: the first result. -/
theorem head1 (U : Valuation τ sig (Elt Ideal)) :
    after (p3e (F := Ideal)) U (Proc.devRef .tc main_v183)
      = Spec.headF (U (Proc.devRef .tc main_v173)) (U (Proc.devRef .tc main_arg17)) (U (Proc.devRef .tc main_arg18)) (Spec.linF (U (Proc.devRef .tc main_v124)) (U (Proc.devRef .tc main_arg15)) (U (Proc.devRef .tc main_arg16))) := by
  after_results_simp
  rfl

set_option maxRecDepth 16384 in
set_option maxHeartbeats 4000000 in
/-- The second head's convolution, of x₂. -/
theorem conv4 (U : Valuation τ sig (Elt Ideal)) :
    after (p4e (F := Ideal)) (after (p4d (F := Ideal)) (after (p4c (F := Ideal)) (after (p4b (F := Ideal)) (after (p4a (F := Ideal)) (after (p3f (F := Ideal)) U))))) (Proc.devRef .tc main_v232)
      = Spec.convF (Spec.ewF (U (Proc.devRef .tc main_v3)) (U (Proc.devRef .tc main_v6))) (U (Proc.devRef .tc main_v3)) (U (Proc.devRef .tc main_v6))
          (U (Proc.devRef .tc main_v124)) (U (Proc.devRef .tc main_arg19)) (U (Proc.devRef .tc main_arg20)) := by
  after_results_simp
  rfl

set_option maxRecDepth 8192 in
/-- The second head's sum: the second result. -/
theorem head2 (U : Valuation τ sig (Elt Ideal)) :
    after (p5a (F := Ideal)) (after (p4f (F := Ideal)) U) (Proc.devRef .tc main_v242)
      = Spec.headF (U (Proc.devRef .tc main_v232)) (U (Proc.devRef .tc main_arg23)) (U (Proc.devRef .tc main_arg24)) (Spec.linF (U (Proc.devRef .tc main_v124)) (U (Proc.devRef .tc main_arg21)) (U (Proc.devRef .tc main_arg22))) := by
  after_results_simp
  rfl

/-! ## The contents after each stage, from contents `V` -/

/-- The operations of the edge list, and the arrays they write. -/
abbrev L1 : List (HloOp τ sig (Elt Ideal)) := p0a (F := Ideal)
def L1_W : List (Ref sig .tc) := p0a_W
theorem L1_writes : L1.Forall fun op => op.writes ⊆ (L1_W.map (Proc.devRef (τ := τ) .tc)).toFinset :=
  p0a_writes

/-- The arrays' contents after the edge list. -/
def V1 (V : Valuation τ sig (Elt Ideal)) : Valuation τ sig (Elt Ideal) := after L1 V

/-- An array that the edge list does not write holds after it what it held before. -/
theorem V1_keep (V : Valuation τ sig (Elt Ideal)) (r : Ref sig .tc) (h : r ∉ L1_W) :
    V1 V (no_index (Proc.devRef .tc r)) = V (Proc.devRef .tc r) :=
  after_of_writes_sub _ _ L1_writes h

/-- The operations of the entering features, and the arrays they write. -/
abbrev L2 : List (HloOp τ sig (Elt Ideal)) := p0b (F := Ideal)
def L2_W : List (Ref sig .tc) := p0b_W
theorem L2_writes : L2.Forall fun op => op.writes ⊆ (L2_W.map (Proc.devRef (τ := τ) .tc)).toFinset :=
  p0b_writes

/-- The arrays' contents after the entering features. -/
def V2 (V : Valuation τ sig (Elt Ideal)) : Valuation τ sig (Elt Ideal) := after L2 (V1 V)

/-- An array that the entering features does not write holds after it what it held before. -/
theorem V2_keep (V : Valuation τ sig (Elt Ideal)) (r : Ref sig .tc) (h : r ∉ L2_W) :
    V2 V (no_index (Proc.devRef .tc r)) = (V1 V) (Proc.devRef .tc r) :=
  after_of_writes_sub _ _ L2_writes h

/-- The operations of the first convolution, and the arrays they write. -/
abbrev L3 : List (HloOp τ sig (Elt Ideal)) := p0c (F := Ideal) ++ p0d (F := Ideal) ++ p0e (F := Ideal) ++ p1a (F := Ideal) ++ p1b (F := Ideal) ++ p1c (F := Ideal)
def L3_W : List (Ref sig .tc) := p0c_W ++ p0d_W ++ p0e_W ++ p1a_W ++ p1b_W ++ p1c_W
theorem L3_writes : L3.Forall fun op => op.writes ⊆ (L3_W.map (Proc.devRef (τ := τ) .tc)).toFinset :=
  writes_app (writes_app (writes_app (writes_app (writes_app (p0c_writes) p0d_writes) p0e_writes) p1a_writes) p1b_writes) p1c_writes

/-- The arrays' contents after the first convolution. -/
def V3 (V : Valuation τ sig (Elt Ideal)) : Valuation τ sig (Elt Ideal) := after L3 (V2 V)

/-- An array that the first convolution does not write holds after it what it held before. -/
theorem V3_keep (V : Valuation τ sig (Elt Ideal)) (r : Ref sig .tc) (h : r ∉ L3_W) :
    V3 V (no_index (Proc.devRef .tc r)) = (V2 V) (Proc.devRef .tc r) :=
  after_of_writes_sub _ _ L3_writes h

/-- The operations of the first dense layer, and the arrays they write. -/
abbrev L4 : List (HloOp τ sig (Elt Ideal)) := p1d (F := Ideal)
def L4_W : List (Ref sig .tc) := p1d_W
theorem L4_writes : L4.Forall fun op => op.writes ⊆ (L4_W.map (Proc.devRef (τ := τ) .tc)).toFinset :=
  p1d_writes

/-- The arrays' contents after the first dense layer. -/
def V4 (V : Valuation τ sig (Elt Ideal)) : Valuation τ sig (Elt Ideal) := after L4 (V3 V)

/-- An array that the first dense layer does not write holds after it what it held before. -/
theorem V4_keep (V : Valuation τ sig (Elt Ideal)) (r : Ref sig .tc) (h : r ∉ L4_W) :
    V4 V (no_index (Proc.devRef .tc r)) = (V3 V) (Proc.devRef .tc r) :=
  after_of_writes_sub _ _ L4_writes h

/-- The operations of the second convolution, and the arrays they write. -/
abbrev L5 : List (HloOp τ sig (Elt Ideal)) := p1e (F := Ideal) ++ p1f (F := Ideal) ++ p2a (F := Ideal) ++ p2b (F := Ideal) ++ p2c (F := Ideal) ++ p2d (F := Ideal)
def L5_W : List (Ref sig .tc) := p1e_W ++ p1f_W ++ p2a_W ++ p2b_W ++ p2c_W ++ p2d_W
theorem L5_writes : L5.Forall fun op => op.writes ⊆ (L5_W.map (Proc.devRef (τ := τ) .tc)).toFinset :=
  writes_app (writes_app (writes_app (writes_app (writes_app (p1e_writes) p1f_writes) p2a_writes) p2b_writes) p2c_writes) p2d_writes

/-- The arrays' contents after the second convolution. -/
def V5 (V : Valuation τ sig (Elt Ideal)) : Valuation τ sig (Elt Ideal) := after L5 (V4 V)

/-- An array that the second convolution does not write holds after it what it held before. -/
theorem V5_keep (V : Valuation τ sig (Elt Ideal)) (r : Ref sig .tc) (h : r ∉ L5_W) :
    V5 V (no_index (Proc.devRef .tc r)) = (V4 V) (Proc.devRef .tc r) :=
  after_of_writes_sub _ _ L5_writes h

/-- The operations of the second dense layer, and the arrays they write. -/
abbrev L6 : List (HloOp τ sig (Elt Ideal)) := p2e (F := Ideal)
def L6_W : List (Ref sig .tc) := p2e_W
theorem L6_writes : L6.Forall fun op => op.writes ⊆ (L6_W.map (Proc.devRef (τ := τ) .tc)).toFinset :=
  p2e_writes

/-- The arrays' contents after the second dense layer. -/
def V6 (V : Valuation τ sig (Elt Ideal)) : Valuation τ sig (Elt Ideal) := after L6 (V5 V)

/-- An array that the second dense layer does not write holds after it what it held before. -/
theorem V6_keep (V : Valuation τ sig (Elt Ideal)) (r : Ref sig .tc) (h : r ∉ L6_W) :
    V6 V (no_index (Proc.devRef .tc r)) = (V5 V) (Proc.devRef .tc r) :=
  after_of_writes_sub _ _ L6_writes h

/-- The operations of the first head's convolution, and the arrays they write. -/
abbrev L7 : List (HloOp τ sig (Elt Ideal)) := p2f (F := Ideal) ++ p2g (F := Ideal) ++ p3a (F := Ideal) ++ p3b (F := Ideal) ++ p3c (F := Ideal) ++ p3d (F := Ideal)
def L7_W : List (Ref sig .tc) := p2f_W ++ p2g_W ++ p3a_W ++ p3b_W ++ p3c_W ++ p3d_W
theorem L7_writes : L7.Forall fun op => op.writes ⊆ (L7_W.map (Proc.devRef (τ := τ) .tc)).toFinset :=
  writes_app (writes_app (writes_app (writes_app (writes_app (p2f_writes) p2g_writes) p3a_writes) p3b_writes) p3c_writes) p3d_writes

/-- The arrays' contents after the first head's convolution. -/
def V7 (V : Valuation τ sig (Elt Ideal)) : Valuation τ sig (Elt Ideal) := after L7 (V6 V)

/-- An array that the first head's convolution does not write holds after it what it held before. -/
theorem V7_keep (V : Valuation τ sig (Elt Ideal)) (r : Ref sig .tc) (h : r ∉ L7_W) :
    V7 V (no_index (Proc.devRef .tc r)) = (V6 V) (Proc.devRef .tc r) :=
  after_of_writes_sub _ _ L7_writes h

/-- The operations of the first head's sum, and the arrays they write. -/
abbrev L8 : List (HloOp τ sig (Elt Ideal)) := p3e (F := Ideal)
def L8_W : List (Ref sig .tc) := p3e_W
theorem L8_writes : L8.Forall fun op => op.writes ⊆ (L8_W.map (Proc.devRef (τ := τ) .tc)).toFinset :=
  p3e_writes

/-- The arrays' contents after the first head's sum. -/
def V8 (V : Valuation τ sig (Elt Ideal)) : Valuation τ sig (Elt Ideal) := after L8 (V7 V)

/-- An array that the first head's sum does not write holds after it what it held before. -/
theorem V8_keep (V : Valuation τ sig (Elt Ideal)) (r : Ref sig .tc) (h : r ∉ L8_W) :
    V8 V (no_index (Proc.devRef .tc r)) = (V7 V) (Proc.devRef .tc r) :=
  after_of_writes_sub _ _ L8_writes h

/-- The operations of the second head's convolution, and the arrays they write. -/
abbrev L9 : List (HloOp τ sig (Elt Ideal)) := p3f (F := Ideal) ++ p4a (F := Ideal) ++ p4b (F := Ideal) ++ p4c (F := Ideal) ++ p4d (F := Ideal) ++ p4e (F := Ideal)
def L9_W : List (Ref sig .tc) := p3f_W ++ p4a_W ++ p4b_W ++ p4c_W ++ p4d_W ++ p4e_W
theorem L9_writes : L9.Forall fun op => op.writes ⊆ (L9_W.map (Proc.devRef (τ := τ) .tc)).toFinset :=
  writes_app (writes_app (writes_app (writes_app (writes_app (p3f_writes) p4a_writes) p4b_writes) p4c_writes) p4d_writes) p4e_writes

/-- The arrays' contents after the second head's convolution. -/
def V9 (V : Valuation τ sig (Elt Ideal)) : Valuation τ sig (Elt Ideal) := after L9 (V8 V)

/-- An array that the second head's convolution does not write holds after it what it held before. -/
theorem V9_keep (V : Valuation τ sig (Elt Ideal)) (r : Ref sig .tc) (h : r ∉ L9_W) :
    V9 V (no_index (Proc.devRef .tc r)) = (V8 V) (Proc.devRef .tc r) :=
  after_of_writes_sub _ _ L9_writes h

/-- The operations of the second head's sum, and the arrays they write. -/
abbrev L10 : List (HloOp τ sig (Elt Ideal)) := p4f (F := Ideal) ++ p5a (F := Ideal)
def L10_W : List (Ref sig .tc) := p4f_W ++ p5a_W
theorem L10_writes : L10.Forall fun op => op.writes ⊆ (L10_W.map (Proc.devRef (τ := τ) .tc)).toFinset :=
  writes_app (p4f_writes) p5a_writes

/-- The arrays' contents after the second head's sum. -/
def V10 (V : Valuation τ sig (Elt Ideal)) : Valuation τ sig (Elt Ideal) := after L10 (V9 V)

/-- An array that the second head's sum does not write holds after it what it held before. -/
theorem V10_keep (V : Valuation τ sig (Elt Ideal)) (r : Ref sig .tc) (h : r ∉ L10_W) :
    V10 V (no_index (Proc.devRef .tc r)) = (V9 V) (Proc.devRef .tc r) :=
  after_of_writes_sub _ _ L10_writes h

/-- The whole line is the ten stages in a row. -/
theorem after_ops (V : Valuation τ sig (Elt Ideal)) : after (ops (F := Ideal)) V = V10 V := by
  simp only [ops, ops0, ops1, ops2, ops3, ops4, ops5, V10, V9, V8, V7, V6, V5, V4, V3, V2, V1,
    L10, L9, L8, L7, L6, L5, L4, L3, L2, L1, after_app]

/-! The array each stage fixes, after the stage. -/

theorem V1_src (V : Valuation τ sig (Elt Ideal)) : V1 V (no_index (Proc.devRef .tc main_v3))
    = Spec.srcF (V (Proc.devRef .tc main_arg2)) := by
  simp only [V1, L1, after_app]
  exact edges_src V

theorem V1_dst (V : Valuation τ sig (Elt Ideal)) : V1 V (no_index (Proc.devRef .tc main_v6))
    = Spec.dstF (V (Proc.devRef .tc main_arg2)) := by
  simp only [V1, L1, after_app]
  exact edges_dst V

theorem V2_x0 (V : Valuation τ sig (Elt Ideal)) : V2 V (no_index (Proc.devRef .tc main_v16))
    = Spec.x0F (V1 V (Proc.devRef .tc main_arg0)) (V1 V (Proc.devRef .tc main_arg1)) (V1 V (Proc.devRef .tc main_arg3)) (V1 V (Proc.devRef .tc main_arg4)) := by
  simp only [V2, L2, after_app]
  exact enter_x0 (V1 V)

theorem V3_conv (V : Valuation τ sig (Elt Ideal)) : V3 V (no_index (Proc.devRef .tc main_v65))
    = Spec.convF (Spec.ewF (V2 V (Proc.devRef .tc main_v3)) (V2 V (Proc.devRef .tc main_v6))) (V2 V (Proc.devRef .tc main_v3)) (V2 V (Proc.devRef .tc main_v6))
        (V2 V (Proc.devRef .tc main_v16)) (V2 V (Proc.devRef .tc main_arg5)) (V2 V (Proc.devRef .tc main_arg6)) := by
  simp only [V3, L3, after_app]
  exact conv1 (V2 V)

theorem V4_x1 (V : Valuation τ sig (Elt Ideal)) : V4 V (no_index (Proc.devRef .tc main_v70))
    = Spec.linF (V3 V (Proc.devRef .tc main_v65)) (V3 V (Proc.devRef .tc main_arg7)) (V3 V (Proc.devRef .tc main_arg8)) := by
  simp only [V4, L4, after_app]
  exact lin1 (V3 V)

theorem V5_conv (V : Valuation τ sig (Elt Ideal)) : V5 V (no_index (Proc.devRef .tc main_v119))
    = Spec.convF (Spec.ewF (V4 V (Proc.devRef .tc main_v3)) (V4 V (Proc.devRef .tc main_v6))) (V4 V (Proc.devRef .tc main_v3)) (V4 V (Proc.devRef .tc main_v6))
        (V4 V (Proc.devRef .tc main_v70)) (V4 V (Proc.devRef .tc main_arg9)) (V4 V (Proc.devRef .tc main_arg10)) := by
  simp only [V5, L5, after_app]
  exact conv2 (V4 V)

theorem V6_x2 (V : Valuation τ sig (Elt Ideal)) : V6 V (no_index (Proc.devRef .tc main_v124))
    = Spec.linF (V5 V (Proc.devRef .tc main_v119)) (V5 V (Proc.devRef .tc main_arg11)) (V5 V (Proc.devRef .tc main_arg12)) := by
  simp only [V6, L6, after_app]
  exact lin2 (V5 V)

theorem V7_conv (V : Valuation τ sig (Elt Ideal)) : V7 V (no_index (Proc.devRef .tc main_v173))
    = Spec.convF (Spec.ewF (V6 V (Proc.devRef .tc main_v3)) (V6 V (Proc.devRef .tc main_v6))) (V6 V (Proc.devRef .tc main_v3)) (V6 V (Proc.devRef .tc main_v6))
        (V6 V (Proc.devRef .tc main_v124)) (V6 V (Proc.devRef .tc main_arg13)) (V6 V (Proc.devRef .tc main_arg14)) := by
  simp only [V7, L7, after_app]
  exact conv3 (V6 V)

theorem V8_out (V : Valuation τ sig (Elt Ideal)) : V8 V (no_index (Proc.devRef .tc main_v183))
    = Spec.headF (V7 V (Proc.devRef .tc main_v173)) (V7 V (Proc.devRef .tc main_arg17)) (V7 V (Proc.devRef .tc main_arg18)) (Spec.linF (V7 V (Proc.devRef .tc main_v124)) (V7 V (Proc.devRef .tc main_arg15)) (V7 V (Proc.devRef .tc main_arg16))) := by
  simp only [V8, L8, after_app]
  exact head1 (V7 V)

theorem V9_conv (V : Valuation τ sig (Elt Ideal)) : V9 V (no_index (Proc.devRef .tc main_v232))
    = Spec.convF (Spec.ewF (V8 V (Proc.devRef .tc main_v3)) (V8 V (Proc.devRef .tc main_v6))) (V8 V (Proc.devRef .tc main_v3)) (V8 V (Proc.devRef .tc main_v6))
        (V8 V (Proc.devRef .tc main_v124)) (V8 V (Proc.devRef .tc main_arg19)) (V8 V (Proc.devRef .tc main_arg20)) := by
  simp only [V9, L9, after_app]
  exact conv4 (V8 V)

theorem V10_out (V : Valuation τ sig (Elt Ideal)) : V10 V (no_index (Proc.devRef .tc main_v242))
    = Spec.headF (V9 V (Proc.devRef .tc main_v232)) (V9 V (Proc.devRef .tc main_arg23)) (V9 V (Proc.devRef .tc main_arg24)) (Spec.linF (V9 V (Proc.devRef .tc main_v124)) (V9 V (Proc.devRef .tc main_arg21)) (V9 V (Proc.devRef .tc main_arg22))) := by
  simp only [V10, L10, after_app]
  exact head2 (V9 V)

/-- Reads an array after the whole line back to the arguments: through the stages that do not write it, then
    through the stage that fixes it to the arrays that stage reads, and so on down to the contents at the start. -/
macro "read_back" : tactic =>
  `(tactic| simp (disch := decide) only [V10_out, V9_conv, V8_out, V7_conv, V6_x2, V5_conv, V4_x1, V3_conv, V2_x0, V1_src, V1_dst,
      V10_keep, V9_keep, V8_keep, V7_keep, V6_keep, V5_keep, V4_keep, V3_keep, V2_keep, V1_keep])

/-! ## The two results, and the arguments -/

set_option maxRecDepth 8192 in
/-- The first result is the first head over x₂. -/
theorem out0_eq (V : Valuation τ sig (Elt Ideal)) :
    after (ops (F := Ideal)) V (main_v183 : DevRef τ sig)
      = Spec.outF (V (main_arg2 : DevRef τ sig)) (Spec.x2F (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)))
          (V (main_arg13 : DevRef τ sig)) (V (main_arg14 : DevRef τ sig)) (V (main_arg15 : DevRef τ sig)) (V (main_arg16 : DevRef τ sig)) (V (main_arg17 : DevRef τ sig)) (V (main_arg18 : DevRef τ sig)) := by
  rw [after_ops]
  read_back
  rfl

set_option maxRecDepth 8192 in
/-- The second result is the second head over x₂. -/
theorem out1_eq (V : Valuation τ sig (Elt Ideal)) :
    after (ops (F := Ideal)) V (main_v242 : DevRef τ sig)
      = Spec.outF (V (main_arg2 : DevRef τ sig)) (Spec.x2F (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)))
          (V (main_arg19 : DevRef τ sig)) (V (main_arg20 : DevRef τ sig)) (V (main_arg21 : DevRef τ sig)) (V (main_arg22 : DevRef τ sig)) (V (main_arg23 : DevRef τ sig)) (V (main_arg24 : DevRef τ sig)) := by
  rw [after_ops]
  read_back
  rfl

/-! No operation writes an argument. -/

theorem arg0_eq (V : Valuation τ sig (Elt Ideal)) :
    after (ops (F := Ideal)) V (main_arg0 : DevRef τ sig) = V (main_arg0 : DevRef τ sig) := by
  rw [after_ops]; read_back

theorem arg1_eq (V : Valuation τ sig (Elt Ideal)) :
    after (ops (F := Ideal)) V (main_arg1 : DevRef τ sig) = V (main_arg1 : DevRef τ sig) := by
  rw [after_ops]; read_back

theorem arg2_eq (V : Valuation τ sig (Elt Ideal)) :
    after (ops (F := Ideal)) V (main_arg2 : DevRef τ sig) = V (main_arg2 : DevRef τ sig) := by
  rw [after_ops]; read_back

theorem arg3_eq (V : Valuation τ sig (Elt Ideal)) :
    after (ops (F := Ideal)) V (main_arg3 : DevRef τ sig) = V (main_arg3 : DevRef τ sig) := by
  rw [after_ops]; read_back

theorem arg4_eq (V : Valuation τ sig (Elt Ideal)) :
    after (ops (F := Ideal)) V (main_arg4 : DevRef τ sig) = V (main_arg4 : DevRef τ sig) := by
  rw [after_ops]; read_back

theorem arg5_eq (V : Valuation τ sig (Elt Ideal)) :
    after (ops (F := Ideal)) V (main_arg5 : DevRef τ sig) = V (main_arg5 : DevRef τ sig) := by
  rw [after_ops]; read_back

theorem arg6_eq (V : Valuation τ sig (Elt Ideal)) :
    after (ops (F := Ideal)) V (main_arg6 : DevRef τ sig) = V (main_arg6 : DevRef τ sig) := by
  rw [after_ops]; read_back

theorem arg7_eq (V : Valuation τ sig (Elt Ideal)) :
    after (ops (F := Ideal)) V (main_arg7 : DevRef τ sig) = V (main_arg7 : DevRef τ sig) := by
  rw [after_ops]; read_back

theorem arg8_eq (V : Valuation τ sig (Elt Ideal)) :
    after (ops (F := Ideal)) V (main_arg8 : DevRef τ sig) = V (main_arg8 : DevRef τ sig) := by
  rw [after_ops]; read_back

theorem arg9_eq (V : Valuation τ sig (Elt Ideal)) :
    after (ops (F := Ideal)) V (main_arg9 : DevRef τ sig) = V (main_arg9 : DevRef τ sig) := by
  rw [after_ops]; read_back

theorem arg10_eq (V : Valuation τ sig (Elt Ideal)) :
    after (ops (F := Ideal)) V (main_arg10 : DevRef τ sig) = V (main_arg10 : DevRef τ sig) := by
  rw [after_ops]; read_back

theorem arg11_eq (V : Valuation τ sig (Elt Ideal)) :
    after (ops (F := Ideal)) V (main_arg11 : DevRef τ sig) = V (main_arg11 : DevRef τ sig) := by
  rw [after_ops]; read_back

theorem arg12_eq (V : Valuation τ sig (Elt Ideal)) :
    after (ops (F := Ideal)) V (main_arg12 : DevRef τ sig) = V (main_arg12 : DevRef τ sig) := by
  rw [after_ops]; read_back

theorem arg13_eq (V : Valuation τ sig (Elt Ideal)) :
    after (ops (F := Ideal)) V (main_arg13 : DevRef τ sig) = V (main_arg13 : DevRef τ sig) := by
  rw [after_ops]; read_back

theorem arg14_eq (V : Valuation τ sig (Elt Ideal)) :
    after (ops (F := Ideal)) V (main_arg14 : DevRef τ sig) = V (main_arg14 : DevRef τ sig) := by
  rw [after_ops]; read_back

theorem arg15_eq (V : Valuation τ sig (Elt Ideal)) :
    after (ops (F := Ideal)) V (main_arg15 : DevRef τ sig) = V (main_arg15 : DevRef τ sig) := by
  rw [after_ops]; read_back

theorem arg16_eq (V : Valuation τ sig (Elt Ideal)) :
    after (ops (F := Ideal)) V (main_arg16 : DevRef τ sig) = V (main_arg16 : DevRef τ sig) := by
  rw [after_ops]; read_back

theorem arg17_eq (V : Valuation τ sig (Elt Ideal)) :
    after (ops (F := Ideal)) V (main_arg17 : DevRef τ sig) = V (main_arg17 : DevRef τ sig) := by
  rw [after_ops]; read_back

theorem arg18_eq (V : Valuation τ sig (Elt Ideal)) :
    after (ops (F := Ideal)) V (main_arg18 : DevRef τ sig) = V (main_arg18 : DevRef τ sig) := by
  rw [after_ops]; read_back

theorem arg19_eq (V : Valuation τ sig (Elt Ideal)) :
    after (ops (F := Ideal)) V (main_arg19 : DevRef τ sig) = V (main_arg19 : DevRef τ sig) := by
  rw [after_ops]; read_back

theorem arg20_eq (V : Valuation τ sig (Elt Ideal)) :
    after (ops (F := Ideal)) V (main_arg20 : DevRef τ sig) = V (main_arg20 : DevRef τ sig) := by
  rw [after_ops]; read_back

theorem arg21_eq (V : Valuation τ sig (Elt Ideal)) :
    after (ops (F := Ideal)) V (main_arg21 : DevRef τ sig) = V (main_arg21 : DevRef τ sig) := by
  rw [after_ops]; read_back

theorem arg22_eq (V : Valuation τ sig (Elt Ideal)) :
    after (ops (F := Ideal)) V (main_arg22 : DevRef τ sig) = V (main_arg22 : DevRef τ sig) := by
  rw [after_ops]; read_back

theorem arg23_eq (V : Valuation τ sig (Elt Ideal)) :
    after (ops (F := Ideal)) V (main_arg23 : DevRef τ sig) = V (main_arg23 : DevRef τ sig) := by
  rw [after_ops]; read_back

theorem arg24_eq (V : Valuation τ sig (Elt Ideal)) :
    after (ops (F := Ideal)) V (main_arg24 : DevRef τ sig) = V (main_arg24 : DevRef τ sig) := by
  rw [after_ops]; read_back

end Cert.ReferenceIdeal.RefRun

end
-- ==== Proof.RefRun.lean ====
/-
  The reference network's run: every execution ends with the two results at the two heads' functions (Spec.lean) of the
  argument arrays' contents at the start, and with the argument arrays unchanged.

  Every execution ends with each array at the fold of the program's operations over the starting contents; the fold,
  read at the two result arrays, is the two heads over the shared features x₂, and read at an argument array is what
  the array held, since no operation writes an argument.
-/
import proofs.«149707_j50672024159115_1_alg».proof.Proof.RefVal

noncomputable section

namespace Cert.ReferenceIdeal.RefRun

open Idealize.ShloMosaic Idealize.ShloMosaic.TcCoe Idealize.ShloMosaic.StableHlo Idealize.SL.Sem
open Cert.ReferenceIdeal Cert.ReferenceIdeal.Facts₀ Cert.ReferenceIdeal.Facts

variable [Cert.ReferenceIdeal.Facts]

/-! ## The run -/

/-- From any memory with zero counters: every weakly fair execution of the reference ends, and ends with its two
    results at the two heads' functions of the arguments' contents at the start, and with the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v183) = Spec.outF (m ((c.tc : Thread nD τ).loc main_arg2)) (Spec.x2F (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v242) = Spec.outF (m ((c.tc : Thread nD τ).loc main_arg2)) (Spec.x2F (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c =>
    ⟨(h c main_v183).trans (out0_eq _), (h c main_v242).trans (out1_eq _),
      (h c main_arg0).trans (arg0_eq _), (h c main_arg1).trans (arg1_eq _), (h c main_arg2).trans (arg2_eq _), (h c main_arg3).trans (arg3_eq _),
      (h c main_arg4).trans (arg4_eq _), (h c main_arg5).trans (arg5_eq _), (h c main_arg6).trans (arg6_eq _), (h c main_arg7).trans (arg7_eq _),
      (h c main_arg8).trans (arg8_eq _), (h c main_arg9).trans (arg9_eq _), (h c main_arg10).trans (arg10_eq _), (h c main_arg11).trans (arg11_eq _),
      (h c main_arg12).trans (arg12_eq _), (h c main_arg13).trans (arg13_eq _), (h c main_arg14).trans (arg14_eq _), (h c main_arg15).trans (arg15_eq _),
      (h c main_arg16).trans (arg16_eq _), (h c main_arg17).trans (arg17_eq _), (h c main_arg18).trans (arg18_eq _), (h c main_arg19).trans (arg19_eq _),
      (h c main_arg20).trans (arg20_eq _), (h c main_arg21).trans (arg21_eq _), (h c main_arg22).trans (arg22_eq _), (h c main_arg23).trans (arg23_eq _),
      (h c main_arg24).trans (arg24_eq _)⟩)
    (run_main m ρ)

/-- From any memory with zero counters: every weakly fair execution of the reference ends with the arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => (h c).2.2) (run m ρ)

end Cert.ReferenceIdeal.RefRun

end
-- ==== Proof.lean ====
/-
  Two programs for one graph network — sixteen row-tiled kernels with plain gathers and scatter-adds between them, against
  the same network written with whole-array operations — end with equal results on the exact values.

  Both results are one function of the 25 argument arrays (Proof/Spec.lean): the node features are normalised, pass two
  graph-convolution layers, and feed two output heads. The reference's run is its list of whole-array operations, which
  IS that function (Proof/RefOps.lean, Proof/RefVal.lean). The kernel program's run is a chain of host stretches and
  kernel regions (Proof/KernelRun.lean); each kernel leaves in its output array the whole-array stage of its operands,
  because every stage works row by row and the kernel's blocks tile the rows (Proof/RowMath.lean, KPay.lean, SpecAt.lean,
  Blocks.lean, Finals.lean), and reading the two results back through the chain gives the same function
  (Proof/KernelFold.lean). The host operations that the two programs share — the edge list with its self loops, the
  degree weights, the gather of source rows and the scatter-add into target rows — are carried as whole-array
  operations and never opened. No law used needs the inputs finite: a sum started from the zero word is the sum, a
  change of float format is the identity, and the rectifier's two tests (v > 0, v ≥ 0) agree at v = 0 since slope · 0 = 0.
  The three frames: the two kernel programs' are the generated chain runs; the reference's is its run with the results
  dropped. Nothing was rewritten when the kernel was idealized, so that claim is `True`.
-/
import proofs.«149707_j50672024159115_1_alg».proof.Defs
import proofs.«149707_j50672024159115_1_alg».proof.Proof.Gen.Kernel
import proofs.«149707_j50672024159115_1_alg».proof.Proof.Gen.Kernel.Skeleton
import proofs.«149707_j50672024159115_1_alg».proof.Proof.Gen.Kernel.Launch
import proofs.«149707_j50672024159115_1_alg».proof.Proof.Gen.Kernel.Points
import proofs.«149707_j50672024159115_1_alg».proof.Proof.Gen.Kernel.Frame
import proofs.«149707_j50672024159115_1_alg».proof.Proof.Gen.KernelIdeal
import proofs.«149707_j50672024159115_1_alg».proof.Proof.Gen.KernelIdeal.Skeleton
import proofs.«149707_j50672024159115_1_alg».proof.Proof.Gen.KernelIdeal.Launch
import proofs.«149707_j50672024159115_1_alg».proof.Proof.Gen.KernelIdeal.Points
import proofs.«149707_j50672024159115_1_alg».proof.Proof.Gen.KernelIdeal.Frame
import proofs.«149707_j50672024159115_1_alg».proof.Proof.Gen.ReferenceIdeal
import proofs.«149707_j50672024159115_1_alg».proof.Proof.Gen.Pre_finite_inputs
import proofs.«149707_j50672024159115_1_alg».proof.Proof.Finals
import proofs.«149707_j50672024159115_1_alg».proof.Proof.KernelRun
import proofs.«149707_j50672024159115_1_alg».proof.Proof.KernelFold
import proofs.«149707_j50672024159115_1_alg».proof.Proof.RefRun
import Idealize.ShloMosaic.Adequacy
import Idealize.ShloMosaic.Init

noncomputable section

namespace Cert.Proof

open Idealize.ShloMosaic Idealize.SL.Sem

/-- Each kernel's output array is the whole-array stage of its operands. -/
theorem finals : Cert.KernelIdeal.KRun.Finals :=
  ⟨fun V c => Cert.KernelIdeal.Finals.final0 V c,
   fun V c => Cert.KernelIdeal.Finals.final1 V c,
   fun V c => Cert.KernelIdeal.Finals.final2 V c,
   fun V c => Cert.KernelIdeal.Finals.final3 V c,
   fun V c => Cert.KernelIdeal.Finals.final4 V c,
   fun V c => Cert.KernelIdeal.Finals.final5 V c,
   fun V c => Cert.KernelIdeal.Finals.final6 V c,
   fun V c => Cert.KernelIdeal.Finals.final7 V c,
   fun V c => Cert.KernelIdeal.Finals.final8 V c,
   fun V c => Cert.KernelIdeal.Finals.final9 V c,
   fun V c => Cert.KernelIdeal.Finals.final10 V c,
   fun V c => Cert.KernelIdeal.Finals.final11 V c,
   fun V c => Cert.KernelIdeal.Finals.final12 V c,
   fun V c => Cert.KernelIdeal.Finals.final13 V c,
   fun V c => Cert.KernelIdeal.Finals.final14 V c,
   fun V c => Cert.KernelIdeal.Finals.final15 V c⟩

theorem frame_k : Cert.frame_Kernel := fun m ρ _ => Cert.Kernel.Gen.frame m ρ

theorem frame_ki : Cert.frame_KernelIdeal := fun m ρ _ => Cert.KernelIdeal.Gen.frame m ρ

/-- The reference's run, its argument arrays unchanged. -/
theorem frame_ri : Cert.frame_ReferenceIdeal := fun m ρ _ =>
  Cert.ReferenceIdeal.RefRun.frame m ρ

open Cert.ReferenceIdeal in
/-- The common result depends on the argument arrays only: equal arguments, equal results. -/
theorem out_congr
    {a0 b0 : FVec Ideal S50000x128 .f32} (h0 : b0 = a0)
    {a1 b1 : FVec Ideal S50000x64 .f32} (h1 : b1 = a1)
    {a2 b2 : IVec S2x1600000 32} (h2 : b2 = a2)
    {a3 b3 : FVec Ideal S128x64 .f32} (h3 : b3 = a3)
    {a4 b4 : FVec Ideal S64 .f32} (h4 : b4 = a4)
    {a5 b5 : FVec Ideal S64x64 .f32} (h5 : b5 = a5)
    {a6 b6 : FVec Ideal S64 .f32} (h6 : b6 = a6)
    {a7 b7 : FVec Ideal S64x64 .f32} (h7 : b7 = a7)
    {a8 b8 : FVec Ideal S64 .f32} (h8 : b8 = a8)
    {a9 b9 : FVec Ideal S64x64 .f32} (h9 : b9 = a9)
    {a10 b10 : FVec Ideal S64 .f32} (h10 : b10 = a10)
    {a11 b11 : FVec Ideal S64x64 .f32} (h11 : b11 = a11)
    {a12 b12 : FVec Ideal S64 .f32} (h12 : b12 = a12)
    {a13 b13 : FVec Ideal S64x64 .f32} (h13 : b13 = a13)
    {a14 b14 : FVec Ideal S64 .f32} (h14 : b14 = a14)
    {a15 b15 : FVec Ideal S64x64 .f32} (h15 : b15 = a15)
    {a16 b16 : FVec Ideal S64 .f32} (h16 : b16 = a16)
    {a17 b17 : FVec Ideal S64x64 .f32} (h17 : b17 = a17)
    {a18 b18 : FVec Ideal S64 .f32} (h18 : b18 = a18) :
    Cert.Spec.outF b2 (Cert.Spec.x2F b0 b1 b2 b3 b4 b5 b6 b7 b8 b9 b10 b11 b12) b13 b14 b15 b16 b17 b18
      = Cert.Spec.outF a2 (Cert.Spec.x2F a0 a1 a2 a3 a4 a5 a6 a7 a8 a9 a10 a11 a12) a13 a14 a15 a16 a17 a18 := by
  subst h0 h1 h2 h3 h4 h5 h6 h7 h8 h9 h10 h11 h12 h13 h14 h15 h16 h17 h18
  rfl

/-- Both programs end with the two results at the common function of the argument arrays. -/
theorem algebraic : Cert.algebraic_KernelIdeal_ReferenceIdeal := by
  intro m ρ m' ρ' _ hagree
  refine ⟨fun c => Cert.Spec.outF (m ((c.tc : Thread Cert.KernelIdeal.nD Cert.KernelIdeal.τ).loc Cert.KernelIdeal.main_arg2)) (Cert.Spec.x2F (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.Spec.outF (m ((c.tc : Thread Cert.KernelIdeal.nD Cert.KernelIdeal.τ).loc Cert.KernelIdeal.main_arg2)) (Cert.Spec.x2F (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)), ?_, ?_⟩
  · exact (θ_run Cert.KernelIdeal.defs _ _).mono
      (fun _ h c => ⟨(h c).1.trans (Cert.KernelIdeal.KRun.v84_eq finals m ρ c),
        (h c).2.1.trans (Cert.KernelIdeal.KRun.v101_eq finals m ρ c), (h c).2.2⟩)
      (Cert.KernelIdeal.KRun.run_named (F := Ideal) m ρ)
  · refine (θ_run Cert.ReferenceIdeal.defs _ _).mono (fun _ h c => ?_) (Cert.ReferenceIdeal.RefRun.run m' ρ')
    obtain ⟨g0, g1, g2, g3, g4, g5, g6, g7, g8, g9, g10, g11, g12, g13, g14, g15, g16, g17, g18, g19, g20, g21, g22, g23, g24⟩ := hagree c
    refine ⟨(h c).1.trans ?_, (h c).2.1.trans ?_, (h c).2.2⟩
    · exact out_congr g0 g1 g2 g3 g4 g5 g6 g7 g8 g9 g10 g11 g12 g13 g14 g15 g16 g17 g18
    · exact out_congr g0 g1 g2 g3 g4 g5 g6 g7 g8 g9 g10 g11 g12 g19 g20 g21 g22 g23 g24

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
